-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel
  bcast_S_S64x64x3x1 : S_.BroadcastsInDim S64x64x3x1 (![] : Fin 0 → Fin S64x64x3x1.rank)
  reducesTo_S64x64x3x1_S_d0_1_2_3 : S64x64x3x1.ReducesTo [0, 1, 2, 3] S_
  bcast_S_S128x64x1x3 : S_.BroadcastsInDim S128x64x1x3 (![] : Fin 0 → Fin S128x64x1x3.rank)
  reducesTo_S128x64x1x3_S_d0_1_2_3 : S128x64x1x3.ReducesTo [0, 1, 2, 3] S_

variable [Facts]

def fn {F : FTy → Type} [FloatOps F] (main_arg0 : FVec F S128x64x32x32 .f32) (main_arg1 : FVec F S64x64x3x1 .f32) (main_arg2 : FVec F S128x64x1x3 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  let main_v4 : FVec F S64x64x3x1 .f32 := Host.absf main_arg1
  let main_cst_0 : FVec F S_ .f32 := constant S_ .f32 0x7F800000#32
  let main_v5 : FVec F S64x64x3x1 .f32 := broadcastInDim S64x64x3x1 ![] bcast_S_S64x64x3x1 main_cst_0
  let main_v6 : IVec S64x64x3x1 1 := cmpf .olt main_v4 main_v5
  let main_c_1 : IVec S_ 1 := constantI S_ 1 1#1
  let main_v7 : IVec S_ 1 := (fun x v => Host.reduce IntOp.andi x v reducesTo_S64x64x3x1_S_d0_1_2_3 h_S_) main_v6 main_c_1
  let main_v8 : IVec S_ 1 := andi main_v3 main_v7
  let main_v9 : FVec F S128x64x1x3 .f32 := Host.absf main_arg2
  let main_cst_2 : FVec F S_ .f32 := constant S_ .f32 0x7F800000#32
  let main_v10 : FVec F S128x64x1x3 .f32 := broadcastInDim S128x64x1x3 ![] bcast_S_S128x64x1x3 main_cst_2
  let main_v11 : IVec S128x64x1x3 1 := cmpf .olt main_v9 main_v10
  let main_c_3 : IVec S_ 1 := constantI S_ 1 1#1
  let main_v12 : IVec S_ 1 := (fun x v => Host.reduce IntOp.andi x v reducesTo_S128x64x1x3_S_d0_1_2_3 h_S_) main_v11 main_c_3
  let main_v13 : IVec S_ 1 := andi main_v8 main_v12
  main_v13
-- ==== Kernel.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S64x64x1x1 : Shape := ⟨4, ![64, 64, 1, 1]⟩
abbrev S64x64 : Shape := ⟨2, ![64, 64]⟩
abbrev S64x192 : Shape := ⟨2, ![64, 192]⟩
abbrev S128x64x1x1 : Shape := ⟨4, ![128, 64, 1, 1]⟩
abbrev S128x64 : Shape := ⟨2, ![128, 64]⟩
abbrev S128x192 : Shape := ⟨2, ![128, 192]⟩
abbrev S_ : Shape := ⟨0, ![]⟩
abbrev S128x64x34x34 : Shape := ⟨4, ![128, 64, 34, 34]⟩
abbrev S128x64x1156 : Shape := ⟨3, ![128, 64, 1156]⟩
abbrev S128x128x1 : Shape := ⟨3, ![128, 128, 1]⟩
abbrev S128x128x1156 : Shape := ⟨3, ![128, 128, 1156]⟩
abbrev S16x64x1156 : Shape := ⟨3, ![16, 64, 1156]⟩
abbrev S16x128x1 : Shape := ⟨3, ![16, 128, 1]⟩
abbrev S16x128x1156 : Shape := ⟨3, ![16, 128, 1156]⟩
abbrev S1x64x1156 : Shape := ⟨3, ![1, 64, 1156]⟩
abbrev S64x1156 : Shape := ⟨2, ![64, 1156]⟩
abbrev S64x34 : Shape := ⟨2, ![64, 34]⟩
abbrev S64x1088 : Shape := ⟨2, ![64, 1088]⟩
abbrev S192x1156 : Shape := ⟨2, ![192, 1156]⟩
abbrev S64x1 : Shape := ⟨2, ![64, 1]⟩
abbrev S64x1155 : Shape := ⟨2, ![64, 1155]⟩
abbrev S128x1156 : Shape := ⟨2, ![128, 1156]⟩
abbrev S128 : Shape := ⟨1, ![128]⟩
abbrev S128x1 : Shape := ⟨2, ![128, 1]⟩
abbrev S1x128x1 : Shape := ⟨3, ![1, 128, 1]⟩
abbrev S1x128x1156 : Shape := ⟨3, ![1, 128, 1156]⟩
abbrev S128x128x34x34 : Shape := ⟨4, ![128, 128, 34, 34]⟩

abbrev nBuf : Space → Nat
  | .hbm => 50
  | .vmem => 16
  | .smem => 0
  | _ => 0

abbrev bufTy : (tb : Table) → Fin (tcTables nBuf tb) → BufTy
  | .hbm, ⟨0, _⟩ => ⟨S128x64x32x32, .f32⟩
  | .hbm, ⟨1, _⟩ => ⟨S64x64x3x1, .f32⟩
  | .hbm, ⟨2, _⟩ => ⟨S128x64x1x3, .f32⟩
  | .hbm, ⟨3, _⟩ => ⟨S64x64x1x1, .f32⟩
  | .hbm, ⟨4, _⟩ => ⟨S64x64, .f32⟩
  | .hbm, ⟨5, _⟩ => ⟨S64x64x1x1, .f32⟩
  | .hbm, ⟨6, _⟩ => ⟨S64x64, .f32⟩
  | .hbm, ⟨7, _⟩ => ⟨S64x64x1x1, .f32⟩
  | .hbm, ⟨8, _⟩ => ⟨S64x64, .f32⟩
  | .hbm, ⟨9, _⟩ => ⟨S64x192, .f32⟩
  | .hbm, ⟨10, _⟩ => ⟨S64x192, .bf16⟩
  | .hbm, ⟨11, _⟩ => ⟨S128x64x1x1, .f32⟩
  | .hbm, ⟨12, _⟩ => ⟨S128x64, .f32⟩
  | .hbm, ⟨13, _⟩ => ⟨S128x64x1x1, .f32⟩
  | .hbm, ⟨14, _⟩ => ⟨S128x64, .f32⟩
  | .hbm, ⟨15, _⟩ => ⟨S128x64x1x1, .f32⟩
  | .hbm, ⟨16, _⟩ => ⟨S128x64, .f32⟩
  | .hbm, ⟨17, _⟩ => ⟨S128x192, .f32⟩
  | .hbm, ⟨18, _⟩ => ⟨S_, .f32⟩
  | .hbm, ⟨19, _⟩ => ⟨S128x64x32x32, .f32⟩
  | .hbm, ⟨20, _⟩ => ⟨S128x64x32x32, .f32⟩
  | .hbm, ⟨21, _⟩ => ⟨S128x64x32x32, .bf16⟩
  | .hbm, ⟨22, _⟩ => ⟨S_, .i32⟩
  | .hbm, ⟨23, _⟩ => ⟨S_, .bf16⟩
  | .hbm, ⟨24, _⟩ => ⟨S128x64x34x34, .bf16⟩
  | .hbm, ⟨25, _⟩ => ⟨S128x64x1156, .bf16⟩
  | .hbm, ⟨26, _⟩ => ⟨S128x192, .bf16⟩
  | .hbm, ⟨27, _⟩ => ⟨S128x128x1, .f32⟩
  | .hbm, ⟨28, _⟩ => ⟨S128x128x1, .f32⟩
  | .hbm, ⟨29, _⟩ => ⟨S128x128x1156, .bf16⟩
  | .hbm, ⟨30, _⟩ => ⟨S_, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S128x128x1156, .f32⟩
  | .hbm, ⟨49, _⟩ => ⟨S128x128x34x34, .f32⟩
  | .local _ .vmem, ⟨0, _⟩ => ⟨S16x64x1156, .bf16⟩
  | .local _ .vmem, ⟨1, _⟩ => ⟨S16x64x1156, .bf16⟩
  | .local _ .vmem, ⟨2, _⟩ => ⟨S64x192, .bf16⟩
  | .local _ .vmem, ⟨3, _⟩ => ⟨S128x192, .bf16⟩
  | .local _ .vmem, ⟨4, _⟩ => ⟨S16x128x1, .f32⟩
  | .local _ .vmem, ⟨5, _⟩ => ⟨S16x128x1, .f32⟩
  | .local _ .vmem, ⟨6, _⟩ => ⟨S16x128x1, .f32⟩
  | .local _ .vmem, ⟨7, _⟩ => ⟨S16x128x1, .f32⟩
  | .local _ .vmem, ⟨8, _⟩ => ⟨S16x128x1156, .bf16⟩
  | .local _ .vmem, ⟨9, _⟩ => ⟨S16x128x1156, .bf16⟩
  | .local _ .vmem, ⟨10, _⟩ => ⟨S16x128x1156, .bf16⟩
  | .local _ .vmem, ⟨11, _⟩ => ⟨S16x128x1156, .bf16⟩
  | .local _ .vmem, ⟨12, _⟩ => ⟨S128x1, .f32⟩
  | .local _ .vmem, ⟨13, _⟩ => ⟨S128x1, .f32⟩
  | .local _ .vmem, ⟨14, _⟩ => ⟨S16x128x1156, .f32⟩
  | .local _ .vmem, ⟨15, _⟩ => ⟨S16x128x1156, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1156 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x1156 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128x1156 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x128x1156 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S64x64x3x1_S64x64x1x1_0_0_0_0 : S64x64x3x1.Slices ![0, 0, 0, 0] S64x64x1x1
  shapeCasts_S64x64x1x1_S64x64 : S64x64x1x1.ShapeCasts S64x64
  slices_S64x64x3x1_S64x64x1x1_0_0_1_0 : S64x64x3x1.Slices ![0, 0, 1, 0] S64x64x1x1
  slices_S64x64x3x1_S64x64x1x1_0_0_2_0 : S64x64x3x1.Slices ![0, 0, 2, 0] S64x64x1x1
  concatenates_S64x64_S64x64_S64x64_S64x192_d1 : Shape.Concatenates [S64x64, S64x64, S64x64] S64x192 1
  bitsLt_bf16_f32 : FTy.bits .bf16 < FTy.bits .f32
  slices_S128x64x1x3_S128x64x1x1_0_0_0_0 : S128x64x1x3.Slices ![0, 0, 0, 0] S128x64x1x1
  shapeCasts_S128x64x1x1_S128x64 : S128x64x1x1.ShapeCasts S128x64
  slices_S128x64x1x3_S128x64x1x1_0_0_0_1 : S128x64x1x3.Slices ![0, 0, 0, 1] S128x64x1x1
  slices_S128x64x1x3_S128x64x1x1_0_0_0_2 : S128x64x1x3.Slices ![0, 0, 0, 2] S128x64x1x1
  concatenates_S128x64_S128x64_S128x64_S128x192_d1 : Shape.Concatenates [S128x64, S128x64, S128x64] S128x192 1
  bcast_S_S128x64x32x32 : S_.BroadcastsInDim S128x64x32x32 (![] : Fin 0 → Fin S128x64x32x32.rank)
  pads_S128x64x32x32_S128x64x34x34_000_000_110_110 : S128x64x32x32.Pads (![0, 0, 1, 1] : Fin 4 → Nat) ![0, 0, 1, 1] ![0, 0, 0, 0] S128x64x34x34
  h_S_ : 0 < S_.numel
  shapeCasts_S128x64x34x34_S128x64x1156 : S128x64x34x34.ShapeCasts S128x64x1156
  inb_S16x64x1156_S1x64x1156_0_0_0 : ∀ a, (![0, 0, 0] : Fin 3 → Nat) a + S1x64x1156.size a ≤ S16x64x1156.size a
  h_S1x64x1156 : 0 < S1x64x1156.numel
  shapeCasts_S1x64x1156_S64x1156 : S1x64x1156.ShapeCasts S64x1156
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S128x192_S128x192_0_0 : ∀ a, (![0, 0] : Fin 2 → Nat) a + S128x192.size a ≤ S128x192.size a
  h_S128x192 : 0 < S128x192.numel
  shapeCasts_S128x192_S128x192 : S128x192.ShapeCasts S128x192
  slices_S64x1156_o0_0_S64x1088 : S64x1156.Slices ![0, 0] S64x1088
  concatenates_S64x34_S64x1088_S64x34_S64x1156_d1 : Shape.Concatenates [S64x34, S64x1088, S64x34] S64x1156 1
  slices_S64x1156_o0_68_S64x1088 : S64x1156.Slices ![0, 68] S64x1088
  concatenates_S64x1156_S64x1156_S64x1156_S192x1156_d0 : Shape.Concatenates [S64x1156, S64x1156, S64x1156] S192x1156 0
  slices_S64x1156_o0_1155_S64x1 : S64x1156.Slices ![0, 1155] S64x1
  slices_S64x1156_o0_0_S64x1155 : S64x1156.Slices ![0, 0] S64x1155
  concatenates_S64x1_S64x1155_S64x1156_d1 : Shape.Concatenates [S64x1, S64x1155] S64x1156 1
  slices_S64x1156_o0_1_S64x1155 : S64x1156.Slices ![0, 1] S64x1155
  slices_S64x1156_o0_0_S64x1 : S64x1156.Slices ![0, 0] S64x1
  concatenates_S64x1155_S64x1_S64x1156_d1 : Shape.Concatenates [S64x1155, S64x1] S64x1156 1
  reduces_S128x1156_S128 : S128x1156.Reduces [1] S128
  shapeCasts_S128_S128x1 : S128.ShapeCasts S128x1
  inb_S16x128x1_S1x128x1_0_0_0 : ∀ a, (![0, 0, 0] : Fin 3 → Nat) a + S1x128x1.size a ≤ S16x128x1.size a
  h_S1x128x1 : 0 < S1x128x1.numel
  shapeCasts_S1x128x1_S128x1 : S1x128x1.ShapeCasts S128x1
  shapeCasts_S128x1_S1x128x1 : S128x1.ShapeCasts S1x128x1
  inb_S16x128x1156_S1x128x1156_0_0_0 : ∀ a, (![0, 0, 0] : Fin 3 → Nat) a + S1x128x1156.size a ≤ S16x128x1156.size a
  h_S1x128x1156 : 0 < S1x128x1156.numel
  shapeCasts_S1x128x1156_S128x1156 : S1x128x1156.ShapeCasts S128x1156
  shapeCasts_S128x1156_S1x128x1156 : S128x1156.ShapeCasts S1x128x1156
  packedbf16_S16x128x1156_S1x128x1156_0_0_0 : (Rect.unit (s := S16x128x1156) ![0, 0, 0] S1x128x1156.size inb_S16x128x1156_S1x128x1156_0_0_0).PackedRows (EltTy.packing .bf16)
  inb_S16x64x1156_S1x64x1156_1_0_0 : ∀ a, (![1, 0, 0] : Fin 3 → Nat) a + S1x64x1156.size a ≤ S16x64x1156.size a
  inb_S16x128x1_S1x128x1_1_0_0 : ∀ a, (![1, 0, 0] : Fin 3 → Nat) a + S1x128x1.size a ≤ S16x128x1.size a
  inb_S16x128x1156_S1x128x1156_1_0_0 : ∀ a, (![1, 0, 0] : Fin 3 → Nat) a + S1x128x1156.size a ≤ S16x128x1156.size a
  packedbf16_S16x128x1156_S1x128x1156_1_0_0 : (Rect.unit (s := S16x128x1156) ![1, 0, 0] S1x128x1156.size inb_S16x128x1156_S1x128x1156_1_0_0).PackedRows (EltTy.packing .bf16)
  inb_S16x64x1156_S1x64x1156_2_0_0 : ∀ a, (![2, 0, 0] : Fin 3 → Nat) a + S1x64x1156.size a ≤ S16x64x1156.size a
  inb_S16x128x1_S1x128x1_2_0_0 : ∀ a, (![2, 0, 0] : Fin 3 → Nat) a + S1x128x1.size a ≤ S16x128x1.size a
  inb_S16x128x1156_S1x128x1156_2_0_0 : ∀ a, (![2, 0, 0] : Fin 3 → Nat) a + S1x128x1156.size a ≤ S16x128x1156.size a
  packedbf16_S16x128x1156_S1x128x1156_2_0_0 : (Rect.unit (s := S16x128x1156) ![2, 0, 0] S1x128x1156.size inb_S16x128x1156_S1x128x1156_2_0_0).PackedRows (EltTy.packing .bf16)
  inb_S16x64x1156_S1x64x1156_3_0_0 : ∀ a, (![3, 0, 0] : Fin 3 → Nat) a + S1x64x1156.size a ≤ S16x64x1156.size a
  inb_S16x128x1_S1x128x1_3_0_0 : ∀ a, (![3, 0, 0] : Fin 3 → Nat) a + S1x128x1.size a ≤ S16x128x1.size a
  inb_S16x128x1156_S1x128x1156_3_0_0 : ∀ a, (![3, 0, 0] : Fin 3 → Nat) a + S1x128x1156.size a ≤ S16x128x1156.size a
  packedbf16_S16x128x1156_S1x128x1156_3_0_0 : (Rect.unit (s := S16x128x1156) ![3, 0, 0] S1x128x1156.size inb_S16x128x1156_S1x128x1156_3_0_0).PackedRows (EltTy.packing .bf16)
  inb_S16x64x1156_S1x64x1156_4_0_0 : ∀ a, (![4, 0, 0] : Fin 3 → Nat) a + S1x64x1156.size a ≤ S16x64x1156.size a
  inb_S16x128x1_S1x128x1_4_0_0 : ∀ a, (![4, 0, 0] : Fin 3 → Nat) a + S1x128x1.size a ≤ S16x128x1.size a
  inb_S16x128x1156_S1x128x1156_4_0_0 : ∀ a, (![4, 0, 0] : Fin 3 → Nat) a + S1x128x1156.size a ≤ S16x128x1156.size a
  packedbf16_S16x128x1156_S1x128x1156_4_0_0 : (Rect.unit (s := S16x128x1156) ![4, 0, 0] S1x128x1156.size inb_S16x128x1156_S1x128x1156_4_0_0).PackedRows (EltTy.packing .bf16)
  inb_S16x64x1156_S1x64x1156_5_0_0 : ∀ a, (![5, 0, 0] : Fin 3 → Nat) a + S1x64x1156.size a ≤ S16x64x1156.size a
  inb_S16x128x1_S1x128x1_5_0_0 : ∀ a, (![5, 0, 0] : Fin 3 → Nat) a + S1x128x1.size a ≤ S16x128x1.size a
  inb_S16x128x1156_S1x128x1156_5_0_0 : ∀ a, (![5, 0, 0] : Fin 3 → Nat) a + S1x128x1156.size a ≤ S16x128x1156.size a
  packedbf16_S16x128x1156_S1x128x1156_5_0_0 : (Rect.unit (s := S16x128x1156) ![5, 0, 0] S1x128x1156.size inb_S16x128x1156_S1x128x1156_5_0_0).PackedRows (EltTy.packing .bf16)
  inb_S16x64x1156_S1x64x1156_6_0_0 : ∀ a, (![6, 0, 0] : Fin 3 → Nat) a + S1x64x1156.size a ≤ S16x64x1156.size a
  inb_S16x128x1_S1x128x1_6_0_0 : ∀ a, (![6, 0, 0] : Fin 3 → Nat) a + S1x128x1.size a ≤ S16x128x1.size a
  inb_S16x128x1156_S1x128x1156_6_0_0 : ∀ a, (![6, 0, 0] : Fin 3 → Nat) a + S1x128x1156.size a ≤ S16x128x1156.size a
  packedbf16_S16x128x1156_S1x128x1156_6_0_0 : (Rect.unit (s := S16x128x1156) ![6, 0, 0] S1x128x1156.size inb_S16x128x1156_S1x128x1156_6_0_0).PackedRows (EltTy.packing .bf16)
  inb_S16x64x1156_S1x64x1156_7_0_0 : ∀ a, (![7, 0, 0] : Fin 3 → Nat) a + S1x64x1156.size a ≤ S16x64x1156.size a
  inb_S16x128x1_S1x128x1_7_0_0 : ∀ a, (![7, 0, 0] : Fin 3 → Nat) a + S1x128x1.size a ≤ S16x128x1.size a
  inb_S16x128x1156_S1x128x1156_7_0_0 : ∀ a, (![7, 0, 0] : Fin 3 → Nat) a + S1x128x1156.size a ≤ S16x128x1156.size a
  packedbf16_S16x128x1156_S1x128x1156_7_0_0 : (Rect.unit (s := S16x128x1156) ![7, 0, 0] S1x128x1156.size inb_S16x128x1156_S1x128x1156_7_0_0).PackedRows (EltTy.packing .bf16)
  inb_S16x64x1156_S1x64x1156_8_0_0 : ∀ a, (![8, 0, 0] : Fin 3 → Nat) a + S1x64x1156.size a ≤ S16x64x1156.size a
  inb_S16x128x1_S1x128x1_8_0_0 : ∀ a, (![8, 0, 0] : Fin 3 → Nat) a + S1x128x1.size a ≤ S16x128x1.size a
  inb_S16x128x1156_S1x128x1156_8_0_0 : ∀ a, (![8, 0, 0] : Fin 3 → Nat) a + S1x128x1156.size a ≤ S16x128x1156.size a
  packedbf16_S16x128x1156_S1x128x1156_8_0_0 : (Rect.unit (s := S16x128x1156) ![8, 0, 0] S1x128x1156.size inb_S16x128x1156_S1x128x1156_8_0_0).PackedRows (EltTy.packing .bf16)
  inb_S16x64x1156_S1x64x1156_9_0_0 : ∀ a, (![9, 0, 0] : Fin 3 → Nat) a + S1x64x1156.size a ≤ S16x64x1156.size a
  inb_S16x128x1_S1x128x1_9_0_0 : ∀ a, (![9, 0, 0] : Fin 3 → Nat) a + S1x128x1.size a ≤ S16x128x1.size a
  inb_S16x128x1156_S1x128x1156_9_0_0 : ∀ a, (![9, 0, 0] : Fin 3 → Nat) a + S1x128x1156.size a ≤ S16x128x1156.size a
  packedbf16_S16x128x1156_S1x128x1156_9_0_0 : (Rect.unit (s := S16x128x1156) ![9, 0, 0] S1x128x1156.size inb_S16x128x1156_S1x128x1156_9_0_0).PackedRows (EltTy.packing .bf16)
  inb_S16x64x1156_S1x64x1156_10_0_0 : ∀ a, (![10, 0, 0] : Fin 3 → Nat) a + S1x64x1156.size a ≤ S16x64x1156.size a
  inb_S16x128x1_S1x128x1_10_0_0 : ∀ a, (![10, 0, 0] : Fin 3 → Nat) a + S1x128x1.size a ≤ S16x128x1.size a
  inb_S16x128x1156_S1x128x1156_10_0_0 : ∀ a, (![10, 0, 0] : Fin 3 → Nat) a + S1x128x1156.size a ≤ S16x128x1156.size a
  packedbf16_S16x128x1156_S1x128x1156_10_0_0 : (Rect.unit (s := S16x128x1156) ![10, 0, 0] S1x128x1156.size inb_S16x128x1156_S1x128x1156_10_0_0).PackedRows (EltTy.packing .bf16)
  inb_S16x64x1156_S1x64x1156_11_0_0 : ∀ a, (![11, 0, 0] : Fin 3 → Nat) a + S1x64x1156.size a ≤ S16x64x1156.size a
  inb_S16x128x1_S1x128x1_11_0_0 : ∀ a, (![11, 0, 0] : Fin 3 → Nat) a + S1x128x1.size a ≤ S16x128x1.size a
  inb_S16x128x1156_S1x128x1156_11_0_0 : ∀ a, (![11, 0, 0] : Fin 3 → Nat) a + S1x128x1156.size a ≤ S16x128x1156.size a
  packedbf16_S16x128x1156_S1x128x1156_11_0_0 : (Rect.unit (s := S16x128x1156) ![11, 0, 0] S1x128x1156.size inb_S16x128x1156_S1x128x1156_11_0_0).PackedRows (EltTy.packing .bf16)
  inb_S16x64x1156_S1x64x1156_12_0_0 : ∀ a, (![12, 0, 0] : Fin 3 → Nat) a + S1x64x1156.size a ≤ S16x64x1156.size a
  inb_S16x128x1_S1x128x1_12_0_0 : ∀ a, (![12, 0, 0] : Fin 3 → Nat) a + S1x128x1.size a ≤ S16x128x1.size a
  inb_S16x128x1156_S1x128x1156_12_0_0 : ∀ a, (![12, 0, 0] : Fin 3 → Nat) a + S1x128x1156.size a ≤ S16x128x1156.size a
  packedbf16_S16x128x1156_S1x128x1156_12_0_0 : (Rect.unit (s := S16x128x1156) ![12, 0, 0] S1x128x1156.size inb_S16x128x1156_S1x128x1156_12_0_0).PackedRows (EltTy.packing .bf16)
  inb_S16x64x1156_S1x64x1156_13_0_0 : ∀ a, (![13, 0, 0] : Fin 3 → Nat) a + S1x64x1156.size a ≤ S16x64x1156.size a
  inb_S16x128x1_S1x128x1_13_0_0 : ∀ a, (![13, 0, 0] : Fin 3 → Nat) a + S1x128x1.size a ≤ S16x128x1.size a
  inb_S16x128x1156_S1x128x1156_13_0_0 : ∀ a, (![13, 0, 0] : Fin 3 → Nat) a + S1x128x1156.size a ≤ S16x128x1156.size a
  packedbf16_S16x128x1156_S1x128x1156_13_0_0 : (Rect.unit (s := S16x128x1156) ![13, 0, 0] S1x128x1156.size inb_S16x128x1156_S1x128x1156_13_0_0).PackedRows (EltTy.packing .bf16)
  inb_S16x64x1156_S1x64x1156_14_0_0 : ∀ a, (![14, 0, 0] : Fin 3 → Nat) a + S1x64x1156.size a ≤ S16x64x1156.size a
  inb_S16x128x1_S1x128x1_14_0_0 : ∀ a, (![14, 0, 0] : Fin 3 → Nat) a + S1x128x1.size a ≤ S16x128x1.size a
  inb_S16x128x1156_S1x128x1156_14_0_0 : ∀ a, (![14, 0, 0] : Fin 3 → Nat) a + S1x128x1156.size a ≤ S16x128x1156.size a
  packedbf16_S16x128x1156_S1x128x1156_14_0_0 : (Rect.unit (s := S16x128x1156) ![14, 0, 0] S1x128x1156.size inb_S16x128x1156_S1x128x1156_14_0_0).PackedRows (EltTy.packing .bf16)
  inb_S16x64x1156_S1x64x1156_15_0_0 : ∀ a, (![15, 0, 0] : Fin 3 → Nat) a + S1x64x1156.size a ≤ S16x64x1156.size a
  inb_S16x128x1_S1x128x1_15_0_0 : ∀ a, (![15, 0, 0] : Fin 3 → Nat) a + S1x128x1.size a ≤ S16x128x1.size a
  inb_S16x128x1156_S1x128x1156_15_0_0 : ∀ a, (![15, 0, 0] : Fin 3 → Nat) a + S1x128x1156.size a ≤ S16x128x1156.size a
  packedbf16_S16x128x1156_S1x128x1156_15_0_0 : (Rect.unit (s := S16x128x1156) ![15, 0, 0] S1x128x1156.size inb_S16x128x1156_S1x128x1156_15_0_0).PackedRows (EltTy.packing .bf16)
  reducesTo_S128x128x1_S128x1_d0 : S128x128x1.ReducesTo [0] S128x1
  bcast_S_S128x1 : S_.BroadcastsInDim S128x1 (![] : Fin 0 → Fin S128x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1156 : S128x1.Broadcasts S128x1156
  shapeCasts_S128x128x1156_S128x128x34x34 : S128x128x1156.ShapeCasts S128x128x34x34
  dot_S64x192_S192x1156_S64x1156_1_0_0_1_n_n_wf : DotDims.WF S64x192 S192x1156 S64x1156 [1] [0] [0] [1] [] []
  dot_S128x192_S192x1156_S128x1156_1_0_0_1_n_n_wf : DotDims.WF S128x192 S192x1156 S128x1156 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1156.size a ≤ S128x64x1156.size a
  hwx0_0 : ∀ i : grid0.Coords, EltTy.bits .bf16 = 32 ∨ (Rect.block (s := S128x64x1156) S16x64x1156.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .bf16 = 32 ∨ (Rect.block (s := S64x192) S64x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x192.size a ≤ S128x192.size a
  hwx0_2 : ∀ i : grid0.Coords, EltTy.bits .bf16 = 32 ∨ (Rect.block (s := S128x192) S128x192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x1.size a ≤ S128x128x1.size a
  hwx0_3 : ∀ i : grid0.Coords, EltTy.bits .f32 = 32 ∨ (Rect.block (s := S128x128x1) S16x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x1.size a ≤ S128x128x1.size a
  hwx0_4 : ∀ i : grid0.Coords, EltTy.bits .f32 = 32 ∨ (Rect.block (s := S128x128x1) S16x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x1156.size a ≤ S128x128x1156.size a
  hwx0_5 : ∀ i : grid0.Coords, EltTy.bits .bf16 = 32 ∨ (Rect.block (s := S128x128x1156) S16x128x1156.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x1156.size a ≤ S128x128x1156.size a
  hwx1_0 : ∀ i : grid1.Coords, EltTy.bits .bf16 = 32 ∨ (Rect.block (s := S128x128x1156) S16x128x1156.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128x1156.size a ≤ S128x128x1156.size a
  hwx1_3 : ∀ i : grid1.Coords, EltTy.bits .f32 = 32 ∨ (Rect.block (s := S128x128x1156) S16x128x1156.size (cc1_transform_3 i) (hinb1_3 i)).WholeWords (EltTy.packing .f32)

variable [Facts₀]

def dot_S64x192_S192x1156_S64x1156_1_0_0_1_n_n : DotDims S64x192 S192x1156 S64x1156 where
  lhsContracting := [1]
  rhsContracting := [0]
  lhsNonContracting := [0]
  rhsNonContracting := [1]
  lhsBatch := []
  rhsBatch := []
  wf := dot_S64x192_S192x1156_S64x1156_1_0_0_1_n_n_wf
def dot_S128x192_S192x1156_S128x1156_1_0_0_1_n_n : DotDims S128x192 S192x1156 S128x1156 where
  lhsContracting := [1]
  rhsContracting := [0]
  lhsNonContracting := [0]
  rhsNonContracting := [1]
  lhsBatch := []
  rhsBatch := []
  wf := dot_S128x192_S192x1156_S128x1156_1_0_0_1_n_n_wf

abbrev win0_0 : Pipeline.Window sig grid0 :=
  Pipeline.Window.ofSpec (Memref.whole main_v19) S16x64x1156.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S16x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S16x128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S16x128x1156.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_2) S16x128x1156.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S16x128x1156.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x64x32x32 : Shape := ⟨4, ![128, 64, 32, 32]⟩
abbrev S64x64x3x1 : Shape := ⟨4, ![64, 64, 3, 1]⟩
abbrev S128x64x1x3 : Shape := ⟨4, ![128, 64, 1, 3]⟩
abbrev S64x64x3 : Shape := ⟨3, ![64, 64, 3]⟩
abbrev S3x64x64 : Shape := ⟨3, ![3, 64, 64]⟩
abbrev S128x64x3 : Shape := ⟨3, ![128, 64, 3]⟩
abbrev S3x128x64 : Shape := ⟨3, ![3, 128, 64]⟩
abbrev S_ : Shape := ⟨0, ![]⟩
abbrev S128x64x34x36 : Shape := ⟨4, ![128, 64, 34, 36]⟩
abbrev S128x64x1224 : Shape := ⟨3, ![128, 64, 1224]⟩
abbrev S1224 : Shape := ⟨1, ![1224]⟩
abbrev S1x1224 : Shape := ⟨2, ![1, 1224]⟩
abbrev S128x128x1224 : Shape := ⟨3, ![128, 128, 1224]⟩
abbrev S128x128x1 : Shape := ⟨3, ![128, 128, 1]⟩
abbrev S1x64x1224 : Shape := ⟨3, ![1, 64, 1224]⟩
abbrev S1x128x1224 : Shape := ⟨3, ![1, 128, 1224]⟩
abbrev S1x128x1 : Shape := ⟨3, ![1, 128, 1]⟩
abbrev S64x1226 : Shape := ⟨2, ![64, 1226]⟩
abbrev S64x1224 : Shape := ⟨2, ![64, 1224]⟩
abbrev S64x1152 : Shape := ⟨2, ![64, 1152]⟩
abbrev S1x64x64 : Shape := ⟨3, ![1, 64, 64]⟩
abbrev S64x64 : Shape := ⟨2, ![64, 64]⟩
abbrev S128x1224 : Shape := ⟨2, ![128, 1224]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S128x1x1 : Shape := ⟨3, ![128, 1, 1]⟩
abbrev S128x128x34x36 : Shape := ⟨4, ![128, 128, 34, 36]⟩
abbrev S128x128x34x34 : Shape := ⟨4, ![128, 128, 34, 34]⟩
abbrev S1x128x34x36 : Shape := ⟨4, ![1, 128, 34, 36]⟩
abbrev S1x128x34x34 : Shape := ⟨4, ![1, 128, 34, 34]⟩
abbrev S128x34x36 : Shape := ⟨3, ![128, 34, 36]⟩
abbrev S128x34x34 : Shape := ⟨3, ![128, 34, 34]⟩

abbrev nBuf : Space → Nat
  | .hbm => 62
  | .vmem => 18
  | .smem => 0
  | _ => 0

abbrev bufTy : (tb : Table) → Fin (tcTables nBuf tb) → BufTy
  | .hbm, ⟨0, _⟩ => ⟨S128x64x32x32, .f32⟩
  | .hbm, ⟨1, _⟩ => ⟨S64x64x3x1, .f32⟩
  | .hbm, ⟨2, _⟩ => ⟨S128x64x1x3, .f32⟩
  | .hbm, ⟨3, _⟩ => ⟨S64x64x3, .f32⟩
  | .hbm, ⟨4, _⟩ => ⟨S3x64x64, .f32⟩
  | .hbm, ⟨5, _⟩ => ⟨S128x64x3, .f32⟩
  | .hbm, ⟨6, _⟩ => ⟨S3x128x64, .f32⟩
  | .hbm, ⟨7, _⟩ => ⟨S_, .i32⟩
  | .hbm, ⟨8, _⟩ => ⟨S_, .f32⟩
  | .hbm, ⟨9, _⟩ => ⟨S128x64x34x36, .f32⟩
  | .hbm, ⟨10, _⟩ => ⟨S128x64x1224, .f32⟩
  | .hbm, ⟨11, _⟩ => ⟨S1224, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1224, .i32⟩
  | .hbm, ⟨19, _⟩ => ⟨S1224, .i32⟩
  | .hbm, ⟨20, _⟩ => ⟨S_, .i32⟩
  | .hbm, ⟨21, _⟩ => ⟨S1224, .i32⟩
  | .hbm, ⟨22, _⟩ => ⟨S1224, .i1⟩
  | .hbm, ⟨23, _⟩ => ⟨S_, .i32⟩
  | .hbm, ⟨24, _⟩ => ⟨S1224, .i32⟩
  | .hbm, ⟨25, _⟩ => ⟨S1224, .i1⟩
  | .hbm, ⟨26, _⟩ => ⟨S_, .i32⟩
  | .hbm, ⟨27, _⟩ => ⟨S_, .i1⟩
  | .hbm, ⟨28, _⟩ => ⟨S1224, .i1⟩
  | .hbm, ⟨29, _⟩ => ⟨S1224, .i1⟩
  | .hbm, ⟨30, _⟩ => ⟨S1224, .i1⟩
  | .hbm, ⟨31, _⟩ => ⟨S1224, .i32⟩
  | .hbm, ⟨32, _⟩ => ⟨S1224, .i32⟩
  | .hbm, ⟨33, _⟩ => ⟨S1224, .i32⟩
  | .hbm, ⟨34, _⟩ => ⟨S_, .i32⟩
  | .hbm, ⟨35, _⟩ => ⟨S1224, .i32⟩
  | .hbm, ⟨36, _⟩ => ⟨S1224, .i1⟩
  | .hbm, ⟨37, _⟩ => ⟨S1224, .f32⟩
  | .hbm, ⟨38, _⟩ => ⟨S1x1224, .f32⟩
  | .hbm, ⟨39, _⟩ => ⟨S128x128x1224, .f32⟩
  | .hbm, ⟨40, _⟩ => ⟨S128x128x1, .f32⟩
  | .hbm, ⟨41, _⟩ => ⟨S128x128x1, .f32⟩
  | .hbm, ⟨42, _⟩ => ⟨S_, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S128x1, .f32⟩
  | .hbm, ⟨58, _⟩ => ⟨S128x1x1, .f32⟩
  | .hbm, ⟨59, _⟩ => ⟨S128x1x1, .f32⟩
  | .hbm, ⟨60, _⟩ => ⟨S128x128x34x36, .f32⟩
  | .hbm, ⟨61, _⟩ => ⟨S128x128x34x34, .f32⟩
  | .local _ .vmem, ⟨0, _⟩ => ⟨S1x64x1224, .f32⟩
  | .local _ .vmem, ⟨1, _⟩ => ⟨S1x64x1224, .f32⟩
  | .local _ .vmem, ⟨2, _⟩ => ⟨S3x64x64, .f32⟩
  | .local _ .vmem, ⟨3, _⟩ => ⟨S3x128x64, .f32⟩
  | .local _ .vmem, ⟨4, _⟩ => ⟨S1x1224, .f32⟩
  | .local _ .vmem, ⟨5, _⟩ => ⟨S1x128x1224, .f32⟩
  | .local _ .vmem, ⟨6, _⟩ => ⟨S1x128x1224, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S64x1226, .f32⟩
  | .local _ .vmem, ⟨12, _⟩ => ⟨S1x128x34x36, .f32⟩
  | .local _ .vmem, ⟨13, _⟩ => ⟨S1x128x34x36, .f32⟩
  | .local _ .vmem, ⟨14, _⟩ => ⟨S128x1x1, .f32⟩
  | .local _ .vmem, ⟨15, _⟩ => ⟨S128x1x1, .f32⟩
  | .local _ .vmem, ⟨16, _⟩ => ⟨S1x128x34x34, .f32⟩
  | .local _ .vmem, ⟨17, _⟩ => ⟨S1x128x34x34, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_call1_c : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_v5 : Ref sig .tc := ⟨.hbm, 21, rfl⟩
abbrev main_call1_v6 : Ref sig .tc := ⟨.hbm, 22, rfl⟩
abbrev main_call1_c_2 : Ref sig .tc := ⟨.hbm, 23, rfl⟩
abbrev main_call1_v7 : Ref sig .tc := ⟨.hbm, 24, rfl⟩
abbrev main_call1_v8 : Ref sig .tc := ⟨.hbm, 25, rfl⟩
abbrev main_call1_c_3 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_v7 : Ref sig .tc := ⟨.hbm, 33, rfl⟩
abbrev main_c_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12_0 : Ref sig .tc := ⟨.hbm, 39, rfl⟩
abbrev main_v12_1 : Ref sig .tc := ⟨.hbm, 40, rfl⟩
abbrev main_v12_2 : Ref sig .tc := ⟨.hbm, 41, rfl⟩
abbrev main_cst : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x34x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x34x34 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x64x3x1_S64x64x3 : S64x64x3x1.ShapeCasts S64x64x3
  transposes_S64x64x3_S3x64x64_2_0_1 : S64x64x3.Transposes [2, 0, 1] S3x64x64
  shapeCasts_S128x64x1x3_S128x64x3 : S128x64x1x3.ShapeCasts S128x64x3
  transposes_S128x64x3_S3x128x64_2_0_1 : S128x64x3.Transposes [2, 0, 1] S3x128x64
  pads_S128x64x32x32_S128x64x34x36_000_000_110_220 : S128x64x32x32.Pads (![0, 0, 1, 2] : Fin 4 → Nat) ![0, 0, 1, 2] ![0, 0, 0, 0] S128x64x34x36
  h_S_ : 0 < S_.numel
  shapeCasts_S128x64x34x36_S128x64x1224 : S128x64x34x36.ShapeCasts S128x64x1224
  bcast_S_S1224 : S_.BroadcastsInDim S1224 (![] : Fin 0 → Fin S1224.rank)
  shapeCasts_S1224_S1x1224 : S1224.ShapeCasts S1x1224
  inb_S1x64x1224_S1x64x1224_0_0_0 : ∀ a, (![0, 0, 0] : Fin 3 → Nat) a + S1x64x1224.size a ≤ S1x64x1224.size a
  h_S1x64x1224 : 0 < S1x64x1224.numel
  shapeCasts_S1x64x1224_S64x1224 : S1x64x1224.ShapeCasts S64x1224
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  slices_S64x1224_o0_0_S64x1152 : S64x1224.Slices ![0, 0] S64x1152
  inb_S3x64x64_S1x64x64_1_0_0 : ∀ a, (![1, 0, 0] : Fin 3 → Nat) a + S1x64x64.size a ≤ S3x64x64.size a
  slices_S64x1224_o0_36_S64x1152 : S64x1224.Slices ![0, 36] S64x1152
  inb_S3x64x64_S1x64x64_2_0_0 : ∀ a, (![2, 0, 0] : Fin 3 → Nat) a + S1x64x64.size a ≤ S3x64x64.size a
  slices_S64x1224_o0_72_S64x1152 : S64x1224.Slices ![0, 72] S64x1152
  inb_S64x1226_S64x1226_0_0 : ∀ a, (![0, 0] : Fin 2 → Nat) a + S64x1226.size a ≤ S64x1226.size a
  h_S64x1226 : 0 < S64x1226.numel
  shapeCasts_S64x1226_S64x1226 : S64x1226.ShapeCasts S64x1226
  inb_S64x1226_S64x1152_0_36 : ∀ a, (![0, 36] : Fin 2 → Nat) a + S64x1152.size a ≤ S64x1226.size a
  h_S64x1152 : 0 < S64x1152.numel
  shapeCasts_S64x1152_S64x1152 : S64x1152.ShapeCasts S64x1152
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  slices_S64x1226_o0_0_S64x1224 : S64x1226.Slices ![0, 0] S64x1224
  inb_S3x128x64_S1x128x64_1_0_0 : ∀ a, (![1, 0, 0] : Fin 3 → Nat) a + S1x128x64.size a ≤ S3x128x64.size a
  slices_S64x1226_o0_1_S64x1224 : S64x1226.Slices ![0, 1] S64x1224
  inb_S3x128x64_S1x128x64_2_0_0 : ∀ a, (![2, 0, 0] : Fin 3 → Nat) a + S1x128x64.size a ≤ S3x128x64.size a
  slices_S64x1226_o0_2_S64x1224 : S64x1226.Slices ![0, 2] S64x1224
  inb_S1x1224_S1x1224_0_0 : ∀ a, (![0, 0] : Fin 2 → Nat) a + S1x1224.size a ≤ S1x1224.size a
  h_S1x1224 : 0 < S1x1224.numel
  shapeCasts_S1x1224_S1x1224 : S1x1224.ShapeCasts S1x1224
  broadcasts_S1x1224_S128x1224 : S1x1224.Broadcasts S128x1224
  inb_S1x128x1224_S1x128x1224_0_0_0 : ∀ a, (![0, 0, 0] : Fin 3 → Nat) a + S1x128x1224.size a ≤ S1x128x1224.size a
  h_S1x128x1224 : 0 < S1x128x1224.numel
  shapeCasts_S1x128x1224_S128x1224 : S1x128x1224.ShapeCasts S128x1224
  shapeCasts_S128x1224_S1x128x1224 : S128x1224.ShapeCasts S1x128x1224
  reduces_S128x1224_S128 : S128x1224.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S128x128x1_S128x1_d0 : S128x128x1.ReducesTo [0] S128x1
  bcast_S_S128x1 : S_.BroadcastsInDim S128x1 (![] : Fin 0 → Fin S128x1.rank)
  shapeCasts_S128x1_S128x1x1 : S128x1.ShapeCasts S128x1x1
  shapeCasts_S128x128x1224_S128x128x34x36 : S128x128x1224.ShapeCasts S128x128x34x36
  inb_S1x128x34x36_S1x128x34x36_0_0_0_0 : ∀ a, (![0, 0, 0, 0] : Fin 4 → Nat) a + S1x128x34x36.size a ≤ S1x128x34x36.size a
  h_S1x128x34x36 : 0 < S1x128x34x36.numel
  shapeCasts_S1x128x34x36_S128x34x36 : S1x128x34x36.ShapeCasts S128x34x36
  slices_S128x34x36_o0_0_0_S128x34x34 : S128x34x36.Slices ![0, 0, 0] S128x34x34
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  broadcasts_S128x1x1_S128x34x34 : S128x1x1.Broadcasts S128x34x34
  inb_S1x128x34x34_S1x128x34x34_0_0_0_0 : ∀ a, (![0, 0, 0, 0] : Fin 4 → Nat) a + S1x128x34x34.size a ≤ S1x128x34x34.size a
  h_S1x128x34x34 : 0 < S1x128x34x34.numel
  shapeCasts_S1x128x34x34_S128x34x34 : S1x128x34x34.ShapeCasts S128x34x34
  shapeCasts_S128x34x34_S1x128x34x34 : S128x34x34.ShapeCasts S1x128x34x34
  dot_S64x64_S64x1152_S64x1152_1_0_0_1_n_n_wf : DotDims.WF S64x64 S64x1152 S64x1152 [1] [0] [0] [1] [] []
  dot_S128x64_S64x1224_S128x1224_1_0_0_1_n_n_wf : DotDims.WF S128x64 S64x1224 S128x1224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1224.size a ≤ S128x64x1224.size a
  hwx0_0 : ∀ i : grid0.Coords, EltTy.bits .f32 = 32 ∨ (Rect.block (s := S128x64x1224) S1x64x1224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x64.size a ≤ S3x128x64.size a
  hwx0_2 : ∀ i : grid0.Coords, EltTy.bits .f32 = 32 ∨ (Rect.block (s := S3x128x64) S3x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1224.size a ≤ S1x1224.size a
  hwx0_3 : ∀ i : grid0.Coords, EltTy.bits .f32 = 32 ∨ (Rect.block (s := S1x1224) S1x1224.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1224.size a ≤ S128x128x1224.size a
  hwx0_4 : ∀ i : grid0.Coords, EltTy.bits .f32 = 32 ∨ (Rect.block (s := S128x128x1224) S1x128x1224.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S128x128x1.size a
  hwx0_5 : ∀ i : grid0.Coords, EltTy.bits .f32 = 32 ∨ (Rect.block (s := S128x128x1) S1x128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S128x128x1.size a
  hwx0_6 : ∀ i : grid0.Coords, EltTy.bits .f32 = 32 ∨ (Rect.block (s := S128x128x1) S1x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x34x36.size a ≤ S128x128x34x36.size a
  hwx1_0 : ∀ i : grid1.Coords, EltTy.bits .f32 = 32 ∨ (Rect.block (s := S128x128x34x36) S1x128x34x36.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1x1.size a ≤ S128x1x1.size a
  hwx1_1 : ∀ i : grid1.Coords, EltTy.bits .f32 = 32 ∨ (Rect.block (s := S128x1x1) S128x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1x1.size a ≤ S128x1x1.size a
  hwx1_2 : ∀ i : grid1.Coords, EltTy.bits .f32 = 32 ∨ (Rect.block (s := S128x1x1) S128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x34x34.size a ≤ S128x128x34x34.size a
  hwx1_3 : ∀ i : grid1.Coords, EltTy.bits .f32 = 32 ∨ (Rect.block (s := S128x128x34x34) S1x128x34x34.size (cc1_transform_3 i) (hinb1_3 i)).WholeWords (EltTy.packing .f32)

variable [Facts₀]

def dot_S64x64_S64x1152_S64x1152_1_0_0_1_n_n : DotDims S64x64 S64x1152 S64x1152 where
  lhsContracting := [1]
  rhsContracting := [0]
  lhsNonContracting := [0]
  rhsNonContracting := [1]
  lhsBatch := []
  rhsBatch := []
  wf := dot_S64x64_S64x1152_S64x1152_1_0_0_1_n_n_wf
def dot_S128x64_S64x1224_S128x1224_1_0_0_1_n_n : DotDims S128x64 S64x1224 S128x1224 where
  lhsContracting := [1]
  rhsContracting := [0]
  lhsNonContracting := [0]
  rhsNonContracting := [1]
  lhsBatch := []
  rhsBatch := []
  wf := dot_S128x64_S64x1224_S128x1224_1_0_0_1_n_n_wf

abbrev win0_0 : Pipeline.Window sig grid0 :=
  Pipeline.Window.ofSpec (Memref.whole main_v5) S1x64x1224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1224.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x128x1224.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S1x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S1x128x34x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128x34x34.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelStatsPass.lean ====
/-
  The first pallas_call of the program (the convolution and statistics pass) as one item of the frame: for any
  contents `V` the TensorCore's buffers hold when the call is entered, the pipeline's proof data and its body obligation.

  The grid has 8 points; at point `t` the call stages sixteen padded, flattened images (a block [16, 64, 1156] of the
  [128, 64, 1156] array) and the two stacked weight matrices [64, 192] and [128, 192], whole at every point. For each
  of the sixteen images the body forms the three row-shifted copies, multiplies by the first weight matrix, forms the
  three lane-rotated copies of the product, multiplies by the second weight matrix, and stores the row sums, the row
  sums of squares and the product itself into slab `b` of the three output blocks [16, 128, 1], [16, 128, 1] and
  [16, 128, 1156]. It reads each slab of an output block before it stores into it and uses nothing of what it read,
  so the output blocks may enter at any contents.

  What the body leaves in each output block is stated through the list of pieces its stores make, which the symbolic
  run of the body finds; in each block the sixteen slabs tile it, so the pieces read back over any previous contents
  determine it.
-/
import proofs.«100421_g2000304308963006_pallasbulk_990_41_alg».proof.Proof.Gen.Kernel.Launch
import proofs.«100421_g2000304308963006_pallasbulk_990_41_alg».proof.Proof.Gen.Kernel.Skeleton
import proofs.«100421_g2000304308963006_pallasbulk_990_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.StatsPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call stages -/

/-- The block of window `w` at grid point `t`, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The images' staging buffer holds the point's sixteen images when the body starts, whether they were fetched at this
    point or not, for any proof data over the entry contents whose body leaves the block in place. -/
theorem before_images_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for the first stacked weight matrix (fetched at the first point only; its block never moves). -/
theorem before_w1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for the second stacked weight matrix. -/
theorem before_w2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body on any staging memrefs -/

/-- One staging buffer of each output window, through which the block's contents after the body are stated. -/
abbrev sumView : View sig .tc .vmem S16x128x1 .f32 := (Memref.whole cc0_stg3_0 : Memref sig .tc .vmem S16x128x1 .f32).view
abbrev sqView : View sig .tc .vmem S16x128x1 .f32 := (Memref.whole cc0_stg4_0 : Memref sig .tc .vmem S16x128x1 .f32).view
abbrev convView : View sig .tc .vmem S16x128x1156 .bf16 := (Memref.whole cc0_stg5_0 : Memref sig .tc .vmem S16x128x1156 .bf16).view

set_option maxHeartbeats 4000000 in
/-- The pieces the body's stores leave in the three output blocks (row sums, row sums of squares, the convolution
    output), last first, WITH the proof that on whole staging memrefs — the inputs' at their contents, the outputs' at
    anything — the body runs to a continuation that gets the inputs back as they were and each output's buffer with its
    pieces written. -/
noncomputable def run (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) :
    Σ' (Lsum : List (View.Piece (Elt F) S16x128x1 .f32)), Σ' (Lsq : List (View.Piece (Elt F) S16x128x1 .f32)), { Lconv : List (View.Piece (Elt F) S16x128x1156 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Lsum) ∗ (∃ f, arg5.view.loc (c : Thread nD τ) ↦[arg5.view.set]{fullShare} arg5.view.writes (Elt F) f Lsq) ∗ (∃ f, arg6.view.loc (c : Thread nD τ) ↦[arg6.view.set]{fullShare} arg6.view.writes (Elt F) f Lconv)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The body's stores into the block of row sums are its sixteen [1, 128, 1] slabs, each exactly once: they tile the block in
    blocks of one slab. -/
theorem cover_sum (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1.Idx) :
    ∃ pc ∈ (run c i arg1 harg1 arg2 harg2 arg3 harg3 arg4 harg4 arg5 harg5 arg6 harg6 x0 x1 x2).1, y ∈ pc.1.set :=
  View.cover_of_tiledL (run c i arg1 harg1 arg2 harg2 arg3 harg3 arg4 harg4 arg5 harg5 arg6 harg6 x0 x1 x2).1 S1x128x1.size (by sl_kernel_rfl) y
/-- The same for the block of row sums of squares. -/
theorem cover_sq (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1.Idx) :
    ∃ pc ∈ (run c i arg1 harg1 arg2 harg2 arg3 harg3 arg4 harg4 arg5 harg5 arg6 harg6 x0 x1 x2).2.1, y ∈ pc.1.set :=
  View.cover_of_tiledL (run c i arg1 harg1 arg2 harg2 arg3 harg3 arg4 harg4 arg5 harg5 arg6 harg6 x0 x1 x2).2.1 S1x128x1.size (by sl_kernel_rfl) y
/-- The same for the block of convolution outputs, in its sixteen [1, 128, 1156] slabs. -/
theorem cover_conv (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1156.Idx) :
    ∃ pc ∈ (run c i arg1 harg1 arg2 harg2 arg3 harg3 arg4 harg4 arg5 harg5 arg6 harg6 x0 x1 x2).2.2.1, y ∈ pc.1.set :=
  View.cover_of_tiledL (run c i arg1 harg1 arg2 harg2 arg3 harg3 arg4 harg4 arg5 harg5 arg6 harg6 x0 x1 x2).2.2.1 S1x128x1156.size (by sl_kernel_rfl) y

/-- The three output blocks after the body: the pieces read back (over contents that no longer matter). -/
def sumBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1 .f32 :=
  sumView.read (Elt F) (sumView.writes (Elt F) sumView.junk (run c i arg1 harg1 arg2 harg2 arg3 harg3 arg4 harg4 arg5 harg5 arg6 harg6 x0 x1 x2).1)
def sqBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1 .f32 :=
  sqView.read (Elt F) (sqView.writes (Elt F) sqView.junk (run c i arg1 harg1 arg2 harg2 arg3 harg3 arg4 harg4 arg5 harg5 arg6 harg6 x0 x1 x2).2.1)
def convBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1156 .bf16 :=
  convView.read (Elt F) (convView.writes (Elt F) convView.junk (run c i arg1 harg1 arg2 harg2 arg3 harg3 arg4 harg4 arg5 harg5 arg6 harg6 x0 x1 x2).2.2.1)

/-! ## The output blocks point by point, and the proof data -/

/-- Each window's current staging memref at point `t`, as the pipeline passes it to the body, and its wholeness. -/
abbrev ms0 (t : Fin cfg0.N) : Memref sig .tc .vmem S16x64x1156 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x192 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x192 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128x1156 .bf16 := win0_5.stage (cfg0.slots t 5)
abbrev hs5 (t : Fin cfg0.N) : (ms5 t).IsWhole := hstage0_5 ((cfg0.slots t 5).cast nbuf0_5)

/-- The three output blocks after the body at point `t` (row sums, row sums of squares, convolution output): the run's
    blocks at the point's memrefs and input blocks. -/
def outsAt (c : Dev nD) (t : Fin cfg0.N) : Vec F S16x128x1 .f32 × Vec F S16x128x1 .f32 × Vec F S16x128x1156 .bf16 :=
  (sumBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t),
   sqBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t),
   convBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t))

/-- The proof data of the call on core `c`: the arrays as the call finds them; after the body at point `t` each input's
    buffer at its block and the outputs' at `outsAt`; the invariant is the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (outsAt V c t).1
    | ⟨4, _⟩ => (outsAt V c t).2.1
    | ⟨5, _⟩ => (outsAt V c t).2.2
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = (outsAt V c t).1 := by dsimp only [dat]
theorem after_4 (c : Dev nD) (t : Fin cfg0.N) : (dat V c).after 4 t = (outsAt V c t).2.1 := by dsimp only [dat]
theorem after_5 (c : Dev nD) (t : Fin cfg0.N) : (dat V c).after 5 t = (outsAt V c t).2.2 := by dsimp only [dat]

theorem before_0 (c : Dev nD) (t : Fin cfg0.N) (d) : (dat V c).before 0 t d = blk V c 0 t :=
  before_images_of V (dat V c) (A_eq V c 0) (after_0 V c) t d
theorem before_1 (c : Dev nD) (t : Fin cfg0.N) (d) : (dat V c).before 1 t d = blk V c 1 t :=
  before_w1_of V (dat V c) (A_eq V c 1) (after_1 V c) t d
theorem before_2 (c : Dev nD) (t : Fin cfg0.N) (d) : (dat V c).before 2 t d = blk V c 2 t :=
  before_w2_of V (dat V c) (A_eq V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 800000 in
/-- The body at any point: the inputs' memrefs hold their blocks, so the run applies; the invariant and what the core owes
    pass through unread; each output's buffer ends at its pieces read back, the pieces covering the block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  unfold outsAt
  unfold sumBlock sqBlock convBlock; (try dsimp only)
  iintro ⟨HΦ, Ho, ⟨%d0, H0⟩, ⟨%d1, H1⟩, ⟨%d2, H2⟩, ⟨%d3, H3⟩, ⟨%d4, H4⟩, ⟨%d5, H5⟩⟩
  iapply ((run c (grid0.coords t) _ _ _ _ _ _ _ _ _ _ _ _ (blk V c 0 t) (blk V c 1 t) (blk V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_sum c _ _ _ _ _ _ _ _ _ _ _ _ _ _ _ _)
  isplitl [H4]
  · unfold owns; iexists _; isplitr
    swap; · iexact H4
    ipureintro; exact View.read_writes_of_cover _ _ _ _ _ (cover_sq c _ _ _ _ _ _ _ _ _ _ _ _ _ _ _ _)
  unfold owns; iexists _; isplitr
  swap; · iexact H5
  ipureintro; exact View.read_writes_of_cover _ _ _ _ _ (cover_conv c _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.StatsPass

end
-- ==== Proof.KernelNormPass.lean ====
/-
  The second pallas_call of the program (the normalize pass) as one item of the frame: for any contents `V` the
  TensorCore's buffers hold when the call is entered, the pipeline's proof data and its body obligation.

  The grid has 8 points; at point `t` the call stages sixteen images of the stored convolution output
  (a block [16, 128, 1156] of the [128, 128, 1156] array), and the two per-channel columns [128, 1] (the reciprocal
  standard deviation and the bias), whole at every point; the body writes, image by image, `y · rstd + bias` into
  the sixteen [1, 128, 1156] slabs of the output block. It reads each slab of the output block before it stores
  into it, and uses nothing of what it read, so the output block may enter at any contents.

  What the body leaves in the output block is stated through the list of pieces its stores make, which the
  symbolic run of the body finds; the sixteen slabs tile the block, so the pieces read back over any previous
  contents determine it.
-/
import proofs.«100421_g2000304308963006_pallasbulk_990_41_alg».proof.Proof.Gen.Kernel.Launch
import proofs.«100421_g2000304308963006_pallasbulk_990_41_alg».proof.Proof.Gen.Kernel.Skeleton
import proofs.«100421_g2000304308963006_pallasbulk_990_41_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NormPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call stages -/

/-- The block of window `w` at grid point `t`, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The images' staging buffer holds the point's sixteen images when the body starts, whether they were fetched at this
    point or not, for any proof data over the entry contents whose body leaves the block in place. -/
theorem before_images_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for the column of reciprocal standard deviations (fetched at the first point only; its block never moves). -/
theorem before_rstd_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for the column of biases. -/
theorem before_bias_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body on any staging memrefs -/

/-- One staging buffer of the output window, through which the block's contents after the body are stated (the pieces cover
    the block, so the choice of buffer does not matter). -/
abbrev outView : View sig .tc .vmem S16x128x1156 .f32 := (Memref.whole cc1_stg3_0 : Memref sig .tc .vmem S16x128x1156 .f32).view

set_option maxHeartbeats 1000000 in
/-- The pieces the body's sixteen stores leave in the output block, last first, WITH the proof that on whole staging
    memrefs — the inputs' at their contents, the output's at anything — the body runs to a continuation that gets the
    inputs back as they were and the output's buffer with those pieces written. -/
noncomputable def run (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) :
    { L : List (View.Piece (Elt F) S16x128x1156 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__norm_kernel i arg1 harg1 arg2 harg2 arg3 harg3 arg4 harg4) K } := by
  refine ⟨?_, fun E K => ?run⟩
  case run =>
    simp only [cc1__norm_kernel_eq_skeleton]; unfold cc1__norm_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's sixteen stores are the sixteen [1, 128, 1156] slabs of the output block, each exactly once: they tile the
    block in blocks of one slab, so every index of the block lies in one of the pieces. -/
theorem cover (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) (y : S16x128x1156.Idx) :
    ∃ pc ∈ (run c i arg1 harg1 arg2 harg2 arg3 harg3 arg4 harg4 x0 x1 x2).1, y ∈ pc.1.set :=
  View.cover_of_tiledL (run c i arg1 harg1 arg2 harg2 arg3 harg3 arg4 harg4 x0 x1 x2).1 S1x128x1156.size (by sl_kernel_rfl) y

/-- The output block after the body: the pieces read back (over contents that no longer matter, the pieces covering the block). -/
def outBlock (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) : Vec F S16x128x1156 .f32 :=
  outView.read (Elt F) (outView.writes (Elt F) outView.junk (run c i arg1 harg1 arg2 harg2 arg3 harg3 arg4 harg4 x0 x1 x2).1)

/-! ## The output block point by point, and the proof data -/

/-- Each window's current staging memref at point `t`, as the pipeline passes it to the body, and its wholeness. -/
abbrev ms0 (t : Fin cfg1.N) : Memref sig .tc .vmem S16x128x1156 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S128x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x128x1156 .f32 := win1_3.stage (cfg1.slots t 3)
abbrev hs3 (t : Fin cfg1.N) : (ms3 t).IsWhole := hstage1_3 ((cfg1.slots t 3).cast nbuf1_3)

/-- The output block after the body at point `t`: the run's block at the point's memrefs and input blocks. -/
def outAt (c : Dev nD) (t : Fin cfg1.N) : Vec F S16x128x1156 .f32 :=
  outBlock c (grid1.coords t) (ms0 t) (hs0 t) (ms1 t) (hs1 t) (ms2 t) (hs2 t) (ms3 t) (hs3 t) (blk V c 0 t) (blk V c 1 t) (blk V c 2 t)

/-- The proof data of the call on core `c`: the arrays as the call finds them; after the body at point `t` each input's
    buffer at its block and the output's at `outAt`; the invariant is the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = blk V c 0 t :=
  before_images_of V (dat V c) (A_eq V c 0) (after_0 V c) t d
theorem before_1 (c : Dev nD) (t : Fin cfg1.N) (d) : (dat V c).before 1 t d = blk V c 1 t :=
  before_rstd_of V (dat V c) (A_eq V c 1) (after_1 V c) t d
theorem before_2 (c : Dev nD) (t : Fin cfg1.N) (d) : (dat V c).before 2 t d = blk V c 2 t :=
  before_bias_of V (dat V c) (A_eq V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 800000 in
/-- The body at any point: the inputs' memrefs hold their blocks, so the run applies; the invariant and what the core owes
    pass through unread; the output's buffer ends at the pieces read back, the pieces covering the block. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold outAt
  unfold outBlock; (try dsimp only)
  iintro ⟨HΦ, Ho, ⟨%d0, H0⟩, ⟨%d1, H1⟩, ⟨%d2, H2⟩, ⟨%d3, H3⟩⟩
  iapply ((run c (grid1.coords t) _ _ _ _ _ _ _ _ (blk V c 0 t) (blk V c 1 t) (blk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.NormPass

end
-- ==== Proof.KernelFrame.lean ====
/-
  The frame of the whole program: every weakly fair execution of @main terminates, nothing faults, and the three argument
  arrays end as launched.

  @main is seven items: three stretches of host operations (the weight matrices' taps sliced out and stacked side by side,
  the input clamped at zero, padded by one row and one column on every side and flattened), the convolution and
  statistics call, a stretch that turns the per-image sums into the per-channel mean, variance, reciprocal standard
  deviation and bias, the normalize call, and the final reshape. The contents of the TensorCore's buffers at each of the
  eight boundaries are a fold from the launch memory: a host stretch applies its operations; a call leaves each of its
  windows' arrays at what its write-backs produce and every other buffer as it was. No host operation writes an
  argument and no argument is an array of either call, so each argument is read back through the fold to its launch
  contents.
-/
import proofs.«100421_g2000304308963006_pallasbulk_990_41_alg».proof.Proof.Gen.Kernel.Regions
import proofs.«100421_g2000304308963006_pallasbulk_990_41_alg».proof.Proof.KernelStatsPass
import proofs.«100421_g2000304308963006_pallasbulk_990_41_alg».proof.Proof.KernelNormPass
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weights' taps are stacked and the input is clamped at zero. -/
abbrev W1 : Dev nD → Valuation τ sig (Elt F) := fun c => StableHlo.after hostOps0 (W0 m ρ c)
/-- After the padding. -/
abbrev W2 : Dev nD → Valuation τ sig (Elt F) := fun c => StableHlo.after hostOps0_1 (W1 m ρ c)
/-- After the flattening: what the first call is entered with. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first call's exit: each of its arrays at what the pipeline leaves, every other buffer as entered. -/
def W4 (c : Dev nD) : Valuation τ sig (Elt F) :=
  Pipeline.withArrays spec0 c (W3 m ρ c) fun w => (StatsPass.dat (V3 m ρ) c).arrAt w cfg0.N
theorem W4_arr (c : Dev nD) (w : Fin cfg0.W) :
    W4 m ρ c (Proc.devRef .tc (Pipeline.arrRef spec0 w)) = (StatsPass.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (StatsPass.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the statistics are turned into the per-channel scale and bias: what the second call is entered with. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second call's exit. -/
def W6 (c : Dev nD) : Valuation τ sig (Elt F) :=
  Pipeline.withArrays spec1 c (W5 m ρ c) fun w => (NormPass.dat (V5 m ρ) c).arrAt w cfg1.N
theorem W6_arr (c : Dev nD) (w : Fin cfg1.W) :
    W6 m ρ c (Proc.devRef .tc (Pipeline.arrRef spec1 w)) = (NormPass.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (NormPass.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the final reshape: what @main returns with. -/
abbrev W7 : Dev nD → Valuation τ sig (Elt F) := fun c => StableHlo.after hostOps2 (W6 m ρ c)

/-! ## The arguments end as launched -/

/-- Argument 0 ends as launched: no host operation writes it, and it is no array of either call's windows. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- Argument 1 ends as launched: no host operation writes it, and it is no array of either call's windows. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- Argument 2 ends as launched: no host operation writes it, and it is no array of either call's windows. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- No call has a prefetched table. -/
abbrev adm : (p : Fin 2) → (pcfgs (F := F) p).Adm := fun p => (cfgs p).toPCfg_adm
/-- Each call's proof data at its entry contents, as a literal match on the call's number. -/
def pdats : (p : Fin 2) → (c : Dev nD) → Dat τ (Elt F) Unit ℕ (UR sig nD τ) ℕ (Pipeline.pin (pcfgs (F := F)) adm p) c
  | ⟨0, _⟩ => fun c => StatsPass.dat (V3 m ρ) c
  | ⟨1, _⟩ => fun c => NormPass.dat (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The two calls as items -/

-- a library lemma stated over the pinned configuration unifies with the printed one only when unification may unfold plain
-- definitions in a metavariable's type
set_option backward.isDefEq.respectTransparency.types false in
/-- Call 0 over the thread state: entered with every unscoped buffer at `W3`, left with them at `W4`. Its
    arrays are split out of the unscoped buffers and put back at what the pipeline leaves; the generator register goes into
    the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (StatsPass.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 over the thread state: entered with every unscoped buffer at `W5`, left with them at `W6`. Its
    arrays are split out of the unscoped buffers and put back at what the pipeline leaves; the generator register goes into
    the call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (NormPass.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main is the run of its items. -/
theorem main_run (c : Dev nD) : main (F := F) c = Pipeline.Seg.run (segs m ρ) := (main_chain c).trans (by chain_rfl)

set_option backward.isDefEq.respectTransparency.types false in
/-- The run, at any float instance: from any memory with zero counters, every weakly fair execution of @main on the
    TensorCores terminates, nothing faulting, and every final state holds every unscoped buffer of every TensorCore at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the three argument arrays end as launched (each read back through the fold to its launch contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩) (run_all m ρ)

end Cert.Kernel.Run

end
-- ==== Proof.KernelIdealStatsPass.lean ====
/-
  The first pallas_call of the program (the convolution and statistics pass) as one item of the frame: for any
  contents `V` the TensorCore's buffers hold when the call is entered, the pipeline's proof data and its body obligation.

  The grid has 8 points; at point `t` the call stages sixteen padded, flattened images (a block [16, 64, 1156] of the
  [128, 64, 1156] array) and the two stacked weight matrices [64, 192] and [128, 192], whole at every point. For each
  of the sixteen images the body forms the three row-shifted copies, multiplies by the first weight matrix, forms the
  three lane-rotated copies of the product, multiplies by the second weight matrix, and stores the row sums, the row
  sums of squares and the product itself into slab `b` of the three output blocks [16, 128, 1], [16, 128, 1] and
  [16, 128, 1156]. It reads each slab of an output block before it stores into it and uses nothing of what it read,
  so the output blocks may enter at any contents.

  What the body leaves in each output block is stated through the list of pieces its stores make, which the symbolic
  run of the body finds; in each block the sixteen slabs tile it, so the pieces read back over any previous contents
  determine it.
-/
import proofs.«100421_g2000304308963006_pallasbulk_990_41_alg».proof.Proof.Gen.KernelIdeal.Launch
import proofs.«100421_g2000304308963006_pallasbulk_990_41_alg».proof.Proof.Gen.KernelIdeal.Skeleton
import proofs.«100421_g2000304308963006_pallasbulk_990_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.StatsPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call stages -/

/-- The block of window `w` at grid point `t`, read off the window's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The images' staging buffer holds the point's sixteen images when the body starts, whether they were fetched at this
    point or not, for any proof data over the entry contents whose body leaves the block in place. -/
theorem before_images_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for the first stacked weight matrix (fetched at the first point only; its block never moves). -/
theorem before_w1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for the second stacked weight matrix. -/
theorem before_w2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body on any staging memrefs -/

/-- One staging buffer of each output window, through which the block's contents after the body are stated. -/
abbrev sumView : View sig .tc .vmem S16x128x1 .f32 := (Memref.whole cc0_stg3_0 : Memref sig .tc .vmem S16x128x1 .f32).view
abbrev sqView : View sig .tc .vmem S16x128x1 .f32 := (Memref.whole cc0_stg4_0 : Memref sig .tc .vmem S16x128x1 .f32).view
abbrev convView : View sig .tc .vmem S16x128x1156 .bf16 := (Memref.whole cc0_stg5_0 : Memref sig .tc .vmem S16x128x1156 .bf16).view

set_option maxHeartbeats 4000000 in
/-- The pieces the body's stores leave in the three output blocks (row sums, row sums of squares, the convolution
    output), last first, WITH the proof that on whole staging memrefs — the inputs' at their contents, the outputs' at
    anything — the body runs to a continuation that gets the inputs back as they were and each output's buffer with its
    pieces written. -/
noncomputable def run (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) :
    Σ' (Lsum : List (View.Piece (Elt F) S16x128x1 .f32)), Σ' (Lsq : List (View.Piece (Elt F) S16x128x1 .f32)), { Lconv : List (View.Piece (Elt F) S16x128x1156 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f Lsum) ∗ (∃ f, arg5.view.loc (c : Thread nD τ) ↦[arg5.view.set]{fullShare} arg5.view.writes (Elt F) f Lsq) ∗ (∃ f, arg6.view.loc (c : Thread nD τ) ↦[arg6.view.set]{fullShare} arg6.view.writes (Elt F) f Lconv)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The body's stores into the block of row sums are its sixteen [1, 128, 1] slabs, each exactly once: they tile the block in
    blocks of one slab. -/
theorem cover_sum (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1.Idx) :
    ∃ pc ∈ (run c i arg1 harg1 arg2 harg2 arg3 harg3 arg4 harg4 arg5 harg5 arg6 harg6 x0 x1 x2).1, y ∈ pc.1.set :=
  View.cover_of_tiledL (run c i arg1 harg1 arg2 harg2 arg3 harg3 arg4 harg4 arg5 harg5 arg6 harg6 x0 x1 x2).1 S1x128x1.size (by sl_kernel_rfl) y
/-- The same for the block of row sums of squares. -/
theorem cover_sq (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1.Idx) :
    ∃ pc ∈ (run c i arg1 harg1 arg2 harg2 arg3 harg3 arg4 harg4 arg5 harg5 arg6 harg6 x0 x1 x2).2.1, y ∈ pc.1.set :=
  View.cover_of_tiledL (run c i arg1 harg1 arg2 harg2 arg3 harg3 arg4 harg4 arg5 harg5 arg6 harg6 x0 x1 x2).2.1 S1x128x1.size (by sl_kernel_rfl) y
/-- The same for the block of convolution outputs, in its sixteen [1, 128, 1156] slabs. -/
theorem cover_conv (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) (y : S16x128x1156.Idx) :
    ∃ pc ∈ (run c i arg1 harg1 arg2 harg2 arg3 harg3 arg4 harg4 arg5 harg5 arg6 harg6 x0 x1 x2).2.2.1, y ∈ pc.1.set :=
  View.cover_of_tiledL (run c i arg1 harg1 arg2 harg2 arg3 harg3 arg4 harg4 arg5 harg5 arg6 harg6 x0 x1 x2).2.2.1 S1x128x1156.size (by sl_kernel_rfl) y

/-- The three output blocks after the body: the pieces read back (over contents that no longer matter). -/
def sumBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1 .f32 :=
  sumView.read (Elt F) (sumView.writes (Elt F) sumView.junk (run c i arg1 harg1 arg2 harg2 arg3 harg3 arg4 harg4 arg5 harg5 arg6 harg6 x0 x1 x2).1)
def sqBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1 .f32 :=
  sqView.read (Elt F) (sqView.writes (Elt F) sqView.junk (run c i arg1 harg1 arg2 harg2 arg3 harg3 arg4 harg4 arg5 harg5 arg6 harg6 x0 x1 x2).2.1)
def convBlock (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x0 : Vec F S16x64x1156 .bf16) (x1 : Vec F S64x192 .bf16) (x2 : Vec F S128x192 .bf16) : Vec F S16x128x1156 .bf16 :=
  convView.read (Elt F) (convView.writes (Elt F) convView.junk (run c i arg1 harg1 arg2 harg2 arg3 harg3 arg4 harg4 arg5 harg5 arg6 harg6 x0 x1 x2).2.2.1)

/-! ## The output blocks point by point, and the proof data -/

/-- Each window's current staging memref at point `t`, as the pipeline passes it to the body, and its wholeness. -/
abbrev ms0 (t : Fin cfg0.N) : Memref sig .tc .vmem S16x64x1156 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x192 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x192 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x128x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128x1156 .bf16 := win0_5.stage (cfg0.slots t 5)
abbrev hs5 (t : Fin cfg0.N) : (ms5 t).IsWhole := hstage0_5 ((cfg0.slots t 5).cast nbuf0_5)

/-- The three output blocks after the body at point `t` (row sums, row sums of squares, convolution output): the run's
    blocks at the point's memrefs and input blocks. -/
def outsAt (c : Dev nD) (t : Fin cfg0.N) : Vec F S16x128x1 .f32 × Vec F S16x128x1 .f32 × Vec F S16x128x1156 .bf16 :=
  (sumBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t),
   sqBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t),
   convBlock c (grid0.coords t) (ms0 t) (hs0 t) (ms1 t) (hs1 t) (ms2 t) (hs2 t) (ms3 t) (hs3 t) (ms4 t) (hs4 t) (ms5 t) (hs5 t) (blk V c 0 t) (blk V c 1 t) (blk V c 2 t))

/-- The proof data of the call on core `c`: the arrays as the call finds them; after the body at point `t` each input's
    buffer at its block and the outputs' at `outsAt`; the invariant is the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => (outsAt V c t).1
    | ⟨4, _⟩ => (outsAt V c t).2.1
    | ⟨5, _⟩ => (outsAt V c t).2.2
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = (outsAt V c t).1 := by dsimp only [dat]
theorem after_4 (c : Dev nD) (t : Fin cfg0.N) : (dat V c).after 4 t = (outsAt V c t).2.1 := by dsimp only [dat]
theorem after_5 (c : Dev nD) (t : Fin cfg0.N) : (dat V c).after 5 t = (outsAt V c t).2.2 := by dsimp only [dat]

theorem before_0 (c : Dev nD) (t : Fin cfg0.N) (d) : (dat V c).before 0 t d = blk V c 0 t :=
  before_images_of V (dat V c) (A_eq V c 0) (after_0 V c) t d
theorem before_1 (c : Dev nD) (t : Fin cfg0.N) (d) : (dat V c).before 1 t d = blk V c 1 t :=
  before_w1_of V (dat V c) (A_eq V c 1) (after_1 V c) t d
theorem before_2 (c : Dev nD) (t : Fin cfg0.N) (d) : (dat V c).before 2 t d = blk V c 2 t :=
  before_w2_of V (dat V c) (A_eq V c 2) (after_2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 800000 in
/-- The body at any point: the inputs' memrefs hold their blocks, so the run applies; the invariant and what the core owes
    pass through unread; each output's buffer ends at its pieces read back, the pieces covering the block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  unfold outsAt
  unfold sumBlock sqBlock convBlock; (try dsimp only)
  iintro ⟨HΦ, Ho, ⟨%d0, H0⟩, ⟨%d1, H1⟩, ⟨%d2, H2⟩, ⟨%d3, H3⟩, ⟨%d4, H4⟩, ⟨%d5, H5⟩⟩
  iapply ((run c (grid0.coords t) _ _ _ _ _ _ _ _ _ _ _ _ (blk V c 0 t) (blk V c 1 t) (blk V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_sum c _ _ _ _ _ _ _ _ _ _ _ _ _ _ _ _)
  isplitl [H4]
  · unfold owns; iexists _; isplitr
    swap; · iexact H4
    ipureintro; exact View.read_writes_of_cover _ _ _ _ _ (cover_sq c _ _ _ _ _ _ _ _ _ _ _ _ _ _ _ _)
  unfold owns; iexists _; isplitr
  swap; · iexact H5
  ipureintro; exact View.read_writes_of_cover _ _ _ _ _ (cover_conv c _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.StatsPass

end
-- ==== Proof.KernelIdealNormPass.lean ====
/-
  The second pallas_call of the program (the normalize pass) as one item of the frame: for any contents `V` the
  TensorCore's buffers hold when the call is entered, the pipeline's proof data and its body obligation.

  The grid has 8 points; at point `t` the call stages sixteen images of the stored convolution output
  (a block [16, 128, 1156] of the [128, 128, 1156] array), and the two per-channel columns [128, 1] (the reciprocal
  standard deviation and the bias), whole at every point; the body writes, image by image, `y · rstd + bias` into
  the sixteen [1, 128, 1156] slabs of the output block. It reads each slab of the output block before it stores
  into it, and uses nothing of what it read, so the output block may enter at any contents.

  What the body leaves in the output block is stated through the list of pieces its stores make, which the
  symbolic run of the body finds; the sixteen slabs tile the block, so the pieces read back over any previous
  contents determine it.
-/
import proofs.«100421_g2000304308963006_pallasbulk_990_41_alg».proof.Proof.Gen.KernelIdeal.Launch
import proofs.«100421_g2000304308963006_pallasbulk_990_41_alg».proof.Proof.Gen.KernelIdeal.Skeleton
import proofs.«100421_g2000304308963006_pallasbulk_990_41_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NormPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the call stages -/

/-- The block of window `w` at grid point `t`, read off the window's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The images' staging buffer holds the point's sixteen images when the body starts, whether they were fetched at this
    point or not, for any proof data over the entry contents whose body leaves the block in place. -/
theorem before_images_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for the column of reciprocal standard deviations (fetched at the first point only; its block never moves). -/
theorem before_rstd_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for the column of biases. -/
theorem before_bias_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body on any staging memrefs -/

/-- One staging buffer of the output window, through which the block's contents after the body are stated (the pieces cover
    the block, so the choice of buffer does not matter). -/
abbrev outView : View sig .tc .vmem S16x128x1156 .f32 := (Memref.whole cc1_stg3_0 : Memref sig .tc .vmem S16x128x1156 .f32).view

set_option maxHeartbeats 1000000 in
/-- The pieces the body's sixteen stores leave in the output block, last first, WITH the proof that on whole staging
    memrefs — the inputs' at their contents, the output's at anything — the body runs to a continuation that gets the
    inputs back as they were and the output's buffer with those pieces written. -/
noncomputable def run (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) :
    { L : List (View.Piece (Elt F) S16x128x1156 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc1__norm_kernel i arg1 harg1 arg2 harg2 arg3 harg3 arg4 harg4) K } := by
  refine ⟨?_, fun E K => ?run⟩
  case run =>
    simp only [cc1__norm_kernel_eq_skeleton]; unfold cc1__norm_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The body's sixteen stores are the sixteen [1, 128, 1156] slabs of the output block, each exactly once: they tile the
    block in blocks of one slab, so every index of the block lies in one of the pieces. -/
theorem cover (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) (y : S16x128x1156.Idx) :
    ∃ pc ∈ (run c i arg1 harg1 arg2 harg2 arg3 harg3 arg4 harg4 x0 x1 x2).1, y ∈ pc.1.set :=
  View.cover_of_tiledL (run c i arg1 harg1 arg2 harg2 arg3 harg3 arg4 harg4 x0 x1 x2).1 S1x128x1156.size (by sl_kernel_rfl) y

/-- The output block after the body: the pieces read back (over contents that no longer matter, the pieces covering the block). -/
def outBlock (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec F S16x128x1156 .bf16) (x1 : Vec F S128x1 .f32) (x2 : Vec F S128x1 .f32) : Vec F S16x128x1156 .f32 :=
  outView.read (Elt F) (outView.writes (Elt F) outView.junk (run c i arg1 harg1 arg2 harg2 arg3 harg3 arg4 harg4 x0 x1 x2).1)

/-! ## The output block point by point, and the proof data -/

/-- Each window's current staging memref at point `t`, as the pipeline passes it to the body, and its wholeness. -/
abbrev ms0 (t : Fin cfg1.N) : Memref sig .tc .vmem S16x128x1156 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S128x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S16x128x1156 .f32 := win1_3.stage (cfg1.slots t 3)
abbrev hs3 (t : Fin cfg1.N) : (ms3 t).IsWhole := hstage1_3 ((cfg1.slots t 3).cast nbuf1_3)

/-- The output block after the body at point `t`: the run's block at the point's memrefs and input blocks. -/
def outAt (c : Dev nD) (t : Fin cfg1.N) : Vec F S16x128x1156 .f32 :=
  outBlock c (grid1.coords t) (ms0 t) (hs0 t) (ms1 t) (hs1 t) (ms2 t) (hs2 t) (ms3 t) (hs3 t) (blk V c 0 t) (blk V c 1 t) (blk V c 2 t)

/-- The proof data of the call on core `c`: the arrays as the call finds them; after the body at point `t` each input's
    buffer at its block and the output's at `outAt`; the invariant is the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]

theorem before_0 (c : Dev nD) (t : Fin cfg1.N) (d) : (dat V c).before 0 t d = blk V c 0 t :=
  before_images_of V (dat V c) (A_eq V c 0) (after_0 V c) t d
theorem before_1 (c : Dev nD) (t : Fin cfg1.N) (d) : (dat V c).before 1 t d = blk V c 1 t :=
  before_rstd_of V (dat V c) (A_eq V c 1) (after_1 V c) t d
theorem before_2 (c : Dev nD) (t : Fin cfg1.N) (d) : (dat V c).before 2 t d = blk V c 2 t :=
  before_bias_of V (dat V c) (A_eq V c 2) (after_2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 800000 in
/-- The body at any point: the inputs' memrefs hold their blocks, so the run applies; the invariant and what the core owes
    pass through unread; the output's buffer ends at the pieces read back, the pieces covering the block. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  unfold outAt
  unfold outBlock; (try dsimp only)
  iintro ⟨HΦ, Ho, ⟨%d0, H0⟩, ⟨%d1, H1⟩, ⟨%d2, H2⟩, ⟨%d3, H3⟩⟩
  iapply ((run c (grid1.coords t) _ _ _ _ _ _ _ _ (blk V c 0 t) (blk V c 1 t) (blk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.NormPass

end
-- ==== Proof.KernelIdealFrame.lean ====
/-
  The frame of the whole program: every weakly fair execution of @main terminates, nothing faults, and the three argument
  arrays end as launched.

  @main is seven items: three stretches of host operations (the weight matrices' taps sliced out and stacked side by side,
  the input clamped at zero, padded by one row and one column on every side and flattened), the convolution and
  statistics call, a stretch that turns the per-image sums into the per-channel mean, variance, reciprocal standard
  deviation and bias, the normalize call, and the final reshape. The contents of the TensorCore's buffers at each of the
  eight boundaries are a fold from the launch memory: a host stretch applies its operations; a call leaves each of its
  windows' arrays at what its write-backs produce and every other buffer as it was. No host operation writes an
  argument and no argument is an array of either call, so each argument is read back through the fold to its launch
  contents.
-/
import proofs.«100421_g2000304308963006_pallasbulk_990_41_alg».proof.Proof.Gen.KernelIdeal.Regions
import proofs.«100421_g2000304308963006_pallasbulk_990_41_alg».proof.Proof.KernelIdealStatsPass
import proofs.«100421_g2000304308963006_pallasbulk_990_41_alg».proof.Proof.KernelIdealNormPass
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the weights' taps are stacked and the input is clamped at zero. -/
abbrev W1 : Dev nD → Valuation τ sig (Elt F) := fun c => StableHlo.after hostOps0 (W0 m ρ c)
/-- After the padding. -/
abbrev W2 : Dev nD → Valuation τ sig (Elt F) := fun c => StableHlo.after hostOps0_1 (W1 m ρ c)
/-- After the flattening: what the first call is entered with. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first call's exit: each of its arrays at what the pipeline leaves, every other buffer as entered. -/
def W4 (c : Dev nD) : Valuation τ sig (Elt F) :=
  Pipeline.withArrays spec0 c (W3 m ρ c) fun w => (StatsPass.dat (V3 m ρ) c).arrAt w cfg0.N
theorem W4_arr (c : Dev nD) (w : Fin cfg0.W) :
    W4 m ρ c (Proc.devRef .tc (Pipeline.arrRef spec0 w)) = (StatsPass.dat (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (StatsPass.dat (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the statistics are turned into the per-channel scale and bias: what the second call is entered with. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second call's exit. -/
def W6 (c : Dev nD) : Valuation τ sig (Elt F) :=
  Pipeline.withArrays spec1 c (W5 m ρ c) fun w => (NormPass.dat (V5 m ρ) c).arrAt w cfg1.N
theorem W6_arr (c : Dev nD) (w : Fin cfg1.W) :
    W6 m ρ c (Proc.devRef .tc (Pipeline.arrRef spec1 w)) = (NormPass.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (NormPass.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the final reshape: what @main returns with. -/
abbrev W7 : Dev nD → Valuation τ sig (Elt F) := fun c => StableHlo.after hostOps2 (W6 m ρ c)

/-! ## The arguments end as launched -/

/-- Argument 0 ends as launched: no host operation writes it, and it is no array of either call's windows. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- Argument 1 ends as launched: no host operation writes it, and it is no array of either call's windows. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- Argument 2 ends as launched: no host operation writes it, and it is no array of either call's windows. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-! ## The proof data family and the thread state -/

/-- No call has a prefetched table. -/
abbrev adm : (p : Fin 2) → (pcfgs (F := F) p).Adm := fun p => (cfgs p).toPCfg_adm
/-- Each call's proof data at its entry contents, as a literal match on the call's number. -/
def pdats : (p : Fin 2) → (c : Dev nD) → Dat τ (Elt F) Unit ℕ (UR sig nD τ) ℕ (Pipeline.pin (pcfgs (F := F)) adm p) c
  | ⟨0, _⟩ => fun c => StatsPass.dat (V3 m ρ) c
  | ⟨1, _⟩ => fun c => NormPass.dat (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The two calls as items -/

-- a library lemma stated over the pinned configuration unifies with the printed one only when unification may unfold plain
-- definitions in a metavariable's type
set_option backward.isDefEq.respectTransparency.types false in
/-- Call 0 over the thread state: entered with every unscoped buffer at `W3`, left with them at `W4`. Its
    arrays are split out of the unscoped buffers and put back at what the pipeline leaves; the generator register goes into
    the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (StatsPass.body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 over the thread state: entered with every unscoped buffer at `W5`, left with them at `W6`. Its
    arrays are split out of the unscoped buffers and put back at what the pipeline leaves; the generator register goes into
    the call's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (NormPass.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]
/-- @main is the run of its items. -/
theorem main_run (c : Dev nD) : main (F := F) c = Pipeline.Seg.run (segs m ρ) := (main_chain c).trans (by chain_rfl)

set_option backward.isDefEq.respectTransparency.types false in
/-- The run, at any float instance: from any memory with zero counters, every weakly fair execution of @main on the
    TensorCores terminates, nothing faulting, and every final state holds every unscoped buffer of every TensorCore at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the three argument arrays end as launched (each read back through the fold to its launch contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩) (run_all m ρ)

end Cert.KernelIdeal.Run

end
-- ==== Proof.ReferenceIdealValueRun.lean ====
/-
  The reference program's run with every buffer named: every weakly fair execution of its @main terminates, nothing
  faults, and in the final state every unscoped buffer of each TensorCore holds the contents the fold through @main's
  items gives at the last boundary (a host stretch applies its operations; a call leaves each of its windows' arrays at
  what its write-backs produce). The generated frame keeps of this only that the three arguments end as launched; the
  value of the result buffer is read off the same fold.
-/
import proofs.«100421_g2000304308963006_pallasbulk_990_41_alg».proof.Proof.Gen.ReferenceIdeal.Frame

set_option maxRecDepth 16384

noncomputable section

namespace Cert.ReferenceIdeal.ValueRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program runs, and every final state holds every unscoped buffer of every
    TensorCore at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.ReferenceIdeal.ValueRun

end
-- ==== Proof.Spec.lean ====
/-
  What the two programs compute, written as plain functions of natural-number indices over the extended reals.

  The inputs are the image batch `x n ci a b` ([128, 64, 32, 32]), the 3x1 weights `w1 c ci t` ([64, 64, 3, 1]) and
  the 1x3 weights `w2 o c t` ([128, 64, 1, 3]), each extended by zero outside its array.

  THE KERNEL works on images flattened with rows of width 34 (index `j = 34·R + q`, 34 rows): the input clamped at
  zero and padded by one row and one column on every side (`padK`); its three copies shifted by one row down, not at
  all, and one row up, the first and last row of a shifted copy zero, stacked along the contraction axis
  (`shiftK`, 192 = 3·64 rows); the first product (`conv1K`); its three copies rotated by one lane right, not at all, and
  one lane left, stacked (`rotK`); the second product (`conv2K`); its row sums and row sums of squares.

  THE REFERENCE works with rows of width 36: the input padded by one row above and below and two columns left and right
  (`padR`, 34 rows), clamped at zero inside its kernel; the first product as three 64-term products of slices
  shifted by whole rows, added to zero one after the other (`conv1R`, 32 rows); that placed one row down in a zero
  buffer of 34 rows and two more entries (`placedR`); the second product as three 64-term products of slices shifted
  by one entry (`conv2R`); times the 0/1 mask of the first 34 columns of each row (`maskedR`); row sums and row sums
  of squares of that.

  BOTH then form, per output channel, the mean and the mean of squares over the batch (a sum over the 128 images added
  to zero, divided by the count), the variance, and the reciprocal square root of the variance plus epsilon. The kernel
  returns `y · rstd + (−mean) · rstd`, the reference `(y − mean) · rstd` on the first 34 columns.
-/
import Idealize.ShloMosaic.PureOps.Ideal
import Idealize.ShloMosaic.Lib.ValueIdx

noncomputable section

namespace Cert.Spec

open Idealize.ShloMosaic Idealize.ShloMosaic.ValueIdx Finset

/-! ## The argument arrays as total functions -/

/-- The image batch, zero outside [128, 64, 32, 32]. -/
def extX (X : (⟨4, ![128, 64, 32, 32]⟩ : Shape).Idx → EReal) (n ci a b : ℕ) : EReal :=
  if h : n < 128 ∧ ci < 64 ∧ a < 32 ∧ b < 32 then X (ix4 ⟨n, h.1⟩ ⟨ci, h.2.1⟩ ⟨a, h.2.2.1⟩ ⟨b, h.2.2.2⟩) else 0
/-- The 3x1 weights `w1 c ci t`, zero outside [64, 64, 3]. -/
def extW1 (W : (⟨4, ![64, 64, 3, 1]⟩ : Shape).Idx → EReal) (c ci t : ℕ) : EReal :=
  if h : c < 64 ∧ ci < 64 ∧ t < 3 then W (ix4 ⟨c, h.1⟩ ⟨ci, h.2.1⟩ ⟨t, h.2.2⟩ ⟨0, by decide⟩) else 0
/-- The 1x3 weights `w2 o c t`, zero outside [128, 64, 3]. -/
def extW2 (W : (⟨4, ![128, 64, 1, 3]⟩ : Shape).Idx → EReal) (o c t : ℕ) : EReal :=
  if h : o < 128 ∧ c < 64 ∧ t < 3 then W (ix4 ⟨o, h.1⟩ ⟨c, h.2.1⟩ ⟨0, by decide⟩ ⟨t, h.2.2⟩) else 0

variable (x : ℕ → ℕ → ℕ → ℕ → EReal) (w1 : ℕ → ℕ → ℕ → EReal) (w2 : ℕ → ℕ → ℕ → EReal)

/-! ## The statistics both programs share -/

variable (cnt eps : EReal)

/-- The per-channel mean of the per-image quantity `p n o` over the 128 images. -/
def meanOf (p : ℕ → ℕ → EReal) (o : ℕ) : EReal := Ideal.div (0 + ∑ n ∈ range 128, p n o) cnt
/-- The biased variance from the per-image sums `ps` and sums of squares `pq`. -/
def varOf (ps pq : ℕ → ℕ → EReal) (o : ℕ) : EReal := meanOf cnt pq o - meanOf cnt ps o * meanOf cnt ps o
/-- The reciprocal standard deviation. -/
def rstdOf (ps pq : ℕ → ℕ → EReal) (o : ℕ) : EReal := Ideal.rsqrt (varOf cnt ps pq o + eps)

/-! ## The kernel (rows of width 34) -/

/-- The input clamped at zero, padded to 34 x 34 and flattened. -/
def padK (n ci j : ℕ) : EReal :=
  if 1 ≤ j / 34 ∧ j / 34 ≤ 32 ∧ 1 ≤ j % 34 ∧ j % 34 ≤ 32 then max (x n ci (j / 34 - 1) (j % 34 - 1)) 0 else 0
/-- The three row-shifted copies stacked: rows 0–63 shifted down, 64–127 in place, 128–191 shifted up. -/
def shiftK (n k j : ℕ) : EReal :=
  if k < 64 then (if 34 ≤ j ∧ j < 1122 then padK x n k (j - 34) else 0)
  else if k < 128 then padK x n (k - 64) j
  else (if 34 ≤ j ∧ j < 1122 then padK x n (k - 128) (j + 34) else 0)
/-- The first weights with the taps side by side: column `k` is tap `k / 64`, input channel `k % 64`. -/
def w1K (c k : ℕ) : EReal := w1 c (k % 64) (k / 64)
def conv1K (n c j : ℕ) : EReal := ∑ k ∈ range 192, w1K w1 c k * shiftK x n k j
/-- The three lane-rotated copies stacked: rotated right (entry 0 takes entry 1155), in place, rotated left. -/
def rotK (n k j : ℕ) : EReal :=
  if k < 64 then (if j = 0 then conv1K x w1 n k 1155 else conv1K x w1 n k (j - 1))
  else if k < 128 then conv1K x w1 n (k - 64) j
  else (if j = 1155 then conv1K x w1 n (k - 128) 0 else conv1K x w1 n (k - 128) (j + 1))
def w2K (o k : ℕ) : EReal := w2 o (k % 64) (k / 64)
def conv2K (n o j : ℕ) : EReal := ∑ k ∈ range 192, w2K w2 o k * rotK x w1 n k j
def sumK (n o : ℕ) : EReal := 0 + ∑ j ∈ range 1156, conv2K x w1 w2 n o j
def sqK (n o : ℕ) : EReal := 0 + ∑ j ∈ range 1156, conv2K x w1 w2 n o j * conv2K x w1 w2 n o j
/-- The kernel's result at image `n`, channel `o`, flat position `j = 34·R + q`. -/
def outK (n o j : ℕ) : EReal :=
  conv2K x w1 w2 n o j * rstdOf cnt eps (sumK x w1 w2) (sqK x w1 w2) o
    + (-(meanOf cnt (sumK x w1 w2) o)) * rstdOf cnt eps (sumK x w1 w2) (sqK x w1 w2) o

/-! ## The reference (rows of width 36) -/

/-- The input padded to 34 x 36 and flattened (not yet clamped). -/
def padR (n ci j : ℕ) : EReal :=
  if 1 ≤ j / 36 ∧ j / 36 ≤ 32 ∧ 2 ≤ j % 36 ∧ j % 36 ≤ 33 then x n ci (j / 36 - 1) (j % 36 - 2) else 0
def reluR (n ci j : ℕ) : EReal := max (padR x n ci j) 0
/-- The first product: three 64-term products over slices starting at 0, 36 and 72, added to zero in turn. -/
def conv1R (n c j : ℕ) : EReal :=
  ((0 + ∑ ci ∈ range 64, w1 c ci 0 * reluR x n ci j) + ∑ ci ∈ range 64, w1 c ci 1 * reluR x n ci (36 + j))
    + ∑ ci ∈ range 64, w1 c ci 2 * reluR x n ci (72 + j)
/-- The first product placed one row down in a zero buffer of 1226 entries. -/
def placedR (n c j : ℕ) : EReal := if 36 ≤ j ∧ j < 1188 then conv1R x w1 n c (j - 36) else 0
/-- The second product: three 64-term products over slices starting at 0, 1 and 2. -/
def conv2R (n o j : ℕ) : EReal :=
  ((0 + ∑ c ∈ range 64, w2 o c 0 * placedR x w1 n c j) + ∑ c ∈ range 64, w2 o c 1 * placedR x w1 n c (j + 1))
    + ∑ c ∈ range 64, w2 o c 2 * placedR x w1 n c (j + 2)
/-- One on the first 34 columns of each row of 36, zero on the last two. -/
def maskR (j : ℕ) : EReal := if j % 36 < 34 then 1 else 0
def maskedR (n o j : ℕ) : EReal := conv2R x w1 w2 n o j * maskR j
def sumR (n o : ℕ) : EReal := 0 + ∑ j ∈ range 1224, maskedR x w1 w2 n o j
def sqR (n o : ℕ) : EReal := 0 + ∑ j ∈ range 1224, maskedR x w1 w2 n o j * maskedR x w1 w2 n o j
/-- The reference's result at image `n`, channel `o`, row `R`, column `q < 34`. -/
def outR (n o R q : ℕ) : EReal :=
  (maskedR x w1 w2 n o (36 * R + q) - meanOf cnt (sumR x w1 w2) o) * rstdOf cnt eps (sumR x w1 w2) (sqR x w1 w2) o

end Cert.Spec

end
-- ==== Proof.LibKeepdims.lean ====
/-
  Matrices with a kept unit axis, read at an index given by coordinates: a vector `[a]` cast to a column `[a, 1]`,
  a column `[a, 1]` broadcast along its rows to `[a, b]`, and the exact sum of an `[a, b]` matrix along one axis
  (along axis 1: the sum of a row; along axis 0: the sum of a column). General and reusable.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`:
    the two row-major positions are `i` and `i * 1 + u` with `u = 0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exact sum of an `[a, b]` matrix along axis 1, read at row `r`: the sum over the columns `k` of the entry
    `(r, k)`. -/
theorem multiReduction_add_rows {φ : FTy} {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d; match d with | ⟨0, _⟩ => rfl | ⟨1, _⟩ => rfl

/-- The exact sum of an `[a, b]` matrix along axis 0, read at column `c`: the sum over the rows `k` of the entry
    `(k, c)`. -/
theorem multiReduction_add_cols {φ : FTy} {a b : ℕ} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext d; match d with | ⟨0, _⟩ => rfl | ⟨1, _⟩ => rfl

end Cert.LibKeepdims

end
-- ==== Proof.KernelValueNormBlock.lean ====
/-
  The second call's output block, read entry by entry.

  For each of the sixteen images of a block the body stores, into slab b of the output block, the slab b of the stored
  convolution output times the column of reciprocal standard deviations plus the column of biases, both columns broadcast
  along the 1156 positions. The sixteen stores' values are one and the same function of (slab, column, column), and the
  sixteen slabs tile the block: so entry (b, o, j) of the block after the body is the input block's entry (b, o, j)
  times the first column's entry o plus the second column's entry o.
-/
import proofs.«100421_g2000304308963006_pallasbulk_990_41_alg».proof.Proof.KernelIdealNormPass
import proofs.«100421_g2000304308963006_pallasbulk_990_41_alg».proof.Proof.LibKeepdims
import Idealize.ShloMosaic.Lib.Pipeline.Value
import Idealize.ShloMosaic.Lib.ValueIdx

noncomputable section

set_option maxRecDepth 16384

namespace Cert.KernelIdeal.ValueLeg

open Cert.KernelIdeal Cert.KernelIdeal.Gen
open Idealize.ShloMosaic Idealize.ShloMosaic.TcCoe Idealize.ShloMosaic.ValueIdx Idealize.SL.Sem Idealize.ShloMosaic.Tactic

section AnyInstance
variable {F : FTy → Type} [FloatOps F]

/-- Every slab's stored value is the one function `k1_pay3` of the slab and the two columns. -/
theorem k1_pay2_eq : @k1_pay2 F _ = k1_pay3 := rfl
theorem k1_pay4_eq : @k1_pay4 F _ = k1_pay3 := rfl
theorem k1_pay8_eq : @k1_pay8 F _ = k1_pay3 := rfl
theorem k1_pay11_eq : @k1_pay11 F _ = k1_pay3 := rfl
theorem k1_pay12_eq : @k1_pay12 F _ = k1_pay3 := rfl
theorem k1_pay13_eq : @k1_pay13 F _ = k1_pay3 := rfl
theorem k1_pay14_eq : @k1_pay14 F _ = k1_pay3 := rfl
theorem k1_pay17_eq : @k1_pay17 F _ = k1_pay3 := rfl
theorem k1_pay18_eq : @k1_pay18 F _ = k1_pay3 := rfl
theorem k1_pay19_eq : @k1_pay19 F _ = k1_pay3 := rfl
theorem k1_pay20_eq : @k1_pay20 F _ = k1_pay3 := rfl
theorem k1_pay1_eq (a : Vec F S1x128x1156 .bf16) (r b : Vec F S128x1 .f32) : k1_pay1 (k1_pay21 a) (k1_pay22 r) b = k1_pay3 a r b := rfl
theorem k1_pay7_eq (a : Vec F S1x128x1156 .bf16) (r b : Vec F S128x1 .f32) : k1_pay7 (k1_pay5 a) (k1_pay6 r) b = k1_pay3 a r b := rfl
theorem k1_pay10_eq (a : Vec F S1x128x1156 .bf16) (r b : Vec F S128x1 .f32) : k1_pay10 (k1_pay9 a r b) = k1_pay3 a r b := rfl
theorem k1_pay16_eq (a : Vec F S1x128x1156 .bf16) (r b : Vec F S128x1 .f32) : k1_pay16 (k1_pay15 a r) b = k1_pay3 a r b := rfl

end AnyInstance

theorem hz2 : (![0, 0] : Fin 2 → Nat) = fun _ => 0 := funext fun a => by fin_cases a <;> rfl

/-- One slab's stored value at (u, o, j): the slab's entry times the first column's entry `o` plus the second's. -/
theorem normPay_apply (v : Vec Ideal S1x128x1156 .bf16) (r b : Vec Ideal S128x1 .f32) (u : Fin 1) (o : Fin 128) (j : Fin 1156) :
    (k1_pay3 v r b (ix3 u o j) : EReal) = (v (ix3 (0 : Fin 1) o j) : EReal) * (r (ix2 o (0 : Fin 1)) : EReal) + (b (ix2 o (0 : Fin 1)) : EReal) := by
  unfold k1_pay3
  refine (shapeCast_apply _ _ (ix3 u o j) (ix2 o j) ?_).trans ?_
  · rw [Shape.rowMajor_val_two, Shape.rowMajor_val_three]
    show o.val * 1156 + j.val = (u.val * 128 + o.val) * 1156 + j.val
    have := u.isLt; omega
  show (shapeCast S128x1156 v shapeCasts_S1x128x1156_S128x1156 (ix2 o j) : EReal)
      * (broadcastTo S128x1156 (shapeCast S128x1 r shapeCasts_S128x1_S128x1) broadcasts_S128x1_S128x1156 (ix2 o j) : EReal)
      + (broadcastTo S128x1156 (shapeCast S128x1 b shapeCasts_S128x1_S128x1) broadcasts_S128x1_S128x1156 (ix2 o j) : EReal) = _
  rw [shapeCast_self, shapeCast_self]
  refine congrArg₂ (· + ·) (congrArg₂ (· * ·) ?_ ?_) ?_
  · refine shapeCast_apply v _ (ix2 o j) (ix3 (0 : Fin 1) o j) ?_
    rw [Shape.rowMajor_val_three, Shape.rowMajor_val_two]
    show (0 * 128 + o.val) * 1156 + j.val = o.val * 1156 + j.val
    omega
  · exact Cert.LibKeepdims.broadcastTo_a1_ab_apply (a := 128) (b := 1156) r _ o j
  · exact Cert.LibKeepdims.broadcastTo_a1_ab_apply (a := 128) (b := 1156) b _ o j

/-- The block the body leaves, as one function of the block index. -/
def normG (x0 : Vec Ideal S16x128x1156 .bf16) (x1 x2 : Vec Ideal S128x1 .f32) : S16x128x1156.Idx → EReal :=
  fun i => (x0 i : EReal) * (x1 (ix2 (⟨(i 1).val, (i 1).isLt⟩ : Fin 128) (0 : Fin 1)) : EReal)
    + (x2 (ix2 (⟨(i 1).val, (i 1).isLt⟩ : Fin 128) (0 : Fin 1)) : EReal)

/-- A slab's stored value is the slab of that function. -/
theorem normPiece (x0 : Vec Ideal S16x128x1156 .bf16) (x1 x2 : Vec Ideal S128x1 .f32) (off : Fin 3 → ℕ)
    (inb : ∀ a, off a + S1x128x1156.size a ≤ S16x128x1156.size a) (h1 : off 1 = 0) (h2 : off 2 = 0)
    (y : S1x128x1156.Idx) :
    (k1_pay3 (View.ld x0 (Rect.unit (s := S16x128x1156) off S1x128x1156.size inb)) x1 x2 y : EReal)
      = normG x0 x1 x2 ((Rect.unit (s := S16x128x1156) off S1x128x1156.size inb).emb y) := by
  obtain ⟨u, o, j, rfl⟩ : ∃ (u : Fin 1) (o : Fin 128) (j : Fin 1156), y = ix3 u o j := ⟨y 0, y 1, y 2, eq_ix3 y⟩
  rw [normPay_apply]
  unfold normG
  have hu : u.val = 0 := by have := u.isLt; omega
  have e0 : (Rect.unit (s := S16x128x1156) off S1x128x1156.size inb).idx (ix3 (0 : Fin 1) o j)
      = (Rect.unit (s := S16x128x1156) off S1x128x1156.size inb).emb (ix3 u o j) := by
    funext a; apply Fin.ext
    match a with
    | ⟨0, _⟩ => show off 0 + 1 * 0 = off 0 + 1 * u.val; rw [hu]
    | ⟨1, _⟩ => rfl
    | ⟨2, _⟩ => rfl
  have e1 : (ix2 o (0 : Fin 1) : S128x1.Idx)
      = ix2 (⟨((Rect.unit (s := S16x128x1156) off S1x128x1156.size inb).emb (ix3 u o j) 1).val, ((Rect.unit (s := S16x128x1156) off S1x128x1156.size inb).emb (ix3 u o j) 1).isLt⟩ : Fin 128) (0 : Fin 1) := by
    funext a; apply Fin.ext
    match a with
    | ⟨0, _⟩ => show o.val = off 1 + 1 * o.val; rw [h1]; omega
    | ⟨1, _⟩ => rfl
  show (x0 ((Rect.unit (s := S16x128x1156) off S1x128x1156.size inb).idx (ix3 (0 : Fin 1) o j)) : EReal) * (x1 (ix2 o (0 : Fin 1)) : EReal) + (x2 (ix2 o (0 : Fin 1)) : EReal) = _
  rw [e0, ← e1]

/-- THE OUTPUT BLOCK AFTER THE BODY, entry by entry. -/
theorem outBlock_eq (c : Dev nD) (i : grid1.Coords) (arg1 : Memref sig .tc .vmem S16x128x1156 .bf16) (harg1 : arg1.IsWhole) (arg2 : Memref sig .tc .vmem S128x1 .f32) (harg2 : arg2.IsWhole) (arg3 : Memref sig .tc .vmem S128x1 .f32) (harg3 : arg3.IsWhole) (arg4 : Memref sig .tc .vmem S16x128x1156 .f32) (harg4 : arg4.IsWhole)
    (x0 : Vec Ideal S16x128x1156 .bf16) (x1 : Vec Ideal S128x1 .f32) (x2 : Vec Ideal S128x1 .f32) (y : S16x128x1156.Idx) :
    (NormPass.outBlock (F := Ideal) c i arg1 harg1 arg2 harg2 arg3 harg3 arg4 harg4 x0 x1 x2 y : EReal) = normG x0 x1 x2 y := by
  unfold NormPass.outBlock
  rw [View.read_writes_eq_canon _ _ _ (NormPass.cover c i arg1 harg1 arg2 harg2 arg3 harg3 arg4 harg4 x0 x1 x2)]
  refine View.canon_apply_of_pieces (normG x0 x1 x2) _ ?_ y (NormPass.cover c i arg1 harg1 arg2 harg2 arg3 harg3 arg4 harg4 x0 x1 x2 y)
  unfold NormPass.run
  dsimp only
  try sl_unfold_words
  simp only [View.readAt_eq_ld, harg1.read_unread, harg2.read_unread, harg3.read_unread, View.ld_unit_zero (S := S128x1) hz2,
    k1_pay2_eq, k1_pay4_eq, k1_pay8_eq, k1_pay11_eq, k1_pay12_eq, k1_pay13_eq, k1_pay14_eq, k1_pay17_eq, k1_pay18_eq, k1_pay19_eq, k1_pay20_eq,
    k1_pay1_eq, k1_pay7_eq, k1_pay10_eq, k1_pay16_eq]
  intro p hp x
  simp only [List.mem_cons, List.not_mem_nil, or_false] at hp
  rcases hp with rfl | rfl | rfl | rfl | rfl | rfl | rfl | rfl | rfl | rfl | rfl | rfl | rfl | rfl | rfl | rfl <;>
    exact normPiece x0 x1 x2 _ _ rfl rfl x

end Cert.KernelIdeal.ValueLeg

end
-- ==== Proof.KernelValueNorm.lean ====
/-
  The second call's output array after the call, entry by entry: entry (n, o, j) is the stored convolution output's
  entry (n, o, j) times the reciprocal standard deviation of channel o plus the bias of channel o.

  Grid point t stages images 16t .. 16t+15 of the input array and writes back the same images of the output array; the two
  columns are staged whole at every point. What point t writes back is therefore block t of one function of the three
  arrays as the call finds them, and the eight blocks cover the 128 images.
-/
import proofs.«100421_g2000304308963006_pallasbulk_990_41_alg».proof.Proof.KernelValueNormBlock

noncomputable section

set_option maxRecDepth 16384

namespace Cert.KernelIdeal.ValueLeg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the four windows at grid point t: the images' and the output's blocks are block t along the
    image axis; the columns' blocks are the whole columns. -/
theorem norm_idx : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The output array as one function of the three arrays the call finds. -/
def normArr (Y : S128x128x1156.Idx → EReal) (R B : S128x1.Idx → EReal) : S128x128x1156.Idx → EReal :=
  fun i => Y i * R (ix2 (⟨(i 1).val, (i 1).isLt⟩ : Fin 128) (0 : Fin 1)) + B (ix2 (⟨(i 1).val, (i 1).isLt⟩ : Fin 128) (0 : Fin 1))

/-- What point t writes back is block t of that function. -/
theorem norm_flushed (c : Dev nD) (t : Fin cfg1.N) :
    (NormPass.dat V c).flushed 3 t = ((cfg1.win 3).blk t).view.read (Elt Ideal)
      (normArr (V c main_v21_2) (V c main_v32) (V c main_v34)) := by
  show (cfg1.win 3).cut (grid1.coords t) ((NormPass.dat V c).after 3 t) = _
  rw [NormPass.after_3]
  unfold NormPass.outAt
  obtain ⟨a0, a1, a2, b0, b1, c0, c1, d0, d1, d2⟩ := norm_idx t
  funext y
  refine (outBlock_eq c _ _ _ _ _ _ _ _ _ (NormPass.blk V c 0 t) (NormPass.blk V c 1 t) (NormPass.blk V c 2 t) y).trans ?_
  have hy0 : (y 0).val < 16 := (y 0).isLt
  have hy1 : (y 1).val < 128 := (y 1).isLt
  have hy2 : (y 2).val < 1156 := (y 2).isLt
  have e0 : ((cfg1.win 0).blk t).view.emb y = ((cfg1.win 3).blk t).view.emb y := by
    funext a; apply Fin.ext
    match a with
    | ⟨0, _⟩ => show win1_0.index t (0 : Fin 3) * 16 + 1 * (y 0).val = win1_3.index t (0 : Fin 3) * 16 + 1 * (y 0).val; omega
    | ⟨1, _⟩ => show win1_0.index t (1 : Fin 3) * 128 + 1 * (y 1).val = win1_3.index t (1 : Fin 3) * 128 + 1 * (y 1).val; omega
    | ⟨2, _⟩ => show win1_0.index t (2 : Fin 3) * 1156 + 1 * (y 2).val = win1_3.index t (2 : Fin 3) * 1156 + 1 * (y 2).val; omega
  have e1 : ((cfg1.win 1).blk t).view.emb (ix2 (⟨(y 1).val, hy1⟩ : Fin 128) (0 : Fin 1))
      = ix2 (⟨((((cfg1.win 3).blk t).view.emb y) 1).val, ((((cfg1.win 3).blk t).view.emb y) 1).isLt⟩ : Fin 128) (0 : Fin 1) := by
    funext a; apply Fin.ext
    match a with
    | ⟨0, _⟩ => show win1_1.index t (0 : Fin 2) * 128 + 1 * (y 1).val = win1_3.index t (1 : Fin 3) * 128 + 1 * (y 1).val; omega
    | ⟨1, _⟩ => show win1_1.index t (1 : Fin 2) * 1 + 1 * 0 = 0; omega
  have e2 : ((cfg1.win 2).blk t).view.emb (ix2 (⟨(y 1).val, hy1⟩ : Fin 128) (0 : Fin 1))
      = ix2 (⟨((((cfg1.win 3).blk t).view.emb y) 1).val, ((((cfg1.win 3).blk t).view.emb y) 1).isLt⟩ : Fin 128) (0 : Fin 1) := by
    funext a; apply Fin.ext
    match a with
    | ⟨0, _⟩ => show win1_2.index t (0 : Fin 2) * 128 + 1 * (y 1).val = win1_3.index t (1 : Fin 3) * 128 + 1 * (y 1).val; omega
    | ⟨1, _⟩ => show win1_2.index t (1 : Fin 2) * 1 + 1 * 0 = 0; omega
  have key : ∀ (Y : S128x128x1156.Idx → EReal) (R B : S128x1.Idx → EReal),
      Y (((cfg1.win 0).blk t).view.emb y)
        * R (((cfg1.win 1).blk t).view.emb (ix2 (⟨(y 1).val, hy1⟩ : Fin 128) (0 : Fin 1)))
        + B (((cfg1.win 2).blk t).view.emb (ix2 (⟨(y 1).val, hy1⟩ : Fin 128) (0 : Fin 1)))
      = normArr Y R B (((cfg1.win 3).blk t).view.emb y) := by
    intro Y R B
    rw [e0, e1, e2]
    rfl
  exact key (V c main_v21_2) (V c main_v32) (V c main_v34)

/-- An entry of the output array is in point t's block iff its image coordinate is in 16t .. 16t+15. -/
theorem norm_mem_blk (t : Fin cfg1.N) (i : S128x128x1156.Idx) :
    i ∈ ((cfg1.win 3).blk t).view.set ↔ ∀ a : Fin 3, win1_3.index t a * S16x128x1156.size a ≤ (i a).val ∧ (i a).val < win1_3.index t a * S16x128x1156.size a + S16x128x1156.size a := by
  show i ∈ ((View.whole main_v35).slice (win1_3.rect t)).set ↔ _
  rw [View.set_slice_whole, Rect.mem_set_unit]
  exact Iff.rfl

/-- Every entry is in the block of the point its image belongs to. -/
theorem norm_cover (i : S128x128x1156.Idx) : ∃ t : Fin cfg1.N, (cfg1.win 3).flush t = true ∧ i ∈ ((cfg1.win 3).blk t).view.set := by
  have hi0 : (i 0).val < 128 := (i 0).isLt
  have hi1 : (i 1).val < 128 := (i 1).isLt
  have hi2 : (i 2).val < 1156 := (i 2).isLt
  have hN : cfg1.N = 8 := N_1
  refine ⟨⟨(i 0).val / 16, by rw [hN]; omega⟩, flush1_3 _, ?_⟩
  rw [norm_mem_blk]
  obtain ⟨-, -, -, -, -, -, -, d0, d1, d2⟩ := norm_idx ⟨(i 0).val / 16, by rw [hN]; omega⟩
  intro a
  match a with
  | ⟨0, _⟩ =>
    show win1_3.index _ (0 : Fin 3) * 16 ≤ (i 0).val ∧ (i 0).val < win1_3.index _ (0 : Fin 3) * 16 + 16
    rw [d0]; show (i 0).val / 16 * 16 ≤ (i 0).val ∧ (i 0).val < (i 0).val / 16 * 16 + 16; omega
  | ⟨1, _⟩ =>
    show win1_3.index _ (1 : Fin 3) * 128 ≤ (i 1).val ∧ (i 1).val < win1_3.index _ (1 : Fin 3) * 128 + 128
    rw [d1]; omega
  | ⟨2, _⟩ =>
    show win1_3.index _ (2 : Fin 3) * 1156 ≤ (i 2).val ∧ (i 2).val < win1_3.index _ (2 : Fin 3) * 1156 + 1156
    rw [d2]; omega

/-- THE OUTPUT ARRAY AFTER THE CALL. -/
theorem norm_arr (c : Dev nD) :
    (NormPass.dat V c).arrAt 3 cfg1.N = normArr (V c main_v21_2) (V c main_v32) (V c main_v34) :=
  (NormPass.dat V c).arrAt_eq_of_cover 3 _ (fun t _ => norm_flushed V c t) norm_cover

end Cert.KernelIdeal.ValueLeg

end
-- ==== Proof.KernelValueConcat.lean ====
/-
  Arrays of rank two laid side by side or stacked, read at an index given by coordinates: for two or three pieces
  joined along the rows (axis 0) or along the columns (axis 1), the joined array at (p, j) is the piece whose span holds
  the coordinate on the joined axis, read at that coordinate less the extents of the pieces before it. Also a
  one-axis contraction of two rank-two arrays (a matrix product into a zero accumulator) as the sum over the
  contracted coordinate.
-/
import Idealize.ShloMosaic.Lib.Pipeline.Value
import Idealize.ShloMosaic.Lib.ValueIdx
import Idealize.ShloMosaic.PureOps.Ideal.Laws

noncomputable section

open scoped BigOperators

namespace Cert.KernelIdeal.ValueLeg

open Idealize.ShloMosaic Idealize.ShloMosaic.ValueIdx

variable {α : Type}

/-- Three pieces side by side (joined along the columns), read in the first piece. -/
theorem cols3_fst {a b0 b1 b2 b : ℕ} (x0 : (⟨2, ![a, b0]⟩ : Shape).Idx → α) (x1 : (⟨2, ![a, b1]⟩ : Shape).Idx → α)
    (x2 : (⟨2, ![a, b2]⟩ : Shape).Idx → α)
    (h : Shape.Concatenates [(⟨2, ![a, b0]⟩ : Shape), ⟨2, ![a, b1]⟩, ⟨2, ![a, b2]⟩] ⟨2, ![a, b]⟩ 1) (p : Fin a) (j : Fin b)
    (hj : j.val < b0) :
    concatenate ⟨2, ![a, b]⟩ 1 [⟨⟨2, ![a, b0]⟩, x0⟩, ⟨⟨2, ![a, b1]⟩, x1⟩, ⟨⟨2, ![a, b2]⟩, x2⟩] h (ix2 p j) = x0 (ix2 p ⟨j.val, hj⟩) := by
  refine concatenate_apply_piece 1 [⟨⟨2, ![a, b0]⟩, x0⟩, ⟨⟨2, ![a, b1]⟩, x1⟩, ⟨⟨2, ![a, b2]⟩, x2⟩] h (ix2 p j) 0 (by simp) _ x0 rfl rfl 0 rfl (ix2 p ⟨j.val, hj⟩) (fun d hd => ?_) ?_
  · match d with
    | ⟨0, _⟩ => rfl
    | ⟨1, _⟩ => exact absurd rfl hd
  · show 0 + j.val = j.val; omega

/-- Three pieces side by side, read in the second piece. -/
theorem cols3_snd {a b0 b1 b2 b : ℕ} (x0 : (⟨2, ![a, b0]⟩ : Shape).Idx → α) (x1 : (⟨2, ![a, b1]⟩ : Shape).Idx → α)
    (x2 : (⟨2, ![a, b2]⟩ : Shape).Idx → α)
    (h : Shape.Concatenates [(⟨2, ![a, b0]⟩ : Shape), ⟨2, ![a, b1]⟩, ⟨2, ![a, b2]⟩] ⟨2, ![a, b]⟩ 1) (p : Fin a) (j : Fin b)
    (h0 : b0 ≤ j.val) (h1 : j.val - b0 < b1) :
    concatenate ⟨2, ![a, b]⟩ 1 [⟨⟨2, ![a, b0]⟩, x0⟩, ⟨⟨2, ![a, b1]⟩, x1⟩, ⟨⟨2, ![a, b2]⟩, x2⟩] h (ix2 p j) = x1 (ix2 p ⟨j.val - b0, h1⟩) := by
  refine concatenate_apply_piece 1 [⟨⟨2, ![a, b0]⟩, x0⟩, ⟨⟨2, ![a, b1]⟩, x1⟩, ⟨⟨2, ![a, b2]⟩, x2⟩] h (ix2 p j) 1 (by simp) _ x1 rfl rfl b0 (by simp) (ix2 p ⟨j.val - b0, h1⟩) (fun d hd => ?_) ?_
  · match d with
    | ⟨0, _⟩ => rfl
    | ⟨1, _⟩ => exact absurd rfl hd
  · show b0 + (j.val - b0) = j.val; omega

/-- Three pieces side by side, read in the third piece. -/
theorem cols3_thd {a b0 b1 b2 b : ℕ} (x0 : (⟨2, ![a, b0]⟩ : Shape).Idx → α) (x1 : (⟨2, ![a, b1]⟩ : Shape).Idx → α)
    (x2 : (⟨2, ![a, b2]⟩ : Shape).Idx → α)
    (h : Shape.Concatenates [(⟨2, ![a, b0]⟩ : Shape), ⟨2, ![a, b1]⟩, ⟨2, ![a, b2]⟩] ⟨2, ![a, b]⟩ 1) (p : Fin a) (j : Fin b)
    (h0 : b0 + b1 ≤ j.val) (h2 : j.val - (b0 + b1) < b2) :
    concatenate ⟨2, ![a, b]⟩ 1 [⟨⟨2, ![a, b0]⟩, x0⟩, ⟨⟨2, ![a, b1]⟩, x1⟩, ⟨⟨2, ![a, b2]⟩, x2⟩] h (ix2 p j) = x2 (ix2 p ⟨j.val - (b0 + b1), h2⟩) := by
  refine concatenate_apply_piece 1 [⟨⟨2, ![a, b0]⟩, x0⟩, ⟨⟨2, ![a, b1]⟩, x1⟩, ⟨⟨2, ![a, b2]⟩, x2⟩] h (ix2 p j) 2 (by simp) _ x2 rfl rfl (b0 + b1) (by simp) (ix2 p ⟨j.val - (b0 + b1), h2⟩) (fun d hd => ?_) ?_
  · match d with
    | ⟨0, _⟩ => rfl
    | ⟨1, _⟩ => exact absurd rfl hd
  · show b0 + b1 + (j.val - (b0 + b1)) = j.val; omega

/-- Two pieces side by side, read in the first piece. -/
theorem cols2_fst {a b0 b1 b : ℕ} (x0 : (⟨2, ![a, b0]⟩ : Shape).Idx → α) (x1 : (⟨2, ![a, b1]⟩ : Shape).Idx → α)
    (h : Shape.Concatenates [(⟨2, ![a, b0]⟩ : Shape), ⟨2, ![a, b1]⟩] ⟨2, ![a, b]⟩ 1) (p : Fin a) (j : Fin b)
    (hj : j.val < b0) :
    concatenate ⟨2, ![a, b]⟩ 1 [⟨⟨2, ![a, b0]⟩, x0⟩, ⟨⟨2, ![a, b1]⟩, x1⟩] h (ix2 p j) = x0 (ix2 p ⟨j.val, hj⟩) := by
  refine concatenate_apply_piece 1 [⟨⟨2, ![a, b0]⟩, x0⟩, ⟨⟨2, ![a, b1]⟩, x1⟩] h (ix2 p j) 0 (by simp) _ x0 rfl rfl 0 rfl (ix2 p ⟨j.val, hj⟩) (fun d hd => ?_) ?_
  · match d with
    | ⟨0, _⟩ => rfl
    | ⟨1, _⟩ => exact absurd rfl hd
  · show 0 + j.val = j.val; omega

/-- Two pieces side by side, read in the second piece. -/
theorem cols2_snd {a b0 b1 b : ℕ} (x0 : (⟨2, ![a, b0]⟩ : Shape).Idx → α) (x1 : (⟨2, ![a, b1]⟩ : Shape).Idx → α)
    (h : Shape.Concatenates [(⟨2, ![a, b0]⟩ : Shape), ⟨2, ![a, b1]⟩] ⟨2, ![a, b]⟩ 1) (p : Fin a) (j : Fin b)
    (h0 : b0 ≤ j.val) (h1 : j.val - b0 < b1) :
    concatenate ⟨2, ![a, b]⟩ 1 [⟨⟨2, ![a, b0]⟩, x0⟩, ⟨⟨2, ![a, b1]⟩, x1⟩] h (ix2 p j) = x1 (ix2 p ⟨j.val - b0, h1⟩) := by
  refine concatenate_apply_piece 1 [⟨⟨2, ![a, b0]⟩, x0⟩, ⟨⟨2, ![a, b1]⟩, x1⟩] h (ix2 p j) 1 (by simp) _ x1 rfl rfl b0 (by simp) (ix2 p ⟨j.val - b0, h1⟩) (fun d hd => ?_) ?_
  · match d with
    | ⟨0, _⟩ => rfl
    | ⟨1, _⟩ => exact absurd rfl hd
  · show b0 + (j.val - b0) = j.val; omega

/-- Three pieces stacked (joined along the rows), read in the first piece. -/
theorem rows3_fst {a0 a1 a2 a b : ℕ} (x0 : (⟨2, ![a0, b]⟩ : Shape).Idx → α) (x1 : (⟨2, ![a1, b]⟩ : Shape).Idx → α)
    (x2 : (⟨2, ![a2, b]⟩ : Shape).Idx → α)
    (h : Shape.Concatenates [(⟨2, ![a0, b]⟩ : Shape), ⟨2, ![a1, b]⟩, ⟨2, ![a2, b]⟩] ⟨2, ![a, b]⟩ 0) (k : Fin a) (j : Fin b)
    (hk : k.val < a0) :
    concatenate ⟨2, ![a, b]⟩ 0 [⟨⟨2, ![a0, b]⟩, x0⟩, ⟨⟨2, ![a1, b]⟩, x1⟩, ⟨⟨2, ![a2, b]⟩, x2⟩] h (ix2 k j) = x0 (ix2 ⟨k.val, hk⟩ j) := by
  refine concatenate_apply_piece 0 [⟨⟨2, ![a0, b]⟩, x0⟩, ⟨⟨2, ![a1, b]⟩, x1⟩, ⟨⟨2, ![a2, b]⟩, x2⟩] h (ix2 k j) 0 (by simp) _ x0 rfl rfl 0 rfl (ix2 ⟨k.val, hk⟩ j) (fun d hd => ?_) ?_
  · match d with
    | ⟨0, _⟩ => exact absurd rfl hd
    | ⟨1, _⟩ => rfl
  · show 0 + k.val = k.val; omega

/-- Three pieces stacked, read in the second piece. -/
theorem rows3_snd {a0 a1 a2 a b : ℕ} (x0 : (⟨2, ![a0, b]⟩ : Shape).Idx → α) (x1 : (⟨2, ![a1, b]⟩ : Shape).Idx → α)
    (x2 : (⟨2, ![a2, b]⟩ : Shape).Idx → α)
    (h : Shape.Concatenates [(⟨2, ![a0, b]⟩ : Shape), ⟨2, ![a1, b]⟩, ⟨2, ![a2, b]⟩] ⟨2, ![a, b]⟩ 0) (k : Fin a) (j : Fin b)
    (h0 : a0 ≤ k.val) (h1 : k.val - a0 < a1) :
    concatenate ⟨2, ![a, b]⟩ 0 [⟨⟨2, ![a0, b]⟩, x0⟩, ⟨⟨2, ![a1, b]⟩, x1⟩, ⟨⟨2, ![a2, b]⟩, x2⟩] h (ix2 k j) = x1 (ix2 ⟨k.val - a0, h1⟩ j) := by
  refine concatenate_apply_piece 0 [⟨⟨2, ![a0, b]⟩, x0⟩, ⟨⟨2, ![a1, b]⟩, x1⟩, ⟨⟨2, ![a2, b]⟩, x2⟩] h (ix2 k j) 1 (by simp) _ x1 rfl rfl a0 (by simp) (ix2 ⟨k.val - a0, h1⟩ j) (fun d hd => ?_) ?_
  · match d with
    | ⟨0, _⟩ => exact absurd rfl hd
    | ⟨1, _⟩ => rfl
  · show a0 + (k.val - a0) = k.val; omega

/-- Three pieces stacked, read in the third piece. -/
theorem rows3_thd {a0 a1 a2 a b : ℕ} (x0 : (⟨2, ![a0, b]⟩ : Shape).Idx → α) (x1 : (⟨2, ![a1, b]⟩ : Shape).Idx → α)
    (x2 : (⟨2, ![a2, b]⟩ : Shape).Idx → α)
    (h : Shape.Concatenates [(⟨2, ![a0, b]⟩ : Shape), ⟨2, ![a1, b]⟩, ⟨2, ![a2, b]⟩] ⟨2, ![a, b]⟩ 0) (k : Fin a) (j : Fin b)
    (h0 : a0 + a1 ≤ k.val) (h2 : k.val - (a0 + a1) < a2) :
    concatenate ⟨2, ![a, b]⟩ 0 [⟨⟨2, ![a0, b]⟩, x0⟩, ⟨⟨2, ![a1, b]⟩, x1⟩, ⟨⟨2, ![a2, b]⟩, x2⟩] h (ix2 k j) = x2 (ix2 ⟨k.val - (a0 + a1), h2⟩ j) := by
  refine concatenate_apply_piece 0 [⟨⟨2, ![a0, b]⟩, x0⟩, ⟨⟨2, ![a1, b]⟩, x1⟩, ⟨⟨2, ![a2, b]⟩, x2⟩] h (ix2 k j) 2 (by simp) _ x2 rfl rfl (a0 + a1) (by simp) (ix2 ⟨k.val - (a0 + a1), h2⟩ j) (fun d hd => ?_) ?_
  · match d with
    | ⟨0, _⟩ => exact absurd rfl hd
    | ⟨1, _⟩ => rfl
  · show a0 + a1 + (k.val - (a0 + a1)) = k.val; omega

/-- A unit-stride slice of a rank-two array at (p, j): the operand at the coordinates shifted by the offsets. -/
theorem slice2_apply {a b a' b' : ℕ} (off : Fin 2 → ℕ) (x : (⟨2, ![a, b]⟩ : Shape).Idx → α)
    (h : (⟨2, ![a, b]⟩ : Shape).Slices off ⟨2, ![a', b']⟩) (p : Fin a') (j : Fin b') (p' : Fin a) (j' : Fin b)
    (hp : p'.val = off 0 + p.val) (hj : j'.val = off 1 + j.val) :
    extractStridedSlice ⟨2, ![a', b']⟩ off x h (ix2 p j) = x (ix2 p' j') := by
  refine extractStridedSlice_apply off x h (ix2 p j) (ix2 p' j') fun d => ?_
  match d with
  | ⟨0, _⟩ => exact hp
  | ⟨1, _⟩ => exact hj

end Cert.KernelIdeal.ValueLeg

end
-- ==== Proof.KernelValueCore.lean ====
/-
  The arithmetic the first call does for ONE image, read entry by entry.

  The padded flat image (64 channels by 1156 positions) is copied three times — shifted one row of 34 down with a
  zero first row, in place, shifted one row up with a zero last row — and the copies are stacked into 192 rows; the
  first weight matrix times that stack is the first product; its three copies rotated one position right, in place,
  and one position left are stacked again; the second weight matrix times that is the second product. Each product
  is into a zero accumulator, so an entry is the plain sum over the 192 stacked rows. With the image read as the
  specification's padded image and the weight matrices as its stacked taps, entry (o, j) of the result is the
  specification's second product at (o, j).
-/
import proofs.«100421_g2000304308963006_pallasbulk_990_41_alg».proof.Proof.Gen.KernelIdeal.Skeleton
import proofs.«100421_g2000304308963006_pallasbulk_990_41_alg».proof.Proof.Spec
import proofs.«100421_g2000304308963006_pallasbulk_990_41_alg».proof.Proof.KernelValueConcat
import Idealize.ShloMosaic.Lib.IdealHost

noncomputable section

open scoped BigOperators

namespace Cert.KernelIdeal.ValueLeg

open Cert.KernelIdeal Cert.KernelIdeal.Gen
open Idealize.ShloMosaic Idealize.ShloMosaic.ValueIdx Finset

section AnyInstance
variable {F : FTy → Type} [FloatOps F]

/-- The three row-shifted copies of a flat image, stacked: shifted down by one row of 34 behind a zero row, in place,
    shifted up by one row in front of a zero row. -/
def shiftStack (v1 : FVec F S64x1156 .bf16) : FVec F S192x1156 .bf16 :=
  concatenate S192x1156 0
    [⟨S64x1156, concatenate S64x1156 1 [⟨S64x34, broadcast S64x34 (Scalar.ofBits .bf16 0x0000#16 : F .bf16)⟩, ⟨S64x1088, extractStridedSlice S64x1088 ![0, 0] v1 slices_S64x1156_o0_0_S64x1088⟩, ⟨S64x34, broadcast S64x34 (Scalar.ofBits .bf16 0x0000#16 : F .bf16)⟩] concatenates_S64x34_S64x1088_S64x34_S64x1156_d1⟩,
     ⟨S64x1156, v1⟩,
     ⟨S64x1156, concatenate S64x1156 1 [⟨S64x34, broadcast S64x34 (Scalar.ofBits .bf16 0x0000#16 : F .bf16)⟩, ⟨S64x1088, extractStridedSlice S64x1088 ![0, 68] v1 slices_S64x1156_o0_68_S64x1088⟩, ⟨S64x34, broadcast S64x34 (Scalar.ofBits .bf16 0x0000#16 : F .bf16)⟩] concatenates_S64x34_S64x1088_S64x34_S64x1156_d1⟩]
    concatenates_S64x1156_S64x1156_S64x1156_S192x1156_d0

/-- The three lane-rotated copies of the first product, stacked: rotated right by one position (the last entry comes
    first), in place, rotated left by one position. -/
def rotStack (v13 : FVec F S64x1156 .bf16) : FVec F S192x1156 .bf16 :=
  concatenate S192x1156 0
    [⟨S64x1156, concatenate S64x1156 1 [⟨S64x1, extractStridedSlice S64x1 ![0, 1155] v13 slices_S64x1156_o0_1155_S64x1⟩, ⟨S64x1155, extractStridedSlice S64x1155 ![0, 0] v13 slices_S64x1156_o0_0_S64x1155⟩] concatenates_S64x1_S64x1155_S64x1156_d1⟩,
     ⟨S64x1156, v13⟩,
     ⟨S64x1156, concatenate S64x1156 1 [⟨S64x1155, extractStridedSlice S64x1155 ![0, 1] v13 slices_S64x1156_o0_1_S64x1155⟩, ⟨S64x1, extractStridedSlice S64x1 ![0, 0] v13 slices_S64x1156_o0_0_S64x1⟩] concatenates_S64x1155_S64x1_S64x1156_d1⟩]
    concatenates_S64x1156_S64x1156_S64x1156_S192x1156_d0

/-- The second product of one image block and the two stacked weight matrices. -/
def core (v0 : Vec F S1x64x1156 .bf16) (v2 : Vec F S64x192 .bf16) (v4 : Vec F S128x192 .bf16) : FVec F S128x1156 .f32 :=
  matmul dot_S128x192_S192x1156_S128x1156_1_0_0_1_n_n none (shapeCast S128x192 v4 shapeCasts_S128x192_S128x192)
    (rotStack (truncf .bf16
      (matmul dot_S64x192_S192x1156_S64x1156_1_0_0_1_n_n none (shapeCast S64x192 v2 shapeCasts_S64x192_S64x192)
        (shiftStack (shapeCast S64x1156 v0 shapeCasts_S1x64x1156_S64x1156)) (constant S64x1156 .f32 0x00000000#32))
      bitsLt_bf16_f32))
    (constant S128x1156 .f32 0x00000000#32)

/-- Every image's convolution payload is that one function. -/
theorem k0_pay3_eq : @k0_pay3 F _ = core := rfl
theorem k0_pay8_eq : @k0_pay8 F _ = core := rfl
theorem k0_pay13_eq : @k0_pay13 F _ = core := rfl
theorem k0_pay18_eq : @k0_pay18 F _ = core := rfl
theorem k0_pay23_eq : @k0_pay23 F _ = core := rfl
theorem k0_pay28_eq : @k0_pay28 F _ = core := rfl
theorem k0_pay33_eq : @k0_pay33 F _ = core := rfl
theorem k0_pay37_eq : @k0_pay37 F _ = core := rfl
theorem k0_pay41_eq : @k0_pay41 F _ = core := rfl
theorem k0_pay46_eq : @k0_pay46 F _ = core := rfl
theorem k0_pay51_eq : @k0_pay51 F _ = core := rfl
theorem k0_pay56_eq : @k0_pay56 F _ = core := rfl
theorem k0_pay61_eq : @k0_pay61 F _ = core := rfl
theorem k0_pay66_eq : @k0_pay66 F _ = core := rfl
theorem k0_pay71_eq : @k0_pay71 F _ = core := rfl
theorem k0_pay76_eq : @k0_pay76 F _ = core := rfl

end AnyInstance

/-! ## Read at an index, at the ideal values -/

/-- The stacked shifted copies of an array `P`. -/
def shiftOf (P : ℕ → ℕ → EReal) (k j : ℕ) : EReal :=
  if k < 64 then (if 34 ≤ j ∧ j < 1122 then P k (j - 34) else 0)
  else if k < 128 then P (k - 64) j
  else (if 34 ≤ j ∧ j < 1122 then P (k - 128) (j + 34) else 0)

/-- The stacked rotated copies of an array `C`. -/
def rotOf (C : ℕ → ℕ → EReal) (k j : ℕ) : EReal :=
  if k < 64 then (if j = 0 then C k 1155 else C k (j - 1))
  else if k < 128 then C (k - 64) j
  else (if j = 1155 then C (k - 128) 0 else C (k - 128) (j + 1))

theorem zero_bf16 : (Scalar.ofBits .bf16 0x0000#16 : Ideal .bf16) = (0 : EReal) := Ideal.ofBits_zero_bf16

theorem shiftStack_apply (v1 : FVec Ideal S64x1156 .bf16) (P : ℕ → ℕ → EReal)
    (h : ∀ (ci : Fin 64) (j : Fin 1156), (v1 (ix2 ci j) : EReal) = P ci j) (k : Fin 192) (j : Fin 1156) :
    (shiftStack v1 (ix2 k j) : EReal) = shiftOf P k j := by
  unfold shiftStack shiftOf
  by_cases hk0 : k.val < 64
  · rw [if_pos hk0]
    refine (rows3_fst (a0 := 64) (a1 := 64) (a2 := 64) (a := 192) (b := 1156) _ _ _ _ k j hk0).trans ?_
    by_cases hj0 : j.val < 34
    · rw [if_neg (by omega)]
      refine (cols3_fst (a := 64) (b0 := 34) (b1 := 1088) (b2 := 34) (b := 1156) _ _ _ _ ⟨k.val, hk0⟩ j hj0).trans ?_
      exact zero_bf16
    · by_cases hj1 : j.val < 1122
      · rw [if_pos ⟨by omega, hj1⟩]
        refine (cols3_snd (a := 64) (b0 := 34) (b1 := 1088) (b2 := 34) (b := 1156) _ _ _ _ ⟨k.val, hk0⟩ j (by omega) (by omega)).trans ?_
        refine (slice2_apply (a := 64) (b := 1156) (a' := 64) (b' := 1088) _ v1 _ _ _ ⟨k.val, hk0⟩ ⟨j.val - 34, by omega⟩ (by show k.val = 0 + k.val; omega) (by show j.val - 34 = 0 + (j.val - 34); omega)).trans ?_
        exact h _ _
      · rw [if_neg (by omega)]
        refine (cols3_thd (a := 64) (b0 := 34) (b1 := 1088) (b2 := 34) (b := 1156) _ _ _ _ ⟨k.val, hk0⟩ j (by omega) (by have := j.isLt; omega)).trans ?_
        exact zero_bf16
  · rw [if_neg hk0]
    by_cases hk1 : k.val < 128
    · rw [if_pos hk1]
      refine (rows3_snd (a0 := 64) (a1 := 64) (a2 := 64) (a := 192) (b := 1156) _ _ _ _ k j (by omega) (by omega)).trans ?_
      exact h _ _
    · rw [if_neg hk1]
      refine (rows3_thd (a0 := 64) (a1 := 64) (a2 := 64) (a := 192) (b := 1156) _ _ _ _ k j (by omega) (by have := k.isLt; omega)).trans ?_
      by_cases hj0 : j.val < 34
      · rw [if_neg (by omega)]
        refine (cols3_fst (a := 64) (b0 := 34) (b1 := 1088) (b2 := 34) (b := 1156) _ _ _ _ _ j hj0).trans ?_
        exact zero_bf16
      · by_cases hj1 : j.val < 1122
        · rw [if_pos ⟨by omega, hj1⟩]
          refine (cols3_snd (a := 64) (b0 := 34) (b1 := 1088) (b2 := 34) (b := 1156) _ _ _ _ _ j (by omega) (by omega)).trans ?_
          refine (slice2_apply (a := 64) (b := 1156) (a' := 64) (b' := 1088) _ v1 _ _ _ ⟨k.val - 128, by have := k.isLt; omega⟩ ⟨j.val + 34, by omega⟩ (by show k.val - 128 = 0 + (k.val - (64 + 64)); omega) (by show j.val + 34 = 68 + (j.val - 34); omega)).trans ?_
          exact h _ _
        · rw [if_neg (by omega)]
          refine (cols3_thd (a := 64) (b0 := 34) (b1 := 1088) (b2 := 34) (b := 1156) _ _ _ _ _ j (by omega) (by have := j.isLt; omega)).trans ?_
          exact zero_bf16

theorem rotStack_apply (v13 : FVec Ideal S64x1156 .bf16) (C : ℕ → ℕ → EReal)
    (h : ∀ (a : Fin 64) (j : Fin 1156), (v13 (ix2 a j) : EReal) = C a j) (k : Fin 192) (j : Fin 1156) :
    (rotStack v13 (ix2 k j) : EReal) = rotOf C k j := by
  unfold rotStack rotOf
  by_cases hk0 : k.val < 64
  · rw [if_pos hk0]
    refine (rows3_fst (a0 := 64) (a1 := 64) (a2 := 64) (a := 192) (b := 1156) _ _ _ _ k j hk0).trans ?_
    by_cases hj0 : j.val = 0
    · rw [if_pos hj0]
      refine (cols2_fst (a := 64) (b0 := 1) (b1 := 1155) (b := 1156) _ _ _ ⟨k.val, hk0⟩ j (by omega)).trans ?_
      refine (slice2_apply (a := 64) (b := 1156) (a' := 64) (b' := 1) _ v13 _ _ _ ⟨k.val, hk0⟩ ⟨1155, by omega⟩ (by show k.val = 0 + k.val; omega) (by show 1155 = 1155 + j.val; omega)).trans ?_
      exact h _ _
    · rw [if_neg hj0]
      refine (cols2_snd (a := 64) (b0 := 1) (b1 := 1155) (b := 1156) _ _ _ ⟨k.val, hk0⟩ j (by omega) (by have := j.isLt; omega)).trans ?_
      refine (slice2_apply (a := 64) (b := 1156) (a' := 64) (b' := 1155) _ v13 _ _ _ ⟨k.val, hk0⟩ ⟨j.val - 1, by have := j.isLt; omega⟩ (by show k.val = 0 + k.val; omega) (by show j.val - 1 = 0 + (j.val - 1); omega)).trans ?_
      exact h _ _
  · rw [if_neg hk0]
    by_cases hk1 : k.val < 128
    · rw [if_pos hk1]
      refine (rows3_snd (a0 := 64) (a1 := 64) (a2 := 64) (a := 192) (b := 1156) _ _ _ _ k j (by omega) (by omega)).trans ?_
      exact h _ _
    · rw [if_neg hk1]
      refine (rows3_thd (a0 := 64) (a1 := 64) (a2 := 64) (a := 192) (b := 1156) _ _ _ _ k j (by omega) (by have := k.isLt; omega)).trans ?_
      by_cases hj0 : j.val = 1155
      · rw [if_pos hj0]
        refine (cols2_snd (a := 64) (b0 := 1155) (b1 := 1) (b := 1156) _ _ _ _ j (by omega) (by omega)).trans ?_
        refine (slice2_apply (a := 64) (b := 1156) (a' := 64) (b' := 1) _ v13 _ _ _ ⟨k.val - 128, by have := k.isLt; omega⟩ ⟨0, by omega⟩ (by show k.val - 128 = 0 + (k.val - (64 + 64)); omega) (by show 0 = 0 + (j.val - 1155); omega)).trans ?_
        exact h _ _
      · rw [if_neg hj0]
        refine (cols2_fst (a := 64) (b0 := 1155) (b1 := 1) (b := 1156) _ _ _ _ j (by have := j.isLt; omega)).trans ?_
        refine (slice2_apply (a := 64) (b := 1156) (a' := 64) (b' := 1155) _ v13 _ _ _ ⟨k.val - 128, by have := k.isLt; omega⟩ ⟨j.val + 1, by have := j.isLt; omega⟩ (by show k.val - 128 = 0 + (k.val - (64 + 64)); omega) (by show j.val + 1 = 1 + j.val; omega)).trans ?_
        exact h _ _

end Cert.KernelIdeal.ValueLeg

end
-- ==== Proof.KernelValueConv.lean ====
/-
  The two matrix products of the first call read at an entry, and with them the whole per-image arithmetic: a product
  into a zero accumulator is, at entry (a, j), the sum over the contracted coordinate k of the left factor at (a, k) times
  the right factor at (k, j). Chaining the stacked shifted copies, the first product, the stacked rotated copies and
  the second product gives, for an image block that reads as the specification's padded image and weight matrices that
  read as its stacked taps, the specification's second product; its row sums and the row sums of its squares are the
  specification's per-image sums.
-/
import proofs.«100421_g2000304308963006_pallasbulk_990_41_alg».proof.Proof.KernelValueCore
import proofs.«100421_g2000304308963006_pallasbulk_990_41_alg».proof.Proof.LibKeepdims

noncomputable section

open scoped BigOperators

namespace Cert.KernelIdeal.ValueLeg

open Cert.KernelIdeal Cert.KernelIdeal.Gen
open Idealize.ShloMosaic Idealize.ShloMosaic.ValueIdx Finset

abbrev d1 : DotDims S64x192 S192x1156 S64x1156 := dot_S64x192_S192x1156_S64x1156_1_0_0_1_n_n
abbrev d2 : DotDims S128x192 S192x1156 S128x1156 := dot_S128x192_S192x1156_S128x1156_1_0_0_1_n_n

theorem d1_lhs_0 (i : S64x1156.Idx) (q : d1.contr.Idx) : (d1.lhsIdx i q 0).val = (i 0).val := by
  unfold DotDims.lhsIdx
  rw [dif_neg (show ¬(0 : Fin S64x192.rank) ∈ d1.lhsBatch by decide), dif_pos (show (0 : Fin S64x192.rank) ∈ d1.lhsNonContracting by decide)]
  rfl
theorem d1_lhs_1 (i : S64x1156.Idx) (q : d1.contr.Idx) : (d1.lhsIdx i q 1).val = (q ⟨0, by decide⟩).val :=
  d1.lhsIdx_val_of_single rfl i q
theorem d1_rhs_0 (i : S64x1156.Idx) (q : d1.contr.Idx) : (d1.rhsIdx i q 0).val = (q ⟨0, by decide⟩).val :=
  d1.rhsIdx_val_of_single rfl i q
theorem d1_rhs_1 (i : S64x1156.Idx) (q : d1.contr.Idx) : (d1.rhsIdx i q 1).val = (i 1).val := by
  unfold DotDims.rhsIdx
  rw [dif_neg (show ¬(1 : Fin S192x1156.rank) ∈ d1.rhsBatch by decide), dif_pos (show (1 : Fin S192x1156.rank) ∈ d1.rhsNonContracting by decide)]
  rfl

theorem d2_lhs_0 (i : S128x1156.Idx) (q : d2.contr.Idx) : (d2.lhsIdx i q 0).val = (i 0).val := by
  unfold DotDims.lhsIdx
  rw [dif_neg (show ¬(0 : Fin S128x192.rank) ∈ d2.lhsBatch by decide), dif_pos (show (0 : Fin S128x192.rank) ∈ d2.lhsNonContracting by decide)]
  rfl
theorem d2_lhs_1 (i : S128x1156.Idx) (q : d2.contr.Idx) : (d2.lhsIdx i q 1).val = (q ⟨0, by decide⟩).val :=
  d2.lhsIdx_val_of_single rfl i q
theorem d2_rhs_0 (i : S128x1156.Idx) (q : d2.contr.Idx) : (d2.rhsIdx i q 0).val = (q ⟨0, by decide⟩).val :=
  d2.rhsIdx_val_of_single rfl i q
theorem d2_rhs_1 (i : S128x1156.Idx) (q : d2.contr.Idx) : (d2.rhsIdx i q 1).val = (i 1).val := by
  unfold DotDims.rhsIdx
  rw [dif_neg (show ¬(1 : Fin S192x1156.rank) ∈ d2.rhsBatch by decide), dif_pos (show (1 : Fin S192x1156.rank) ∈ d2.rhsNonContracting by decide)]
  rfl

/-- The first product at entry (a, j). -/
theorem mm1_apply (A : FVec Ideal S64x192 .bf16) (B : FVec Ideal S192x1156 .bf16) (a : Fin 64) (j : Fin 1156) :
    (matmul d1 none A B (constant (F := Ideal) S64x1156 .f32 0x00000000#32) (ix2 a j) : EReal)
      = ∑ k : Fin 192, (A (ix2 a k) : EReal) * (B (ix2 k j) : EReal) := by
  refine (Ideal.matmul_constant_zero_apply d1 none A B (ix2 a j)).trans ?_
  rw [← Equiv.sum_comp (contrEquiv1 d1 192 rfl rfl).symm]
  refine Finset.sum_congr rfl fun k _ => ?_
  have hk := contrEquiv1_symm_val d1 192 rfl rfl k
  have el : d1.lhsIdx (ix2 a j) ((contrEquiv1 d1 192 rfl rfl).symm k) = ix2 a k := funext fun d => Fin.ext (by
    match d with
    | ⟨0, _⟩ => exact d1_lhs_0 _ _
    | ⟨1, _⟩ => exact (d1_lhs_1 _ _).trans hk)
  have er : d1.rhsIdx (ix2 a j) ((contrEquiv1 d1 192 rfl rfl).symm k) = ix2 k j := funext fun d => Fin.ext (by
    match d with
    | ⟨0, _⟩ => exact (d1_rhs_0 _ _).trans hk
    | ⟨1, _⟩ => exact d1_rhs_1 _ _)
  rw [el, er]

/-- The second product at entry (o, j). -/
theorem mm2_apply (A : FVec Ideal S128x192 .bf16) (B : FVec Ideal S192x1156 .bf16) (o : Fin 128) (j : Fin 1156) :
    (matmul d2 none A B (constant (F := Ideal) S128x1156 .f32 0x00000000#32) (ix2 o j) : EReal)
      = ∑ k : Fin 192, (A (ix2 o k) : EReal) * (B (ix2 k j) : EReal) := by
  refine (Ideal.matmul_constant_zero_apply d2 none A B (ix2 o j)).trans ?_
  rw [← Equiv.sum_comp (contrEquiv1 d2 192 rfl rfl).symm]
  refine Finset.sum_congr rfl fun k _ => ?_
  have hk := contrEquiv1_symm_val d2 192 rfl rfl k
  have el : d2.lhsIdx (ix2 o j) ((contrEquiv1 d2 192 rfl rfl).symm k) = ix2 o k := funext fun d => Fin.ext (by
    match d with
    | ⟨0, _⟩ => exact d2_lhs_0 _ _
    | ⟨1, _⟩ => exact (d2_lhs_1 _ _).trans hk)
  have er : d2.rhsIdx (ix2 o j) ((contrEquiv1 d2 192 rfl rfl).symm k) = ix2 k j := funext fun d => Fin.ext (by
    match d with
    | ⟨0, _⟩ => exact (d2_rhs_0 _ _).trans hk
    | ⟨1, _⟩ => exact d2_rhs_1 _ _)
  rw [el, er]

/-- A [1, 64, 1156] block viewed as [64, 1156] reads (ci, j) at (0, ci, j). -/
theorem dropUnit_apply (v0 : Vec Ideal S1x64x1156 .bf16) (ci : Fin 64) (j : Fin 1156) :
    (shapeCast S64x1156 v0 shapeCasts_S1x64x1156_S64x1156 (ix2 ci j) : EReal) = v0 (ix3 (0 : Fin 1) ci j) := by
  refine shapeCast_apply v0 _ (ix2 ci j) (ix3 (0 : Fin 1) ci j) ?_
  rw [Shape.rowMajor_val_three, Shape.rowMajor_val_two]
  show (0 * 64 + ci.val) * 1156 + j.val = ci.val * 1156 + j.val
  omega

/-- The per-image arithmetic at entry (o, j): the specification's second product of image `n`. -/
theorem core_apply (x : ℕ → ℕ → ℕ → ℕ → EReal) (w1 w2 : ℕ → ℕ → ℕ → EReal) (n : ℕ)
    (v0 : Vec Ideal S1x64x1156 .bf16) (v2 : Vec Ideal S64x192 .bf16) (v4 : Vec Ideal S128x192 .bf16)
    (h0 : ∀ (ci : Fin 64) (j : Fin 1156), (v0 (ix3 (0 : Fin 1) ci j) : EReal) = Spec.padK x n ci j)
    (h2 : ∀ (a : Fin 64) (k : Fin 192), (v2 (ix2 a k) : EReal) = Spec.w1K w1 a k)
    (h4 : ∀ (o : Fin 128) (k : Fin 192), (v4 (ix2 o k) : EReal) = Spec.w2K w2 o k)
    (o : Fin 128) (j : Fin 1156) :
    (core v0 v2 v4 (ix2 o j) : EReal) = Spec.conv2K x w1 w2 n o j := by
  unfold core
  refine (mm2_apply _ _ o j).trans ?_
  unfold Spec.conv2K
  rw [Finset.sum_range]
  refine Finset.sum_congr rfl fun k _ => ?_
  rw [shapeCast_self, h4 o k]
  refine congrArg (Spec.w2K w2 o k * ·) ?_
  refine (rotStack_apply _ (Spec.conv1K x w1 n) (fun a j' => ?_) k j).trans rfl
  show (matmul d1 none _ _ (constant (F := Ideal) S64x1156 .f32 0x00000000#32) (ix2 a j') : EReal) = _
  refine (mm1_apply _ _ a j').trans ?_
  unfold Spec.conv1K
  rw [Finset.sum_range]
  refine Finset.sum_congr rfl fun k' _ => ?_
  rw [shapeCast_self, h2 a k']
  refine congrArg (Spec.w1K w1 a k' * ·) ?_
  refine (shiftStack_apply _ (Spec.padK x n) (fun ci jj => ?_) k' j').trans rfl
  exact (dropUnit_apply v0 ci jj).trans (h0 ci jj)

end Cert.KernelIdeal.ValueLeg

end
-- ==== Proof.KernelValueStatsBlock.lean ====
/-
  The first call's three output blocks, read entry by entry.

  For each of the sixteen images of a block the body stores, into slab b of the three output blocks, the row sums of the
  image's second product, the row sums of its squares, and the product itself. Each store's value is one function of
  slab b of the image block and the two weight matrices, and in each output block the sixteen slabs tile the block. So
  when the image block reads as sixteen consecutive padded images of the specification and the weight matrices as its
  stacked taps, entry (b, o, ·) of the blocks after the body is the specification's per-image sum, sum of squares and
  second product of image (first image + b) at channel o.
-/
import proofs.«100421_g2000304308963006_pallasbulk_990_41_alg».proof.Proof.KernelIdealStatsPass
import proofs.«100421_g2000304308963006_pallasbulk_990_41_alg».proof.Proof.KernelValueConv
import Idealize.ShloMosaic.Lib.Pipeline.Value

noncomputable section

set_option maxRecDepth 16384
open scoped BigOperators

namespace Cert.KernelIdeal.ValueLeg

open Cert.KernelIdeal Cert.KernelIdeal.Gen
open Idealize.ShloMosaic Idealize.ShloMosaic.TcCoe Idealize.ShloMosaic.ValueIdx Idealize.SL.Sem Idealize.ShloMosaic.Tactic Finset

section AnyInstance
variable {F : FTy → Type} [FloatOps F]

/-- The row sums of a [128, 1156] matrix, kept as a [1, 128, 1] slab. -/
def rowSums (src : FVec F S128x1156 .f32) : FVec F S1x128x1 .f32 :=
  shapeCast S1x128x1 (shapeCast S128x1 (multiReduction .add [1] S128 src 0x00000000#32 reduces_S128x1156_S128 (.inl rfl) rfl) shapeCasts_S128_S128x1) shapeCasts_S128x1_S1x128x1
/-- What is stored into a slab of the block of sums, of the block of sums of squares, of the block of products. -/
def sumOf (a : Vec F S1x64x1156 .bf16) (b : Vec F S64x192 .bf16) (c : Vec F S128x192 .bf16) : FVec F S1x128x1 .f32 := rowSums (core a b c)
def sqOf (a : Vec F S1x64x1156 .bf16) (b : Vec F S64x192 .bf16) (c : Vec F S128x192 .bf16) : FVec F S1x128x1 .f32 := rowSums (mulf (core a b c) (core a b c))
def convOf (a : Vec F S1x64x1156 .bf16) (b : Vec F S64x192 .bf16) (c : Vec F S128x192 .bf16) : FVec F S1x128x1156 .bf16 :=
  shapeCast S1x128x1156 (truncf .bf16 (core a b c) bitsLt_bf16_f32) shapeCasts_S128x1156_S1x128x1156

theorem k0_pay77_eq : @k0_pay77 F _ = sumOf := rfl
theorem k0_pay72_eq : @k0_pay72 F _ = sumOf := rfl
theorem k0_pay67_eq : @k0_pay67 F _ = sumOf := rfl
theorem k0_pay62_eq : @k0_pay62 F _ = sumOf := rfl
theorem k0_pay57_eq : @k0_pay57 F _ = sumOf := rfl
theorem k0_pay52_eq : @k0_pay52 F _ = sumOf := rfl
theorem k0_pay47_eq : @k0_pay47 F _ = sumOf := rfl
theorem k0_pay42_eq : @k0_pay42 F _ = sumOf := rfl
theorem k0_pay38_eq : @k0_pay38 F _ = sumOf := rfl
theorem k0_pay34_eq : @k0_pay34 F _ = sumOf := rfl
theorem k0_pay29_eq : @k0_pay29 F _ = sumOf := rfl
theorem k0_pay24_eq : @k0_pay24 F _ = sumOf := rfl
theorem k0_pay19_eq : @k0_pay19 F _ = sumOf := rfl
theorem k0_pay14_eq : @k0_pay14 F _ = sumOf := rfl
theorem k0_pay9_eq : @k0_pay9 F _ = sumOf := rfl
theorem k0_pay4_eq : @k0_pay4 F _ = sumOf := rfl
theorem k0_pay39_eq : @k0_pay39 F _ = sqOf := rfl
theorem k0_pay35_eq : @k0_pay35 F _ = sqOf := rfl
theorem k0_pay30_eq : @k0_pay30 F _ = sqOf := rfl
theorem k0_pay25_eq : @k0_pay25 F _ = sqOf := rfl
theorem k0_pay20_eq : @k0_pay20 F _ = sqOf := rfl
theorem k0_pay15_eq : @k0_pay15 F _ = sqOf := rfl
theorem k0_pay10_eq : @k0_pay10 F _ = sqOf := rfl
theorem k0_pay5_eq : @k0_pay5 F _ = sqOf := rfl
theorem k0_pay1_78_eq (a : Vec F S1x64x1156 .bf16) (b : Vec F S64x192 .bf16) (c : Vec F S128x192 .bf16) : k0_pay1 (k0_pay78 a b c) = sqOf a b c := rfl
theorem k0_pay74_73_eq (a : Vec F S1x64x1156 .bf16) (b : Vec F S64x192 .bf16) (c : Vec F S128x192 .bf16) : k0_pay74 (k0_pay73 a b c) = sqOf a b c := rfl
theorem k0_pay69_68_eq (a : Vec F S1x64x1156 .bf16) (b : Vec F S64x192 .bf16) (c : Vec F S128x192 .bf16) : k0_pay69 (k0_pay68 a b c) = sqOf a b c := rfl
theorem k0_pay64_63_eq (a : Vec F S1x64x1156 .bf16) (b : Vec F S64x192 .bf16) (c : Vec F S128x192 .bf16) : k0_pay64 (k0_pay63 a b c) = sqOf a b c := rfl
theorem k0_pay59_58_eq (a : Vec F S1x64x1156 .bf16) (b : Vec F S64x192 .bf16) (c : Vec F S128x192 .bf16) : k0_pay59 (k0_pay58 a b c) = sqOf a b c := rfl
theorem k0_pay54_53_eq (a : Vec F S1x64x1156 .bf16) (b : Vec F S64x192 .bf16) (c : Vec F S128x192 .bf16) : k0_pay54 (k0_pay53 a b c) = sqOf a b c := rfl
theorem k0_pay49_48_eq (a : Vec F S1x64x1156 .bf16) (b : Vec F S64x192 .bf16) (c : Vec F S128x192 .bf16) : k0_pay49 (k0_pay48 a b c) = sqOf a b c := rfl
theorem k0_pay44_43_eq (a : Vec F S1x64x1156 .bf16) (b : Vec F S64x192 .bf16) (c : Vec F S128x192 .bf16) : k0_pay44 (k0_pay43 a b c) = sqOf a b c := rfl
theorem k0_pay2_76_eq (a : Vec F S1x64x1156 .bf16) (b : Vec F S64x192 .bf16) (c : Vec F S128x192 .bf16) : k0_pay2 (k0_pay76 a b c) = convOf a b c := rfl
theorem k0_pay75_71_eq (a : Vec F S1x64x1156 .bf16) (b : Vec F S64x192 .bf16) (c : Vec F S128x192 .bf16) : k0_pay75 (k0_pay71 a b c) = convOf a b c := rfl
theorem k0_pay70_66_eq (a : Vec F S1x64x1156 .bf16) (b : Vec F S64x192 .bf16) (c : Vec F S128x192 .bf16) : k0_pay70 (k0_pay66 a b c) = convOf a b c := rfl
theorem k0_pay65_61_eq (a : Vec F S1x64x1156 .bf16) (b : Vec F S64x192 .bf16) (c : Vec F S128x192 .bf16) : k0_pay65 (k0_pay61 a b c) = convOf a b c := rfl
theorem k0_pay60_56_eq (a : Vec F S1x64x1156 .bf16) (b : Vec F S64x192 .bf16) (c : Vec F S128x192 .bf16) : k0_pay60 (k0_pay56 a b c) = convOf a b c := rfl
theorem k0_pay55_51_eq (a : Vec F S1x64x1156 .bf16) (b : Vec F S64x192 .bf16) (c : Vec F S128x192 .bf16) : k0_pay55 (k0_pay51 a b c) = convOf a b c := rfl
theorem k0_pay50_46_eq (a : Vec F S1x64x1156 .bf16) (b : Vec F S64x192 .bf16) (c : Vec F S128x192 .bf16) : k0_pay50 (k0_pay46 a b c) = convOf a b c := rfl
theorem k0_pay45_41_eq (a : Vec F S1x64x1156 .bf16) (b : Vec F S64x192 .bf16) (c : Vec F S128x192 .bf16) : k0_pay45 (k0_pay41 a b c) = convOf a b c := rfl
theorem k0_pay40_37_eq (a : Vec F S1x64x1156 .bf16) (b : Vec F S64x192 .bf16) (c : Vec F S128x192 .bf16) : k0_pay40 (k0_pay37 a b c) = convOf a b c := rfl
theorem k0_pay36_33_eq (a : Vec F S1x64x1156 .bf16) (b : Vec F S64x192 .bf16) (c : Vec F S128x192 .bf16) : k0_pay36 (k0_pay33 a b c) = convOf a b c := rfl
theorem k0_pay32_31_eq (a : Vec F S1x64x1156 .bf16) (b : Vec F S64x192 .bf16) (c : Vec F S128x192 .bf16) : k0_pay32 (k0_pay31 a b c) = convOf a b c := rfl
theorem k0_pay27_26_eq (a : Vec F S1x64x1156 .bf16) (b : Vec F S64x192 .bf16) (c : Vec F S128x192 .bf16) : k0_pay27 (k0_pay26 a b c) = convOf a b c := rfl
theorem k0_pay22_21_eq (a : Vec F S1x64x1156 .bf16) (b : Vec F S64x192 .bf16) (c : Vec F S128x192 .bf16) : k0_pay22 (k0_pay21 a b c) = convOf a b c := rfl
theorem k0_pay17_16_eq (a : Vec F S1x64x1156 .bf16) (b : Vec F S64x192 .bf16) (c : Vec F S128x192 .bf16) : k0_pay17 (k0_pay16 a b c) = convOf a b c := rfl
theorem k0_pay12_11_eq (a : Vec F S1x64x1156 .bf16) (b : Vec F S64x192 .bf16) (c : Vec F S128x192 .bf16) : k0_pay12 (k0_pay11 a b c) = convOf a b c := rfl
theorem k0_pay7_6_eq (a : Vec F S1x64x1156 .bf16) (b : Vec F S64x192 .bf16) (c : Vec F S128x192 .bf16) : k0_pay7 (k0_pay6 a b c) = convOf a b c := rfl

end AnyInstance

theorem hz2' : (![0, 0] : Fin 2 → Nat) = fun _ => 0 := funext fun a => by fin_cases a <;> rfl

/-- The kept row sums at (u, o, z): the sum of row o. -/
theorem rowSums_apply (src : FVec Ideal S128x1156 .f32) (u : Fin 1) (o : Fin 128) (z : Fin 1) :
    (rowSums src (ix3 u o z) : EReal) = ∑ k : Fin 1156, (src (ix2 o k) : EReal) := by
  unfold rowSums
  refine (shapeCast_apply _ _ (ix3 u o z) (ix2 o z) ?_).trans ?_
  · rw [Shape.rowMajor_val_two, Shape.rowMajor_val_three]
    show o.val * 1 + z.val = (u.val * 128 + o.val) * 1 + z.val
    have := u.isLt; omega
  refine (Cert.LibKeepdims.shapeCast_a_a1_apply (a := 128) _ _ o z).trans ?_
  exact Cert.LibKeepdims.multiReduction_add_rows (a := 128) (b := 1156) src _ _ _ _ o

/-- Slab `off 0` of the image block reads as padded image `n0 + off 0`. -/
theorem ld_slab (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (off : Fin 3 → ℕ) (inb : ∀ a, off a + S1x64x1156.size a ≤ S16x64x1156.size a) (e1 : off 1 = 0) (e2 : off 2 = 0)
    (ci : Fin 64) (j : Fin 1156) :
    (View.ld x0 (Rect.unit (s := S16x64x1156) off S1x64x1156.size inb) (ix3 (0 : Fin 1) ci j) : EReal) = Spec.padK x (n0 + off 0) ci j := by
  have hb : off 0 + 1 ≤ 16 := inb 0
  have e : (Rect.unit (s := S16x64x1156) off S1x64x1156.size inb).idx (ix3 (0 : Fin 1) ci j) = ix3 (⟨off 0, by omega⟩ : Fin 16) ci j := by
    funext a; apply Fin.ext
    match a with
    | ⟨0, _⟩ => show off 0 + 1 * 0 = off 0; omega
    | ⟨1, _⟩ => show off 1 + 1 * ci.val = ci.val; omega
    | ⟨2, _⟩ => show off 2 + 1 * j.val = j.val; omega
  show (x0 ((Rect.unit (s := S16x64x1156) off S1x64x1156.size inb).idx (ix3 (0 : Fin 1) ci j)) : EReal) = _
  rw [e]; exact h0 _ _ _

/-- The three blocks the body leaves, as functions of the block index. -/
def sumG (x : ℕ → ℕ → ℕ → ℕ → EReal) (w1 w2 : ℕ → ℕ → ℕ → EReal) (n0 : ℕ) : S16x128x1.Idx → EReal :=
  fun i => Spec.sumK x w1 w2 (n0 + (i 0).val) (i 1).val
def sqG (x : ℕ → ℕ → ℕ → ℕ → EReal) (w1 w2 : ℕ → ℕ → ℕ → EReal) (n0 : ℕ) : S16x128x1.Idx → EReal :=
  fun i => Spec.sqK x w1 w2 (n0 + (i 0).val) (i 1).val
def convG (x : ℕ → ℕ → ℕ → ℕ → EReal) (w1 w2 : ℕ → ℕ → ℕ → EReal) (n0 : ℕ) : S16x128x1156.Idx → EReal :=
  fun i => Spec.conv2K x w1 w2 (n0 + (i 0).val) (i 1).val (i 2).val

theorem sumPiece (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k)
    (off : Fin 3 → ℕ) (inb : ∀ a, off a + S1x64x1156.size a ≤ S16x64x1156.size a) (inb' : ∀ a, off a + S1x128x1.size a ≤ S16x128x1.size a)
    (e1 : off 1 = 0) (e2 : off 2 = 0) (y : S1x128x1.Idx) :
    (sumOf (View.ld x0 (Rect.unit (s := S16x64x1156) off S1x64x1156.size inb)) x1 x2 y : EReal)
      = sumG x w1 w2 n0 ((Rect.unit (s := S16x128x1) off S1x128x1.size inb').emb y) := by
  obtain ⟨u, o, z, rfl⟩ : ∃ (u : Fin 1) (o : Fin 128) (z : Fin 1), y = ix3 u o z := ⟨y 0, y 1, y 2, eq_ix3 y⟩
  have hu : u.val = 0 := by have := u.isLt; omega
  unfold sumOf
  rw [rowSums_apply]
  show _ = Spec.sumK x w1 w2 (n0 + (off 0 + 1 * u.val)) (off 1 + 1 * o.val)
  rw [hu, e1, show n0 + (off 0 + 1 * 0) = n0 + off 0 by omega, show 0 + 1 * o.val = o.val by omega]
  unfold Spec.sumK
  rw [zero_add, Finset.sum_range]
  refine Finset.sum_congr rfl fun k _ => ?_
  exact core_apply x w1 w2 (n0 + off 0) _ x1 x2 (ld_slab x w1 w2 n0 x0 x1 x2 h0 off inb e1 e2) h1 h2 o k

theorem sqPiece (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k)
    (off : Fin 3 → ℕ) (inb : ∀ a, off a + S1x64x1156.size a ≤ S16x64x1156.size a) (inb' : ∀ a, off a + S1x128x1.size a ≤ S16x128x1.size a)
    (e1 : off 1 = 0) (e2 : off 2 = 0) (y : S1x128x1.Idx) :
    (sqOf (View.ld x0 (Rect.unit (s := S16x64x1156) off S1x64x1156.size inb)) x1 x2 y : EReal)
      = sqG x w1 w2 n0 ((Rect.unit (s := S16x128x1) off S1x128x1.size inb').emb y) := by
  obtain ⟨u, o, z, rfl⟩ : ∃ (u : Fin 1) (o : Fin 128) (z : Fin 1), y = ix3 u o z := ⟨y 0, y 1, y 2, eq_ix3 y⟩
  have hu : u.val = 0 := by have := u.isLt; omega
  unfold sqOf
  rw [rowSums_apply]
  show _ = Spec.sqK x w1 w2 (n0 + (off 0 + 1 * u.val)) (off 1 + 1 * o.val)
  rw [hu, e1, show n0 + (off 0 + 1 * 0) = n0 + off 0 by omega, show 0 + 1 * o.val = o.val by omega]
  unfold Spec.sqK
  rw [zero_add, Finset.sum_range]
  refine Finset.sum_congr rfl fun k _ => ?_
  have hc := core_apply x w1 w2 (n0 + off 0) _ x1 x2 (ld_slab x w1 w2 n0 x0 x1 x2 h0 off inb e1 e2) h1 h2 o k
  show (core _ x1 x2 (ix2 o k) : EReal) * (core _ x1 x2 (ix2 o k) : EReal) = _
  rw [hc]

theorem convPiece (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k)
    (off : Fin 3 → ℕ) (inb : ∀ a, off a + S1x64x1156.size a ≤ S16x64x1156.size a) (inb' : ∀ a, off a + S1x128x1156.size a ≤ S16x128x1156.size a)
    (e1 : off 1 = 0) (e2 : off 2 = 0) (y : S1x128x1156.Idx) :
    (convOf (View.ld x0 (Rect.unit (s := S16x64x1156) off S1x64x1156.size inb)) x1 x2 y : EReal)
      = convG x w1 w2 n0 ((Rect.unit (s := S16x128x1156) off S1x128x1156.size inb').emb y) := by
  obtain ⟨u, o, j, rfl⟩ : ∃ (u : Fin 1) (o : Fin 128) (j : Fin 1156), y = ix3 u o j := ⟨y 0, y 1, y 2, eq_ix3 y⟩
  have hu : u.val = 0 := by have := u.isLt; omega
  unfold convOf
  refine (shapeCast_apply _ _ (ix3 u o j) (ix2 o j) ?_).trans ?_
  · rw [Shape.rowMajor_val_two, Shape.rowMajor_val_three]
    show o.val * 1156 + j.val = (u.val * 128 + o.val) * 1156 + j.val
    omega
  show (core _ x1 x2 (ix2 o j) : EReal) = Spec.conv2K x w1 w2 (n0 + (off 0 + 1 * u.val)) (off 1 + 1 * o.val) (off 2 + 1 * j.val)
  rw [hu, e1, e2, show n0 + (off 0 + 1 * 0) = n0 + off 0 by omega, show 0 + 1 * o.val = o.val by omega, show 0 + 1 * j.val = j.val by omega]
  exact core_apply x w1 w2 (n0 + off 0) _ x1 x2 (ld_slab x w1 w2 n0 x0 x1 x2 h0 off inb e1 e2) h1 h2 o j

/-- THE BLOCK OF ROW SUMS AFTER THE BODY. -/
theorem sumBlock_eq (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k) (y : S16x128x1.Idx) :
    (StatsPass.sumBlock (F := Ideal) c i arg1 harg1 arg2 harg2 arg3 harg3 arg4 harg4 arg5 harg5 arg6 harg6 x0 x1 x2 y : EReal) = sumG x w1 w2 n0 y := by
  unfold StatsPass.sumBlock
  rw [View.read_writes_eq_canon _ _ _ (StatsPass.cover_sum c i arg1 harg1 arg2 harg2 arg3 harg3 arg4 harg4 arg5 harg5 arg6 harg6 x0 x1 x2)]
  refine View.canon_apply_of_pieces (sumG x w1 w2 n0) _ ?_ y (StatsPass.cover_sum c i arg1 harg1 arg2 harg2 arg3 harg3 arg4 harg4 arg5 harg5 arg6 harg6 x0 x1 x2 y)
  unfold StatsPass.run
  dsimp only
  try sl_unfold_words
  simp only [View.readAt_eq_ld, harg1.read_unread, harg2.read_unread, harg3.read_unread, View.ld_unit_zero (S := S64x192) hz2', View.ld_unit_zero (S := S128x192) hz2',
    k0_pay77_eq, k0_pay72_eq, k0_pay67_eq, k0_pay62_eq, k0_pay57_eq, k0_pay52_eq, k0_pay47_eq, k0_pay42_eq, k0_pay38_eq, k0_pay34_eq, k0_pay29_eq, k0_pay24_eq, k0_pay19_eq, k0_pay14_eq, k0_pay9_eq, k0_pay4_eq]
  intro p hp q
  simp only [List.mem_cons, List.not_mem_nil, or_false] at hp
  rcases hp with rfl | rfl | rfl | rfl | rfl | rfl | rfl | rfl | rfl | rfl | rfl | rfl | rfl | rfl | rfl | rfl
  · exact sumPiece x w1 w2 n0 x0 x1 x2 h0 h1 h2 _ _ inb_S16x128x1_S1x128x1_15_0_0 rfl rfl q
  · exact sumPiece x w1 w2 n0 x0 x1 x2 h0 h1 h2 _ _ inb_S16x128x1_S1x128x1_14_0_0 rfl rfl q
  · exact sumPiece x w1 w2 n0 x0 x1 x2 h0 h1 h2 _ _ inb_S16x128x1_S1x128x1_13_0_0 rfl rfl q
  · exact sumPiece x w1 w2 n0 x0 x1 x2 h0 h1 h2 _ _ inb_S16x128x1_S1x128x1_12_0_0 rfl rfl q
  · exact sumPiece x w1 w2 n0 x0 x1 x2 h0 h1 h2 _ _ inb_S16x128x1_S1x128x1_11_0_0 rfl rfl q
  · exact sumPiece x w1 w2 n0 x0 x1 x2 h0 h1 h2 _ _ inb_S16x128x1_S1x128x1_10_0_0 rfl rfl q
  · exact sumPiece x w1 w2 n0 x0 x1 x2 h0 h1 h2 _ _ inb_S16x128x1_S1x128x1_9_0_0 rfl rfl q
  · exact sumPiece x w1 w2 n0 x0 x1 x2 h0 h1 h2 _ _ inb_S16x128x1_S1x128x1_8_0_0 rfl rfl q
  · exact sumPiece x w1 w2 n0 x0 x1 x2 h0 h1 h2 _ _ inb_S16x128x1_S1x128x1_7_0_0 rfl rfl q
  · exact sumPiece x w1 w2 n0 x0 x1 x2 h0 h1 h2 _ _ inb_S16x128x1_S1x128x1_6_0_0 rfl rfl q
  · exact sumPiece x w1 w2 n0 x0 x1 x2 h0 h1 h2 _ _ inb_S16x128x1_S1x128x1_5_0_0 rfl rfl q
  · exact sumPiece x w1 w2 n0 x0 x1 x2 h0 h1 h2 _ _ inb_S16x128x1_S1x128x1_4_0_0 rfl rfl q
  · exact sumPiece x w1 w2 n0 x0 x1 x2 h0 h1 h2 _ _ inb_S16x128x1_S1x128x1_3_0_0 rfl rfl q
  · exact sumPiece x w1 w2 n0 x0 x1 x2 h0 h1 h2 _ _ inb_S16x128x1_S1x128x1_2_0_0 rfl rfl q
  · exact sumPiece x w1 w2 n0 x0 x1 x2 h0 h1 h2 _ _ inb_S16x128x1_S1x128x1_1_0_0 rfl rfl q
  · exact sumPiece x w1 w2 n0 x0 x1 x2 h0 h1 h2 _ _ inb_S16x128x1_S1x128x1_0_0_0 rfl rfl q

/-- THE BLOCK OF ROW SUMS OF SQUARES AFTER THE BODY. -/
theorem sqBlock_eq (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k) (y : S16x128x1.Idx) :
    (StatsPass.sqBlock (F := Ideal) c i arg1 harg1 arg2 harg2 arg3 harg3 arg4 harg4 arg5 harg5 arg6 harg6 x0 x1 x2 y : EReal) = sqG x w1 w2 n0 y := by
  unfold StatsPass.sqBlock
  rw [View.read_writes_eq_canon _ _ _ (StatsPass.cover_sq c i arg1 harg1 arg2 harg2 arg3 harg3 arg4 harg4 arg5 harg5 arg6 harg6 x0 x1 x2)]
  refine View.canon_apply_of_pieces (sqG x w1 w2 n0) _ ?_ y (StatsPass.cover_sq c i arg1 harg1 arg2 harg2 arg3 harg3 arg4 harg4 arg5 harg5 arg6 harg6 x0 x1 x2 y)
  unfold StatsPass.run
  dsimp only
  try sl_unfold_words
  simp only [View.readAt_eq_ld, harg1.read_unread, harg2.read_unread, harg3.read_unread, View.ld_unit_zero (S := S64x192) hz2', View.ld_unit_zero (S := S128x192) hz2',
    k0_pay39_eq, k0_pay35_eq, k0_pay30_eq, k0_pay25_eq, k0_pay20_eq, k0_pay15_eq, k0_pay10_eq, k0_pay5_eq, k0_pay1_78_eq, k0_pay74_73_eq, k0_pay69_68_eq, k0_pay64_63_eq, k0_pay59_58_eq, k0_pay54_53_eq, k0_pay49_48_eq, k0_pay44_43_eq]
  intro p hp q
  simp only [List.mem_cons, List.not_mem_nil, or_false] at hp
  rcases hp with rfl | rfl | rfl | rfl | rfl | rfl | rfl | rfl | rfl | rfl | rfl | rfl | rfl | rfl | rfl | rfl
  · exact sqPiece x w1 w2 n0 x0 x1 x2 h0 h1 h2 _ _ inb_S16x128x1_S1x128x1_15_0_0 rfl rfl q
  · exact sqPiece x w1 w2 n0 x0 x1 x2 h0 h1 h2 _ _ inb_S16x128x1_S1x128x1_14_0_0 rfl rfl q
  · exact sqPiece x w1 w2 n0 x0 x1 x2 h0 h1 h2 _ _ inb_S16x128x1_S1x128x1_13_0_0 rfl rfl q
  · exact sqPiece x w1 w2 n0 x0 x1 x2 h0 h1 h2 _ _ inb_S16x128x1_S1x128x1_12_0_0 rfl rfl q
  · exact sqPiece x w1 w2 n0 x0 x1 x2 h0 h1 h2 _ _ inb_S16x128x1_S1x128x1_11_0_0 rfl rfl q
  · exact sqPiece x w1 w2 n0 x0 x1 x2 h0 h1 h2 _ _ inb_S16x128x1_S1x128x1_10_0_0 rfl rfl q
  · exact sqPiece x w1 w2 n0 x0 x1 x2 h0 h1 h2 _ _ inb_S16x128x1_S1x128x1_9_0_0 rfl rfl q
  · exact sqPiece x w1 w2 n0 x0 x1 x2 h0 h1 h2 _ _ inb_S16x128x1_S1x128x1_8_0_0 rfl rfl q
  · exact sqPiece x w1 w2 n0 x0 x1 x2 h0 h1 h2 _ _ inb_S16x128x1_S1x128x1_7_0_0 rfl rfl q
  · exact sqPiece x w1 w2 n0 x0 x1 x2 h0 h1 h2 _ _ inb_S16x128x1_S1x128x1_6_0_0 rfl rfl q
  · exact sqPiece x w1 w2 n0 x0 x1 x2 h0 h1 h2 _ _ inb_S16x128x1_S1x128x1_5_0_0 rfl rfl q
  · exact sqPiece x w1 w2 n0 x0 x1 x2 h0 h1 h2 _ _ inb_S16x128x1_S1x128x1_4_0_0 rfl rfl q
  · exact sqPiece x w1 w2 n0 x0 x1 x2 h0 h1 h2 _ _ inb_S16x128x1_S1x128x1_3_0_0 rfl rfl q
  · exact sqPiece x w1 w2 n0 x0 x1 x2 h0 h1 h2 _ _ inb_S16x128x1_S1x128x1_2_0_0 rfl rfl q
  · exact sqPiece x w1 w2 n0 x0 x1 x2 h0 h1 h2 _ _ inb_S16x128x1_S1x128x1_1_0_0 rfl rfl q
  · exact sqPiece x w1 w2 n0 x0 x1 x2 h0 h1 h2 _ _ inb_S16x128x1_S1x128x1_0_0_0 rfl rfl q

/-- THE BLOCK OF SECOND PRODUCTS AFTER THE BODY. -/
theorem convBlock_eq (c : Dev nD) (i : grid0.Coords) (arg1 : Memref sig .tc .vmem S16x64x1156 .bf16) (harg1 : arg1.IsWhole) (arg2 : Memref sig .tc .vmem S64x192 .bf16) (harg2 : arg2.IsWhole) (arg3 : Memref sig .tc .vmem S128x192 .bf16) (harg3 : arg3.IsWhole) (arg4 : Memref sig .tc .vmem S16x128x1 .f32) (harg4 : arg4.IsWhole) (arg5 : Memref sig .tc .vmem S16x128x1 .f32) (harg5 : arg5.IsWhole) (arg6 : Memref sig .tc .vmem S16x128x1156 .bf16) (harg6 : arg6.IsWhole)
    (x : ℕ → ℕ → ℕ → ℕ → EReal) (w1 w2 : ℕ → ℕ → ℕ → EReal) (n0 : ℕ)
    (x0 : Vec Ideal S16x64x1156 .bf16) (x1 : Vec Ideal S64x192 .bf16) (x2 : Vec Ideal S128x192 .bf16)
    (h0 : ∀ (b : Fin 16) (ci : Fin 64) (j : Fin 1156), (x0 (ix3 b ci j) : EReal) = Spec.padK x (n0 + b) ci j)
    (h1 : ∀ (a : Fin 64) (k : Fin 192), (x1 (ix2 a k) : EReal) = Spec.w1K w1 a k)
    (h2 : ∀ (o : Fin 128) (k : Fin 192), (x2 (ix2 o k) : EReal) = Spec.w2K w2 o k) (y : S16x128x1156.Idx) :
    (StatsPass.convBlock (F := Ideal) c i arg1 harg1 arg2 harg2 arg3 harg3 arg4 harg4 arg5 harg5 arg6 harg6 x0 x1 x2 y : EReal) = convG x w1 w2 n0 y := by
  unfold StatsPass.convBlock
  rw [View.read_writes_eq_canon _ _ _ (StatsPass.cover_conv c i arg1 harg1 arg2 harg2 arg3 harg3 arg4 harg4 arg5 harg5 arg6 harg6 x0 x1 x2)]
  refine View.canon_apply_of_pieces (convG x w1 w2 n0) _ ?_ y (StatsPass.cover_conv c i arg1 harg1 arg2 harg2 arg3 harg3 arg4 harg4 arg5 harg5 arg6 harg6 x0 x1 x2 y)
  unfold StatsPass.run
  dsimp only
  try sl_unfold_words
  simp only [View.readAt_eq_ld, harg1.read_unread, harg2.read_unread, harg3.read_unread, View.ld_unit_zero (S := S64x192) hz2', View.ld_unit_zero (S := S128x192) hz2',
    k0_pay2_76_eq, k0_pay75_71_eq, k0_pay70_66_eq, k0_pay65_61_eq, k0_pay60_56_eq, k0_pay55_51_eq, k0_pay50_46_eq, k0_pay45_41_eq, k0_pay40_37_eq, k0_pay36_33_eq, k0_pay32_31_eq, k0_pay27_26_eq, k0_pay22_21_eq, k0_pay17_16_eq, k0_pay12_11_eq, k0_pay7_6_eq]
  intro p hp q
  simp only [List.mem_cons, List.not_mem_nil, or_false] at hp
  rcases hp with rfl | rfl | rfl | rfl | rfl | rfl | rfl | rfl | rfl | rfl | rfl | rfl | rfl | rfl | rfl | rfl
  · exact convPiece x w1 w2 n0 x0 x1 x2 h0 h1 h2 _ _ inb_S16x128x1156_S1x128x1156_15_0_0 rfl rfl q
  · exact convPiece x w1 w2 n0 x0 x1 x2 h0 h1 h2 _ _ inb_S16x128x1156_S1x128x1156_14_0_0 rfl rfl q
  · exact convPiece x w1 w2 n0 x0 x1 x2 h0 h1 h2 _ _ inb_S16x128x1156_S1x128x1156_13_0_0 rfl rfl q
  · exact convPiece x w1 w2 n0 x0 x1 x2 h0 h1 h2 _ _ inb_S16x128x1156_S1x128x1156_12_0_0 rfl rfl q
  · exact convPiece x w1 w2 n0 x0 x1 x2 h0 h1 h2 _ _ inb_S16x128x1156_S1x128x1156_11_0_0 rfl rfl q
  · exact convPiece x w1 w2 n0 x0 x1 x2 h0 h1 h2 _ _ inb_S16x128x1156_S1x128x1156_10_0_0 rfl rfl q
  · exact convPiece x w1 w2 n0 x0 x1 x2 h0 h1 h2 _ _ inb_S16x128x1156_S1x128x1156_9_0_0 rfl rfl q
  · exact convPiece x w1 w2 n0 x0 x1 x2 h0 h1 h2 _ _ inb_S16x128x1156_S1x128x1156_8_0_0 rfl rfl q
  · exact convPiece x w1 w2 n0 x0 x1 x2 h0 h1 h2 _ _ inb_S16x128x1156_S1x128x1156_7_0_0 rfl rfl q
  · exact convPiece x w1 w2 n0 x0 x1 x2 h0 h1 h2 _ _ inb_S16x128x1156_S1x128x1156_6_0_0 rfl rfl q
  · exact convPiece x w1 w2 n0 x0 x1 x2 h0 h1 h2 _ _ inb_S16x128x1156_S1x128x1156_5_0_0 rfl rfl q
  · exact convPiece x w1 w2 n0 x0 x1 x2 h0 h1 h2 _ _ inb_S16x128x1156_S1x128x1156_4_0_0 rfl rfl q
  · exact convPiece x w1 w2 n0 x0 x1 x2 h0 h1 h2 _ _ inb_S16x128x1156_S1x128x1156_3_0_0 rfl rfl q
  · exact convPiece x w1 w2 n0 x0 x1 x2 h0 h1 h2 _ _ inb_S16x128x1156_S1x128x1156_2_0_0 rfl rfl q
  · exact convPiece x w1 w2 n0 x0 x1 x2 h0 h1 h2 _ _ inb_S16x128x1156_S1x128x1156_1_0_0 rfl rfl q
  · exact convPiece x w1 w2 n0 x0 x1 x2 h0 h1 h2 _ _ inb_S16x128x1156_S1x128x1156_0_0_0 rfl rfl q

end Cert.KernelIdeal.ValueLeg

end
-- ==== Proof.KernelValueStats.lean ====
/-
  The first call's three output arrays after the call, entry by entry: the per-image row sums, the row sums of squares,
  and the second product, of the specification, when the three arrays the call stages read as the specification's padded
  images and stacked weight matrices.

  Grid point t stages images 16t .. 16t+15 and writes back the same sixteen images of each output array; the weight
  matrices are staged whole at every point. So what point t writes back is block t of one function per output array,
  and the eight blocks cover the 128 images.
-/
import proofs.«100421_g2000304308963006_pallasbulk_990_41_alg».proof.Proof.KernelValueStatsBlock

noncomputable section

set_option maxRecDepth 16384

namespace Cert.KernelIdeal.ValueLeg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the six windows at grid point t. -/
theorem stats_idx : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The image block at point t reads as padded images 16t .. 16t+15. -/
theorem blk0_apply (c : Dev nD) (x : ℕ → ℕ → ℕ → ℕ → EReal)
    (hv19 : ∀ (n : Fin 128) (ci : Fin 64) (j : Fin 1156), (V c main_v19 : S128x64x1156.Idx → EReal) (ix3 n ci j) = Spec.padK x n ci j)
    (t : Fin cfg0.N) (b : Fin 16) (ci : Fin 64) (j : Fin 1156) :
    (StatsPass.blk V c 0 t (ix3 b ci j) : EReal) = Spec.padK x (16 * t.val + b) ci j := by
  obtain ⟨a0, a1, a2, -⟩ := stats_idx t
  have hN : cfg0.N = 8 := N_0
  have ht : t.val < 8 := hN ▸ t.isLt
  have e : ((cfg0.win 0).blk t).view.emb (ix3 b ci j) = ix3 (⟨16 * t.val + b.val, by omega⟩ : Fin 128) ci j := by
    funext a; apply Fin.ext
    match a with
    | ⟨0, _⟩ => show win0_0.index t (0 : Fin 3) * 16 + 1 * b.val = 16 * t.val + b.val; omega
    | ⟨1, _⟩ => show win0_0.index t (1 : Fin 3) * 64 + 1 * ci.val = ci.val; omega
    | ⟨2, _⟩ => show win0_0.index t (2 : Fin 3) * 1156 + 1 * j.val = j.val; omega
  show (V c main_v19 : S128x64x1156.Idx → EReal) (((cfg0.win 0).blk t).view.emb (ix3 b ci j)) = _
  rw [e]; exact hv19 _ _ _

/-- The first weight block at every point is the whole first stacked matrix. -/
theorem blk1_apply (c : Dev nD) (w1 : ℕ → ℕ → ℕ → EReal)
    (hv7 : ∀ (a : Fin 64) (k : Fin 192), (V c main_v7 : S64x192.Idx → EReal) (ix2 a k) = Spec.w1K w1 a k)
    (t : Fin cfg0.N) (a : Fin 64) (k : Fin 192) :
    (StatsPass.blk V c 1 t (ix2 a k) : EReal) = Spec.w1K w1 a k := by
  obtain ⟨-, -, -, b0, b1, -⟩ := stats_idx t
  have e : ((cfg0.win 1).blk t).view.emb (ix2 a k) = ix2 a k := by
    funext d; apply Fin.ext
    match d with
    | ⟨0, _⟩ => show win0_1.index t (0 : Fin 2) * 64 + 1 * a.val = a.val; omega
    | ⟨1, _⟩ => show win0_1.index t (1 : Fin 2) * 192 + 1 * k.val = k.val; omega
  show (V c main_v7 : S64x192.Idx → EReal) (((cfg0.win 1).blk t).view.emb (ix2 a k)) = _
  rw [e]; exact hv7 _ _

/-- The second weight block at every point is the whole second stacked matrix. -/
theorem blk2_apply (c : Dev nD) (w2 : ℕ → ℕ → ℕ → EReal)
    (hv20 : ∀ (o : Fin 128) (k : Fin 192), (V c main_v20 : S128x192.Idx → EReal) (ix2 o k) = Spec.w2K w2 o k)
    (t : Fin cfg0.N) (o : Fin 128) (k : Fin 192) :
    (StatsPass.blk V c 2 t (ix2 o k) : EReal) = Spec.w2K w2 o k := by
  obtain ⟨-, -, -, -, -, c0, c1, -⟩ := stats_idx t
  have e : ((cfg0.win 2).blk t).view.emb (ix2 o k) = ix2 o k := by
    funext d; apply Fin.ext
    match d with
    | ⟨0, _⟩ => show win0_2.index t (0 : Fin 2) * 128 + 1 * o.val = o.val; omega
    | ⟨1, _⟩ => show win0_2.index t (1 : Fin 2) * 192 + 1 * k.val = k.val; omega
  show (V c main_v20 : S128x192.Idx → EReal) (((cfg0.win 2).blk t).view.emb (ix2 o k)) = _
  rw [e]; exact hv20 _ _

/-- The three output arrays as functions of the array index. -/
def sumArr (x : ℕ → ℕ → ℕ → ℕ → EReal) (w1 w2 : ℕ → ℕ → ℕ → EReal) : S128x128x1.Idx → EReal :=
  fun i => Spec.sumK x w1 w2 (i 0).val (i 1).val
def sqArr (x : ℕ → ℕ → ℕ → ℕ → EReal) (w1 w2 : ℕ → ℕ → ℕ → EReal) : S128x128x1.Idx → EReal :=
  fun i => Spec.sqK x w1 w2 (i 0).val (i 1).val
def convArr (x : ℕ → ℕ → ℕ → ℕ → EReal) (w1 w2 : ℕ → ℕ → ℕ → EReal) : S128x128x1156.Idx → EReal :=
  fun i => Spec.conv2K x w1 w2 (i 0).val (i 1).val (i 2).val

/-- What point t writes back into the array of row sums is block t of that function. -/
theorem stats_flushed3 (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) (t : Fin cfg0.N) :
    (StatsPass.dat V c).flushed 3 t = ((cfg0.win 3).blk t).view.read (Elt Ideal) (sumArr x w1 w2) := by
  show (cfg0.win 3).cut (grid0.coords t) ((StatsPass.dat V c).after 3 t) = _
  rw [StatsPass.after_3]
  unfold StatsPass.outsAt
  dsimp only
  obtain ⟨a0, a1, a2, b0, b1, c0, c1, d0, d1, d2, f0, f1, f2, g0, g1, g2⟩ := stats_idx t
  funext y
  refine (sumBlock_eq c _ _ _ _ _ _ _ _ _ _ _ _ _ x w1 w2 (16 * t.val) (StatsPass.blk V c 0 t) (StatsPass.blk V c 1 t) (StatsPass.blk V c 2 t)
    (blk0_apply V c x hv19 t) (blk1_apply V c w1 hv7 t) (blk2_apply V c w2 hv20 t) y).trans ?_
  have hy0 : (y 0).val < 16 := (y 0).isLt
  have hy1 : (y 1).val < 128 := (y 1).isLt
  show Spec.sumK x w1 w2 (16 * t.val + (y 0).val) (y 1).val
      = Spec.sumK x w1 w2 (win0_3.index t (0 : Fin 3) * 16 + 1 * (y 0).val) (win0_3.index t (1 : Fin 3) * 128 + 1 * (y 1).val)
  rw [d0, d1]
  congr 1 <;> omega

/-- What point t writes back into the array of row sums of squares is block t of that function. -/
theorem stats_flushed4 (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) (t : Fin cfg0.N) :
    (StatsPass.dat V c).flushed 4 t = ((cfg0.win 4).blk t).view.read (Elt Ideal) (sqArr x w1 w2) := by
  show (cfg0.win 4).cut (grid0.coords t) ((StatsPass.dat V c).after 4 t) = _
  rw [StatsPass.after_4]
  unfold StatsPass.outsAt
  dsimp only
  obtain ⟨a0, a1, a2, b0, b1, c0, c1, d0, d1, d2, f0, f1, f2, g0, g1, g2⟩ := stats_idx t
  funext y
  refine (sqBlock_eq c _ _ _ _ _ _ _ _ _ _ _ _ _ x w1 w2 (16 * t.val) (StatsPass.blk V c 0 t) (StatsPass.blk V c 1 t) (StatsPass.blk V c 2 t)
    (blk0_apply V c x hv19 t) (blk1_apply V c w1 hv7 t) (blk2_apply V c w2 hv20 t) y).trans ?_
  have hy0 : (y 0).val < 16 := (y 0).isLt
  have hy1 : (y 1).val < 128 := (y 1).isLt
  show Spec.sqK x w1 w2 (16 * t.val + (y 0).val) (y 1).val
      = Spec.sqK x w1 w2 (win0_4.index t (0 : Fin 3) * 16 + 1 * (y 0).val) (win0_4.index t (1 : Fin 3) * 128 + 1 * (y 1).val)
  rw [f0, f1]
  congr 1 <;> omega

/-- What point t writes back into the array of second products is block t of that function. -/
theorem stats_flushed5 (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) (t : Fin cfg0.N) :
    (StatsPass.dat V c).flushed 5 t = ((cfg0.win 5).blk t).view.read (Elt Ideal) (convArr x w1 w2) := by
  show (cfg0.win 5).cut (grid0.coords t) ((StatsPass.dat V c).after 5 t) = _
  rw [StatsPass.after_5]
  unfold StatsPass.outsAt
  dsimp only
  obtain ⟨a0, a1, a2, b0, b1, c0, c1, d0, d1, d2, f0, f1, f2, g0, g1, g2⟩ := stats_idx t
  funext y
  refine (convBlock_eq c _ _ _ _ _ _ _ _ _ _ _ _ _ x w1 w2 (16 * t.val) (StatsPass.blk V c 0 t) (StatsPass.blk V c 1 t) (StatsPass.blk V c 2 t)
    (blk0_apply V c x hv19 t) (blk1_apply V c w1 hv7 t) (blk2_apply V c w2 hv20 t) y).trans ?_
  have hy0 : (y 0).val < 16 := (y 0).isLt
  have hy1 : (y 1).val < 128 := (y 1).isLt
  show Spec.conv2K x w1 w2 (16 * t.val + (y 0).val) (y 1).val (y 2).val
      = Spec.conv2K x w1 w2 (win0_5.index t (0 : Fin 3) * 16 + 1 * (y 0).val) (win0_5.index t (1 : Fin 3) * 128 + 1 * (y 1).val) (win0_5.index t (2 : Fin 3) * 1156 + 1 * (y 2).val)
  rw [g0, g1, g2]
  congr 1 <;> omega

/-- An entry is in point t's block of the array of row sums iff its image coordinate is in 16t .. 16t+15; likewise the others. -/
theorem stats_mem_blk3 (t : Fin cfg0.N) (i : S128x128x1.Idx) :
    i ∈ ((cfg0.win 3).blk t).view.set ↔ ∀ a : Fin 3, win0_3.index t a * S16x128x1.size a ≤ (i a).val ∧ (i a).val < win0_3.index t a * S16x128x1.size a + S16x128x1.size a := by
  show i ∈ ((View.whole main_v21_0).slice (win0_3.rect t)).set ↔ _
  rw [View.set_slice_whole, Rect.mem_set_unit]
  exact Iff.rfl
theorem stats_mem_blk4 (t : Fin cfg0.N) (i : S128x128x1.Idx) :
    i ∈ ((cfg0.win 4).blk t).view.set ↔ ∀ a : Fin 3, win0_4.index t a * S16x128x1.size a ≤ (i a).val ∧ (i a).val < win0_4.index t a * S16x128x1.size a + S16x128x1.size a := by
  show i ∈ ((View.whole main_v21_1).slice (win0_4.rect t)).set ↔ _
  rw [View.set_slice_whole, Rect.mem_set_unit]
  exact Iff.rfl
theorem stats_mem_blk5 (t : Fin cfg0.N) (i : S128x128x1156.Idx) :
    i ∈ ((cfg0.win 5).blk t).view.set ↔ ∀ a : Fin 3, win0_5.index t a * S16x128x1156.size a ≤ (i a).val ∧ (i a).val < win0_5.index t a * S16x128x1156.size a + S16x128x1156.size a := by
  show i ∈ ((View.whole main_v21_2).slice (win0_5.rect t)).set ↔ _
  rw [View.set_slice_whole, Rect.mem_set_unit]
  exact Iff.rfl

theorem stats_cover3 (i : S128x128x1.Idx) : ∃ t : Fin cfg0.N, (cfg0.win 3).flush t = true ∧ i ∈ ((cfg0.win 3).blk t).view.set := by
  have hi0 : (i 0).val < 128 := (i 0).isLt
  have hi1 : (i 1).val < 128 := (i 1).isLt
  have hi2 : (i 2).val < 1 := (i 2).isLt
  have hN : cfg0.N = 8 := N_0
  refine ⟨⟨(i 0).val / 16, by rw [hN]; omega⟩, flush0_3 _, ?_⟩
  rw [stats_mem_blk3]
  obtain ⟨-, -, -, -, -, -, -, d0, d1, d2, -⟩ := stats_idx ⟨(i 0).val / 16, by rw [hN]; omega⟩
  intro a
  match a with
  | ⟨0, _⟩ =>
    show win0_3.index _ (0 : Fin 3) * 16 ≤ (i 0).val ∧ (i 0).val < win0_3.index _ (0 : Fin 3) * 16 + 16
    rw [d0]; show (i 0).val / 16 * 16 ≤ (i 0).val ∧ (i 0).val < (i 0).val / 16 * 16 + 16; omega
  | ⟨1, _⟩ =>
    show win0_3.index _ (1 : Fin 3) * 128 ≤ (i 1).val ∧ (i 1).val < win0_3.index _ (1 : Fin 3) * 128 + 128
    rw [d1]; omega
  | ⟨2, _⟩ =>
    show win0_3.index _ (2 : Fin 3) * 1 ≤ (i 2).val ∧ (i 2).val < win0_3.index _ (2 : Fin 3) * 1 + 1
    rw [d2]; omega

theorem stats_cover4 (i : S128x128x1.Idx) : ∃ t : Fin cfg0.N, (cfg0.win 4).flush t = true ∧ i ∈ ((cfg0.win 4).blk t).view.set := by
  have hi0 : (i 0).val < 128 := (i 0).isLt
  have hi1 : (i 1).val < 128 := (i 1).isLt
  have hi2 : (i 2).val < 1 := (i 2).isLt
  have hN : cfg0.N = 8 := N_0
  refine ⟨⟨(i 0).val / 16, by rw [hN]; omega⟩, flush0_4 _, ?_⟩
  rw [stats_mem_blk4]
  obtain ⟨-, -, -, -, -, -, -, -, -, -, f0, f1, f2, -⟩ := stats_idx ⟨(i 0).val / 16, by rw [hN]; omega⟩
  intro a
  match a with
  | ⟨0, _⟩ =>
    show win0_4.index _ (0 : Fin 3) * 16 ≤ (i 0).val ∧ (i 0).val < win0_4.index _ (0 : Fin 3) * 16 + 16
    rw [f0]; show (i 0).val / 16 * 16 ≤ (i 0).val ∧ (i 0).val < (i 0).val / 16 * 16 + 16; omega
  | ⟨1, _⟩ =>
    show win0_4.index _ (1 : Fin 3) * 128 ≤ (i 1).val ∧ (i 1).val < win0_4.index _ (1 : Fin 3) * 128 + 128
    rw [f1]; omega
  | ⟨2, _⟩ =>
    show win0_4.index _ (2 : Fin 3) * 1 ≤ (i 2).val ∧ (i 2).val < win0_4.index _ (2 : Fin 3) * 1 + 1
    rw [f2]; omega

theorem stats_cover5 (i : S128x128x1156.Idx) : ∃ t : Fin cfg0.N, (cfg0.win 5).flush t = true ∧ i ∈ ((cfg0.win 5).blk t).view.set := by
  have hi0 : (i 0).val < 128 := (i 0).isLt
  have hi1 : (i 1).val < 128 := (i 1).isLt
  have hi2 : (i 2).val < 1156 := (i 2).isLt
  have hN : cfg0.N = 8 := N_0
  refine ⟨⟨(i 0).val / 16, by rw [hN]; omega⟩, flush0_5 _, ?_⟩
  rw [stats_mem_blk5]
  obtain ⟨-, -, -, -, -, -, -, -, -, -, -, -, -, g0, g1, g2⟩ := stats_idx ⟨(i 0).val / 16, by rw [hN]; omega⟩
  intro a
  match a with
  | ⟨0, _⟩ =>
    show win0_5.index _ (0 : Fin 3) * 16 ≤ (i 0).val ∧ (i 0).val < win0_5.index _ (0 : Fin 3) * 16 + 16
    rw [g0]; show (i 0).val / 16 * 16 ≤ (i 0).val ∧ (i 0).val < (i 0).val / 16 * 16 + 16; omega
  | ⟨1, _⟩ =>
    show win0_5.index _ (1 : Fin 3) * 128 ≤ (i 1).val ∧ (i 1).val < win0_5.index _ (1 : Fin 3) * 128 + 128
    rw [g1]; omega
  | ⟨2, _⟩ =>
    show win0_5.index _ (2 : Fin 3) * 1156 ≤ (i 2).val ∧ (i 2).val < win0_5.index _ (2 : Fin 3) * 1156 + 1156
    rw [g2]; omega

/-- THE THREE OUTPUT ARRAYS AFTER THE CALL. -/
theorem stats_sum_arr (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) :
    (StatsPass.dat V c).arrAt 3 cfg0.N = sumArr x w1 w2 :=
  (StatsPass.dat V c).arrAt_eq_of_cover 3 _ (fun t _ => stats_flushed3 V c x w1 w2 hv19 hv7 hv20 t) stats_cover3
theorem stats_sq_arr (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) :
    (StatsPass.dat V c).arrAt 4 cfg0.N = sqArr x w1 w2 :=
  (StatsPass.dat V c).arrAt_eq_of_cover 4 _ (fun t _ => stats_flushed4 V c x w1 w2 hv19 hv7 hv20 t) stats_cover4
theorem stats_conv_arr (c : Dev nD) (x : ℕ → ℕ → ℕ → ℕ → EReal) (w1 w2 : ℕ → ℕ → ℕ → EReal)
    (hv19 : ∀ (n : Fin 128) (ci : Fin 64) (j : Fin 1156), (V c main_v19 : S128x64x1156.Idx → EReal) (ix3 n ci j) = Spec.padK x n ci j)
    (hv7 : ∀ (a : Fin 64) (k : Fin 192), (V c main_v7 : S64x192.Idx → EReal) (ix2 a k) = Spec.w1K w1 a k)
    (hv20 : ∀ (o : Fin 128) (k : Fin 192), (V c main_v20 : S128x192.Idx → EReal) (ix2 o k) = Spec.w2K w2 o k) :
    (StatsPass.dat V c).arrAt 5 cfg0.N = convArr x w1 w2 :=
  (StatsPass.dat V c).arrAt_eq_of_cover 5 _ (fun t _ => stats_flushed5 V c x w1 w2 hv19 hv7 hv20 t) stats_cover5

end Cert.KernelIdeal.ValueLeg

end
-- ==== Proof.KernelValueAssembly.lean ====
/-
  The kernel's result read off the fold through @main, given what the host stretches compute.

  The result buffer is the reshape [128, 128, 1156] -> [128, 128, 34, 34] of the second call's output array, so
  entry (n, o, R, q) is that array's entry (n, o, 34 R + q). The second call leaves there the stored second product
  times the channel's reciprocal standard deviation plus the channel's bias. The stored second product is the first
  call's third output array (the host stretch between the calls does not write it), which — the first call's staged
  arrays reading as the specification's padded images and stacked taps — is the specification's second product; its
  first two output arrays are the specification's per-image sums and sums of squares, from which the host stretch
  forms the two columns.
-/
import proofs.«100421_g2000304308963006_pallasbulk_990_41_alg».proof.Proof.KernelIdealFrame
import proofs.«100421_g2000304308963006_pallasbulk_990_41_alg».proof.Proof.KernelValueNorm
import proofs.«100421_g2000304308963006_pallasbulk_990_41_alg».proof.Proof.KernelValueStats

noncomputable section

set_option maxRecDepth 16384

namespace Cert.KernelIdeal.ValueLeg

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (g : Dev nD → PrngReg) (c : Dev nD)

/-- The result buffer's entry (n, o, R, q) is the second call's output array's entry (n, o, 34 R + q). -/
theorem W7_out (n o : Fin 128) (R q : Fin 34) (hj : 34 * R.val + q.val < 1156) :
    (Run.W7 (F := Ideal) m g c (Proc.devRef .tc main_v36) : S128x128x34x34.Idx → EReal) (ix4 n o R q)
      = (Run.W6 (F := Ideal) m g c (Proc.devRef .tc main_v35) : S128x128x1156.Idx → EReal) (ix3 n o (⟨34 * R.val + q.val, hj⟩ : Fin 1156)) := by
  have e : (Run.W7 (F := Ideal) m g c (Proc.devRef .tc main_v36) : S128x128x34x34.Idx → EReal)
      = shapeCast S128x128x34x34 (Run.W6 (F := Ideal) m g c (Proc.devRef .tc main_v35) : S128x128x1156.Idx → EReal) shapeCasts_S128x128x1156_S128x128x34x34 := by
    dsimp only [Run.W7, hostOps2]
    after_results
    rfl
  rw [e]
  refine shapeCast_apply _ _ (ix4 n o R q) (ix3 n o (⟨34 * R.val + q.val, hj⟩ : Fin 1156)) ?_
  rw [Shape.rowMajor_val_three, Shape.rowMajor_val_four]
  show (n.val * 128 + o.val) * 1156 + (34 * R.val + q.val) = ((n.val * 128 + o.val) * 34 + R.val) * 34 + q.val
  omega

/-- The second call's output array from what it is entered with. -/
theorem W6_out : (Run.W6 (F := Ideal) m g c (Proc.devRef .tc main_v35) : S128x128x1156.Idx → EReal)
    = normArr (Run.V5 m g c main_v21_2) (Run.V5 m g c main_v32) (Run.V5 m g c main_v34) :=
  (Run.W6_arr m g c 3).trans (norm_arr (Run.V5 m g) c)

section FirstCall
variable (hpad : ∀ (n : Fin 128) (ci : Fin 64) (j : Fin 1156), (Run.W3 (F := Ideal) m g c (Proc.devRef .tc main_v19) : S128x64x1156.Idx → EReal) (ix3 n ci j)
      = Spec.padK (Spec.extX (m ((c.tc : Thread nD τ).loc main_arg0))) n ci j)
  (hw1 : ∀ (a : Fin 64) (k : Fin 192), (Run.W3 (F := Ideal) m g c (Proc.devRef .tc main_v7) : S64x192.Idx → EReal) (ix2 a k)
      = Spec.w1K (Spec.extW1 (m ((c.tc : Thread nD τ).loc main_arg1))) a k)
  (hw2 : ∀ (o : Fin 128) (k : Fin 192), (Run.W3 (F := Ideal) m g c (Proc.devRef .tc main_v20) : S128x192.Idx → EReal) (ix2 o k)
      = Spec.w2K (Spec.extW2 (m ((c.tc : Thread nD τ).loc main_arg2))) o k)
include hpad hw1 hw2

/-- The first call's three output arrays after it. -/
theorem W4_sum (n o : Fin 128) : (Run.W4 (F := Ideal) m g c (Proc.devRef .tc main_v21_0) : S128x128x1.Idx → EReal) (ix3 n o (0 : Fin 1))
    = Spec.sumK (Spec.extX (m ((c.tc : Thread nD τ).loc main_arg0))) (Spec.extW1 (m ((c.tc : Thread nD τ).loc main_arg1))) (Spec.extW2 (m ((c.tc : Thread nD τ).loc main_arg2))) n o := by
  have e : (Run.W4 (F := Ideal) m g c (Proc.devRef .tc main_v21_0) : S128x128x1.Idx → EReal) = sumArr (Spec.extX (m ((c.tc : Thread nD τ).loc main_arg0))) (Spec.extW1 (m ((c.tc : Thread nD τ).loc main_arg1))) (Spec.extW2 (m ((c.tc : Thread nD τ).loc main_arg2))) :=
    (Run.W4_arr m g c 3).trans (stats_sum_arr (Run.V3 m g) c _ _ _ hpad hw1 hw2)
  rw [e]; rfl
theorem W4_sq (n o : Fin 128) : (Run.W4 (F := Ideal) m g c (Proc.devRef .tc main_v21_1) : S128x128x1.Idx → EReal) (ix3 n o (0 : Fin 1))
    = Spec.sqK (Spec.extX (m ((c.tc : Thread nD τ).loc main_arg0))) (Spec.extW1 (m ((c.tc : Thread nD τ).loc main_arg1))) (Spec.extW2 (m ((c.tc : Thread nD τ).loc main_arg2))) n o := by
  have e : (Run.W4 (F := Ideal) m g c (Proc.devRef .tc main_v21_1) : S128x128x1.Idx → EReal) = sqArr (Spec.extX (m ((c.tc : Thread nD τ).loc main_arg0))) (Spec.extW1 (m ((c.tc : Thread nD τ).loc main_arg1))) (Spec.extW2 (m ((c.tc : Thread nD τ).loc main_arg2))) :=
    (Run.W4_arr m g c 4).trans (stats_sq_arr (Run.V3 m g) c _ _ _ hpad hw1 hw2)
  rw [e]; rfl
theorem W4_conv (n o : Fin 128) (j : Fin 1156) : (Run.W4 (F := Ideal) m g c (Proc.devRef .tc main_v21_2) : S128x128x1156.Idx → EReal) (ix3 n o j)
    = Spec.conv2K (Spec.extX (m ((c.tc : Thread nD τ).loc main_arg0))) (Spec.extW1 (m ((c.tc : Thread nD τ).loc main_arg1))) (Spec.extW2 (m ((c.tc : Thread nD τ).loc main_arg2))) n o j := by
  have e : (Run.W4 (F := Ideal) m g c (Proc.devRef .tc main_v21_2) : S128x128x1156.Idx → EReal) = convArr (Spec.extX (m ((c.tc : Thread nD τ).loc main_arg0))) (Spec.extW1 (m ((c.tc : Thread nD τ).loc main_arg1))) (Spec.extW2 (m ((c.tc : Thread nD τ).loc main_arg2))) :=
    (Run.W4_arr m g c 5).trans (stats_conv_arr (Run.V3 m g) c _ _ _ hpad hw1 hw2)
  rw [e]; rfl

/-- The stored second product is not written between the calls. -/
theorem V5_conv (n o : Fin 128) (j : Fin 1156) : (Run.V5 (F := Ideal) m g c main_v21_2 : S128x128x1156.Idx → EReal) (ix3 n o j)
    = Spec.conv2K (Spec.extX (m ((c.tc : Thread nD τ).loc main_arg0))) (Spec.extW1 (m ((c.tc : Thread nD τ).loc main_arg1))) (Spec.extW2 (m ((c.tc : Thread nD τ).loc main_arg2))) n o j := by
  have e : Run.W5 (F := Ideal) m g c (Proc.devRef .tc main_v21_2) = Run.W4 (F := Ideal) m g c (Proc.devRef .tc main_v21_2) :=
    StableHlo.after_of_writes_sub hostOps1 _ hostOps1_writes (by decide)
  show (Run.W5 (F := Ideal) m g c (Proc.devRef .tc main_v21_2) : S128x128x1156.Idx → EReal) (ix3 n o j) = _
  rw [e]; exact W4_conv m g c hpad hw1 hw2 n o j

/-- THE RESULT, given the two columns the host stretch between the calls forms. -/
theorem kernel_value_of
    (hrstd : ∀ o : Fin 128, (Run.W5 (F := Ideal) m g c (Proc.devRef .tc main_v32) : S128x1.Idx → EReal) (ix2 o (0 : Fin 1))
      = Spec.rstdOf (Ideal.ofBits .f32 0x48108000#32) (Ideal.ofBits .f32 0x3727C5AC#32) (Spec.sumK (Spec.extX (m ((c.tc : Thread nD τ).loc main_arg0))) (Spec.extW1 (m ((c.tc : Thread nD τ).loc main_arg1))) (Spec.extW2 (m ((c.tc : Thread nD τ).loc main_arg2)))) (Spec.sqK (Spec.extX (m ((c.tc : Thread nD τ).loc main_arg0))) (Spec.extW1 (m ((c.tc : Thread nD τ).loc main_arg1))) (Spec.extW2 (m ((c.tc : Thread nD τ).loc main_arg2)))) o)
    (hbias : ∀ o : Fin 128, (Run.W5 (F := Ideal) m g c (Proc.devRef .tc main_v34) : S128x1.Idx → EReal) (ix2 o (0 : Fin 1))
      = (-(Spec.meanOf (Ideal.ofBits .f32 0x48108000#32) (Spec.sumK (Spec.extX (m ((c.tc : Thread nD τ).loc main_arg0))) (Spec.extW1 (m ((c.tc : Thread nD τ).loc main_arg1))) (Spec.extW2 (m ((c.tc : Thread nD τ).loc main_arg2)))) o))
        * Spec.rstdOf (Ideal.ofBits .f32 0x48108000#32) (Ideal.ofBits .f32 0x3727C5AC#32) (Spec.sumK (Spec.extX (m ((c.tc : Thread nD τ).loc main_arg0))) (Spec.extW1 (m ((c.tc : Thread nD τ).loc main_arg1))) (Spec.extW2 (m ((c.tc : Thread nD τ).loc main_arg2)))) (Spec.sqK (Spec.extX (m ((c.tc : Thread nD τ).loc main_arg0))) (Spec.extW1 (m ((c.tc : Thread nD τ).loc main_arg1))) (Spec.extW2 (m ((c.tc : Thread nD τ).loc main_arg2)))) o)
    (n o : Fin 128) (R q : Fin 34) :
    (Run.W7 (F := Ideal) m g c (Proc.devRef .tc main_v36) : S128x128x34x34.Idx → EReal) (ix4 n o R q)
      = Spec.outK (Spec.extX (m ((c.tc : Thread nD τ).loc main_arg0))) (Spec.extW1 (m ((c.tc : Thread nD τ).loc main_arg1))) (Spec.extW2 (m ((c.tc : Thread nD τ).loc main_arg2))) (Ideal.ofBits .f32 0x48108000#32) (Ideal.ofBits .f32 0x3727C5AC#32) n o (34 * R + q) := by
  have hj : 34 * R.val + q.val < 1156 := by have := R.isLt; have := q.isLt; omega
  rw [W7_out m g c n o R q hj, W6_out m g c]
  have key : ∀ (Y : S128x128x1156.Idx → EReal) (Rs Bs : S128x1.Idx → EReal) (i : Fin 1156),
      normArr Y Rs Bs (ix3 n o i) = Y (ix3 n o i) * Rs (ix2 o (0 : Fin 1)) + Bs (ix2 o (0 : Fin 1)) := fun _ _ _ _ => rfl
  refine (key _ _ _ _).trans ?_
  exact congrArg₂ (· + ·) (congrArg₂ (· * ·) (V5_conv m g c hpad hw1 hw2 n o ⟨34 * R.val + q.val, hj⟩) (hrstd o)) (hbias o)

end FirstCall

end Cert.KernelIdeal.ValueLeg

end
-- ==== Proof.KernelValueHost0.lean ====
/-
  The three arrays the first call stages, as the host operations before it leave them, entry by entry.

  The stacked weight matrices: for each of the three taps the [·, 64] slice of the weight array at that tap, side by
  side along the columns, so column `k` of the stack is tap `k / 64`, input channel `k % 64`. (The change of float
  format after stacking is the identity on extended reals.)
  The images: clamped at zero, padded by one row and one column of zeros on every side, and each 34 x 34 image
  flattened row by row, so flat position `j` is row `j / 34`, column `j % 34`.
-/
import proofs.«100421_g2000304308963006_pallasbulk_990_41_alg».proof.Proof.KernelIdealFrame
import proofs.«100421_g2000304308963006_pallasbulk_990_41_alg».proof.Proof.Gen.KernelIdeal.Regions
import proofs.«100421_g2000304308963006_pallasbulk_990_41_alg».proof.Proof.Spec
import Idealize.ShloMosaic.Lib.Pipeline.Value
import Idealize.ShloMosaic.Lib.KernelVsHost
import Idealize.ShloMosaic.Lib.IdealHost
import Idealize.ShloMosaic.Lib.ValueIdx

noncomputable section

namespace Cert.KernelIdeal.ValueLeg

open Cert.KernelIdeal Cert.KernelIdeal.Gen
open Idealize.ShloMosaic Idealize.ShloMosaic.TcCoe Idealize.ShloMosaic.ValueIdx Idealize.SL.Sem

/-- Continues reading a fold of host operations at a buffer after a concatenation's operands have come into view. -/
macro "results_more" : tactic =>
  `(tactic| repeat (first
      | rw [StableHlo.nullary_result] | rw [StableHlo.unary_result] | rw [StableHlo.binary_result]
      | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))

/-- The three tap slices of the 3x1 weights, each as a [64, 64] matrix. -/
def tapsW1 (A : S64x64x3x1.Idx → EReal) : List ((s : Shape) × (s.Idx → EReal)) :=
  [⟨S64x64, shapeCast S64x64 (extractStridedSlice S64x64x1x1 ![0, 0, 0, 0] A slices_S64x64x3x1_S64x64x1x1_0_0_0_0) shapeCasts_S64x64x1x1_S64x64⟩,
   ⟨S64x64, shapeCast S64x64 (extractStridedSlice S64x64x1x1 ![0, 0, 1, 0] A slices_S64x64x3x1_S64x64x1x1_0_0_1_0) shapeCasts_S64x64x1x1_S64x64⟩,
   ⟨S64x64, shapeCast S64x64 (extractStridedSlice S64x64x1x1 ![0, 0, 2, 0] A slices_S64x64x3x1_S64x64x1x1_0_0_2_0) shapeCasts_S64x64x1x1_S64x64⟩]
/-- The three slices side by side along the columns. -/
def stackW1 (A : S64x64x3x1.Idx → EReal) : S64x192.Idx → EReal :=
  truncf (F := Ideal) .bf16 (concatenate S64x192 1 (tapsW1 A) concatenates_S64x64_S64x64_S64x64_S64x192_d1 : FVec Ideal S64x192 .f32) bitsLt_bf16_f32

/-- After the first stretch of host operations the first stacked matrix's buffer holds the stack of the first weight array. -/
theorem after0_w1 (W : Valuation τ sig (Elt Ideal)) :
    (StableHlo.after (hostOps0 (F := Ideal)) W (Proc.devRef .tc main_v7) : S64x192.Idx → EReal)
      = stackW1 (W (Proc.devRef .tc main_arg1)) := by
  dsimp only [hostOps0]
  after_results
  simp only [Matrix.cons_val]
  results_more
  rfl

/-- One tap's slice of the 3x1 weights, viewed as a [64, 64] matrix, at row `a`, column `ci`: the weight of output
    channel `a`, input channel `ci` at that tap. -/
theorem tapW1_apply (A : S64x64x3x1.Idx → EReal) (t : Fin 3) (hs : S64x64x3x1.Slices ![0, 0, t.val, 0] S64x64x1x1)
    (a ci : Fin 64) :
    shapeCast S64x64 (extractStridedSlice S64x64x1x1 ![0, 0, t.val, 0] A hs) shapeCasts_S64x64x1x1_S64x64 (ix2 a ci)
      = A (ix4 a ci t 0) := by
  rw [shapeCast_apply _ shapeCasts_S64x64x1x1_S64x64 (ix2 a ci) (ix4 a ci (0 : Fin 1) (0 : Fin 1))
    (by rw [Shape.rowMajor_val_four, Shape.rowMajor_val_two]; simp)]
  exact extractStridedSlice_apply _ A hs _ (ix4 a ci t 0) fun ax => by
    match ax with
    | ⟨0, _⟩ => simp
    | ⟨1, _⟩ => simp
    | ⟨2, _⟩ => simp
    | ⟨3, _⟩ => simp

/-- The stack read at row `a`, column `k`: tap `k / 64`, input channel `k % 64`. -/
theorem stackW1_apply (A : S64x64x3x1.Idx → EReal) (a : Fin 64) (k : Fin 192) :
    stackW1 A (ix2 a k)
      = A (ix4 a ⟨k.val % 64, Nat.mod_lt _ (by decide)⟩ ⟨k.val / 64, by have := k.isLt; omega⟩ 0) := by
  unfold stackW1
  rw [truncf_apply]
  have hk := k.isLt
  have hoff : ∀ (c : Fin 64) (b : Fin S64x64.rank), b.cast (rfl : S64x64.rank = S64x192.rank) ≠ (1 : Fin S64x192.rank) →
      ((ix2 a c : S64x64.Idx) b).val = ((ix2 a k : S64x192.Idx) (b.cast rfl)).val := fun c b hb => by
    match b with
    | ⟨0, _⟩ => rfl
    | ⟨1, _⟩ => exact absurd rfl hb
  rcases Nat.lt_or_ge k.val 64 with h0 | h0
  · refine (concatenate_apply_piece (1 : Fin S64x192.rank) (tapsW1 A) concatenates_S64x64_S64x64_S64x64_S64x192_d1 (ix2 a k)
      0 (by show 0 < 3; decide) S64x64 _ rfl rfl 0 rfl (ix2 a ⟨k.val, h0⟩) (hoff _) (by show 0 + k.val = k.val; omega)).trans ?_
    refine (tapW1_apply A 0 _ a ⟨k.val, h0⟩).trans (congrArg A (funext fun ax => ?_))
    match ax with
    | ⟨0, _⟩ => rfl
    | ⟨1, _⟩ => exact Fin.ext (Nat.mod_eq_of_lt h0).symm
    | ⟨2, _⟩ => exact Fin.ext (by show 0 = k.val / 64; omega)
    | ⟨3, _⟩ => rfl
  rcases Nat.lt_or_ge k.val 128 with h1 | h1
  · refine (concatenate_apply_piece (1 : Fin S64x192.rank) (tapsW1 A) concatenates_S64x64_S64x64_S64x64_S64x192_d1 (ix2 a k)
      1 (by show 1 < 3; decide) S64x64 _ rfl rfl 64 rfl (ix2 a ⟨k.val - 64, by omega⟩) (hoff _) (by show 64 + (k.val - 64) = k.val; omega)).trans ?_
    refine (tapW1_apply A 1 _ a ⟨k.val - 64, by omega⟩).trans (congrArg A (funext fun ax => ?_))
    match ax with
    | ⟨0, _⟩ => rfl
    | ⟨1, _⟩ => exact Fin.ext (by show k.val - 64 = k.val % 64; omega)
    | ⟨2, _⟩ => exact Fin.ext (by show 1 = k.val / 64; omega)
    | ⟨3, _⟩ => rfl
  · refine (concatenate_apply_piece (1 : Fin S64x192.rank) (tapsW1 A) concatenates_S64x64_S64x64_S64x64_S64x192_d1 (ix2 a k)
      2 (by show 2 < 3; decide) S64x64 _ rfl rfl 128 rfl (ix2 a ⟨k.val - 128, by omega⟩) (hoff _) (by show 128 + (k.val - 128) = k.val; omega)).trans ?_
    refine (tapW1_apply A 2 _ a ⟨k.val - 128, by omega⟩).trans (congrArg A (funext fun ax => ?_))
    match ax with
    | ⟨0, _⟩ => rfl
    | ⟨1, _⟩ => exact Fin.ext (by show k.val - 128 = k.val % 64; omega)
    | ⟨2, _⟩ => exact Fin.ext (by show 2 = k.val / 64; omega)
    | ⟨3, _⟩ => rfl

/-! ## The second stacked matrix -/

/-- The three tap slices of the 1x3 weights, each as a [128, 64] matrix. -/
def tapsW2 (A : S128x64x1x3.Idx → EReal) : List ((s : Shape) × (s.Idx → EReal)) :=
  [⟨S128x64, shapeCast S128x64 (extractStridedSlice S128x64x1x1 ![0, 0, 0, 0] A slices_S128x64x1x3_S128x64x1x1_0_0_0_0) shapeCasts_S128x64x1x1_S128x64⟩,
   ⟨S128x64, shapeCast S128x64 (extractStridedSlice S128x64x1x1 ![0, 0, 0, 1] A slices_S128x64x1x3_S128x64x1x1_0_0_0_1) shapeCasts_S128x64x1x1_S128x64⟩,
   ⟨S128x64, shapeCast S128x64 (extractStridedSlice S128x64x1x1 ![0, 0, 0, 2] A slices_S128x64x1x3_S128x64x1x1_0_0_0_2) shapeCasts_S128x64x1x1_S128x64⟩]
def stackW2 (A : S128x64x1x3.Idx → EReal) : S128x192.Idx → EReal :=
  concatenate S128x192 1 (tapsW2 A) concatenates_S128x64_S128x64_S128x64_S128x192_d1

theorem after0_w2 (W : Valuation τ sig (Elt Ideal)) :
    (StableHlo.after (hostOps0 (F := Ideal)) W (Proc.devRef .tc main_v14) : S128x192.Idx → EReal)
      = stackW2 (W (Proc.devRef .tc main_arg2)) := by
  dsimp only [hostOps0]
  after_results
  simp only [Matrix.cons_val]
  results_more
  rfl

theorem tapW2_apply (A : S128x64x1x3.Idx → EReal) (t : Fin 3) (hs : S128x64x1x3.Slices ![0, 0, 0, t.val] S128x64x1x1)
    (o : Fin 128) (c : Fin 64) :
    shapeCast S128x64 (extractStridedSlice S128x64x1x1 ![0, 0, 0, t.val] A hs) shapeCasts_S128x64x1x1_S128x64 (ix2 o c)
      = A (ix4 o c 0 t) := by
  rw [shapeCast_apply _ shapeCasts_S128x64x1x1_S128x64 (ix2 o c) (ix4 o c (0 : Fin 1) (0 : Fin 1))
    (by rw [Shape.rowMajor_val_four, Shape.rowMajor_val_two]; simp)]
  exact extractStridedSlice_apply _ A hs _ (ix4 o c 0 t) fun ax => by
    match ax with
    | ⟨0, _⟩ => simp
    | ⟨1, _⟩ => simp
    | ⟨2, _⟩ => simp
    | ⟨3, _⟩ => simp

theorem stackW2_apply (A : S128x64x1x3.Idx → EReal) (o : Fin 128) (k : Fin 192) :
    stackW2 A (ix2 o k)
      = A (ix4 o ⟨k.val % 64, Nat.mod_lt _ (by decide)⟩ 0 ⟨k.val / 64, by have := k.isLt; omega⟩) := by
  unfold stackW2
  have hk := k.isLt
  have hoff : ∀ (c : Fin 64) (b : Fin S128x64.rank), b.cast (rfl : S128x64.rank = S128x192.rank) ≠ (1 : Fin S128x192.rank) →
      ((ix2 o c : S128x64.Idx) b).val = ((ix2 o k : S128x192.Idx) (b.cast rfl)).val := fun c b hb => by
    match b with
    | ⟨0, _⟩ => rfl
    | ⟨1, _⟩ => exact absurd rfl hb
  rcases Nat.lt_or_ge k.val 64 with h0 | h0
  · refine (concatenate_apply_piece (1 : Fin S128x192.rank) (tapsW2 A) concatenates_S128x64_S128x64_S128x64_S128x192_d1 (ix2 o k)
      0 (by show 0 < 3; decide) S128x64 _ rfl rfl 0 rfl (ix2 o ⟨k.val, h0⟩) (hoff _) (by show 0 + k.val = k.val; omega)).trans ?_
    refine (tapW2_apply A 0 _ o ⟨k.val, h0⟩).trans (congrArg A (funext fun ax => ?_))
    match ax with
    | ⟨0, _⟩ => rfl
    | ⟨1, _⟩ => exact Fin.ext (Nat.mod_eq_of_lt h0).symm
    | ⟨2, _⟩ => rfl
    | ⟨3, _⟩ => exact Fin.ext (by show 0 = k.val / 64; omega)
  rcases Nat.lt_or_ge k.val 128 with h1 | h1
  · refine (concatenate_apply_piece (1 : Fin S128x192.rank) (tapsW2 A) concatenates_S128x64_S128x64_S128x64_S128x192_d1 (ix2 o k)
      1 (by show 1 < 3; decide) S128x64 _ rfl rfl 64 rfl (ix2 o ⟨k.val - 64, by omega⟩) (hoff _) (by show 64 + (k.val - 64) = k.val; omega)).trans ?_
    refine (tapW2_apply A 1 _ o ⟨k.val - 64, by omega⟩).trans (congrArg A (funext fun ax => ?_))
    match ax with
    | ⟨0, _⟩ => rfl
    | ⟨1, _⟩ => exact Fin.ext (by show k.val - 64 = k.val % 64; omega)
    | ⟨2, _⟩ => rfl
    | ⟨3, _⟩ => exact Fin.ext (by show 1 = k.val / 64; omega)
  · refine (concatenate_apply_piece (1 : Fin S128x192.rank) (tapsW2 A) concatenates_S128x64_S128x64_S128x64_S128x192_d1 (ix2 o k)
      2 (by show 2 < 3; decide) S128x64 _ rfl rfl 128 rfl (ix2 o ⟨k.val - 128, by omega⟩) (hoff _) (by show 128 + (k.val - 128) = k.val; omega)).trans ?_
    refine (tapW2_apply A 2 _ o ⟨k.val - 128, by omega⟩).trans (congrArg A (funext fun ax => ?_))
    match ax with
    | ⟨0, _⟩ => rfl
    | ⟨1, _⟩ => exact Fin.ext (by show k.val - 128 = k.val % 64; omega)
    | ⟨2, _⟩ => rfl
    | ⟨3, _⟩ => exact Fin.ext (by show 2 = k.val / 64; omega)

/-! ## The two stacked matrices as the first call finds them -/

variable (m : (ℓ : Loc nD τ sig) → Buf (Elt Ideal) ℓ) (g : Dev nD → PrngReg) (c : Dev nD)

/-- The first stacked matrix at the first call's entry is the specification's: column `k` is tap `k / 64`, channel `k % 64`. -/
theorem V3_w1 (a : Fin 64) (k : Fin 192) :
    (Cert.KernelIdeal.Run.W3 (F := Ideal) m g c (Proc.devRef .tc main_v7) : S64x192.Idx → EReal) (ix2 a k)
      = Cert.Spec.w1K (Cert.Spec.extW1 (m ((c.tc : Thread nD τ).loc main_arg1))) a k := by
  have e : (Cert.KernelIdeal.Run.W3 (F := Ideal) m g c (Proc.devRef .tc main_v7) : S64x192.Idx → EReal)
      = stackW1 (m ((c.tc : Thread nD τ).loc main_arg1)) :=
    (StableHlo.after_of_writes_sub hostOps0_2 _ hostOps0_2_writes (by decide)).trans <|
      (StableHlo.after_of_writes_sub hostOps0_1 _ hostOps0_1_writes (by decide)).trans <|
        after0_w1 (Cert.KernelIdeal.Run.W0 (F := Ideal) m g c)
  rw [e, stackW1_apply]
  unfold Cert.Spec.w1K Cert.Spec.extW1
  rw [dif_pos ⟨a.isLt, Nat.mod_lt _ (by decide), by have := k.isLt; omega⟩]
  rfl

/-- The second stacked matrix at the first call's entry is the specification's. -/
theorem V3_w2 (o : Fin 128) (k : Fin 192) :
    (Cert.KernelIdeal.Run.W3 (F := Ideal) m g c (Proc.devRef .tc main_v20) : S128x192.Idx → EReal) (ix2 o k)
      = Cert.Spec.w2K (Cert.Spec.extW2 (m ((c.tc : Thread nD τ).loc main_arg2))) o k := by
  have e : (Cert.KernelIdeal.Run.W3 (F := Ideal) m g c (Proc.devRef .tc main_v20) : S128x192.Idx → EReal)
      = truncf (F := Ideal) .bf16 (stackW2 (m ((c.tc : Thread nD τ).loc main_arg2)) : FVec Ideal S128x192 .f32) bitsLt_bf16_f32 := by
    have e1 : (Cert.KernelIdeal.Run.W3 (F := Ideal) m g c (Proc.devRef .tc main_v20) : S128x192.Idx → EReal)
        = truncf (F := Ideal) .bf16 (Cert.KernelIdeal.Run.W2 (F := Ideal) m g c (Proc.devRef .tc main_v14) : FVec Ideal S128x192 .f32) bitsLt_bf16_f32 := by
      show StableHlo.after (hostOps0_2 (F := Ideal)) (Cert.KernelIdeal.Run.W2 (F := Ideal) m g c) (Proc.devRef .tc main_v20) = _
      dsimp only [hostOps0_2]
      after_results
    rw [e1]
    exact congrArg (fun v : FVec Ideal S128x192 .f32 => truncf (F := Ideal) .bf16 v bitsLt_bf16_f32)
      ((StableHlo.after_of_writes_sub hostOps0_1 _ hostOps0_1_writes (by decide)).trans
        (after0_w2 (Cert.KernelIdeal.Run.W0 (F := Ideal) m g c)))
  rw [e, truncf_apply, stackW2_apply]
  unfold Cert.Spec.w2K Cert.Spec.extW2
  rw [dif_pos ⟨o.isLt, Nat.mod_lt _ (by decide), by have := k.isLt; omega⟩]
  rfl

/-! ## The padded, flattened images -/

/-- The images clamped at zero, padded by one row and one column on every side with the integer zero converted, and each
    34 x 34 image flattened. -/
def padFlat (A : S128x64x32x32.Idx → EReal) : S128x64x1156.Idx → EReal :=
  shapeCast S128x64x1156
    (pad S128x64x34x34 ![0, 0, 1, 1] ![0, 0, 1, 1] ![0, 0, 0, 0]
      (truncf (F := Ideal) .bf16 (maximumf (F := Ideal) A (broadcastInDim S128x64x32x32 ![] bcast_S_S128x64x32x32 (constant (F := Ideal) S_ .f32 0#32))) bitsLt_bf16_f32)
      (sitofp (F := Ideal) .bf16 (constantI S_ 32 0#32))
      pads_S128x64x32x32_S128x64x34x34_000_000_110_110 h_S_)
    shapeCasts_S128x64x34x34_S128x64x1156

/-- After the three stretches of host operations before the first call the image buffer holds that array. -/
theorem after012_images (W : Valuation τ sig (Elt Ideal)) :
    (StableHlo.after (hostOps0_2 (F := Ideal)) (StableHlo.after (hostOps0_1 (F := Ideal)) (StableHlo.after (hostOps0 (F := Ideal)) W))
        (Proc.devRef .tc main_v19) : S128x64x1156.Idx → EReal)
      = padFlat (W (Proc.devRef .tc main_arg0)) := by
  dsimp only [hostOps0, hostOps0_1, hostOps0_2]
  after_results
  rfl

/-- The array read at image `n`, channel `ci`, flat position `j`: inside the image (rows and columns 1 to 32 of the
    34 x 34 frame) the input clamped at zero, on the frame zero. -/
theorem padFlat_apply (A : S128x64x32x32.Idx → EReal) (n : Fin 128) (ci : Fin 64) (j : Fin 1156) :
    padFlat A (ix3 n ci j)
      = if h : 1 ≤ j.val / 34 ∧ j.val / 34 ≤ 32 ∧ 1 ≤ j.val % 34 ∧ j.val % 34 ≤ 32
        then max (A (ix4 n ci ⟨j.val / 34 - 1, by omega⟩ ⟨j.val % 34 - 1, by omega⟩)) 0 else 0 := by
  have hj := j.isLt
  unfold padFlat
  rw [shapeCast_apply _ shapeCasts_S128x64x34x34_S128x64x1156 (ix3 n ci j)
    (ix4 n ci (⟨j.val / 34, by omega⟩ : Fin 34) (⟨j.val % 34, Nat.mod_lt _ (by decide)⟩ : Fin 34))
    (by rw [Shape.rowMajor_val_four, Shape.rowMajor_val_three]
        show ((n.val * 64 + ci.val) * 34 + j.val / 34) * 34 + j.val % 34 = (n.val * 64 + ci.val) * 1156 + j.val
        omega)]
  split
  · rename_i h
    rw [pad_apply_of_inside _ _ _ _ _ pads_S128x64x32x32_S128x64x34x34_000_000_110_110 h_S_ _
      (ix4 n ci ⟨j.val / 34 - 1, by omega⟩ ⟨j.val % 34 - 1, by omega⟩) (fun ax => by
        match ax with
        | ⟨0, _⟩ => simp
        | ⟨1, _⟩ => simp
        | ⟨2, _⟩ => show j.val / 34 = 1 + (j.val / 34 - 1) * (0 + 1); omega
        | ⟨3, _⟩ => show j.val % 34 = 1 + (j.val % 34 - 1) * (0 + 1); omega)]
    rw [truncf_apply, maximumf_apply, broadcastInDim_scalar_apply, constant_apply, Ideal.ofBits_zero_f32]
  · rename_i h
    have hz : (sitofp (F := Ideal) .bf16 (constantI S_ 32 0#32)) (Shape.Idx.first h_S_) = 0 := sitofp_zero
    by_cases hr : 1 ≤ j.val / 34 ∧ j.val / 34 ≤ 32
    · rw [pad_apply_of_not_inside _ _ _ _ _ pads_S128x64x32x32_S128x64x34x34_000_000_110_110 h_S_ _ (3 : Fin 4) (fun hin => h (by
        have h1 : 1 ≤ j.val % 34 := hin.1
        have h3 : (j.val % 34 - 1) / (0 + 1) < 32 := hin.2.2
        exact ⟨hr.1, hr.2, h1, by omega⟩)), hz]
    · rw [pad_apply_of_not_inside _ _ _ _ _ pads_S128x64x32x32_S128x64x34x34_000_000_110_110 h_S_ _ (2 : Fin 4) (fun hin => hr (by
        have h1 : 1 ≤ j.val / 34 := hin.1
        have h3 : (j.val / 34 - 1) / (0 + 1) < 32 := hin.2.2
        exact ⟨h1, by omega⟩)), hz]

/-- The image buffer at the first call's entry is the specification's padded image. -/
theorem V3_pad (n : Fin 128) (ci : Fin 64) (j : Fin 1156) :
    (Cert.KernelIdeal.Run.W3 (F := Ideal) m g c (Proc.devRef .tc main_v19) : S128x64x1156.Idx → EReal) (ix3 n ci j)
      = Cert.Spec.padK (Cert.Spec.extX (m ((c.tc : Thread nD τ).loc main_arg0))) n ci j := by
  have e : (Cert.KernelIdeal.Run.W3 (F := Ideal) m g c (Proc.devRef .tc main_v19) : S128x64x1156.Idx → EReal)
      = padFlat (m ((c.tc : Thread nD τ).loc main_arg0)) := after012_images (Cert.KernelIdeal.Run.W0 (F := Ideal) m g c)
  have hj := j.isLt
  rw [e, padFlat_apply]
  unfold Cert.Spec.padK
  by_cases h : 1 ≤ j.val / 34 ∧ j.val / 34 ≤ 32 ∧ 1 ≤ j.val % 34 ∧ j.val % 34 ≤ 32
  · rw [dif_pos h, if_pos h]
    unfold Cert.Spec.extX
    rw [dif_pos ⟨n.isLt, ci.isLt, by omega, by omega⟩]
  · rw [dif_neg h, if_neg h]

end Cert.KernelIdeal.ValueLeg

end
-- ==== Proof.KernelValueHost1Stats.lean ====
/-
  The statistics chain of host operations read at one channel. Over a [128, 128, 1] array of per-image quantities:
  the sum over the image axis added to a zero initial value, divided by a broadcast scalar, is the specification's mean;
  the mean of squares minus the squared mean, plus a broadcast scalar, under the reciprocal square root, is its
  reciprocal standard deviation; and the negated mean times that is the bias. Stated over literal shapes so that it
  serves any program whose shapes unfold to these.
-/
import proofs.«100421_g2000304308963006_pallasbulk_990_41_alg».proof.Proof.Spec
import Idealize.ShloMosaic.Lib.IdealHost
import Idealize.ShloMosaic.Lib.Pipeline.Value
import Idealize.ShloMosaic.PureOps.Ideal.Laws

noncomputable section

namespace Cert.Spec

open Idealize.ShloMosaic Idealize.ShloMosaic.ValueIdx Finset

/-- The host's sum over the image axis, from a zero initial value, at channel `o`. -/
theorem hostSum_apply (A : FVec Ideal ⟨3, ![128, 128, 1]⟩ .f32) (p : ℕ → ℕ → EReal)
    (hA : ∀ n o : Fin 128, A (ix3 n o 0) = p n o)
    (h' : (⟨3, ![128, 128, 1]⟩ : Shape).ReducesTo [0] ⟨2, ![128, 1]⟩)
    (hu : 0 < (⟨0, ![]⟩ : Shape).numel) (o : Fin 128) :
    Host.reduceAdd A (constant (F := Ideal) ⟨0, ![]⟩ .f32 0x00000000#32) h' hu (ix2 o 0)
      = 0 + ∑ n ∈ range 128, p n o := by
  rw [hostReduceAdd_apply, constant_apply, Ideal.ofBits_zero_f32,
    Ideal.hostReduceAdd_single h' (by decide) A 0 (ix2 o 0)]
  refine congrArg (fun t => (0 : EReal) + t) ?_
  rw [← Fin.sum_univ_eq_sum_range (fun n => p n o) 128]
  refine Finset.sum_congr rfl fun k _ => ?_
  rw [← hA k o]
  refine congrArg A ?_
  funext d
  match d with
  | ⟨0, _⟩ => rfl
  | ⟨1, _⟩ => rfl
  | ⟨2, _⟩ => rfl

/-- The sum divided by a broadcast scalar is the specification's mean. -/
theorem hostMean_apply (A : FVec Ideal ⟨3, ![128, 128, 1]⟩ .f32) (p : ℕ → ℕ → EReal)
    (hA : ∀ n o : Fin 128, A (ix3 n o 0) = p n o)
    (h' : (⟨3, ![128, 128, 1]⟩ : Shape).ReducesTo [0] ⟨2, ![128, 1]⟩)
    (hu : 0 < (⟨0, ![]⟩ : Shape).numel)
    (hb : (⟨0, ![]⟩ : Shape).BroadcastsInDim ⟨2, ![128, 1]⟩ ![]) (c : BitVec 32) (o : Fin 128) :
    Host.divf (Host.reduceAdd A (constant (F := Ideal) ⟨0, ![]⟩ .f32 0x00000000#32) h' hu)
        (broadcastInDim ⟨2, ![128, 1]⟩ ![] hb (constant (F := Ideal) ⟨0, ![]⟩ .f32 c)) (ix2 o 0)
      = meanOf (Ideal.ofBits .f32 c) p o := by
  rw [hostDivf_apply, hostSum_apply A p hA h' hu o, broadcastInDim_scalar_apply, constant_apply]
  rfl

/-- The mean of squares minus the squared mean, plus a broadcast scalar, under the reciprocal square root. -/
theorem hostRstd_apply (A B : FVec Ideal ⟨3, ![128, 128, 1]⟩ .f32) (ps pq : ℕ → ℕ → EReal)
    (hA : ∀ n o : Fin 128, A (ix3 n o 0) = ps n o) (hB : ∀ n o : Fin 128, B (ix3 n o 0) = pq n o)
    (h' : (⟨3, ![128, 128, 1]⟩ : Shape).ReducesTo [0] ⟨2, ![128, 1]⟩)
    (hu : 0 < (⟨0, ![]⟩ : Shape).numel)
    (hb : (⟨0, ![]⟩ : Shape).BroadcastsInDim ⟨2, ![128, 1]⟩ ![]) (c e : BitVec 32) (o : Fin 128) :
    Host.rsqrt (addf (subf
        (Host.divf (Host.reduceAdd B (constant (F := Ideal) ⟨0, ![]⟩ .f32 0x00000000#32) h' hu)
          (broadcastInDim ⟨2, ![128, 1]⟩ ![] hb (constant (F := Ideal) ⟨0, ![]⟩ .f32 c)))
        (mulf
          (Host.divf (Host.reduceAdd A (constant (F := Ideal) ⟨0, ![]⟩ .f32 0x00000000#32) h' hu)
            (broadcastInDim ⟨2, ![128, 1]⟩ ![] hb (constant (F := Ideal) ⟨0, ![]⟩ .f32 c)))
          (Host.divf (Host.reduceAdd A (constant (F := Ideal) ⟨0, ![]⟩ .f32 0x00000000#32) h' hu)
            (broadcastInDim ⟨2, ![128, 1]⟩ ![] hb (constant (F := Ideal) ⟨0, ![]⟩ .f32 c)))))
        (broadcastInDim ⟨2, ![128, 1]⟩ ![] hb (constant (F := Ideal) ⟨0, ![]⟩ .f32 e))) (ix2 o 0)
      = rstdOf (Ideal.ofBits .f32 c) (Ideal.ofBits .f32 e) ps pq o := by
  show Ideal.rsqrt ((Host.divf (F := Ideal) _ _ (ix2 o 0)
        - Host.divf (F := Ideal) _ _ (ix2 o 0) * Host.divf (F := Ideal) _ _ (ix2 o 0))
      + broadcastInDim _ _ hb _ (ix2 o 0)) = _
  rw [hostMean_apply B pq hB h' hu hb c o, hostMean_apply A ps hA h' hu hb c o,
    broadcastInDim_scalar_apply, constant_apply]
  rfl

/-- The negated mean times the reciprocal standard deviation. -/
theorem hostBias_apply (A B : FVec Ideal ⟨3, ![128, 128, 1]⟩ .f32) (ps pq : ℕ → ℕ → EReal)
    (hA : ∀ n o : Fin 128, A (ix3 n o 0) = ps n o) (hB : ∀ n o : Fin 128, B (ix3 n o 0) = pq n o)
    (h' : (⟨3, ![128, 128, 1]⟩ : Shape).ReducesTo [0] ⟨2, ![128, 1]⟩)
    (hu : 0 < (⟨0, ![]⟩ : Shape).numel)
    (hb : (⟨0, ![]⟩ : Shape).BroadcastsInDim ⟨2, ![128, 1]⟩ ![]) (c e : BitVec 32) (o : Fin 128) :
    mulf (Host.negf
        (Host.divf (Host.reduceAdd A (constant (F := Ideal) ⟨0, ![]⟩ .f32 0x00000000#32) h' hu)
          (broadcastInDim ⟨2, ![128, 1]⟩ ![] hb (constant (F := Ideal) ⟨0, ![]⟩ .f32 c))))
      (Host.rsqrt (addf (subf
        (Host.divf (Host.reduceAdd B (constant (F := Ideal) ⟨0, ![]⟩ .f32 0x00000000#32) h' hu)
          (broadcastInDim ⟨2, ![128, 1]⟩ ![] hb (constant (F := Ideal) ⟨0, ![]⟩ .f32 c)))
        (mulf
          (Host.divf (Host.reduceAdd A (constant (F := Ideal) ⟨0, ![]⟩ .f32 0x00000000#32) h' hu)
            (broadcastInDim ⟨2, ![128, 1]⟩ ![] hb (constant (F := Ideal) ⟨0, ![]⟩ .f32 c)))
          (Host.divf (Host.reduceAdd A (constant (F := Ideal) ⟨0, ![]⟩ .f32 0x00000000#32) h' hu)
            (broadcastInDim ⟨2, ![128, 1]⟩ ![] hb (constant (F := Ideal) ⟨0, ![]⟩ .f32 c)))))
        (broadcastInDim ⟨2, ![128, 1]⟩ ![] hb (constant (F := Ideal) ⟨0, ![]⟩ .f32 e)))) (ix2 o 0)
      = (-(meanOf (Ideal.ofBits .f32 c) ps o)) * rstdOf (Ideal.ofBits .f32 c) (Ideal.ofBits .f32 e) ps pq o := by
  show (-(Host.divf (F := Ideal) _ _ (ix2 o 0))) * Host.rsqrt (F := Ideal) _ (ix2 o 0) = _
  rw [hostMean_apply A ps hA h' hu hb c o, hostRstd_apply A B ps pq hA hB h' hu hb c e o]

/-- A [128, 1] column cast to [128, 1, 1] reads, at `(o, 0, 0)`, the column at `(o, 0)`. -/
theorem shapeCast_col_apply {α : Type} (x : (⟨2, ![128, 1]⟩ : Shape).Idx → α)
    (h : (⟨2, ![128, 1]⟩ : Shape).ShapeCasts ⟨3, ![128, 1, 1]⟩) (o : Fin 128) :
    shapeCast ⟨3, ![128, 1, 1]⟩ x h (ix3 o 0 0) = x (ix2 o 0) :=
  shapeCast_apply x h _ _ (by
    rw [Shape.rowMajor_val_two, Shape.rowMajor_val_three]
    show o.val * 1 + 0 = (o.val * 1 + 0) * 1 + 0
    omega)

/-- A [128, 128, 1224] array cast to [128, 128, 34, 36] reads, at `(n, o, R, q)`, the array at `(n, o, 36 R + q)`. -/
theorem shapeCast_wide_apply {α : Type} (x : (⟨3, ![128, 128, 1224]⟩ : Shape).Idx → α)
    (h : (⟨3, ![128, 128, 1224]⟩ : Shape).ShapeCasts ⟨4, ![128, 128, 34, 36]⟩)
    (n o : Fin 128) (R : Fin 34) (q : Fin 36) (hj : 36 * R.val + q.val < 1224) :
    shapeCast ⟨4, ![128, 128, 34, 36]⟩ x h (ix4 n o R q) = x (ix3 n o ⟨36 * R.val + q.val, hj⟩) :=
  shapeCast_apply x h _ _ (by
    rw [Shape.rowMajor_val_three, Shape.rowMajor_val_four]
    show (n.val * 128 + o.val) * 1224 + (36 * R.val + q.val) = ((n.val * 128 + o.val) * 34 + R.val) * 36 + q.val
    omega)

end Cert.Spec

end
-- ==== Proof.KernelValueHost1.lean ====
/-
  The kernel's statistics stretch: eighteen host operations that turn the per-image row sums and row sums of squares
  into, per channel, the reciprocal standard deviation and the bias. Read at channel `o`, from any contents of the
  buffers before the stretch whose two statistics arrays hold `ps` and `pq`, the two results are the specification's
  `rstdOf` and the negated `meanOf` times `rstdOf`.
-/
import proofs.«100421_g2000304308963006_pallasbulk_990_41_alg».proof.Proof.KernelIdealFrame
import proofs.«100421_g2000304308963006_pallasbulk_990_41_alg».proof.Proof.Spec
import proofs.«100421_g2000304308963006_pallasbulk_990_41_alg».proof.Proof.KernelValueHost1Stats
import Idealize.ShloMosaic.Lib.StableHlo.Run

noncomputable section

namespace Cert.KernelIdeal.ValueLeg

open Cert.KernelIdeal Cert.KernelIdeal.Gen
open Idealize.ShloMosaic Idealize.ShloMosaic.TcCoe Idealize.ShloMosaic.ValueIdx Idealize.SL.Sem

variable (W : Valuation τ sig (Elt Ideal)) (ps pq : ℕ → ℕ → EReal)

/-- The reciprocal standard deviation of channel `o` after the stretch. -/
theorem V5_rstd
    (hs : ∀ n o : Fin 128, (W (Proc.devRef .tc main_v21_0) : S128x128x1.Idx → EReal) (ix3 n o 0) = ps n o)
    (hq : ∀ n o : Fin 128, (W (Proc.devRef .tc main_v21_1) : S128x128x1.Idx → EReal) (ix3 n o 0) = pq n o)
    (o : Fin 128) :
    (StableHlo.after hostOps1 W (Proc.devRef .tc main_v32) : S128x1.Idx → EReal) (ix2 o 0)
      = Cert.Spec.rstdOf (Ideal.ofBits .f32 0x48108000#32) (Ideal.ofBits .f32 0x3727C5AC#32) ps pq o := by
  dsimp only [hostOps1]
  after_results
  exact Cert.Spec.hostRstd_apply _ _ ps pq hs hq _ _ _ _ _ o

/-- The bias of channel `o` after the stretch: the negated mean times the reciprocal standard deviation. -/
theorem V5_bias
    (hs : ∀ n o : Fin 128, (W (Proc.devRef .tc main_v21_0) : S128x128x1.Idx → EReal) (ix3 n o 0) = ps n o)
    (hq : ∀ n o : Fin 128, (W (Proc.devRef .tc main_v21_1) : S128x128x1.Idx → EReal) (ix3 n o 0) = pq n o)
    (o : Fin 128) :
    (StableHlo.after hostOps1 W (Proc.devRef .tc main_v34) : S128x1.Idx → EReal) (ix2 o 0)
      = (-(Cert.Spec.meanOf (Ideal.ofBits .f32 0x48108000#32) ps o))
          * Cert.Spec.rstdOf (Ideal.ofBits .f32 0x48108000#32) (Ideal.ofBits .f32 0x3727C5AC#32) ps pq o := by
  dsimp only [hostOps1]
  after_results
  exact Cert.Spec.hostBias_apply _ _ ps pq hs hq _ _ _ _ _ o

end Cert.KernelIdeal.ValueLeg

end
-- ==== Proof.KernelValue.lean ====
/-
  The kernel's result buffer, entry by entry: the last contents of the fold through the kernel's @main, read at image
  `n`, channel `o`, row `R`, column `q`, is the specification's `outK` of the three argument arrays at the flat
  position `34·R + q`.

  The host operations before the first call make the padded flat images and the two stacked weight matrices; the first
  call leaves the second product and its per-image row sums and row sums of squares; the host operations between the
  calls turn the sums into the per-channel reciprocal standard deviation and bias; the second call multiplies by the
  one and adds the other; the last host operation reshapes each flat row of 1156 entries into 34 rows of 34.
-/
import proofs.«100421_g2000304308963006_pallasbulk_990_41_alg».proof.Proof.KernelIdealFrame
import proofs.«100421_g2000304308963006_pallasbulk_990_41_alg».proof.Proof.Spec
import proofs.«100421_g2000304308963006_pallasbulk_990_41_alg».proof.Proof.KernelValueAssembly
import proofs.«100421_g2000304308963006_pallasbulk_990_41_alg».proof.Proof.KernelValueHost0
import proofs.«100421_g2000304308963006_pallasbulk_990_41_alg».proof.Proof.KernelValueHost1

noncomputable section

namespace Cert.KernelIdeal.ValueLeg

open Cert.KernelIdeal Cert.KernelIdeal.Gen
open Idealize.ShloMosaic Idealize.ShloMosaic.TcCoe Idealize.ShloMosaic.ValueIdx Idealize.SL.Sem

theorem kernel_value (m : (ℓ : Loc nD τ sig) → Buf (Elt Ideal) ℓ) (g : Dev nD → PrngReg) (c : Dev nD)
    (n : Fin 128) (o : Fin 128) (R : Fin 34) (q : Fin 34) :
    (Cert.KernelIdeal.Run.W7 (F := Ideal) m g c (Proc.devRef .tc main_v36) : S128x128x34x34.Idx → EReal) (ix4 n o R q)
      = Cert.Spec.outK
          (Cert.Spec.extX (m ((c.tc : Thread nD τ).loc main_arg0)))
          (Cert.Spec.extW1 (m ((c.tc : Thread nD τ).loc main_arg1)))
          (Cert.Spec.extW2 (m ((c.tc : Thread nD τ).loc main_arg2)))
          (Ideal.ofBits .f32 0x48108000#32) (Ideal.ofBits .f32 0x3727C5AC#32) n o (34 * R + q) :=
  kernel_value_of m g c (V3_pad m g c) (V3_w1 m g c) (V3_w2 m g c)
    (V5_rstd (Cert.KernelIdeal.Run.W4 (F := Ideal) m g c) _ _
      (W4_sum m g c (V3_pad m g c) (V3_w1 m g c) (V3_w2 m g c)) (W4_sq m g c (V3_pad m g c) (V3_w1 m g c) (V3_w2 m g c)))
    (V5_bias (Cert.KernelIdeal.Run.W4 (F := Ideal) m g c) _ _
      (W4_sum m g c (V3_pad m g c) (V3_w1 m g c) (V3_w2 m g c)) (W4_sq m g c (V3_pad m g c) (V3_w1 m g c) (V3_w2 m g c)))
    n o R q

end Cert.KernelIdeal.ValueLeg

end
-- ==== Proof.ReferenceValueNorm.lean ====
/-
  The second call of the reference, read entry by entry: at image `n`, channel `o`, row `R`, column `q` its result
  array holds the wide product's entry `(n, o, R, q)` minus the channel's mean, times the channel's reciprocal
  standard deviation. One grid point handles one image; the mean and the reciprocal deviation are whole-array windows.
-/
import proofs.«100421_g2000304308963006_pallasbulk_990_41_alg».proof.Proof.Gen.ReferenceIdeal.Frame
import Idealize.ShloMosaic.Lib.Pipeline.Value
import Idealize.ShloMosaic.Lib.ValueLayout

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem
open Idealize.ShloMosaic.Pipeline (Dat)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The body's arithmetic at one entry of its block. -/
theorem norm_payload (x0 : Vec Ideal S1x128x34x36 .f32) (x1 x2 : Vec Ideal S128x1x1 .f32) (u : Fin 1) (o : Fin 128)
    (R : Fin 34) (q : Fin 34) (q' : Fin 36) (hq : q'.val = q.val) :
    k1_pay1 x0 x1 x2 (ix4 u o R q)
      = (x0 (ix4 (0 : Fin 1) o R q') - x1 (ix3 o (0 : Fin 1) (0 : Fin 1))) * x2 (ix3 o (0 : Fin 1) (0 : Fin 1)) := by
  unfold k1_pay1
  refine (shapeCast_abc_1abc_apply _ _ u o R q).trans ?_
  rw [mulf_apply, subf_apply, shapeCast_self, shapeCast_self]
  have e1 : ∀ (v : Vec Ideal S128x1x1 .f32), broadcastTo S128x34x34 v broadcasts_S128x1x1_S128x34x34 (ix3 o R q) = v (ix3 o (0 : Fin 1) (0 : Fin 1)) := fun v =>
    broadcastTo_apply v _ (ix3 o R q) (ix3 o (0 : Fin 1) (0 : Fin 1)) fun a => by
      match a with
      | ⟨0, _⟩ => rfl
      | ⟨1, _⟩ => rfl
      | ⟨2, _⟩ => rfl
  rw [e1, e1]
  refine congrArg (fun z => (z - _) * _) ?_
  refine (extractStridedSlice_apply _ _ _ (ix3 o R q) (ix3 o R q') fun a => ?_).trans (shapeCast_1abc_abc_apply x0 _ o R q')
  match a with
  | ⟨0, _⟩ => exact (Nat.zero_add _).symm
  | ⟨1, _⟩ => exact (Nat.zero_add _).symm
  | ⟨2, _⟩ => exact hq.trans (Nat.zero_add _).symm

variable (V : (c : Dev nD) → (b : Ref sig .tc) → Buf (Elt Ideal) ((c : Thread nD τ).loc b))

/-- The result array as one function of the three arrays the call reads. -/
def normG (A : S128x128x34x36.Idx → EReal) (M Rs : S128x1x1.Idx → EReal) : S128x128x34x34.Idx → EReal :=
  fun i => (A (ix4 (i 0) (i 1) (i 2) ⟨(i 3).val, Nat.lt_of_lt_of_le (i 3).isLt (by decide)⟩) - M (ix3 (i 1) (0 : Fin 1) (0 : Fin 1)))
    * Rs (ix3 (i 1) (0 : Fin 1) (0 : Fin 1))

/-- The printed index maps over the grid: point `t` takes image `t` of the wide product and of the result, and the
    whole of the two statistics. -/
theorem norm_idx : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

theorem norm_flushed (c : Dev nD) (t : Fin cfg1.N) :
    (dat1 V c).flushed 3 t = ((cfg1.win 3).blk t).view.read (Elt Ideal)
      (normG (V c main_v26) (V c main_v24) (V c main_v25)) := by
  show (cfg1.win 3).cut (grid1.coords t) ((dat1 V c).after 3 t) = _
  rw [after1_3]
  unfold out1_3
  rw [View.canon_unit_zero hz4]
  simp only [View.ld_unit_zero (S := S1x128x34x36) hz4, View.ld_unit_zero (S := S128x1x1) hz3]
  funext j
  obtain ⟨u, o, R, q, rfl⟩ : ∃ (u : Fin 1) (o : Fin 128) (R : Fin 34) (q : Fin 34), j = ix4 u o R q :=
    ⟨j 0, j 1, j 2, j 3, eq_ix4 j⟩
  obtain ⟨a0, a1, a2, a3, b0, b1, b2, c0, c1, c2, d0, d1, d2, d3⟩ := norm_idx t
  have hu : u.val = 0 := by omega
  refine (norm_payload (iblk1 V c 0 t) (iblk1 V c 1 t) (iblk1 V c 2 t) u o R q ⟨q.val, by omega⟩ rfl).trans ?_
  have hN : cfg1.N = 128 := N_1
  have ht : t.val < 128 := hN ▸ t.isLt
  -- the three blocks read where the result's rectangle says
  have r0 : iblk1 V c 0 t (ix4 (0 : Fin 1) o R ⟨q.val, by omega⟩)
      = (V c main_v26 : S128x128x34x36.Idx → EReal) (ix4 ⟨t.val, ht⟩ o R ⟨q.val, by omega⟩) := by
    show (V c main_v26 : S128x128x34x36.Idx → EReal) (((cfg1.win 0).blk t).view.emb (ix4 (0 : Fin 1) o R ⟨q.val, by omega⟩)) = _
    refine congrArg _ (funext fun a => Fin.ext ?_)
    match a with
    | ⟨0, _⟩ => show win1_0.index t (0 : Fin 4) * 1 + 1 * 0 = t.val; omega
    | ⟨1, _⟩ => show win1_0.index t (1 : Fin 4) * 128 + 1 * o.val = o.val; omega
    | ⟨2, _⟩ => show win1_0.index t (2 : Fin 4) * 34 + 1 * R.val = R.val; omega
    | ⟨3, _⟩ => show win1_0.index t (3 : Fin 4) * 36 + 1 * q.val = q.val; omega
  have r1 : iblk1 V c 1 t (ix3 o (0 : Fin 1) (0 : Fin 1))
      = (V c main_v24 : S128x1x1.Idx → EReal) (ix3 o (0 : Fin 1) (0 : Fin 1)) := by
    show (V c main_v24 : S128x1x1.Idx → EReal) (((cfg1.win 1).blk t).view.emb (ix3 o (0 : Fin 1) (0 : Fin 1))) = _
    refine congrArg _ (funext fun a => Fin.ext ?_)
    match a with
    | ⟨0, _⟩ => show win1_1.index t (0 : Fin 3) * 128 + 1 * o.val = o.val; omega
    | ⟨1, _⟩ => show win1_1.index t (1 : Fin 3) * 1 + 1 * 0 = 0; omega
    | ⟨2, _⟩ => show win1_1.index t (2 : Fin 3) * 1 + 1 * 0 = 0; omega
  have r2 : iblk1 V c 2 t (ix3 o (0 : Fin 1) (0 : Fin 1))
      = (V c main_v25 : S128x1x1.Idx → EReal) (ix3 o (0 : Fin 1) (0 : Fin 1)) := by
    show (V c main_v25 : S128x1x1.Idx → EReal) (((cfg1.win 2).blk t).view.emb (ix3 o (0 : Fin 1) (0 : Fin 1))) = _
    refine congrArg _ (funext fun a => Fin.ext ?_)
    match a with
    | ⟨0, _⟩ => show win1_2.index t (0 : Fin 3) * 128 + 1 * o.val = o.val; omega
    | ⟨1, _⟩ => show win1_2.index t (1 : Fin 3) * 1 + 1 * 0 = 0; omega
    | ⟨2, _⟩ => show win1_2.index t (2 : Fin 3) * 1 + 1 * 0 = 0; omega
  rw [r0, r1, r2]
  show _ = normG (V c main_v26) (V c main_v24) (V c main_v25) (((cfg1.win 3).blk t).view.emb (ix4 u o R q))
  have e3 : ((cfg1.win 3).blk t).view.emb (ix4 u o R q) = (ix4 ⟨t.val, ht⟩ o R q : S128x128x34x34.Idx) := by
    funext a; apply Fin.ext
    match a with
    | ⟨0, _⟩ => show win1_3.index t (0 : Fin 4) * 1 + 1 * u.val = t.val; omega
    | ⟨1, _⟩ => show win1_3.index t (1 : Fin 4) * 128 + 1 * o.val = o.val; omega
    | ⟨2, _⟩ => show win1_3.index t (2 : Fin 4) * 34 + 1 * R.val = R.val; omega
    | ⟨3, _⟩ => show win1_3.index t (3 : Fin 4) * 34 + 1 * q.val = q.val; omega
  rw [e3]
  rfl

/-- An index of the result array is in point `t`'s block iff each coordinate is in the block's range on its axis. -/
theorem norm_mem_blk (t : Fin cfg1.N) (i : S128x128x34x34.Idx) :
    i ∈ ((cfg1.win 3).blk t).view.set ↔ ∀ a : Fin 4, win1_3.index t a * S1x128x34x34.size a ≤ (i a).val
      ∧ (i a).val < win1_3.index t a * S1x128x34x34.size a + S1x128x34x34.size a := by
  show i ∈ ((View.whole main_v27).slice (win1_3.rect t)).set ↔ _
  rw [View.set_slice_whole, Rect.mem_set_unit]
  exact Iff.rfl

/-- The result array after the call: the 128 image blocks tile it. -/
theorem norm_final (c : Dev nD) :
    (dat1 V c).arrAt 3 cfg1.N = normG (V c main_v26) (V c main_v24) (V c main_v25) :=
  (dat1 V c).arrAt_eq_of_cover 3 _ (fun t _ => norm_flushed V c t) fun (i : S128x128x34x34.Idx) => by
    have h0 : (i 0).val < 128 := (i 0).isLt
    have h1 : (i 1).val < 128 := (i 1).isLt
    have h2 : (i 2).val < 34 := (i 2).isLt
    have h3 : (i 3).val < 34 := (i 3).isLt
    have hN : cfg1.N = 128 := N_1
    obtain ⟨t0, ht0⟩ : ∃ t0 : Fin cfg1.N, t0.val = (i 0).val := ⟨⟨(i 0).val, hN ▸ h0⟩, rfl⟩
    refine ⟨t0, flush1_3 t0, ?_⟩
    rw [norm_mem_blk]
    obtain ⟨a0, a1, a2, a3, b0, b1, b2, c0, c1, c2, d0, d1, d2, d3⟩ := norm_idx t0
    intro a
    match a with
    | ⟨0, _⟩ => show win1_3.index t0 (0 : Fin 4) * 1 ≤ (i 0).val ∧ (i 0).val < win1_3.index t0 (0 : Fin 4) * 1 + 1; omega
    | ⟨1, _⟩ => show win1_3.index t0 (1 : Fin 4) * 128 ≤ (i 1).val ∧ (i 1).val < win1_3.index t0 (1 : Fin 4) * 128 + 128; omega
    | ⟨2, _⟩ => show win1_3.index t0 (2 : Fin 4) * 34 ≤ (i 2).val ∧ (i 2).val < win1_3.index t0 (2 : Fin 4) * 34 + 34; omega
    | ⟨3, _⟩ => show win1_3.index t0 (3 : Fin 4) * 34 ≤ (i 3).val ∧ (i 3).val < win1_3.index t0 (3 : Fin 4) * 34 + 34; omega

/-- The second call's result at an entry, over whatever the call finds in its three input arrays. -/
theorem norm_apply (c : Dev nD) (A : S128x128x34x36.Idx → EReal) (M Rs : S128x1x1.Idx → EReal)
    (hA : V c main_v26 = A) (hM : V c main_v24 = M) (hR : V c main_v25 = Rs)
    (n : Fin 128) (o : Fin 128) (R : Fin 34) (q : Fin 34) :
    ((dat1 V c).arrAt 3 cfg1.N : S128x128x34x34.Idx → EReal) (ix4 n o R q)
      = (A (ix4 n o R ⟨q.val, Nat.lt_of_lt_of_le q.isLt (by decide)⟩) - M (ix3 o (0 : Fin 1) (0 : Fin 1)))
        * Rs (ix3 o (0 : Fin 1) (0 : Fin 1)) := by
  rw [norm_final V c, hA, hM, hR]; rfl

end Cert.ReferenceIdeal.ValueLeg

end
-- ==== Proof.ReferenceValueFirstBody.lean ====
/-
  The first call of the reference, its arithmetic read entry by entry over variables: the two matrix products as
  64-term sums, the first product of the clamped block (three row-shifted slices), the scratch buffer read back after
  the zero fill and the shifted store, the second product (three slices shifted by one entry) times the mask, and
  the two row sums.
-/
import proofs.«100421_g2000304308963006_pallasbulk_990_41_alg».proof.Proof.Gen.ReferenceIdeal.Skeleton
import Idealize.ShloMosaic.Lib.Pipeline.Value
import Idealize.ShloMosaic.Lib.ValueLayout
import Idealize.ShloMosaic.PureOps.Ideal.Laws
import proofs.«100421_g2000304308963006_pallasbulk_990_41_alg».proof.Proof.LibKeepdims

noncomputable section

namespace Cert.ReferenceIdeal.ValueLeg

open Cert.ReferenceIdeal Cert.ReferenceIdeal.Gen
open Idealize.ShloMosaic Idealize.ShloMosaic.ValueIdx Idealize.SL.Sem
open scoped BigOperators

/-! ## The two matrix products at an entry -/

theorem mm1_lhs0 (i : S64x1152.Idx) (q : dot_S64x64_S64x1152_S64x1152_1_0_0_1_n_n.contr.Idx) :
    (dot_S64x64_S64x1152_S64x1152_1_0_0_1_n_n.lhsIdx i q 0).val = (i 0).val := by
  unfold DotDims.lhsIdx
  rw [dif_neg (show ¬(0 : Fin S64x64.rank) ∈ dot_S64x64_S64x1152_S64x1152_1_0_0_1_n_n.lhsBatch by decide),
    dif_pos (show (0 : Fin S64x64.rank) ∈ dot_S64x64_S64x1152_S64x1152_1_0_0_1_n_n.lhsNonContracting by decide)]
  rfl

theorem mm1_rhs1 (i : S64x1152.Idx) (q : dot_S64x64_S64x1152_S64x1152_1_0_0_1_n_n.contr.Idx) :
    (dot_S64x64_S64x1152_S64x1152_1_0_0_1_n_n.rhsIdx i q 1).val = (i 1).val := by
  unfold DotDims.rhsIdx
  rw [dif_neg (show ¬(1 : Fin S64x1152.rank) ∈ dot_S64x64_S64x1152_S64x1152_1_0_0_1_n_n.rhsBatch by decide),
    dif_pos (show (1 : Fin S64x1152.rank) ∈ dot_S64x64_S64x1152_S64x1152_1_0_0_1_n_n.rhsNonContracting by decide)]
  rfl

/-- A 64 x 64 matrix times a 64 x 1152 one into a zero accumulator, at entry `(cc, j)`: the 64-term sum. -/
theorem mm1_apply (l : FVec Ideal S64x64 .f32) (r : FVec Ideal S64x1152 .f32) (cc : Fin 64) (j : Fin 1152) :
    matmul dot_S64x64_S64x1152_S64x1152_1_0_0_1_n_n none l r (constant S64x1152 .f32 0x00000000#32) (ix2 cc j)
      = ∑ k : Fin 64, l (ix2 cc k) * r (ix2 k j) := by
  refine (Ideal.matmul_constant_zero_apply dot_S64x64_S64x1152_S64x1152_1_0_0_1_n_n none l r (ix2 cc j)).trans ?_
  rw [← Equiv.sum_comp (contrEquiv1 dot_S64x64_S64x1152_S64x1152_1_0_0_1_n_n 64 rfl rfl).symm]
  refine Finset.sum_congr rfl fun k _ => ?_
  have hk := contrEquiv1_symm_val dot_S64x64_S64x1152_S64x1152_1_0_0_1_n_n 64 rfl rfl k
  have el : dot_S64x64_S64x1152_S64x1152_1_0_0_1_n_n.lhsIdx (ix2 cc j) ((contrEquiv1 dot_S64x64_S64x1152_S64x1152_1_0_0_1_n_n 64 rfl rfl).symm k) = ix2 cc k :=
    funext fun a => Fin.ext (by
      match a with
      | ⟨0, _⟩ => exact mm1_lhs0 _ _
      | ⟨1, _⟩ => exact (dot_S64x64_S64x1152_S64x1152_1_0_0_1_n_n.lhsIdx_val_of_single rfl _ _).trans hk)
  have er : dot_S64x64_S64x1152_S64x1152_1_0_0_1_n_n.rhsIdx (ix2 cc j) ((contrEquiv1 dot_S64x64_S64x1152_S64x1152_1_0_0_1_n_n 64 rfl rfl).symm k) = ix2 k j :=
    funext fun a => Fin.ext (by
      match a with
      | ⟨0, _⟩ => exact (dot_S64x64_S64x1152_S64x1152_1_0_0_1_n_n.rhsIdx_val_of_single rfl _ _).trans hk
      | ⟨1, _⟩ => exact mm1_rhs1 _ _)
  rw [el, er]

theorem mm2_lhs0 (i : S128x1224.Idx) (q : dot_S128x64_S64x1224_S128x1224_1_0_0_1_n_n.contr.Idx) :
    (dot_S128x64_S64x1224_S128x1224_1_0_0_1_n_n.lhsIdx i q 0).val = (i 0).val := by
  unfold DotDims.lhsIdx
  rw [dif_neg (show ¬(0 : Fin S128x64.rank) ∈ dot_S128x64_S64x1224_S128x1224_1_0_0_1_n_n.lhsBatch by decide),
    dif_pos (show (0 : Fin S128x64.rank) ∈ dot_S128x64_S64x1224_S128x1224_1_0_0_1_n_n.lhsNonContracting by decide)]
  rfl

theorem mm2_rhs1 (i : S128x1224.Idx) (q : dot_S128x64_S64x1224_S128x1224_1_0_0_1_n_n.contr.Idx) :
    (dot_S128x64_S64x1224_S128x1224_1_0_0_1_n_n.rhsIdx i q 1).val = (i 1).val := by
  unfold DotDims.rhsIdx
  rw [dif_neg (show ¬(1 : Fin S64x1224.rank) ∈ dot_S128x64_S64x1224_S128x1224_1_0_0_1_n_n.rhsBatch by decide),
    dif_pos (show (1 : Fin S64x1224.rank) ∈ dot_S128x64_S64x1224_S128x1224_1_0_0_1_n_n.rhsNonContracting by decide)]
  rfl

/-- A 128 x 64 matrix times a 64 x 1224 one into a zero accumulator, at entry `(cc, j)`: the 64-term sum. -/
theorem mm2_apply (l : FVec Ideal S128x64 .f32) (r : FVec Ideal S64x1224 .f32) (cc : Fin 128) (j : Fin 1224) :
    matmul dot_S128x64_S64x1224_S128x1224_1_0_0_1_n_n none l r (constant S128x1224 .f32 0x00000000#32) (ix2 cc j)
      = ∑ k : Fin 64, l (ix2 cc k) * r (ix2 k j) := by
  refine (Ideal.matmul_constant_zero_apply dot_S128x64_S64x1224_S128x1224_1_0_0_1_n_n none l r (ix2 cc j)).trans ?_
  rw [← Equiv.sum_comp (contrEquiv1 dot_S128x64_S64x1224_S128x1224_1_0_0_1_n_n 64 rfl rfl).symm]
  refine Finset.sum_congr rfl fun k _ => ?_
  have hk := contrEquiv1_symm_val dot_S128x64_S64x1224_S128x1224_1_0_0_1_n_n 64 rfl rfl k
  have el : dot_S128x64_S64x1224_S128x1224_1_0_0_1_n_n.lhsIdx (ix2 cc j) ((contrEquiv1 dot_S128x64_S64x1224_S128x1224_1_0_0_1_n_n 64 rfl rfl).symm k) = ix2 cc k :=
    funext fun a => Fin.ext (by
      match a with
      | ⟨0, _⟩ => exact mm2_lhs0 _ _
      | ⟨1, _⟩ => exact (dot_S128x64_S64x1224_S128x1224_1_0_0_1_n_n.lhsIdx_val_of_single rfl _ _).trans hk)
  have er : dot_S128x64_S64x1224_S128x1224_1_0_0_1_n_n.rhsIdx (ix2 cc j) ((contrEquiv1 dot_S128x64_S64x1224_S128x1224_1_0_0_1_n_n 64 rfl rfl).symm k) = ix2 k j :=
    funext fun a => Fin.ext (by
      match a with
      | ⟨0, _⟩ => exact (dot_S128x64_S64x1224_S128x1224_1_0_0_1_n_n.rhsIdx_val_of_single rfl _ _).trans hk
      | ⟨1, _⟩ => exact mm2_rhs1 _ _)
  rw [el, er]

/-! ## The first product at an entry -/

theorem zero_f32 : (Scalar.ofBits (F := Ideal) .f32 0x00000000#32 : EReal) = 0 := Ideal.ofBits_zero_f32

/-- The first product's payload at channel `cc`, position `j`: three 64-term products of the clamped block, taken at
    `j`, `36 + j` and `72 + j`, added to zero one after the other. -/
theorem pay6_apply (v0 : Vec Ideal S1x64x1224 .f32) (v5 v10 v15 : Vec Ideal S1x64x64 .f32) (cc : Fin 64) (j : Fin 1152) :
    k0_pay6 v0 v5 v10 v15 (ix2 cc j)
      = ((0 + ∑ k : Fin 64, v5 (ix3 (0 : Fin 1) cc k) * max (v0 (ix3 (0 : Fin 1) k ⟨j.val, by omega⟩)) 0)
          + ∑ k : Fin 64, v10 (ix3 (0 : Fin 1) cc k) * max (v0 (ix3 (0 : Fin 1) k ⟨36 + j.val, by omega⟩)) 0)
        + ∑ k : Fin 64, v15 (ix3 (0 : Fin 1) cc k) * max (v0 (ix3 (0 : Fin 1) k ⟨72 + j.val, by omega⟩)) 0 := by
  unfold k0_pay6
  rw [shapeCast_self]
  simp only [addf_apply, broadcast_apply]
  rw [mm1_apply, mm1_apply, mm1_apply]
  have hs : ∀ (o : Nat) (h : S64x1224.Slices ![0, o] S64x1152) (k : Fin 64) (j' : Fin 1224) (hj : j'.val = o + j.val),
      extractStridedSlice S64x1152 ![0, o] (maximumf (shapeCast S64x1224 v0 shapeCasts_S1x64x1224_S64x1224) (broadcast S64x1224 (Scalar.ofBits (F := Ideal) .f32 0x00000000#32))) h (ix2 k j)
        = max (v0 (ix3 (0 : Fin 1) k j')) 0 := fun o h k j' hj => by
    refine (slice2_axis1_apply o _ h k j j' hj).trans ?_
    rw [maximumf_apply, broadcast_apply, zero_f32, shapeCast_1ab_ab_apply]
  have hw : ∀ (v : Vec Ideal S1x64x64 .f32) (k : Fin 64), shapeCast S64x64 v shapeCasts_S1x64x64_S64x64 (ix2 cc k) = v (ix3 (0 : Fin 1) cc k) :=
    fun v k => shapeCast_1ab_ab_apply v _ cc k
  refine congrArg₂ (· + ·) (congrArg₂ (· + ·) (congrArg₂ (· + ·) zero_f32 (Finset.sum_congr rfl fun k _ => ?_)) (Finset.sum_congr rfl fun k _ => ?_)) (Finset.sum_congr rfl fun k _ => ?_)
  · rw [hw, hs 0 _ k ⟨j.val, by omega⟩ (Nat.zero_add _).symm]
  · rw [hw, hs 36 _ k ⟨36 + j.val, by omega⟩ rfl]
  · rw [hw, hs 72 _ k ⟨72 + j.val, by omega⟩ rfl]

/-! ## The scratch buffer read back after its two stores -/

theorem fz2 : (![0, 0] : Fin 2 → Nat) = fun _ => 0 := funext fun a => by fin_cases a <;> rfl
theorem fz3 : (![0, 0, 0] : Fin 3 → Nat) = fun _ => 0 := funext fun a => by fin_cases a <;> rfl

/-- The zero fill then the first product stored from column 36 on: the buffer reads the product shifted by 36 on
    columns 36 … 1187 and zero elsewhere. -/
theorem scratch_apply (P6 : FVec Ideal S64x1152 .f32) (cc : Fin 64) (j : Fin 1226) :
    View.canon [(⟨Rect.unit ![0, 36] S64x1152.size inb_S64x1226_S64x1152_0_36, P6⟩ : View.Piece (Elt Ideal) S64x1226 .f32),
        ⟨Rect.unit ![0, 0] S64x1226.size inb_S64x1226_S64x1226_0_0, k0_pay5 (F := Ideal)⟩] (ix2 cc j)
      = if h : 36 ≤ j.val ∧ j.val < 1188 then P6 (ix2 cc ⟨j.val - 36, by omega⟩) else 0 := by
  split
  · rename_i h
    have e : (ix2 cc j : S64x1226.Idx)
        = (Rect.unit (s := S64x1226) ![0, 36] S64x1152.size inb_S64x1226_S64x1152_0_36).emb (ix2 cc ⟨j.val - 36, by omega⟩) := by
      funext a; apply Fin.ext
      match a with
      | ⟨0, _⟩ => show cc.val = 0 + 1 * cc.val; omega
      | ⟨1, _⟩ => show j.val = 36 + 1 * (j.val - 36); omega
    rw [e, View.canon_cons_emb]
  · rename_i h
    rw [View.canon_cons_of_not_mem _ _ (by
      rw [Rect.mem_set_unit]
      intro hm
      have h1 := hm 1
      have : 36 ≤ j.val ∧ j.val < 36 + 1152 := h1
      omega), View.canon_unit_zero fz2]
    unfold k0_pay5
    rw [shapeCast_self]
    exact zero_f32

/-! ## The second product, the mask, and the two row sums at an entry -/

theorem pay7_apply (i : S128x1224.Idx) : (k0_pay7 (F := Ideal)) i = 0 := by
  unfold k0_pay7; exact zero_f32

/-- The second product's payload at channel `o`, position `j`: three 64-term products of the scratch contents taken at
    `j`, `j + 1`, `j + 2`, added to the starting vector one after the other, times the mask's entry `j`. -/
theorem pay1_apply (v27 : Vec Ideal S64x1226 .f32) (v28 : FVec Ideal S128x1224 .f32) (v29 v34 v39 : Vec Ideal S1x128x64 .f32)
    (v44 : Vec Ideal S1x1224 .f32) (o : Fin 128) (j : Fin 1224) :
    k0_pay1 v27 v28 v29 v34 v39 v44 (ix2 o j)
      = (((v28 (ix2 o j) + ∑ k : Fin 64, v29 (ix3 (0 : Fin 1) o k) * v27 (ix2 k ⟨j.val, by omega⟩))
            + ∑ k : Fin 64, v34 (ix3 (0 : Fin 1) o k) * v27 (ix2 k ⟨j.val + 1, by omega⟩))
          + ∑ k : Fin 64, v39 (ix3 (0 : Fin 1) o k) * v27 (ix2 k ⟨j.val + 2, by omega⟩))
        * v44 (ix2 (0 : Fin 1) j) := by
  unfold k0_pay1
  simp only [mulf_apply, addf_apply]
  rw [mm2_apply, mm2_apply, mm2_apply, shapeCast_self, broadcastTo_1b_ab_apply]
  have hs : ∀ (s : Nat) (h : S64x1226.Slices ![0, s] S64x1224) (k : Fin 64) (j' : Fin 1226) (hj : j'.val = s + j.val),
      extractStridedSlice S64x1224 ![0, s] v27 h (ix2 k j) = v27 (ix2 k j') := fun s h k j' hj =>
    slice2_axis1_apply s _ h k j j' hj
  have hw : ∀ (v : Vec Ideal S1x128x64 .f32) (k : Fin 64), shapeCast S128x64 v shapeCasts_S1x128x64_S128x64 (ix2 o k) = v (ix3 (0 : Fin 1) o k) :=
    fun v k => shapeCast_1ab_ab_apply v _ o k
  refine congrArg (· * _) ?_
  refine congrArg₂ (· + ·) (congrArg₂ (· + ·) (congrArg (_ + ·) (Finset.sum_congr rfl fun k _ => ?_)) (Finset.sum_congr rfl fun k _ => ?_)) (Finset.sum_congr rfl fun k _ => ?_)
  · rw [hw, hs 0 _ k ⟨j.val, by omega⟩ (Nat.zero_add _).symm]
  · rw [hw, hs 1 _ k ⟨j.val + 1, by omega⟩ (Nat.add_comm _ _)]
  · rw [hw, hs 2 _ k ⟨j.val + 2, by omega⟩ (Nat.add_comm _ _)]

/-- The wide store's payload is the second product with a unit axis in front. -/
theorem pay2_apply (v27 : Vec Ideal S64x1226 .f32) (v28 : FVec Ideal S128x1224 .f32) (v29 v34 v39 : Vec Ideal S1x128x64 .f32)
    (v44 : Vec Ideal S1x1224 .f32) (u : Fin 1) (o : Fin 128) (j : Fin 1224) :
    k0_pay2 v27 v28 v29 v34 v39 v44 (ix3 u o j) = k0_pay1 v27 v28 v29 v34 v39 v44 (ix2 o j) := by
  unfold k0_pay2
  exact shapeCast_ab_1ab_apply _ _ u o j

/-- The row sums' payload at channel `o`: the sum over the 1224 positions. -/
theorem pay3_apply (v27 : Vec Ideal S64x1226 .f32) (v28 : FVec Ideal S128x1224 .f32) (v29 v34 v39 : Vec Ideal S1x128x64 .f32)
    (v44 : Vec Ideal S1x1224 .f32) (u : Fin 1) (o : Fin 128) (z : Fin 1) :
    k0_pay3 v27 v28 v29 v34 v39 v44 (ix3 u o z) = ∑ j : Fin 1224, k0_pay1 v27 v28 v29 v34 v39 v44 (ix2 o j) := by
  unfold k0_pay3
  refine (shapeCast_ab_1ab_apply _ _ u o z).trans ?_
  refine (Cert.LibKeepdims.shapeCast_a_a1_apply _ _ o z).trans ?_
  exact Cert.LibKeepdims.multiReduction_add_rows _ _ _ _ _ o

/-- The row sums of squares' payload at channel `o`. -/
theorem pay4_apply (v27 : Vec Ideal S64x1226 .f32) (v28 : FVec Ideal S128x1224 .f32) (v29 v34 v39 : Vec Ideal S1x128x64 .f32)
    (v44 : Vec Ideal S1x1224 .f32) (u : Fin 1) (o : Fin 128) (z : Fin 1) :
    k0_pay4 v27 v28 v29 v34 v39 v44 (ix3 u o z)
      = ∑ j : Fin 1224, k0_pay1 v27 v28 v29 v34 v39 v44 (ix2 o j) * k0_pay1 v27 v28 v29 v34 v39 v44 (ix2 o j) := by
  unfold k0_pay4
  refine (shapeCast_ab_1ab_apply _ _ u o z).trans ?_
  refine (Cert.LibKeepdims.shapeCast_a_a1_apply _ _ o z).trans ?_
  exact Cert.LibKeepdims.multiReduction_add_rows _ _ _ _ _ o

end Cert.ReferenceIdeal.ValueLeg

end
-- ==== Proof.ReferenceValueFirst.lean ====
/-
  The first call of the reference, from blocks to arrays. What the run's stores leave in the three outputs is the
  wide payload, the row-sum payload and the row-sum-of-squares payload of the point's input blocks, the scratch
  buffer read back as one function. Over any entry contents whose padded input, two weight arrays and mask are the
  specification's, the payloads are the specification's masked second product and its two row sums; one grid point
  handles one image, so the 128 blocks tile each result array.
-/
import proofs.«100421_g2000304308963006_pallasbulk_990_41_alg».proof.Proof.Gen.ReferenceIdeal.Frame
import proofs.«100421_g2000304308963006_pallasbulk_990_41_alg».proof.Proof.ReferenceValueFirstBody
import proofs.«100421_g2000304308963006_pallasbulk_990_41_alg».proof.Proof.Spec
import Idealize.ShloMosaic.Lib.Tactic

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem Idealize.ShloMosaic.Tactic
open Idealize.ShloMosaic.Pipeline (Dat)
open scoped BigOperators

/-! ## What the run's stores leave, as payloads of the input blocks -/

/-- The scratch buffer as the body's last load reads it: the canonical contents of the zero fill and of the shifted
    store of the first product. -/
def scrOf (x0 : Vec Ideal S1x64x1224 .f32) (x1 : Vec Ideal S3x64x64 .f32) : Vec Ideal S64x1226 .f32 := fun j =>
  View.canon
    [(⟨Rect.unit ![0, 36] S64x1152.size inb_S64x1226_S64x1152_0_36,
        k0_pay6 x0 (View.ld x1 (Rect.unit ![0, 0, 0] S1x64x64.size inb_S3x64x64_S1x64x64_0_0_0))
          (View.ld x1 (Rect.unit ![1, 0, 0] S1x64x64.size inb_S3x64x64_S1x64x64_1_0_0))
          (View.ld x1 (Rect.unit ![2, 0, 0] S1x64x64.size inb_S3x64x64_S1x64x64_2_0_0))⟩ : View.Piece (Elt Ideal) S64x1226 .f32),
      ⟨Rect.unit ![0, 0] S64x1226.size inb_S64x1226_S64x1226_0_0, k0_pay5 (F := Ideal)⟩]
    ((Rect.unit (s := S64x1226) ![0, 0] S64x1226.size inb_S64x1226_S64x1226_0_0).idx j)

theorem first_out4 (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec Ideal S1x64x1224 .f32) (x1 : Vec Ideal S3x64x64 .f32) (x2 : Vec Ideal S3x128x64 .f32) (x3 : Vec Ideal S1x1224 .f32) :
    out0_A_4 (F := Ideal) c i arg1 harg1 arg2 harg2 arg3 harg3 arg4 harg4 arg5 harg5 arg6 harg6 arg7 harg7 arg8 harg8 x0 x1 x2 x3
      = k0_pay2 (scrOf x0 x1) k0_pay7 (View.ld x2 (Rect.unit ![0, 0, 0] S1x128x64.size inb_S3x128x64_S1x128x64_0_0_0))
          (View.ld x2 (Rect.unit ![1, 0, 0] S1x128x64.size inb_S3x128x64_S1x128x64_1_0_0))
          (View.ld x2 (Rect.unit ![2, 0, 0] S1x128x64.size inb_S3x128x64_S1x128x64_2_0_0)) x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero fz3, View.readCov_eq_canon']
  simp only [View.readAt_eq_ld, harg1.read_unread, harg2.read_unread, harg3.read_unread, harg4.read_unread,
    View.ld_unit_zero (S := S1x64x1224) fz3, View.ld_unit_zero (S := S1x1224) fz2]
  rfl

theorem first_out5 (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec Ideal S1x64x1224 .f32) (x1 : Vec Ideal S3x64x64 .f32) (x2 : Vec Ideal S3x128x64 .f32) (x3 : Vec Ideal S1x1224 .f32) :
    out0_A_5 (F := Ideal) c i arg1 harg1 arg2 harg2 arg3 harg3 arg4 harg4 arg5 harg5 arg6 harg6 arg7 harg7 arg8 harg8 x0 x1 x2 x3
      = k0_pay3 (scrOf x0 x1) k0_pay7 (View.ld x2 (Rect.unit ![0, 0, 0] S1x128x64.size inb_S3x128x64_S1x128x64_0_0_0))
          (View.ld x2 (Rect.unit ![1, 0, 0] S1x128x64.size inb_S3x128x64_S1x128x64_1_0_0))
          (View.ld x2 (Rect.unit ![2, 0, 0] S1x128x64.size inb_S3x128x64_S1x128x64_2_0_0)) x3 := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero fz3, View.readCov_eq_canon']
  simp only [View.readAt_eq_ld, harg1.read_unread, harg2.read_unread, harg3.read_unread, harg4.read_unread,
    View.ld_unit_zero (S := S1x64x1224) fz3, View.ld_unit_zero (S := S1x1224) fz2]
  rfl

theorem first_out6 (c : Dev nD) (i : grid0.Coords) (arg1 : Memref sig .tc .vmem S1x64x1224 .f32) (harg1 : arg1.IsWhole) (arg2 : Memref sig .tc .vmem S3x64x64 .f32) (harg2 : arg2.IsWhole) (arg3 : Memref sig .tc .vmem S3x128x64 .f32) (harg3 : arg3.IsWhole) (arg4 : Memref sig .tc .vmem S1x1224 .f32) (harg4 : arg4.IsWhole) (arg5 : Memref sig .tc .vmem S1x128x1224 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S64x1226 .f32) (harg8 : arg8.IsWhole)
    (x0 : Vec Ideal S1x64x1224 .f32) (x1 : Vec Ideal S3x64x64 .f32) (x2 : Vec Ideal S3x128x64 .f32) (x3 : Vec Ideal S1x1224 .f32) :
    out0_A_6 (F := Ideal) c i arg1 harg1 arg2 harg2 arg3 harg3 arg4 harg4 arg5 harg5 arg6 harg6 arg7 harg7 arg8 harg8 x0 x1 x2 x3
      = k0_pay4 (scrOf x0 x1) k0_pay7 (View.ld x2 (Rect.unit ![0, 0, 0] S1x128x64.size inb_S3x128x64_S1x128x64_0_0_0))
          (View.ld x2 (Rect.unit ![1, 0, 0] S1x128x64.size inb_S3x128x64_S1x128x64_1_0_0))
          (View.ld x2 (Rect.unit ![2, 0, 0] S1x128x64.size inb_S3x128x64_S1x128x64_2_0_0)) x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero fz3, View.readCov_eq_canon']
  simp only [View.readAt_eq_ld, harg1.read_unread, harg2.read_unread, harg3.read_unread, harg4.read_unread,
    View.ld_unit_zero (S := S1x64x1224) fz3, View.ld_unit_zero (S := S1x1224) fz2]
  rfl

/-! ## The payloads against the specification, over variables -/

section Spec
open Cert.Spec

variable (x : ℕ → ℕ → ℕ → ℕ → EReal) (w1 w2 : ℕ → ℕ → ℕ → EReal) (n : ℕ)
variable (x0 : Vec Ideal S1x64x1224 .f32) (x1 : Vec Ideal S3x64x64 .f32) (x2 : Vec Ideal S3x128x64 .f32) (x3 : Vec Ideal S1x1224 .f32)

/-- A weight slab loaded out of the whole [3, a, b] block. -/
theorem slab1_apply (s : ℕ) (inb) (t : Fin 3) (ht : t.val = s) (cc k : Fin 64) :
    View.ld x1 (Rect.unit (s := S3x64x64) ![s, 0, 0] S1x64x64.size inb) (ix3 (0 : Fin 1) cc k) = x1 (ix3 t cc k) := by
  refine congrArg x1 (funext fun a => Fin.ext ?_)
  match a with
  | ⟨0, _⟩ => show s + 1 * 0 = t.val; omega
  | ⟨1, _⟩ => show 0 + 1 * cc.val = cc.val; omega
  | ⟨2, _⟩ => show 0 + 1 * k.val = k.val; omega

theorem slab2_apply (s : ℕ) (inb) (t : Fin 3) (ht : t.val = s) (o : Fin 128) (k : Fin 64) :
    View.ld x2 (Rect.unit (s := S3x128x64) ![s, 0, 0] S1x128x64.size inb) (ix3 (0 : Fin 1) o k) = x2 (ix3 t o k) := by
  refine congrArg x2 (funext fun a => Fin.ext ?_)
  match a with
  | ⟨0, _⟩ => show s + 1 * 0 = t.val; omega
  | ⟨1, _⟩ => show 0 + 1 * o.val = o.val; omega
  | ⟨2, _⟩ => show 0 + 1 * k.val = k.val; omega

variable (h0 : ∀ (ci : Fin 64) (j : Fin 1224), x0 (ix3 (0 : Fin 1) ci j) = padR x n ci.val j.val)
variable (h1 : ∀ (t : Fin 3) (cc ci : Fin 64), x1 (ix3 t cc ci) = w1 cc.val ci.val t.val)
variable (h2 : ∀ (t : Fin 3) (o : Fin 128) (cc : Fin 64), x2 (ix3 t o cc) = w2 o.val cc.val t.val)
variable (h3 : ∀ j : Fin 1224, x3 (ix2 (0 : Fin 1) j) = maskR j.val)

include h0 h1 in
/-- The first product's payload is the specification's first product. -/
theorem conv1_eq (cc : Fin 64) (j : Fin 1152) :
    k0_pay6 x0 (View.ld x1 (Rect.unit ![0, 0, 0] S1x64x64.size inb_S3x64x64_S1x64x64_0_0_0))
        (View.ld x1 (Rect.unit ![1, 0, 0] S1x64x64.size inb_S3x64x64_S1x64x64_1_0_0))
        (View.ld x1 (Rect.unit ![2, 0, 0] S1x64x64.size inb_S3x64x64_S1x64x64_2_0_0)) (ix2 cc j)
      = conv1R x w1 n cc.val j.val := by
  rw [pay6_apply]
  unfold conv1R reluR
  rw [Finset.sum_range, Finset.sum_range, Finset.sum_range]
  refine congrArg₂ (· + ·) (congrArg₂ (· + ·) (congrArg (0 + ·) (Finset.sum_congr rfl fun k _ => ?_)) (Finset.sum_congr rfl fun k _ => ?_)) (Finset.sum_congr rfl fun k _ => ?_)
  · rw [slab1_apply x1 0 _ (0 : Fin 3) rfl, h1, h0]; rfl
  · rw [slab1_apply x1 1 _ (1 : Fin 3) rfl, h1, h0]; rfl
  · rw [slab1_apply x1 2 _ (2 : Fin 3) rfl, h1, h0]; rfl

include h0 h1 in
/-- The scratch contents are the first product placed one row down in a zero buffer. -/
theorem scr_eq (cc : Fin 64) (j : Fin 1226) : scrOf x0 x1 (ix2 cc j) = placedR x w1 n cc.val j.val := by
  unfold scrOf
  have e : (Rect.unit (s := S64x1226) ![0, 0] S64x1226.size inb_S64x1226_S64x1226_0_0).idx (ix2 cc j) = ix2 cc j := by
    funext a; apply Fin.ext
    match a with
    | ⟨0, _⟩ => show 0 + 1 * cc.val = cc.val; omega
    | ⟨1, _⟩ => show 0 + 1 * j.val = j.val; omega
  rw [e, scratch_apply]
  unfold placedR
  by_cases h : 36 ≤ j.val ∧ j.val < 1188
  · rw [dif_pos h, if_pos h]; exact conv1_eq x w1 n x0 x1 h0 h1 cc ⟨j.val - 36, by omega⟩
  · rw [dif_neg h, if_neg h]

include h0 h1 h2 h3 in
/-- The second product times the mask is the specification's masked product. -/
theorem masked_eq (o : Fin 128) (j : Fin 1224) :
    k0_pay1 (scrOf x0 x1) k0_pay7 (View.ld x2 (Rect.unit ![0, 0, 0] S1x128x64.size inb_S3x128x64_S1x128x64_0_0_0))
        (View.ld x2 (Rect.unit ![1, 0, 0] S1x128x64.size inb_S3x128x64_S1x128x64_1_0_0))
        (View.ld x2 (Rect.unit ![2, 0, 0] S1x128x64.size inb_S3x128x64_S1x128x64_2_0_0)) x3 (ix2 o j)
      = maskedR x w1 w2 n o.val j.val := by
  rw [pay1_apply, pay7_apply, h3]
  unfold maskedR conv2R
  rw [Finset.sum_range, Finset.sum_range, Finset.sum_range]
  refine congrArg (· * _) ?_
  refine congrArg₂ (· + ·) (congrArg₂ (· + ·) (congrArg (0 + ·) (Finset.sum_congr rfl fun k _ => ?_)) (Finset.sum_congr rfl fun k _ => ?_)) (Finset.sum_congr rfl fun k _ => ?_)
  · rw [slab2_apply x2 0 _ (0 : Fin 3) rfl, h2, scr_eq x w1 n x0 x1 h0 h1]; rfl
  · rw [slab2_apply x2 1 _ (1 : Fin 3) rfl, h2, scr_eq x w1 n x0 x1 h0 h1]; rfl
  · rw [slab2_apply x2 2 _ (2 : Fin 3) rfl, h2, scr_eq x w1 n x0 x1 h0 h1]; rfl

include h0 h1 h2 h3 in
/-- The wide store's payload at `(u, o, j)`. -/
theorem wide_eq (u : Fin 1) (o : Fin 128) (j : Fin 1224) :
    k0_pay2 (scrOf x0 x1) k0_pay7 (View.ld x2 (Rect.unit ![0, 0, 0] S1x128x64.size inb_S3x128x64_S1x128x64_0_0_0))
        (View.ld x2 (Rect.unit ![1, 0, 0] S1x128x64.size inb_S3x128x64_S1x128x64_1_0_0))
        (View.ld x2 (Rect.unit ![2, 0, 0] S1x128x64.size inb_S3x128x64_S1x128x64_2_0_0)) x3 (ix3 u o j)
      = maskedR x w1 w2 n o.val j.val :=
  (pay2_apply _ _ _ _ _ _ u o j).trans (masked_eq x w1 w2 n x0 x1 x2 x3 h0 h1 h2 h3 o j)

include h0 h1 h2 h3 in
/-- The row sums' payload at channel `o`. -/
theorem sum_eq (u : Fin 1) (o : Fin 128) (z : Fin 1) :
    k0_pay3 (scrOf x0 x1) k0_pay7 (View.ld x2 (Rect.unit ![0, 0, 0] S1x128x64.size inb_S3x128x64_S1x128x64_0_0_0))
        (View.ld x2 (Rect.unit ![1, 0, 0] S1x128x64.size inb_S3x128x64_S1x128x64_1_0_0))
        (View.ld x2 (Rect.unit ![2, 0, 0] S1x128x64.size inb_S3x128x64_S1x128x64_2_0_0)) x3 (ix3 u o z)
      = sumR x w1 w2 n o.val := by
  rw [pay3_apply]
  unfold sumR
  rw [zero_add, Finset.sum_range]
  exact Finset.sum_congr rfl fun j _ => masked_eq x w1 w2 n x0 x1 x2 x3 h0 h1 h2 h3 o j

include h0 h1 h2 h3 in
/-- The row sums of squares' payload at channel `o`. -/
theorem sq_eq (u : Fin 1) (o : Fin 128) (z : Fin 1) :
    k0_pay4 (scrOf x0 x1) k0_pay7 (View.ld x2 (Rect.unit ![0, 0, 0] S1x128x64.size inb_S3x128x64_S1x128x64_0_0_0))
        (View.ld x2 (Rect.unit ![1, 0, 0] S1x128x64.size inb_S3x128x64_S1x128x64_1_0_0))
        (View.ld x2 (Rect.unit ![2, 0, 0] S1x128x64.size inb_S3x128x64_S1x128x64_2_0_0)) x3 (ix3 u o z)
      = sqR x w1 w2 n o.val := by
  rw [pay4_apply]
  unfold sqR
  rw [zero_add, Finset.sum_range]
  exact Finset.sum_congr rfl fun j _ => by rw [masked_eq x w1 w2 n x0 x1 x2 x3 h0 h1 h2 h3 o j]

end Spec

/-! ## From blocks to the three result arrays -/

section Arrays
open Cert.Spec

variable (V : (c : Dev nD) → (b : Ref sig .tc) → Buf (Elt Ideal) ((c : Thread nD τ).loc b))

/-- The printed index maps over the grid: point `t` takes image `t` of the padded input and of the three results,
    and the whole of the two weight arrays and of the mask. -/
theorem first_idx : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

variable (c : Dev nD)
variable (A5 : S128x64x1224.Idx → EReal) (A1 : S3x64x64.Idx → EReal) (A3 : S3x128x64.Idx → EReal) (A11 : S1x1224.Idx → EReal)
variable (e5 : V c main_v5 = A5) (e1 : V c main_v1 = A1) (e3 : V c main_v3 = A3) (e11 : V c main_v11 = A11)

include e5 in
theorem first_blk0 (t : Fin cfg0.N) (ht : t.val < 128) (ci : Fin 64) (j : Fin 1224) :
    iblk0 V c 0 t (ix3 (0 : Fin 1) ci j) = A5 (ix3 ⟨t.val, ht⟩ ci j) := by
  obtain ⟨⟨a0, a1, a2⟩, -⟩ := first_idx t
  show (V c main_v5 : S128x64x1224.Idx → EReal) (((cfg0.win 0).blk t).view.emb (ix3 (0 : Fin 1) ci j)) = _
  rw [e5]
  refine congrArg _ (funext fun a => Fin.ext ?_)
  match a with
  | ⟨0, _⟩ => show win0_0.index t (0 : Fin 3) * 1 + 1 * 0 = t.val; omega
  | ⟨1, _⟩ => show win0_0.index t (1 : Fin 3) * 64 + 1 * ci.val = ci.val; omega
  | ⟨2, _⟩ => show win0_0.index t (2 : Fin 3) * 1224 + 1 * j.val = j.val; omega

include e1 in
theorem first_blk1 (t : Fin cfg0.N) (s : Fin 3) (cc ci : Fin 64) :
    iblk0 V c 1 t (ix3 s cc ci) = A1 (ix3 s cc ci) := by
  obtain ⟨-, ⟨a0, a1, a2⟩, -⟩ := first_idx t
  show (V c main_v1 : S3x64x64.Idx → EReal) (((cfg0.win 1).blk t).view.emb (ix3 s cc ci)) = _
  rw [e1]
  refine congrArg _ (funext fun a => Fin.ext ?_)
  match a with
  | ⟨0, _⟩ => show win0_1.index t (0 : Fin 3) * 3 + 1 * s.val = s.val; omega
  | ⟨1, _⟩ => show win0_1.index t (1 : Fin 3) * 64 + 1 * cc.val = cc.val; omega
  | ⟨2, _⟩ => show win0_1.index t (2 : Fin 3) * 64 + 1 * ci.val = ci.val; omega

include e3 in
theorem first_blk2 (t : Fin cfg0.N) (s : Fin 3) (o : Fin 128) (cc : Fin 64) :
    iblk0 V c 2 t (ix3 s o cc) = A3 (ix3 s o cc) := by
  obtain ⟨-, -, ⟨a0, a1, a2⟩, -⟩ := first_idx t
  show (V c main_v3 : S3x128x64.Idx → EReal) (((cfg0.win 2).blk t).view.emb (ix3 s o cc)) = _
  rw [e3]
  refine congrArg _ (funext fun a => Fin.ext ?_)
  match a with
  | ⟨0, _⟩ => show win0_2.index t (0 : Fin 3) * 3 + 1 * s.val = s.val; omega
  | ⟨1, _⟩ => show win0_2.index t (1 : Fin 3) * 128 + 1 * o.val = o.val; omega
  | ⟨2, _⟩ => show win0_2.index t (2 : Fin 3) * 64 + 1 * cc.val = cc.val; omega

include e11 in
theorem first_blk3 (t : Fin cfg0.N) (j : Fin 1224) :
    iblk0 V c 3 t (ix2 (0 : Fin 1) j) = A11 (ix2 (0 : Fin 1) j) := by
  obtain ⟨-, -, -, ⟨a0, a1⟩, -⟩ := first_idx t
  show (V c main_v11 : S1x1224.Idx → EReal) (((cfg0.win 3).blk t).view.emb (ix2 (0 : Fin 1) j)) = _
  rw [e11]
  refine congrArg _ (funext fun a => Fin.ext ?_)
  match a with
  | ⟨0, _⟩ => show win0_3.index t (0 : Fin 2) * 1 + 1 * 0 = 0; omega
  | ⟨1, _⟩ => show win0_3.index t (1 : Fin 2) * 1224 + 1 * j.val = j.val; omega

variable (x : ℕ → ℕ → ℕ → ℕ → EReal) (w1 w2 : ℕ → ℕ → ℕ → EReal)
variable (hX : ∀ (n : Fin 128) (ci : Fin 64) (j : Fin 1224), A5 (ix3 n ci j) = padR x n.val ci.val j.val)
variable (hW1 : ∀ (t : Fin 3) (cc ci : Fin 64), A1 (ix3 t cc ci) = w1 cc.val ci.val t.val)
variable (hW2 : ∀ (t : Fin 3) (o : Fin 128) (cc : Fin 64), A3 (ix3 t o cc) = w2 o.val cc.val t.val)
variable (hM : ∀ j : Fin 1224, A11 (ix2 (0 : Fin 1) j) = maskR j.val)

include e5 e1 e3 e11 hX hW1 hW2 hM in
/-- What point `t` writes back into the wide result: block `t` of the masked second product. -/
theorem first_flushed4 (t : Fin cfg0.N) :
    (dat0 V c).flushed 4 t = ((cfg0.win 4).blk t).view.read (Elt Ideal)
      (fun i : S128x128x1224.Idx => maskedR x w1 w2 (i 0).val (i 1).val (i 2).val) := by
  show (cfg0.win 4).cut (grid0.coords t) ((dat0 V c).after 4 t) = _
  rw [after0_4]
  unfold outsAt0
  dsimp only
  rw [first_out4]
  have hN : cfg0.N = 128 := N_0
  have ht : t.val < 128 := hN ▸ t.isLt
  obtain ⟨-, -, -, -, ⟨d0, d1, d2⟩, -⟩ := first_idx t
  funext y
  obtain ⟨u, o, j, rfl⟩ : ∃ (u : Fin 1) (o : Fin 128) (j : Fin 1224), y = ix3 u o j := ⟨y 0, y 1, y 2, eq_ix3 y⟩
  have hu : u.val = 0 := by omega
  refine (wide_eq x w1 w2 t.val (iblk0 V c 0 t) (iblk0 V c 1 t) (iblk0 V c 2 t) (iblk0 V c 3 t)
    (fun ci j => (first_blk0 V c A5 e5 t ht ci j).trans (hX ⟨t.val, ht⟩ ci j))
    (fun s cc ci => (first_blk1 V c A1 e1 t s cc ci).trans (hW1 s cc ci))
    (fun s o cc => (first_blk2 V c A3 e3 t s o cc).trans (hW2 s o cc))
    (fun j => (first_blk3 V c A11 e11 t j).trans (hM j)) u o j).trans ?_
  show _ = (fun i : S128x128x1224.Idx => maskedR x w1 w2 (i 0).val (i 1).val (i 2).val) (((cfg0.win 4).blk t).view.emb (ix3 u o j))
  have e : ((cfg0.win 4).blk t).view.emb (ix3 u o j) = (ix3 ⟨t.val, ht⟩ o j : S128x128x1224.Idx) := by
    funext a; apply Fin.ext
    match a with
    | ⟨0, _⟩ => show win0_4.index t (0 : Fin 3) * 1 + 1 * u.val = t.val; omega
    | ⟨1, _⟩ => show win0_4.index t (1 : Fin 3) * 128 + 1 * o.val = o.val; omega
    | ⟨2, _⟩ => show win0_4.index t (2 : Fin 3) * 1224 + 1 * j.val = j.val; omega
  rw [e]

include e5 e1 e3 e11 hX hW1 hW2 hM in
/-- What point `t` writes back into the row sums: block `t` of the per-image, per-channel row sums. -/
theorem first_flushed5 (t : Fin cfg0.N) :
    (dat0 V c).flushed 5 t = ((cfg0.win 5).blk t).view.read (Elt Ideal)
      (fun i : S128x128x1.Idx => sumR x w1 w2 (i 0).val (i 1).val) := by
  show (cfg0.win 5).cut (grid0.coords t) ((dat0 V c).after 5 t) = _
  rw [after0_5]
  unfold outsAt0
  dsimp only
  rw [first_out5]
  have hN : cfg0.N = 128 := N_0
  have ht : t.val < 128 := hN ▸ t.isLt
  obtain ⟨-, -, -, -, d4, d5, d6⟩ := first_idx t
  funext y
  obtain ⟨u, o, z, rfl⟩ : ∃ (u : Fin 1) (o : Fin 128) (z : Fin 1), y = ix3 u o z := ⟨y 0, y 1, y 2, eq_ix3 y⟩
  have hu : u.val = 0 := by omega
  have hz : z.val = 0 := by omega
  refine (sum_eq x w1 w2 t.val (iblk0 V c 0 t) (iblk0 V c 1 t) (iblk0 V c 2 t) (iblk0 V c 3 t)
    (fun ci j => (first_blk0 V c A5 e5 t ht ci j).trans (hX ⟨t.val, ht⟩ ci j))
    (fun s cc ci => (first_blk1 V c A1 e1 t s cc ci).trans (hW1 s cc ci))
    (fun s o cc => (first_blk2 V c A3 e3 t s o cc).trans (hW2 s o cc))
    (fun j => (first_blk3 V c A11 e11 t j).trans (hM j)) u o z).trans ?_
  show _ = (fun i : S128x128x1.Idx => sumR x w1 w2 (i 0).val (i 1).val) (((cfg0.win 5).blk t).view.emb (ix3 u o z))
  have e : ((cfg0.win 5).blk t).view.emb (ix3 u o z) = (ix3 ⟨t.val, ht⟩ o z : S128x128x1.Idx) := by
    funext a; apply Fin.ext
    match a with
    | ⟨0, _⟩ => show win0_5.index t (0 : Fin 3) * 1 + 1 * u.val = t.val; omega
    | ⟨1, _⟩ => show win0_5.index t (1 : Fin 3) * 128 + 1 * o.val = o.val; omega
    | ⟨2, _⟩ => show win0_5.index t (2 : Fin 3) * 1 + 1 * z.val = z.val; omega
  rw [e]

include e5 e1 e3 e11 hX hW1 hW2 hM in
/-- What point `t` writes back into the row sums of squares: block `t` of the per-image, per-channel row sums of squares. -/
theorem first_flushed6 (t : Fin cfg0.N) :
    (dat0 V c).flushed 6 t = ((cfg0.win 6).blk t).view.read (Elt Ideal)
      (fun i : S128x128x1.Idx => sqR x w1 w2 (i 0).val (i 1).val) := by
  show (cfg0.win 6).cut (grid0.coords t) ((dat0 V c).after 6 t) = _
  rw [after0_6]
  unfold outsAt0
  dsimp only
  rw [first_out6]
  have hN : cfg0.N = 128 := N_0
  have ht : t.val < 128 := hN ▸ t.isLt
  obtain ⟨-, -, -, -, d4, d5, d6⟩ := first_idx t
  funext y
  obtain ⟨u, o, z, rfl⟩ : ∃ (u : Fin 1) (o : Fin 128) (z : Fin 1), y = ix3 u o z := ⟨y 0, y 1, y 2, eq_ix3 y⟩
  have hu : u.val = 0 := by omega
  have hz : z.val = 0 := by omega
  refine (sq_eq x w1 w2 t.val (iblk0 V c 0 t) (iblk0 V c 1 t) (iblk0 V c 2 t) (iblk0 V c 3 t)
    (fun ci j => (first_blk0 V c A5 e5 t ht ci j).trans (hX ⟨t.val, ht⟩ ci j))
    (fun s cc ci => (first_blk1 V c A1 e1 t s cc ci).trans (hW1 s cc ci))
    (fun s o cc => (first_blk2 V c A3 e3 t s o cc).trans (hW2 s o cc))
    (fun j => (first_blk3 V c A11 e11 t j).trans (hM j)) u o z).trans ?_
  show _ = (fun i : S128x128x1.Idx => sqR x w1 w2 (i 0).val (i 1).val) (((cfg0.win 6).blk t).view.emb (ix3 u o z))
  have e : ((cfg0.win 6).blk t).view.emb (ix3 u o z) = (ix3 ⟨t.val, ht⟩ o z : S128x128x1.Idx) := by
    funext a; apply Fin.ext
    match a with
    | ⟨0, _⟩ => show win0_6.index t (0 : Fin 3) * 1 + 1 * u.val = t.val; omega
    | ⟨1, _⟩ => show win0_6.index t (1 : Fin 3) * 128 + 1 * o.val = o.val; omega
    | ⟨2, _⟩ => show win0_6.index t (2 : Fin 3) * 1 + 1 * z.val = z.val; omega
  rw [e]

theorem first_mem_blk4 (t : Fin cfg0.N) (i : S128x128x1224.Idx) :
    i ∈ ((cfg0.win 4).blk t).view.set ↔ ∀ a : Fin 3, win0_4.index t a * S1x128x1224.size a ≤ (i a).val
      ∧ (i a).val < win0_4.index t a * S1x128x1224.size a + S1x128x1224.size a := by
  show i ∈ ((View.whole main_v12_0).slice (win0_4.rect t)).set ↔ _
  rw [View.set_slice_whole, Rect.mem_set_unit]
  exact Iff.rfl

theorem first_cover4 (i : S128x128x1224.Idx) :
    ∃ t : Fin cfg0.N, (cfg0.win 4).flush t = true ∧ i ∈ ((cfg0.win 4).blk t).view.set := by
  have h0 : (i 0).val < 128 := (i 0).isLt
  have h1 : (i 1).val < 128 := (i 1).isLt
  have h2 : (i 2).val < 1224 := (i 2).isLt
  have hN : cfg0.N = 128 := N_0
  obtain ⟨t0, ht0⟩ : ∃ t0 : Fin cfg0.N, t0.val = (i 0).val := ⟨⟨(i 0).val, hN ▸ h0⟩, rfl⟩
  refine ⟨t0, flush0_4 t0, ?_⟩
  rw [first_mem_blk4]
  obtain ⟨-, -, -, -, d4, d5, d6⟩ := first_idx t0
  intro a
  match a with
  | ⟨0, _⟩ => show win0_4.index t0 (0 : Fin 3) * 1 ≤ (i 0).val ∧ (i 0).val < win0_4.index t0 (0 : Fin 3) * 1 + 1; omega
  | ⟨1, _⟩ => show win0_4.index t0 (1 : Fin 3) * 128 ≤ (i 1).val ∧ (i 1).val < win0_4.index t0 (1 : Fin 3) * 128 + 128; omega
  | ⟨2, _⟩ => show win0_4.index t0 (2 : Fin 3) * 1224 ≤ (i 2).val ∧ (i 2).val < win0_4.index t0 (2 : Fin 3) * 1224 + 1224; omega

theorem first_mem_blk5 (t : Fin cfg0.N) (i : S128x128x1.Idx) :
    i ∈ ((cfg0.win 5).blk t).view.set ↔ ∀ a : Fin 3, win0_5.index t a * S1x128x1.size a ≤ (i a).val
      ∧ (i a).val < win0_5.index t a * S1x128x1.size a + S1x128x1.size a := by
  show i ∈ ((View.whole main_v12_1).slice (win0_5.rect t)).set ↔ _
  rw [View.set_slice_whole, Rect.mem_set_unit]
  exact Iff.rfl

theorem first_cover5 (i : S128x128x1.Idx) :
    ∃ t : Fin cfg0.N, (cfg0.win 5).flush t = true ∧ i ∈ ((cfg0.win 5).blk t).view.set := by
  have h0 : (i 0).val < 128 := (i 0).isLt
  have h1 : (i 1).val < 128 := (i 1).isLt
  have h2 : (i 2).val < 1 := (i 2).isLt
  have hN : cfg0.N = 128 := N_0
  obtain ⟨t0, ht0⟩ : ∃ t0 : Fin cfg0.N, t0.val = (i 0).val := ⟨⟨(i 0).val, hN ▸ h0⟩, rfl⟩
  refine ⟨t0, flush0_5 t0, ?_⟩
  rw [first_mem_blk5]
  obtain ⟨-, -, -, -, d4, d5, d6⟩ := first_idx t0
  intro a
  match a with
  | ⟨0, _⟩ => show win0_5.index t0 (0 : Fin 3) * 1 ≤ (i 0).val ∧ (i 0).val < win0_5.index t0 (0 : Fin 3) * 1 + 1; omega
  | ⟨1, _⟩ => show win0_5.index t0 (1 : Fin 3) * 128 ≤ (i 1).val ∧ (i 1).val < win0_5.index t0 (1 : Fin 3) * 128 + 128; omega
  | ⟨2, _⟩ => show win0_5.index t0 (2 : Fin 3) * 1 ≤ (i 2).val ∧ (i 2).val < win0_5.index t0 (2 : Fin 3) * 1 + 1; omega

theorem first_mem_blk6 (t : Fin cfg0.N) (i : S128x128x1.Idx) :
    i ∈ ((cfg0.win 6).blk t).view.set ↔ ∀ a : Fin 3, win0_6.index t a * S1x128x1.size a ≤ (i a).val
      ∧ (i a).val < win0_6.index t a * S1x128x1.size a + S1x128x1.size a := by
  show i ∈ ((View.whole main_v12_2).slice (win0_6.rect t)).set ↔ _
  rw [View.set_slice_whole, Rect.mem_set_unit]
  exact Iff.rfl

theorem first_cover6 (i : S128x128x1.Idx) :
    ∃ t : Fin cfg0.N, (cfg0.win 6).flush t = true ∧ i ∈ ((cfg0.win 6).blk t).view.set := by
  have h0 : (i 0).val < 128 := (i 0).isLt
  have h1 : (i 1).val < 128 := (i 1).isLt
  have h2 : (i 2).val < 1 := (i 2).isLt
  have hN : cfg0.N = 128 := N_0
  obtain ⟨t0, ht0⟩ : ∃ t0 : Fin cfg0.N, t0.val = (i 0).val := ⟨⟨(i 0).val, hN ▸ h0⟩, rfl⟩
  refine ⟨t0, flush0_6 t0, ?_⟩
  rw [first_mem_blk6]
  obtain ⟨-, -, -, -, d4, d5, d6⟩ := first_idx t0
  intro a
  match a with
  | ⟨0, _⟩ => show win0_6.index t0 (0 : Fin 3) * 1 ≤ (i 0).val ∧ (i 0).val < win0_6.index t0 (0 : Fin 3) * 1 + 1; omega
  | ⟨1, _⟩ => show win0_6.index t0 (1 : Fin 3) * 128 ≤ (i 1).val ∧ (i 1).val < win0_6.index t0 (1 : Fin 3) * 128 + 128; omega
  | ⟨2, _⟩ => show win0_6.index t0 (2 : Fin 3) * 1 ≤ (i 2).val ∧ (i 2).val < win0_6.index t0 (2 : Fin 3) * 1 + 1; omega

include e5 e1 e3 e11 hX hW1 hW2 hM in
/-- The wide result array after the first call, entry by entry. -/
theorem first_wide (n o : Fin 128) (j : Fin 1224) :
    ((dat0 V c).arrAt 4 cfg0.N : S128x128x1224.Idx → EReal) (ix3 n o j) = maskedR x w1 w2 n.val o.val j.val := by
  rw [(dat0 V c).arrAt_eq_of_cover 4 _ (fun t _ => first_flushed4 V c A5 A1 A3 A11 e5 e1 e3 e11 x w1 w2 hX hW1 hW2 hM t) first_cover4]

include e5 e1 e3 e11 hX hW1 hW2 hM in
/-- The row-sum array after the first call. -/
theorem first_sum (n o : Fin 128) (z : Fin 1) :
    ((dat0 V c).arrAt 5 cfg0.N : S128x128x1.Idx → EReal) (ix3 n o z) = sumR x w1 w2 n.val o.val := by
  rw [(dat0 V c).arrAt_eq_of_cover 5 _ (fun t _ => first_flushed5 V c A5 A1 A3 A11 e5 e1 e3 e11 x w1 w2 hX hW1 hW2 hM t) first_cover5]

include e5 e1 e3 e11 hX hW1 hW2 hM in
/-- The row-sum-of-squares array after the first call. -/
theorem first_sq (n o : Fin 128) (z : Fin 1) :
    ((dat0 V c).arrAt 6 cfg0.N : S128x128x1.Idx → EReal) (ix3 n o z) = sqR x w1 w2 n.val o.val := by
  rw [(dat0 V c).arrAt_eq_of_cover 6 _ (fun t _ => first_flushed6 V c A5 A1 A3 A11 e5 e1 e3 e11 x w1 w2 hX hW1 hW2 hM t) first_cover6]

end Arrays

end Cert.ReferenceIdeal.ValueLeg

end
-- ==== Proof.ReferenceValueHost1.lean ====
/-
  The reference's statistics stretch: the same chain of host operations over its row sums and row sums of squares,
  followed by three reshapes. Read at channel `o`, from any contents of the buffers before the stretch whose two
  statistics arrays hold `ps` and `pq`, the reshaped mean and reciprocal standard deviation are the specification's
  `meanOf` and `rstdOf`; the reshaped masked product at `(n, o, R, q)` is the flat one at position `36 R + q`.
-/
import proofs.«100421_g2000304308963006_pallasbulk_990_41_alg».proof.Proof.ReferenceIdealValueRun
import proofs.«100421_g2000304308963006_pallasbulk_990_41_alg».proof.Proof.Spec
import proofs.«100421_g2000304308963006_pallasbulk_990_41_alg».proof.Proof.KernelValueHost1Stats
import Idealize.ShloMosaic.Lib.StableHlo.Run

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem

variable (W : Valuation τ sig (Elt Ideal)) (ps pq : ℕ → ℕ → EReal)

/-- The mean of channel `o` after the stretch. -/
theorem V7_mean
    (hs : ∀ n o : Fin 128, (W (Proc.devRef .tc main_v12_1) : S128x128x1.Idx → EReal) (ix3 n o 0) = ps n o)
    (o : Fin 128) :
    (StableHlo.after hostOps1 W (Proc.devRef .tc main_v24) : S128x1x1.Idx → EReal) (ix3 o 0 0)
      = Cert.Spec.meanOf (Ideal.ofBits .f32 0x48108000#32) ps o := by
  dsimp only [hostOps1]
  after_results
  refine (Cert.Spec.shapeCast_col_apply _ _ o).trans ?_
  exact Cert.Spec.hostMean_apply _ ps hs _ _ _ _ o

/-- The reciprocal standard deviation of channel `o` after the stretch. -/
theorem V7_rstd
    (hs : ∀ n o : Fin 128, (W (Proc.devRef .tc main_v12_1) : S128x128x1.Idx → EReal) (ix3 n o 0) = ps n o)
    (hq : ∀ n o : Fin 128, (W (Proc.devRef .tc main_v12_2) : S128x128x1.Idx → EReal) (ix3 n o 0) = pq n o)
    (o : Fin 128) :
    (StableHlo.after hostOps1 W (Proc.devRef .tc main_v25) : S128x1x1.Idx → EReal) (ix3 o 0 0)
      = Cert.Spec.rstdOf (Ideal.ofBits .f32 0x48108000#32) (Ideal.ofBits .f32 0x3727C5AC#32) ps pq o := by
  dsimp only [hostOps1]
  after_results
  refine (Cert.Spec.shapeCast_col_apply _ _ o).trans ?_
  exact Cert.Spec.hostRstd_apply _ _ ps pq hs hq _ _ _ _ _ o

/-- The masked product after the stretch, in rows of 36: entry `(n, o, R, q)` is the flat entry `36 R + q`. -/
theorem V7_wide (n o : Fin 128) (R : Fin 34) (q : Fin 36) :
    (StableHlo.after hostOps1 W (Proc.devRef .tc main_v26) : S128x128x34x36.Idx → EReal) (ix4 n o R q)
      = (W (Proc.devRef .tc main_v12_0) : S128x128x1224.Idx → EReal) (ix3 n o ⟨36 * R + q, by omega⟩) := by
  dsimp only [hostOps1]
  after_results
  exact Cert.Spec.shapeCast_wide_apply _ _ n o R q _

end Cert.ReferenceIdeal.ValueLeg

end
-- ==== Proof.ReferenceValueHost0.lean ====
/-
  The padded, flattened images the reference's first call stages, entry by entry: each 32 x 32 image padded by one row
  of zeros above and below and two columns of zeros left and right, and the 34 x 36 result flattened row by row, so flat
  position `j` is row `j / 36`, column `j % 36`. (The clamp at zero happens inside the call.)
-/
import proofs.«100421_g2000304308963006_pallasbulk_990_41_alg».proof.Proof.ReferenceIdealValueRun
import proofs.«100421_g2000304308963006_pallasbulk_990_41_alg».proof.Proof.Spec
import Idealize.ShloMosaic.Lib.Pipeline.Value
import Idealize.ShloMosaic.Lib.KernelVsHost
import Idealize.ShloMosaic.Lib.IdealHost
import Idealize.ShloMosaic.Lib.ValueIdx

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem

/-- The images padded with the integer zero converted, and each 34 x 36 frame flattened. -/
def padFlat (A : S128x64x32x32.Idx → EReal) : S128x64x1224.Idx → EReal :=
  shapeCast S128x64x1224
    (pad S128x64x34x36 ![0, 0, 1, 2] ![0, 0, 1, 2] ![0, 0, 0, 0] A
      (sitofp (F := Ideal) .f32 (constantI S_ 32 0#32))
      pads_S128x64x32x32_S128x64x34x36_000_000_110_220 h_S_)
    shapeCasts_S128x64x34x36_S128x64x1224

/-- After the five stretches of host operations before the first call the image buffer holds that array. -/
theorem after_images (W : Valuation τ sig (Elt Ideal)) :
    (StableHlo.after (hostOps0_4 (F := Ideal)) (StableHlo.after (hostOps0_3 (F := Ideal)) (StableHlo.after (hostOps0_2 (F := Ideal))
        (StableHlo.after (hostOps0_1 (F := Ideal)) (StableHlo.after (hostOps0 (F := Ideal)) W)))) (Proc.devRef .tc main_v5)
        : S128x64x1224.Idx → EReal)
      = padFlat (W (Proc.devRef .tc main_arg0)) := by
  dsimp only [hostOps0, hostOps0_1, hostOps0_2, hostOps0_3, hostOps0_4]
  after_results
  rfl

/-- The array read at image `n`, channel `ci`, flat position `j`: inside the image (rows 1 to 32, columns 2 to 33 of
    the 34 x 36 frame) the input, on the frame zero. -/
theorem padFlat_apply (A : S128x64x32x32.Idx → EReal) (n : Fin 128) (ci : Fin 64) (j : Fin 1224) :
    padFlat A (ix3 n ci j)
      = if h : 1 ≤ j.val / 36 ∧ j.val / 36 ≤ 32 ∧ 2 ≤ j.val % 36 ∧ j.val % 36 ≤ 33
        then A (ix4 n ci ⟨j.val / 36 - 1, by omega⟩ ⟨j.val % 36 - 2, by omega⟩) else 0 := by
  have hj := j.isLt
  unfold padFlat
  rw [shapeCast_apply _ shapeCasts_S128x64x34x36_S128x64x1224 (ix3 n ci j)
    (ix4 n ci (⟨j.val / 36, by omega⟩ : Fin 34) (⟨j.val % 36, Nat.mod_lt _ (by decide)⟩ : Fin 36))
    (by rw [Shape.rowMajor_val_four, Shape.rowMajor_val_three]
        show ((n.val * 64 + ci.val) * 34 + j.val / 36) * 36 + j.val % 36 = (n.val * 64 + ci.val) * 1224 + j.val
        omega)]
  split
  · rename_i h
    rw [pad_apply_of_inside _ _ _ _ _ pads_S128x64x32x32_S128x64x34x36_000_000_110_220 h_S_ _
      (ix4 n ci ⟨j.val / 36 - 1, by omega⟩ ⟨j.val % 36 - 2, by omega⟩) (fun ax => by
        match ax with
        | ⟨0, _⟩ => simp
        | ⟨1, _⟩ => simp
        | ⟨2, _⟩ => show j.val / 36 = 1 + (j.val / 36 - 1) * (0 + 1); omega
        | ⟨3, _⟩ => show j.val % 36 = 2 + (j.val % 36 - 2) * (0 + 1); omega)]
  · rename_i h
    have hz : (sitofp (F := Ideal) .f32 (constantI S_ 32 0#32)) (Shape.Idx.first h_S_) = 0 := sitofp_zero
    by_cases hr : 1 ≤ j.val / 36 ∧ j.val / 36 ≤ 32
    · rw [pad_apply_of_not_inside _ _ _ _ _ pads_S128x64x32x32_S128x64x34x36_000_000_110_220 h_S_ _ (3 : Fin 4) (fun hin => h (by
        have h1 : 2 ≤ j.val % 36 := hin.1
        have h3 : (j.val % 36 - 2) / (0 + 1) < 32 := hin.2.2
        exact ⟨hr.1, hr.2, h1, by omega⟩)), hz]
    · rw [pad_apply_of_not_inside _ _ _ _ _ pads_S128x64x32x32_S128x64x34x36_000_000_110_220 h_S_ _ (2 : Fin 4) (fun hin => hr (by
        have h1 : 1 ≤ j.val / 36 := hin.1
        have h3 : (j.val / 36 - 1) / (0 + 1) < 32 := hin.2.2
        exact ⟨h1, by omega⟩)), hz]

variable (m : (ℓ : Loc nD τ sig) → Buf (Elt Ideal) ℓ) (g : Dev nD → PrngReg) (c : Dev nD)

/-- The image buffer at the first call's entry is the specification's padded image. -/
theorem V5_pad (n : Fin 128) (ci : Fin 64) (j : Fin 1224) :
    (Cert.ReferenceIdeal.Gen.W5 (F := Ideal) m g c (Proc.devRef .tc main_v5) : S128x64x1224.Idx → EReal) (ix3 n ci j)
      = Cert.Spec.padR (Cert.Spec.extX (m ((c.tc : Thread nD τ).loc main_arg0))) n ci j := by
  have e : (Cert.ReferenceIdeal.Gen.W5 (F := Ideal) m g c (Proc.devRef .tc main_v5) : S128x64x1224.Idx → EReal)
      = padFlat (m ((c.tc : Thread nD τ).loc main_arg0)) := after_images (Cert.ReferenceIdeal.Gen.W0 (F := Ideal) m g c)
  have hj := j.isLt
  rw [e, padFlat_apply]
  unfold Cert.Spec.padR
  by_cases h : 1 ≤ j.val / 36 ∧ j.val / 36 ≤ 32 ∧ 2 ≤ j.val % 36 ∧ j.val % 36 ≤ 33
  · rw [dif_pos h, if_pos h]
    unfold Cert.Spec.extX
    rw [dif_pos ⟨n.isLt, ci.isLt, by omega, by omega⟩]
  · rw [dif_neg h, if_neg h]

end Cert.ReferenceIdeal.ValueLeg

end
-- ==== Proof.ReferenceValueHost0Weights.lean ====
/-
  The reference's two weight arrays after its host prelude. Each is the argument with its unit axis dropped and the tap
  axis moved to the front: the first weights `[64, 64, 3, 1]` become `[3, 64, 64]`, read at `(t, c, ci)` as the argument
  at `(c, ci, t, 0)`; the second weights `[128, 64, 1, 3]` become `[3, 128, 64]`, read at `(t, o, c)` as the argument at
  `(o, c, 0, t)`. No later operation of the prelude writes either array.
-/
import proofs.«100421_g2000304308963006_pallasbulk_990_41_alg».proof.Proof.ReferenceIdealValueRun
import proofs.«100421_g2000304308963006_pallasbulk_990_41_alg».proof.Proof.Spec
import Idealize.ShloMosaic.Lib.Pipeline.Value
import Idealize.ShloMosaic.Lib.StableHlo.Run

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem

/-- Moving the last of three axes to the front: the result at `(t, i, k)` is the operand at `(i, k, t)`. -/
theorem transpose_201_apply {α : Type} {a b : ℕ} (x : (⟨3, ![a, b, 3]⟩ : Shape).Idx → α)
    (h : (⟨3, ![a, b, 3]⟩ : Shape).Transposes [2, 0, 1] ⟨3, ![3, a, b]⟩) (t : Fin 3) (i : Fin a) (k : Fin b) :
    transpose ⟨3, ![3, a, b]⟩ [2, 0, 1] x h (ix3 t i k) = x (ix3 i k t) :=
  transpose_apply [2, 0, 1] x h (ix3 t i k) (ix3 i k t) fun d =>
    match d with
    | ⟨0, _⟩ => rfl
    | ⟨1, _⟩ => rfl
    | ⟨2, _⟩ => rfl

/-- Dropping a trailing unit axis: `[a, b, 3, 1]` read as `[a, b, 3]`. -/
theorem shapeCast_dropLast_apply {α : Type} {a b : ℕ} (x : (⟨4, ![a, b, 3, 1]⟩ : Shape).Idx → α)
    (h : (⟨4, ![a, b, 3, 1]⟩ : Shape).ShapeCasts ⟨3, ![a, b, 3]⟩) (i : Fin a) (k : Fin b) (t : Fin 3) :
    shapeCast ⟨3, ![a, b, 3]⟩ x h (ix3 i k t) = x (ix4 i k t 0) :=
  shapeCast_apply x h _ _ (by
    rw [Shape.rowMajor_val_three, Shape.rowMajor_val_four]
    show ((i.val * b + k.val) * 3 + t.val) * 1 + 0 = (i.val * b + k.val) * 3 + t.val
    omega)

/-- Dropping an inner unit axis: `[a, b, 1, 3]` read as `[a, b, 3]`. -/
theorem shapeCast_dropInner_apply {α : Type} {a b : ℕ} (x : (⟨4, ![a, b, 1, 3]⟩ : Shape).Idx → α)
    (h : (⟨4, ![a, b, 1, 3]⟩ : Shape).ShapeCasts ⟨3, ![a, b, 3]⟩) (i : Fin a) (k : Fin b) (t : Fin 3) :
    shapeCast ⟨3, ![a, b, 3]⟩ x h (ix3 i k t) = x (ix4 i k 0 t) :=
  shapeCast_apply x h _ _ (by
    rw [Shape.rowMajor_val_three, Shape.rowMajor_val_four]
    show ((i.val * b + k.val) * 1 + 0) * 3 + t.val = (i.val * b + k.val) * 3 + t.val
    omega)

variable (m : (ℓ : Loc nD τ sig) → Buf (Elt Ideal) ℓ) (g : Dev nD → PrngReg) (c : Dev nD)

/-- The first weights after the prelude, tap `t`, output channel `cc`, input channel `ci`. -/
theorem V5_w1 (t : Fin 3) (cc ci : Fin 64) :
    (Cert.ReferenceIdeal.Gen.W5 (F := Ideal) m g c (Proc.devRef .tc main_v1) : S3x64x64.Idx → EReal) (ix3 t cc ci)
      = Cert.Spec.extW1 (m ((c.tc : Thread nD τ).loc main_arg1)) cc ci t := by
  dsimp only [W5, W4, W3, W2, W1, hostOps0, hostOps0_1, hostOps0_2, hostOps0_3, hostOps0_4]
  after_results
  refine (transpose_201_apply _ _ t cc ci).trans ?_
  refine (shapeCast_dropLast_apply _ _ cc ci t).trans ?_
  rw [Cert.Spec.extW1, dif_pos ⟨cc.isLt, ci.isLt, t.isLt⟩]
  rfl

/-- The second weights after the prelude, tap `t`, output channel `o`, input channel `cc`. -/
theorem V5_w2 (t : Fin 3) (o : Fin 128) (cc : Fin 64) :
    (Cert.ReferenceIdeal.Gen.W5 (F := Ideal) m g c (Proc.devRef .tc main_v3) : S3x128x64.Idx → EReal) (ix3 t o cc)
      = Cert.Spec.extW2 (m ((c.tc : Thread nD τ).loc main_arg2)) o cc t := by
  dsimp only [W5, W4, W3, W2, W1, hostOps0, hostOps0_1, hostOps0_2, hostOps0_3, hostOps0_4]
  after_results
  refine (transpose_201_apply _ _ t o cc).trans ?_
  refine (shapeCast_dropInner_apply _ _ o cc t).trans ?_
  rw [Cert.Spec.extW2, dif_pos ⟨o.isLt, cc.isLt, t.isLt⟩]
  rfl

end Cert.ReferenceIdeal.ValueLeg

end
-- ==== Proof.ReferenceValueHost0MaskWord.lean ====
/-
  The column mask on machine words. For a position `j` below 2^31 written as a 32-bit word: the signed remainder by 36
  is `j % 36`; the sign corrections that follow it (add the divisor when the remainder and the divisor have different
  signs and the remainder is not zero) do nothing, because both are non-negative; and "less than 34" converted from a
  one-bit word to a float is one or zero. Together: the specification's mask at `j`.
-/
import proofs.«100421_g2000304308963006_pallasbulk_990_41_alg».proof.Proof.Spec
import Idealize.ShloMosaic.Lib.Affine
import Idealize.ShloMosaic.Lib.ValueIdx

noncomputable section

namespace Cert.Spec

open Idealize.ShloMosaic Idealize.ShloMosaic.Affine Idealize.ShloMosaic.ValueIdx

/-- The divisor with zero replaced by one. -/
def fixDiv (d : BitVec 32) : BitVec 32 := Scalar.select (IntOp.cmpi .eq d 0#32) 1#32 d

/-- The remainder of `x` by `d` with the sign of the divisor: the truncating remainder, plus the divisor when their signs
    differ and the remainder is not zero. -/
def remWord (x d : BitVec 32) : BitVec 32 :=
  Scalar.select
    (IntOp.andi
      (IntOp.cmpi .ne (IntOp.cmpi .slt (IntOp.remsi .host x (fixDiv d)) 0#32) (IntOp.cmpi .slt (fixDiv d) 0#32))
      (IntOp.cmpi .ne (IntOp.remsi .host x (fixDiv d)) 0#32))
    (IntOp.addi (IntOp.remsi .host x (fixDiv d)) (fixDiv d))
    (IntOp.remsi .host x (fixDiv d))

/-- For a small non-negative word the corrected remainder by 36 is the word of `j % 36`, read signed. -/
theorem remWord_isInt (j : ℕ) (hj : j < 2 ^ 31) : IsInt (remWord (BitVec.ofNat 32 j) 36#32) ((j : Int) % 36) := by
  have hd : fixDiv 36#32 = 36#32 := by decide
  unfold remWord
  rw [hd]
  have hnc : ¬ IntOp.SDivCorner (BitVec.ofNat 32 j) 36#32 := by
    rintro (h | ⟨-, h⟩) <;> exact absurd h (by decide)
  have hrs : IntOp.remsi .host (BitVec.ofNat 32 j) 36#32 = Scalar.remsi (BitVec.ofNat 32 j) 36#32 := by
    rw [IntOp.remsi, if_neg hnc, Scalar.remsi, IntOp.remsi, if_neg hnc]
  rw [hrs]
  have ha : IsInt (BitVec.ofNat 32 j) (j : Int) := Affine.ofNat j ⟨rfl, hj⟩
  have hb : IsInt 36#32 36 := Affine.ofNat 36 ⟨rfl, by norm_num⟩
  have h0 : IsInt 0#32 0 := Affine.ofNat 0 ⟨rfl, by norm_num⟩
  have hr : IsInt (Scalar.remsi (BitVec.ofNat 32 j) 36#32) ((j : Int) % 36) :=
    Affine.remsi ha hb ⟨rfl, by omega, by norm_num⟩
  have c1 : IntOp.cmpi .slt (Scalar.remsi (BitVec.ofNat 32 j) 36#32) 0#32 = 0#1 :=
    eq_zero_of_ne_one (Affine.slt_fails hr h0 (by omega))
  have c2 : IntOp.cmpi .slt (36#32 : BitVec 32) 0#32 = 0#1 := by decide
  have c3 : IntOp.cmpi .ne (0#1 : BitVec 1) 0#1 = 0#1 := by decide
  rw [c1, c2, c3]
  have c4 : ∀ z : BitVec 1, IntOp.andi (0#1 : BitVec 1) z = 0#1 := fun z => by
    unfold IntOp.andi
    exact BitVec.zero_and
  rw [c4, select_zero]
  exact hr

/-- "Less than 34" of the corrected remainder, converted to a float, is the mask. -/
theorem maskWord_eq (j : ℕ) (hj : j < 2 ^ 31) :
    (FloatOps.uitofp .f32 (IntOp.cmpi .slt (remWord (BitVec.ofNat 32 j) 36#32) 34#32) : Ideal .f32) = maskR j := by
  have hr := remWord_isInt j hj
  have h34 : IsInt 34#32 34 := Affine.ofNat 34 ⟨rfl, by norm_num⟩
  unfold maskR
  by_cases h : j % 36 < 34
  · have hc : IntOp.cmpi .slt (remWord (BitVec.ofNat 32 j) 36#32) 34#32 = 1#1 :=
      Affine.slt_holds hr h34 (by omega)
    rw [hc, if_pos h]
    show (((1#1 : BitVec 1).toNat : ℝ) : EReal) = 1
    norm_num
  · have hc : IntOp.cmpi .slt (remWord (BitVec.ofNat 32 j) 36#32) 34#32 = 0#1 :=
      eq_zero_of_ne_one (Affine.slt_fails hr h34 (by omega))
    rw [hc, if_neg h]
    show (((0#1 : BitVec 1).toNat : ℝ) : EReal) = 0
    norm_num

end Cert.Spec

end
-- ==== Proof.ReferenceValueHost0Mask.lean ====
/-
  The reference's column mask after its host prelude: positions `0 … 1223`, their remainder by 36 with the sign of the
  divisor, "less than 34" of that converted to a float, as one row. Read one stretch of host operations at a time from
  any contents of the buffers before the stretch, then composed: at position `j` it is the specification's mask, one
  on the first 34 columns of each row of 36 and zero on the last two.
-/
import proofs.«100421_g2000304308963006_pallasbulk_990_41_alg».proof.Proof.ReferenceIdealValueRun
import proofs.«100421_g2000304308963006_pallasbulk_990_41_alg».proof.Proof.Spec
import proofs.«100421_g2000304308963006_pallasbulk_990_41_alg».proof.Proof.ReferenceValueHost0MaskWord
import Idealize.ShloMosaic.Lib.Pipeline.Value
import Idealize.ShloMosaic.Lib.StableHlo.Run

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem

/-- A vector of 1224 entries cast to one row reads, at `(0, j)`, the vector at `j`. -/
theorem shapeCast_row_apply {α : Type} (x : (⟨1, ![1224]⟩ : Shape).Idx → α)
    (h : (⟨1, ![1224]⟩ : Shape).ShapeCasts ⟨2, ![1, 1224]⟩) (j : Fin 1224) :
    shapeCast ⟨2, ![1, 1224]⟩ x h (ix2 0 j) = x (ix1 j) :=
  shapeCast_apply x h _ _ (by
    rw [Shape.rowMajor_val_one, Shape.rowMajor_val_two]
    show j.val = 0 * 1224 + j.val
    omega)

section Stretches

variable (W : Valuation τ sig (Elt Ideal))

/-- After the third stretch the position array holds each position as a word. -/
theorem after2_iota (j : Fin 1224) :
    (StableHlo.after hostOps0_2 W (Proc.devRef .tc main_v6) : S1224.Idx → BitVec 32) (ix1 j) = BitVec.ofNat 32 j := by
  dsimp only [hostOps0_2]
  after_results
  rfl

/-- After the third stretch the divisor is the word 36. -/
theorem after2_div :
    (StableHlo.after hostOps0_2 W (Proc.devRef .tc main_c_0) : S_.Idx → BitVec 32) ix0 = 36#32 := by
  dsimp only [hostOps0_2]
  after_results
  rfl

set_option maxHeartbeats 4000000 in
/-- The fourth stretch computes, at each position, the remainder with the sign of the divisor of the position array by
    the scalar divisor. A rank-0 array is a constant function of its index, so the divisor may be read at any index. -/
theorem after3_rem (j : Fin 1224) :
    (StableHlo.after hostOps0_3 W (Proc.devRef .tc main_v7) : S1224.Idx → BitVec 32) (ix1 j)
      = Cert.Spec.remWord ((W (Proc.devRef .tc main_v6) : S1224.Idx → BitVec 32) (ix1 j))
          ((W (Proc.devRef .tc main_c_0) : S_.Idx → BitVec 32) ix0) := by
  have hD : (W (Proc.devRef .tc main_c_0) : S_.Idx → BitVec 32)
      = fun _ => (W (Proc.devRef .tc main_c_0) : S_.Idx → BitVec 32) ix0 :=
    funext fun k => congrArg _ (eq_ix0 k)
  dsimp only [hostOps0_3]
  after_results_simp
  rw [hD]
  rfl

/-- The fifth stretch compares with 34, converts the condition to a float and casts to one row. -/
theorem after4_mask (j : Fin 1224) :
    (StableHlo.after hostOps0_4 W (Proc.devRef .tc main_v11) : S1x1224.Idx → EReal) (ix2 0 j)
      = (FloatOps.uitofp .f32
          (IntOp.cmpi .slt ((W (Proc.devRef .tc main_v7) : S1224.Idx → BitVec 32) (ix1 j)) 34#32) : Ideal .f32) := by
  dsimp only [hostOps0_4]
  after_results
  refine (shapeCast_row_apply _ _ j).trans ?_
  rfl

end Stretches

variable (m : (ℓ : Loc nD τ sig) → Buf (Elt Ideal) ℓ) (g : Dev nD → PrngReg) (c : Dev nD)

/-- The mask after the prelude at position `j`. -/
theorem V5_mask (j : Fin 1224) :
    (Cert.ReferenceIdeal.Gen.W5 (F := Ideal) m g c (Proc.devRef .tc main_v11) : S1x1224.Idx → EReal) (ix2 0 j)
      = Cert.Spec.maskR j := by
  have e3 : (W4 (F := Ideal) m g c (Proc.devRef .tc main_v7) : S1224.Idx → BitVec 32) (ix1 j)
      = Cert.Spec.remWord (BitVec.ofNat 32 j) 36#32 :=
    (after3_rem (W3 (F := Ideal) m g c) j).trans
      (congrArg₂ Cert.Spec.remWord (after2_iota (W2 (F := Ideal) m g c) j) (after2_div (W2 (F := Ideal) m g c)))
  refine (after4_mask (W4 (F := Ideal) m g c) j).trans ?_
  rw [e3]
  exact Cert.Spec.maskWord_eq j (by have := j.isLt; omega)

end Cert.ReferenceIdeal.ValueLeg

end
-- ==== Proof.ReferenceValue.lean ====
/-
  The reference's result buffer, entry by entry: the last contents of the fold through the reference's @main, read at
  image `n`, channel `o`, row `R`, column `q`, is the specification's `outR` of the three argument arrays. The host
  prelude leaves the padded input, the two transposed weight arrays and the column mask; the first call leaves the
  masked second product and its row sums and row sums of squares; the statistics stretch turns the sums into the
  per-channel mean and reciprocal standard deviation and re-rows the product; the second call subtracts and scales.
-/
import proofs.«100421_g2000304308963006_pallasbulk_990_41_alg».proof.Proof.ReferenceValueNorm
import proofs.«100421_g2000304308963006_pallasbulk_990_41_alg».proof.Proof.ReferenceValueFirst
import proofs.«100421_g2000304308963006_pallasbulk_990_41_alg».proof.Proof.ReferenceValueHost1
import proofs.«100421_g2000304308963006_pallasbulk_990_41_alg».proof.Proof.ReferenceValueHost0
import proofs.«100421_g2000304308963006_pallasbulk_990_41_alg».proof.Proof.ReferenceValueHost0Weights
import proofs.«100421_g2000304308963006_pallasbulk_990_41_alg».proof.Proof.ReferenceValueHost0Mask

noncomputable section

namespace Cert.ReferenceIdeal.ValueLeg

open Cert.ReferenceIdeal Cert.ReferenceIdeal.Gen
open Idealize.ShloMosaic Idealize.ShloMosaic.TcCoe Idealize.ShloMosaic.ValueIdx Idealize.SL.Sem

theorem reference_value (m : (ℓ : Loc nD τ sig) → Buf (Elt Ideal) ℓ) (g : Dev nD → PrngReg) (c : Dev nD)
    (n : Fin 128) (o : Fin 128) (R : Fin 34) (q : Fin 34) :
    (Cert.ReferenceIdeal.Gen.W8 (F := Ideal) m g c (Proc.devRef .tc main_v27) : S128x128x34x34.Idx → EReal) (ix4 n o R q)
      = Cert.Spec.outR
          (Cert.Spec.extX (m ((c.tc : Thread nD τ).loc main_arg0)))
          (Cert.Spec.extW1 (m ((c.tc : Thread nD τ).loc main_arg1)))
          (Cert.Spec.extW2 (m ((c.tc : Thread nD τ).loc main_arg2)))
          (Ideal.ofBits .f32 0x48108000#32) (Ideal.ofBits .f32 0x3727C5AC#32) n o R q := by
  -- the three arrays the first call leaves, over the host prelude's four arrays
  have hwide : ∀ (n o : Fin 128) (j : Fin 1224),
      (W6 (F := Ideal) m g c (Proc.devRef .tc main_v12_0) : S128x128x1224.Idx → EReal) (ix3 n o j)
        = Cert.Spec.maskedR (Cert.Spec.extX (m ((c.tc : Thread nD τ).loc main_arg0)))
            (Cert.Spec.extW1 (m ((c.tc : Thread nD τ).loc main_arg1)))
            (Cert.Spec.extW2 (m ((c.tc : Thread nD τ).loc main_arg2))) n o j := fun n o j =>
    (congrFun (W6_arr m g c 4) (ix3 n o j)).trans
      (first_wide (V5 m g) c _ _ _ _ rfl rfl rfl rfl _ _ _ (V5_pad m g c) (V5_w1 m g c) (V5_w2 m g c) (V5_mask m g c) n o j)
  have hs : ∀ n o : Fin 128,
      (W6 (F := Ideal) m g c (Proc.devRef .tc main_v12_1) : S128x128x1.Idx → EReal) (ix3 n o 0)
        = Cert.Spec.sumR (Cert.Spec.extX (m ((c.tc : Thread nD τ).loc main_arg0)))
            (Cert.Spec.extW1 (m ((c.tc : Thread nD τ).loc main_arg1)))
            (Cert.Spec.extW2 (m ((c.tc : Thread nD τ).loc main_arg2))) n o := fun n o =>
    (congrFun (W6_arr m g c 5) (ix3 n o 0)).trans
      (first_sum (V5 m g) c _ _ _ _ rfl rfl rfl rfl _ _ _ (V5_pad m g c) (V5_w1 m g c) (V5_w2 m g c) (V5_mask m g c) n o 0)
  have hq : ∀ n o : Fin 128,
      (W6 (F := Ideal) m g c (Proc.devRef .tc main_v12_2) : S128x128x1.Idx → EReal) (ix3 n o 0)
        = Cert.Spec.sqR (Cert.Spec.extX (m ((c.tc : Thread nD τ).loc main_arg0)))
            (Cert.Spec.extW1 (m ((c.tc : Thread nD τ).loc main_arg1)))
            (Cert.Spec.extW2 (m ((c.tc : Thread nD τ).loc main_arg2))) n o := fun n o =>
    (congrFun (W6_arr m g c 6) (ix3 n o 0)).trans
      (first_sq (V5 m g) c _ _ _ _ rfl rfl rfl rfl _ _ _ (V5_pad m g c) (V5_w1 m g c) (V5_w2 m g c) (V5_mask m g c) n o 0)
  -- the second call over the statistics stretch
  refine (congrFun (W8_arr m g c 3) (ix4 n o R q)).trans ?_
  refine (norm_apply (V7 m g) c _ _ _ rfl rfl rfl n o R q).trans ?_
  have hq36 : q.val < 36 := Nat.lt_of_lt_of_le q.isLt (by decide)
  rw [show (V7 (F := Ideal) m g c main_v26 : S128x128x34x36.Idx → EReal) (ix4 n o R ⟨q.val, hq36⟩) = _ from
      V7_wide (W6 m g c) n o R ⟨q.val, hq36⟩,
    show (V7 (F := Ideal) m g c main_v24 : S128x1x1.Idx → EReal) (ix3 o 0 0) = _ from V7_mean (W6 m g c) _ hs o,
    show (V7 (F := Ideal) m g c main_v25 : S128x1x1.Idx → EReal) (ix3 o 0 0) = _ from V7_rstd (W6 m g c) _ _ hs hq o,
    hwide]
  rfl

end Cert.ReferenceIdeal.ValueLeg

end
-- ==== Proof.RealValued.lean ====
/-
  When every entry of the three arguments is a real number, every layer of the kernel's specification is real: zero, a
  maximum, a sum or a product of reals is real, and so is either branch of a case distinction. This is what lets the
  final step — moving the mean across the product with the reciprocal standard deviation — be done in the real numbers,
  where multiplication distributes over subtraction.
-/
import proofs.«100421_g2000304308963006_pallasbulk_990_41_alg».proof.Proof.Spec

noncomputable section

namespace Cert.Spec

open Finset

/-- An extended real that is a real number. -/
def IsReal (a : EReal) : Prop := ∃ r : ℝ, a = (r : EReal)

theorem IsReal.coe (r : ℝ) : IsReal (r : EReal) := ⟨r, rfl⟩
theorem IsReal.zero : IsReal 0 := ⟨0, EReal.coe_zero.symm⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  rcases le_total a b with h | h
  · rw [max_eq_right h]; exact hb
  · rw [max_eq_left h]; exact ha
theorem IsReal.ite {p : Prop} [Decidable p] {a b : EReal} (ha : IsReal a) (hb : IsReal b) : IsReal (if p then a else b) := by
  split <;> assumption
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))
/-- A real extended real is the coercion of its real part. -/
theorem IsReal.eq_coe_toReal {a : EReal} (ha : IsReal a) : a = (a.toReal : EReal) := by
  obtain ⟨r, rfl⟩ := ha; rw [EReal.toReal_coe]

/-! ## An argument array of reals, extended by zero, is real everywhere -/

theorem extX_real (X : (⟨4, ![128, 64, 32, 32]⟩ : Idealize.ShloMosaic.Shape).Idx → EReal) (h : ∀ i, IsReal (X i)) (n ci a b : ℕ) :
    IsReal (extX X n ci a b) := by
  unfold extX; split
  · exact h _
  · exact IsReal.zero
theorem extW1_real (W : (⟨4, ![64, 64, 3, 1]⟩ : Idealize.ShloMosaic.Shape).Idx → EReal) (h : ∀ i, IsReal (W i)) (c ci t : ℕ) :
    IsReal (extW1 W c ci t) := by
  unfold extW1; split
  · exact h _
  · exact IsReal.zero
theorem extW2_real (W : (⟨4, ![128, 64, 1, 3]⟩ : Idealize.ShloMosaic.Shape).Idx → EReal) (h : ∀ i, IsReal (W i)) (o c t : ℕ) :
    IsReal (extW2 W o c t) := by
  unfold extW2; split
  · exact h _
  · exact IsReal.zero

/-! ## The kernel's layers -/

variable {x : ℕ → ℕ → ℕ → ℕ → EReal} {w1 : ℕ → ℕ → ℕ → EReal} {w2 : ℕ → ℕ → ℕ → EReal}
variable (hx : ∀ n ci a b, IsReal (x n ci a b)) (hw1 : ∀ c ci t, IsReal (w1 c ci t)) (hw2 : ∀ o c t, IsReal (w2 o c t))

include hx in
theorem padK_real (n ci j : ℕ) : IsReal (padK x n ci j) := by
  unfold padK; exact IsReal.ite ((hx _ _ _ _).max IsReal.zero) IsReal.zero
include hx in
theorem shiftK_real (n k j : ℕ) : IsReal (shiftK x n k j) := by
  unfold shiftK
  exact IsReal.ite (IsReal.ite (padK_real hx _ _ _) IsReal.zero)
    (IsReal.ite (padK_real hx _ _ _) (IsReal.ite (padK_real hx _ _ _) IsReal.zero))
include hx hw1 in
theorem conv1K_real (n c j : ℕ) : IsReal (conv1K x w1 n c j) := by
  unfold conv1K w1K; exact IsReal.sum _ _ fun k _ => (hw1 _ _ _).mul (shiftK_real hx _ _ _)
include hx hw1 in
theorem rotK_real (n k j : ℕ) : IsReal (rotK x w1 n k j) := by
  unfold rotK
  exact IsReal.ite (IsReal.ite (conv1K_real hx hw1 _ _ _) (conv1K_real hx hw1 _ _ _))
    (IsReal.ite (conv1K_real hx hw1 _ _ _) (IsReal.ite (conv1K_real hx hw1 _ _ _) (conv1K_real hx hw1 _ _ _)))
include hx hw1 hw2 in
theorem conv2K_real (n o j : ℕ) : IsReal (conv2K x w1 w2 n o j) := by
  unfold conv2K w2K; exact IsReal.sum _ _ fun k _ => (hw2 _ _ _).mul (rotK_real hx hw1 _ _ _)

end Cert.Spec

end
-- ==== Proof.ConvLayoutsIndex.lean ====
/-
  Splitting a sum over an initial segment of the naturals into equal blocks, and the quotient and remainder of a
  position written as (row width) * row + column.
-/
import proofs.«100421_g2000304308963006_pallasbulk_990_41_alg».proof.Proof.Spec

namespace Cert.Spec

open Finset

/-- A sum over the first `w * m` naturals is the sum over `m` blocks of the sums over the `w` entries of a block. -/
theorem sum_range_blocks {M : Type*} [AddCommMonoid M] (w : ℕ) (g : ℕ → M) (m : ℕ) :
    ∑ j ∈ range (w * m), g j = ∑ R ∈ range m, ∑ q ∈ range w, g (w * R + q) := by
  induction m with
  | zero => simp
  | succ m ih =>
    rw [Nat.mul_succ, sum_range_add, ih, sum_range_succ]

/-- Three blocks written out, in the order in which a sum over `range 3` adds them to zero. -/
theorem sum_range_three {M : Type*} [AddCommMonoid M] (f : ℕ → M) :
    ∑ t ∈ range 3, f t = ((0 + f 0) + f 1) + f 2 := by
  rw [sum_range_succ, sum_range_succ, sum_range_succ, sum_range_zero]

theorem div_row (w R q : ℕ) (hq : q < w) : (w * R + q) / w = R := by
  have hw : 0 < w := by omega
  rw [Nat.add_comm, Nat.add_mul_div_left _ _ hw, Nat.div_eq_of_lt hq, Nat.zero_add]

theorem mod_row (w R q : ℕ) (hq : q < w) : (w * R + q) % w = q := by
  rw [Nat.add_comm, Nat.add_mul_mod_self_left, Nat.mod_eq_of_lt hq]

end Cert.Spec
-- ==== Proof.ConvLayoutsFirst.lean ====
/-
  The first product in the two layouts. A padded and clamped input entry of the width-34 layout at row r, column s is
  the entry of the width-36 layout at row r, column s + 1; hence the kernel's first product at row R, column s is the
  reference's placed first product at row R, column s + 1, and the placed first product vanishes on columns 0, 1, 34
  and 35 of every row.
-/
import proofs.«100421_g2000304308963006_pallasbulk_990_41_alg».proof.Proof.ConvLayoutsIndex

noncomputable section

namespace Cert.Spec

open Finset

variable (x : ℕ → ℕ → ℕ → ℕ → EReal) (w1 : ℕ → ℕ → ℕ → EReal)

/-- The kernel's padded input at row `r`, column `s`. -/
theorem padK_at (n ci r s : ℕ) (hs : s < 34) :
    padK x n ci (34 * r + s)
      = if 1 ≤ r ∧ r ≤ 32 ∧ 1 ≤ s ∧ s ≤ 32 then max (x n ci (r - 1) (s - 1)) 0 else 0 := by
  unfold padK
  rw [div_row 34 r s hs, mod_row 34 r s hs]

/-- The reference's padded and clamped input at row `r`, column `p`. -/
theorem reluR_at (n ci r p : ℕ) (hp : p < 36) :
    reluR x n ci (36 * r + p)
      = if 1 ≤ r ∧ r ≤ 32 ∧ 2 ≤ p ∧ p ≤ 33 then max (x n ci (r - 1) (p - 2)) 0 else 0 := by
  unfold reluR padR
  rw [div_row 36 r p hp, mod_row 36 r p hp]
  split_ifs
  · rfl
  · exact max_self 0

/-- Column `s` of the width-34 layout is column `s + 1` of the width-36 layout. -/
theorem padK_eq_reluR (n ci r s : ℕ) (hs : s < 34) :
    padK x n ci (34 * r + s) = reluR x n ci (36 * r + (s + 1)) := by
  rw [padK_at x n ci r s hs, reluR_at x n ci r (s + 1) (by omega)]
  by_cases h : 1 ≤ r ∧ r ≤ 32 ∧ 1 ≤ s ∧ s ≤ 32
  · have h' : 1 ≤ r ∧ r ≤ 32 ∧ 2 ≤ s + 1 ∧ s + 1 ≤ 33 := by omega
    rw [if_pos h, if_pos h']
    have e : s + 1 - 2 = s - 1 := by omega
    rw [e]
  · have h' : ¬ (1 ≤ r ∧ r ≤ 32 ∧ 2 ≤ s + 1 ∧ s + 1 ≤ 33) := by omega
    rw [if_neg h, if_neg h']

/-- The reference's clamped input vanishes on columns 0, 1, 34 and 35. -/
theorem reluR_col_zero (n ci r p : ℕ) (hp : p < 36) (hcol : p < 2 ∨ 34 ≤ p) :
    reluR x n ci (36 * r + p) = 0 := by
  rw [reluR_at x n ci r p hp]
  have h' : ¬ (1 ≤ r ∧ r ≤ 32 ∧ 2 ≤ p ∧ p ≤ 33) := by omega
  rw [if_neg h']

/-- The 192-term contraction of the first product as three 64-term ones, one per tap. -/
theorem conv1K_taps (n c j : ℕ) :
    conv1K x w1 n c j
      = ((0 + ∑ ci ∈ range 64, w1 c ci 0 * shiftK x n ci j)
          + ∑ ci ∈ range 64, w1 c ci 1 * shiftK x n (64 + ci) j)
          + ∑ ci ∈ range 64, w1 c ci 2 * shiftK x n (128 + ci) j := by
  unfold conv1K
  rw [show (192 : ℕ) = 64 * 3 from rfl, sum_range_blocks 64 _ 3, sum_range_three]
  have hw : ∀ t ci : ℕ, ci < 64 → w1K w1 c (64 * t + ci) = w1 c ci t := by
    intro t ci hci
    unfold w1K
    rw [div_row 64 t ci hci, mod_row 64 t ci hci]
  have h : ∀ t, ∑ q ∈ range 64, w1K w1 c (64 * t + q) * shiftK x n (64 * t + q) j
      = ∑ ci ∈ range 64, w1 c ci t * shiftK x n (64 * t + ci) j :=
    fun t => sum_congr rfl fun ci hci => by rw [hw t ci (mem_range.mp hci)]
  rw [h 0, h 1, h 2]
  simp only [Nat.mul_zero, Nat.zero_add, Nat.mul_one, show 64 * 2 = 128 from rfl]

end Cert.Spec

end
-- ==== Proof.ConvLayoutsFirstRows.lean ====
/-
  The kernel's first product at row R, column s of the width-34 layout is the reference's placed first product at
  row R, column s + 1 of the width-36 layout. On rows 1 to 32 both are the same three 64-term sums over the rows
  R - 1, R, R + 1 of the padded input; on rows 0 and 33 every term of the kernel's sum has a zero factor and the
  placed product is zero by definition. The placed product also vanishes on columns 0, 1, 34, 35 of every row.
-/
import proofs.«100421_g2000304308963006_pallasbulk_990_41_alg».proof.Proof.ConvLayoutsFirst

noncomputable section

namespace Cert.Spec

open Finset

variable (x : ℕ → ℕ → ℕ → ℕ → EReal) (w1 : ℕ → ℕ → ℕ → EReal)

theorem shiftK_down (n ci j : ℕ) (hci : ci < 64) :
    shiftK x n ci j = if 34 ≤ j ∧ j < 1122 then padK x n ci (j - 34) else 0 := by
  unfold shiftK
  rw [if_pos hci]

theorem shiftK_mid (n ci j : ℕ) (hci : ci < 64) : shiftK x n (64 + ci) j = padK x n ci j := by
  unfold shiftK
  rw [if_neg (by omega), if_pos (by omega), Nat.add_sub_cancel_left]

theorem shiftK_up (n ci j : ℕ) (hci : ci < 64) :
    shiftK x n (128 + ci) j = if 34 ≤ j ∧ j < 1122 then padK x n ci (j + 34) else 0 := by
  unfold shiftK
  rw [if_neg (by omega), if_neg (by omega), Nat.add_sub_cancel_left]

/-- A sum of products whose second factors all vanish is zero. -/
theorem sum_mul_eq_zero (a b : ℕ → EReal) (m : ℕ) (hb : ∀ i, i < m → b i = 0) :
    ∑ i ∈ range m, a i * b i = 0 :=
  sum_eq_zero fun i hi => by rw [hb i (mem_range.mp hi), mul_zero]

/-- Rows 1 to 32: the two first products are the same sums. -/
theorem conv1K_eq_placedR_inner (n c r s : ℕ) (hr : r < 32) (hs : s < 34) :
    conv1K x w1 n c (34 * (r + 1) + s) = placedR x w1 n c (36 * (r + 1) + (s + 1)) := by
  rw [conv1K_taps]
  unfold placedR
  rw [if_pos (by omega)]
  unfold conv1R
  have e0 : 36 * (r + 1) + (s + 1) - 36 = 36 * r + (s + 1) := by omega
  have e1 : 36 + (36 * r + (s + 1)) = 36 * (r + 1) + (s + 1) := by omega
  have e2 : 72 + (36 * r + (s + 1)) = 36 * (r + 2) + (s + 1) := by omega
  rw [e0, e1, e2]
  have h0 : ∑ ci ∈ range 64, w1 c ci 0 * shiftK x n ci (34 * (r + 1) + s)
      = ∑ ci ∈ range 64, w1 c ci 0 * reluR x n ci (36 * r + (s + 1)) :=
    sum_congr rfl fun ci hci => by
      have hci := mem_range.mp hci
      rw [shiftK_down x n ci _ hci, if_pos (by omega),
        show 34 * (r + 1) + s - 34 = 34 * r + s from by omega, padK_eq_reluR x n ci r s hs]
  have h1 : ∑ ci ∈ range 64, w1 c ci 1 * shiftK x n (64 + ci) (34 * (r + 1) + s)
      = ∑ ci ∈ range 64, w1 c ci 1 * reluR x n ci (36 * (r + 1) + (s + 1)) :=
    sum_congr rfl fun ci hci => by
      have hci := mem_range.mp hci
      rw [shiftK_mid x n ci _ hci, padK_eq_reluR x n ci (r + 1) s hs]
  have h2 : ∑ ci ∈ range 64, w1 c ci 2 * shiftK x n (128 + ci) (34 * (r + 1) + s)
      = ∑ ci ∈ range 64, w1 c ci 2 * reluR x n ci (36 * (r + 2) + (s + 1)) :=
    sum_congr rfl fun ci hci => by
      have hci := mem_range.mp hci
      rw [shiftK_up x n ci _ hci, if_pos (by omega),
        show 34 * (r + 1) + s + 34 = 34 * (r + 2) + s from by omega, padK_eq_reluR x n ci (r + 2) s hs]
  rw [h0, h1, h2]

/-- Rows 0 and 33: the kernel's first product is zero. -/
theorem conv1K_outer_zero (n c R s : ℕ) (hR : R = 0 ∨ R = 33) (hs : s < 34) :
    conv1K x w1 n c (34 * R + s) = 0 := by
  rw [conv1K_taps]
  have hj : ¬ (34 ≤ 34 * R + s ∧ 34 * R + s < 1122) := by omega
  have h0 : ∑ ci ∈ range 64, w1 c ci 0 * shiftK x n ci (34 * R + s) = 0 :=
    sum_mul_eq_zero _ _ 64 fun ci hci => by rw [shiftK_down x n ci _ hci, if_neg hj]
  have h1 : ∑ ci ∈ range 64, w1 c ci 1 * shiftK x n (64 + ci) (34 * R + s) = 0 :=
    sum_mul_eq_zero _ _ 64 fun ci hci => by
      rw [shiftK_mid x n ci _ hci, padK_at x n ci R s hs, if_neg (by omega)]
  have h2 : ∑ ci ∈ range 64, w1 c ci 2 * shiftK x n (128 + ci) (34 * R + s) = 0 :=
    sum_mul_eq_zero _ _ 64 fun ci hci => by rw [shiftK_up x n ci _ hci, if_neg hj]
  rw [h0, h1, h2, add_zero, add_zero, add_zero]

/-- The kernel's first product at row `R`, column `s` is the placed first product at row `R`, column `s + 1`. -/
theorem conv1K_eq_placedR (n c R s : ℕ) (hR : R < 34) (hs : s < 34) :
    conv1K x w1 n c (34 * R + s) = placedR x w1 n c (36 * R + (s + 1)) := by
  by_cases h : R = 0 ∨ R = 33
  · rw [conv1K_outer_zero x w1 n c R s h hs]
    unfold placedR
    rw [if_neg (by omega)]
  · obtain ⟨r, rfl⟩ : ∃ r, R = r + 1 := ⟨R - 1, by omega⟩
    exact conv1K_eq_placedR_inner x w1 n c r s (by omega) hs

/-- The placed first product vanishes on columns 0, 1, 34 and 35 of every row. -/
theorem placedR_col_zero (n c R p : ℕ) (hp : p < 36) (hcol : p < 2 ∨ 34 ≤ p) :
    placedR x w1 n c (36 * R + p) = 0 := by
  unfold placedR
  by_cases h : 36 ≤ 36 * R + p ∧ 36 * R + p < 1188
  · rw [if_pos h]
    obtain ⟨r, rfl⟩ : ∃ r, R = r + 1 := ⟨R - 1, by omega⟩
    unfold conv1R
    have e0 : 36 * (r + 1) + p - 36 = 36 * r + p := by omega
    have e1 : 36 + (36 * r + p) = 36 * (r + 1) + p := by omega
    have e2 : 72 + (36 * r + p) = 36 * (r + 2) + p := by omega
    rw [e0, e1, e2]
    have h0 : ∑ ci ∈ range 64, w1 c ci 0 * reluR x n ci (36 * r + p) = 0 :=
      sum_mul_eq_zero _ _ 64 fun ci _ => reluR_col_zero x n ci r p hp hcol
    have h1 : ∑ ci ∈ range 64, w1 c ci 1 * reluR x n ci (36 * (r + 1) + p) = 0 :=
      sum_mul_eq_zero _ _ 64 fun ci _ => reluR_col_zero x n ci (r + 1) p hp hcol
    have h2 : ∑ ci ∈ range 64, w1 c ci 2 * reluR x n ci (36 * (r + 2) + p) = 0 :=
      sum_mul_eq_zero _ _ 64 fun ci _ => reluR_col_zero x n ci (r + 2) p hp hcol
    rw [h0, h1, h2, add_zero, add_zero, add_zero]
  · rw [if_neg h]

end Cert.Spec

end
-- ==== Proof.ConvLayoutsSecond.lean ====
/-
  The second product in the two layouts. At row R, column q < 34 the kernel's three lane-rotated copies of its first
  product are the reference's placed first product at columns q, q + 1, q + 2 of row R. Away from the row ends this is
  the identification of the first products; at q = 0 the right-rotated copy reads column 33 of the previous row (of
  the last row when R = 0), and at q = 33 the left-rotated copy reads column 0 of the next row (of the first row when
  R = 33): both are zero, as are the placed product's columns 0 and 35 that the reference reads there.
-/
import proofs.«100421_g2000304308963006_pallasbulk_990_41_alg».proof.Proof.ConvLayoutsFirstRows

noncomputable section

namespace Cert.Spec

open Finset

variable (x : ℕ → ℕ → ℕ → ℕ → EReal) (w1 : ℕ → ℕ → ℕ → EReal) (w2 : ℕ → ℕ → ℕ → EReal)

theorem rotK_right (n c j : ℕ) (hc : c < 64) :
    rotK x w1 n c j = if j = 0 then conv1K x w1 n c 1155 else conv1K x w1 n c (j - 1) := by
  unfold rotK
  rw [if_pos hc]

theorem rotK_mid (n c j : ℕ) (hc : c < 64) : rotK x w1 n (64 + c) j = conv1K x w1 n c j := by
  unfold rotK
  rw [if_neg (by omega), if_pos (by omega), Nat.add_sub_cancel_left]

theorem rotK_left (n c j : ℕ) (hc : c < 64) :
    rotK x w1 n (128 + c) j = if j = 1155 then conv1K x w1 n c 0 else conv1K x w1 n c (j + 1) := by
  unfold rotK
  rw [if_neg (by omega), if_neg (by omega), Nat.add_sub_cancel_left]

/-- The right-rotated copy at column `q` is the placed product at column `q`. -/
theorem rotK_right_eq (n c R q : ℕ) (hc : c < 64) (hR : R < 34) (hq : q < 34) :
    rotK x w1 n c (34 * R + q) = placedR x w1 n c (36 * R + q) := by
  rw [rotK_right x w1 n c _ hc]
  by_cases hq0 : q = 0
  · subst hq0
    rw [placedR_col_zero x w1 n c R 0 (by omega) (by omega)]
    by_cases hR0 : R = 0
    · subst hR0
      rw [if_pos (by omega), show (1155 : ℕ) = 34 * 33 + 33 from rfl,
        conv1K_eq_placedR x w1 n c 33 33 (by omega) (by omega),
        placedR_col_zero x w1 n c 33 (33 + 1) (by omega) (by omega)]
    · obtain ⟨r, rfl⟩ : ∃ r, R = r + 1 := ⟨R - 1, by omega⟩
      rw [if_neg (by omega), show 34 * (r + 1) + 0 - 1 = 34 * r + 33 from by omega,
        conv1K_eq_placedR x w1 n c r 33 (by omega) (by omega),
        placedR_col_zero x w1 n c r (33 + 1) (by omega) (by omega)]
  · obtain ⟨s, rfl⟩ : ∃ s, q = s + 1 := ⟨q - 1, by omega⟩
    rw [if_neg (by omega), show 34 * R + (s + 1) - 1 = 34 * R + s from by omega,
      conv1K_eq_placedR x w1 n c R s hR (by omega)]

/-- The copy in place at column `q` is the placed product at column `q + 1`. -/
theorem rotK_mid_eq (n c R q : ℕ) (hc : c < 64) (hR : R < 34) (hq : q < 34) :
    rotK x w1 n (64 + c) (34 * R + q) = placedR x w1 n c (36 * R + (q + 1)) := by
  rw [rotK_mid x w1 n c _ hc, conv1K_eq_placedR x w1 n c R q hR hq]

/-- The left-rotated copy at column `q` is the placed product at column `q + 2`. -/
theorem rotK_left_eq (n c R q : ℕ) (hc : c < 64) (hR : R < 34) (hq : q < 34) :
    rotK x w1 n (128 + c) (34 * R + q) = placedR x w1 n c (36 * R + (q + 2)) := by
  rw [rotK_left x w1 n c _ hc]
  by_cases hq33 : q = 33
  · subst hq33
    rw [placedR_col_zero x w1 n c R (33 + 2) (by omega) (by omega)]
    by_cases hR33 : R = 33
    · subst hR33
      rw [if_pos (by omega), show (0 : ℕ) = 34 * 0 + 0 from rfl,
        conv1K_eq_placedR x w1 n c 0 0 (by omega) (by omega),
        placedR_col_zero x w1 n c 0 (0 + 1) (by omega) (by omega)]
    · rw [if_neg (by omega), show 34 * R + 33 + 1 = 34 * (R + 1) + 0 from by omega,
        conv1K_eq_placedR x w1 n c (R + 1) 0 (by omega) (by omega),
        placedR_col_zero x w1 n c (R + 1) (0 + 1) (by omega) (by omega)]
  · rw [if_neg (by omega), show 34 * R + q + 1 = 34 * R + (q + 1) from by omega,
      conv1K_eq_placedR x w1 n c R (q + 1) hR (by omega),
      show q + 1 + 1 = q + 2 from by omega]

/-- The 192-term contraction of the second product as three 64-term ones, one per tap. -/
theorem conv2K_taps (n o j : ℕ) :
    conv2K x w1 w2 n o j
      = ((0 + ∑ c ∈ range 64, w2 o c 0 * rotK x w1 n c j)
          + ∑ c ∈ range 64, w2 o c 1 * rotK x w1 n (64 + c) j)
          + ∑ c ∈ range 64, w2 o c 2 * rotK x w1 n (128 + c) j := by
  unfold conv2K
  rw [show (192 : ℕ) = 64 * 3 from rfl, sum_range_blocks 64 _ 3, sum_range_three]
  have hw : ∀ t c : ℕ, c < 64 → w2K w2 o (64 * t + c) = w2 o c t := by
    intro t c hc
    unfold w2K
    rw [div_row 64 t c hc, mod_row 64 t c hc]
  have h : ∀ t, ∑ q ∈ range 64, w2K w2 o (64 * t + q) * rotK x w1 n (64 * t + q) j
      = ∑ c ∈ range 64, w2 o c t * rotK x w1 n (64 * t + c) j :=
    fun t => sum_congr rfl fun c hc => by rw [hw t c (mem_range.mp hc)]
  rw [h 0, h 1, h 2]
  simp only [Nat.mul_zero, Nat.zero_add, Nat.mul_one, show 64 * 2 = 128 from rfl]

/-- The mask is one on the first 34 columns. -/
theorem maskR_one (R q : ℕ) (hq : q < 34) : maskR (36 * R + q) = 1 := by
  unfold maskR
  rw [mod_row 36 R q (by omega), if_pos hq]

/-- The mask is zero on the last two columns. -/
theorem maskR_zero (R q : ℕ) (hq : 34 ≤ q) (hq' : q < 36) : maskR (36 * R + q) = 0 := by
  unfold maskR
  rw [mod_row 36 R q hq', if_neg (by omega)]

/-- On a valid column the reference's second product is the kernel's. -/
theorem conv2R_eq_conv2K (n o R q : ℕ) (hR : R < 34) (hq : q < 34) :
    conv2R x w1 w2 n o (36 * R + q) = conv2K x w1 w2 n o (34 * R + q) := by
  rw [conv2K_taps]
  unfold conv2R
  rw [Nat.add_assoc (36 * R) q 1, Nat.add_assoc (36 * R) q 2]
  have h0 : ∑ c ∈ range 64, w2 o c 0 * rotK x w1 n c (34 * R + q)
      = ∑ c ∈ range 64, w2 o c 0 * placedR x w1 n c (36 * R + q) :=
    sum_congr rfl fun c hc => by rw [rotK_right_eq x w1 n c R q (mem_range.mp hc) hR hq]
  have h1 : ∑ c ∈ range 64, w2 o c 1 * rotK x w1 n (64 + c) (34 * R + q)
      = ∑ c ∈ range 64, w2 o c 1 * placedR x w1 n c (36 * R + (q + 1)) :=
    sum_congr rfl fun c hc => by rw [rotK_mid_eq x w1 n c R q (mem_range.mp hc) hR hq]
  have h2 : ∑ c ∈ range 64, w2 o c 2 * rotK x w1 n (128 + c) (34 * R + q)
      = ∑ c ∈ range 64, w2 o c 2 * placedR x w1 n c (36 * R + (q + 2)) :=
    sum_congr rfl fun c hc => by rw [rotK_left_eq x w1 n c R q (mem_range.mp hc) hR hq]
  rw [h0, h1, h2]

end Cert.Spec

end
-- ==== Proof.ConvLayoutsSums.lean ====
/-
  Regrouping the row sums. A sum over 34 rows of width 36 of a function that vanishes on the last two columns of
  every row, and agrees on the first 34 columns with another function read in rows of width 34, is the sum of that
  other function over 34 rows of width 34.
-/
import proofs.«100421_g2000304308963006_pallasbulk_990_41_alg».proof.Proof.ConvLayoutsIndex

namespace Cert.Spec

open Finset

/-- A row of 36 entries is its first 34 entries and the last two. -/
theorem sum_range_36 {M : Type*} [AddCommMonoid M] (f : ℕ → M) :
    ∑ q ∈ range 36, f q = (∑ q ∈ range 34, f q + f 34) + f 35 := by
  rw [show (36 : ℕ) = 34 + 1 + 1 from rfl, sum_range_succ, sum_range_succ]

/-- Dropping two vanishing columns from each of 34 rows of width 36. -/
theorem sum_rows_36_34 {M : Type*} [AddCommMonoid M] (g h : ℕ → M)
    (hgh : ∀ R q : ℕ, R < 34 → q < 34 → g (36 * R + q) = h (34 * R + q))
    (hz : ∀ R q : ℕ, 34 ≤ q → q < 36 → g (36 * R + q) = 0) :
    ∑ j ∈ range 1224, g j = ∑ j ∈ range 1156, h j := by
  rw [show (1224 : ℕ) = 36 * 34 from rfl, show (1156 : ℕ) = 34 * 34 from rfl,
    sum_range_blocks 36 g 34, sum_range_blocks 34 h 34]
  refine sum_congr rfl fun R hR => ?_
  have hR := mem_range.mp hR
  rw [sum_range_36, hz R 34 (by omega) (by omega), hz R 35 (by omega) (by omega), add_zero, add_zero]
  exact sum_congr rfl fun q hq => hgh R q hR (mem_range.mp hq)

end Cert.Spec
-- ==== Proof.ConvLayouts.lean ====
/-
  The two layouts compute one convolution. On the first 34 columns of each row of 36 the reference's masked second
  product is the kernel's second product at the corresponding position of the width-34 layout; on the last two columns
  it is zero; so the row sums and the row sums of squares agree. No finiteness is needed: only that a product with zero
  is zero, that zero is neutral for addition, and that finite sums may be regrouped and reordered.
-/
import proofs.«100421_g2000304308963006_pallasbulk_990_41_alg».proof.Proof.ConvLayoutsSecond
import proofs.«100421_g2000304308963006_pallasbulk_990_41_alg».proof.Proof.ConvLayoutsSums

noncomputable section

namespace Cert.Spec

open Finset

variable (x : ℕ → ℕ → ℕ → ℕ → EReal) (w1 : ℕ → ℕ → ℕ → EReal) (w2 : ℕ → ℕ → ℕ → EReal)

/-- On a valid column the reference's masked second product is the kernel's second product. -/
theorem maskedR_eq_conv2K (n o R q : ℕ) (hR : R < 34) (hq : q < 34) :
    maskedR x w1 w2 n o (36 * R + q) = conv2K x w1 w2 n o (34 * R + q) := by
  unfold maskedR
  rw [maskR_one R q hq, mul_one, conv2R_eq_conv2K x w1 w2 n o R q hR hq]

/-- On the two masked columns it is zero. -/
theorem maskedR_eq_zero (n o R q : ℕ) (hq : 34 ≤ q) (hq' : q < 36) :
    maskedR x w1 w2 n o (36 * R + q) = 0 := by
  unfold maskedR
  rw [maskR_zero R q hq hq', mul_zero]

/-- The per-image row sums agree. -/
theorem sumR_eq_sumK (n o : ℕ) : sumR x w1 w2 n o = sumK x w1 w2 n o := by
  unfold sumR sumK
  rw [sum_rows_36_34 (fun j => maskedR x w1 w2 n o j) (fun j => conv2K x w1 w2 n o j)
    (fun R q hR hq => maskedR_eq_conv2K x w1 w2 n o R q hR hq)
    (fun R q hq hq' => maskedR_eq_zero x w1 w2 n o R q hq hq')]

/-- The per-image row sums of squares agree. -/
theorem sqR_eq_sqK (n o : ℕ) : sqR x w1 w2 n o = sqK x w1 w2 n o := by
  unfold sqR sqK
  rw [sum_rows_36_34 (fun j => maskedR x w1 w2 n o j * maskedR x w1 w2 n o j)
    (fun j => conv2K x w1 w2 n o j * conv2K x w1 w2 n o j)
    (fun R q hR hq => by
      show maskedR x w1 w2 n o (36 * R + q) * maskedR x w1 w2 n o (36 * R + q) = _
      rw [maskedR_eq_conv2K x w1 w2 n o R q hR hq])
    (fun R q hq hq' => by
      show maskedR x w1 w2 n o (36 * R + q) * maskedR x w1 w2 n o (36 * R + q) = 0
      rw [maskedR_eq_zero x w1 w2 n o R q hq hq', mul_zero])]

end Cert.Spec

end
-- ==== Proof.LibERealCoe.lean ====
/-
  Real numbers inside the extended reals: the coercion of a finite sum is the sum of the coercions, the exact
  quotient by a nonzero real is the coercion of the real quotient, and the exact inverse square root at a positive
  real is the coercion of the inverse of the real square root. General and reusable.
-/
import Idealize.ShloMosaic.PureOps.Ideal

noncomputable section

open scoped BigOperators

namespace Cert.LibERealCoe

open Idealize.ShloMosaic

/-- The coercion `ℝ → EReal` commutes with a finite sum (by induction on the index set, with `EReal.coe_add`). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the coercion of the real quotient. -/
theorem div_coe_coe (x y : ℝ) (hy : y ≠ 0) : Ideal.div (x : EReal) (y : EReal) = ((x / y : ℝ) : EReal) := by
  rw [Ideal.div_coe hy, ← EReal.coe_mul, mul_one_div]

/-- The exact inverse square root at a positive real `v` is the coercion of `(√v)⁻¹`. -/
theorem rsqrt_coe_pos (v : ℝ) (hv : 0 < v) : Ideal.rsqrt (v : EReal) = (((Real.sqrt v)⁻¹ : ℝ) : EReal) := by
  show (if v < 0 then (⊥ : EReal) else if v = 0 then ⊤ else ((Real.sqrt v)⁻¹ : ℝ)) = _
  rw [if_neg (not_lt.mpr hv.le), if_neg hv.ne']

end Cert.LibERealCoe

end
-- ==== Proof.Normalize.lean ====
/-
  The last step: `(y − mean) · rstd` against `y · rstd + (−mean) · rstd`.

  On the extended reals multiplication does not distribute over subtraction (an infinite factor breaks it), so the step
  is taken in the real numbers. The second product `y` is real when the arguments are; the per-channel mean is a real
  sum divided by the count 147968; and the reciprocal standard deviation is the inverse square root of the variance plus a
  positive epsilon, which is a real once the variance is non-negative. The variance is the mean of squares minus the
  squared mean of the SAME 128 · 1156 = 147968 numbers the count counts, so it is non-negative by the Cauchy–Schwarz
  inequality `(∑ f)² ≤ N · ∑ f²`.
-/
import proofs.«100421_g2000304308963006_pallasbulk_990_41_alg».proof.Proof.RealValued
import proofs.«100421_g2000304308963006_pallasbulk_990_41_alg».proof.Proof.ConvLayouts
import proofs.«100421_g2000304308963006_pallasbulk_990_41_alg».proof.Proof.LibERealCoe
import Mathlib.Algebra.Order.Chebyshev

noncomputable section

namespace Cert.Spec

open Finset Idealize.ShloMosaic

/-- In the reals the mean moves across the product with the reciprocal standard deviation. -/
theorem normalize_law (y μ r : ℝ) :
    ((y : EReal) - (μ : EReal)) * (r : EReal) = (y : EReal) * (r : EReal) + (-(μ : EReal)) * (r : EReal) := by
  have h : ((y - μ) * r : ℝ) = y * r + (-μ) * r := by ring
  have h' := congrArg (fun t : ℝ => (t : EReal)) h
  simpa only [EReal.coe_sub, EReal.coe_mul, EReal.coe_add, EReal.coe_neg] using h'

/-- The mean of squares of 128 · 1156 reals is at least the square of their mean. -/
theorem variance_nonneg (Y : ℕ → ℕ → ℝ) :
    0 ≤ (∑ n ∈ range 128, ∑ j ∈ range 1156, Y n j * Y n j) / 147968
        - ((∑ n ∈ range 128, ∑ j ∈ range 1156, Y n j) / 147968) * ((∑ n ∈ range 128, ∑ j ∈ range 1156, Y n j) / 147968) := by
  have h := sq_sum_le_card_mul_sum_sq (s := range 128 ×ˢ range 1156) (f := fun p : ℕ × ℕ => Y p.1 p.2)
  rw [Finset.sum_product, Finset.sum_product, Finset.card_product, Finset.card_range, Finset.card_range] at h
  have hsq : (∑ n ∈ range 128, ∑ j ∈ range 1156, Y n j ^ 2) = ∑ n ∈ range 128, ∑ j ∈ range 1156, Y n j * Y n j :=
    Finset.sum_congr rfl fun n _ => Finset.sum_congr rfl fun j _ => sq (Y n j)
  rw [hsq] at h
  generalize (∑ n ∈ range 128, ∑ j ∈ range 1156, Y n j) = S at h ⊢
  generalize (∑ n ∈ range 128, ∑ j ∈ range 1156, Y n j * Y n j) = Q at h ⊢
  have h2 : S ^ 2 ≤ 147968 * Q := by
    have e : ((128 * 1156 : ℕ) : ℝ) = 147968 := by norm_num
    rw [e] at h; exact h
  have e2 : Q / 147968 - S / 147968 * (S / 147968) = (147968 * Q - S ^ 2) / (147968 * 147968) := by
    field_simp
  rw [e2]
  exact div_nonneg (sub_nonneg.mpr h2) (by norm_num)

variable {x : ℕ → ℕ → ℕ → ℕ → EReal} {w1 : ℕ → ℕ → ℕ → EReal} {w2 : ℕ → ℕ → ℕ → EReal} {cnt eps : EReal}

/-- With real arguments, the count 147968 and a positive epsilon, a channel's mean and reciprocal standard deviation of
    the kernel's second product are real numbers. -/
theorem stats_real (hx : ∀ n ci a b, IsReal (x n ci a b)) (hw1 : ∀ c ci t, IsReal (w1 c ci t)) (hw2 : ∀ o c t, IsReal (w2 o c t))
    (hcnt : cnt = ((147968 : ℝ) : EReal)) (e : ℝ) (he : 0 < e) (heps : eps = (e : EReal)) (o : ℕ) :
    IsReal (meanOf cnt (sumK x w1 w2) o) ∧ IsReal (rstdOf cnt eps (sumK x w1 w2) (sqK x w1 w2) o) := by
  have hY : ∀ n j, conv2K x w1 w2 n o j = ((conv2K x w1 w2 n o j).toReal : EReal) :=
    fun n j => (conv2K_real hx hw1 hw2 n o j).eq_coe_toReal
  generalize hYdef : (fun n j => (conv2K x w1 w2 n o j).toReal) = Y at hY
  have hY' : ∀ n j, conv2K x w1 w2 n o j = (Y n j : EReal) := fun n j => by rw [← hYdef]; exact hY n j
  have hsum : ∀ n, sumK x w1 w2 n o = ((∑ j ∈ range 1156, Y n j : ℝ) : EReal) := fun n => by
    unfold sumK; rw [zero_add, Cert.LibERealCoe.coe_sum]; exact Finset.sum_congr rfl fun j _ => hY' n j
  have hsq : ∀ n, sqK x w1 w2 n o = ((∑ j ∈ range 1156, Y n j * Y n j : ℝ) : EReal) := fun n => by
    unfold sqK; rw [zero_add, Cert.LibERealCoe.coe_sum]
    exact Finset.sum_congr rfl fun j _ => by rw [hY' n j, ← EReal.coe_mul]
  have hmean : meanOf cnt (sumK x w1 w2) o = (((∑ n ∈ range 128, ∑ j ∈ range 1156, Y n j) / 147968 : ℝ) : EReal) := by
    unfold meanOf
    rw [zero_add, hcnt, show (∑ n ∈ range 128, sumK x w1 w2 n o) = ((∑ n ∈ range 128, ∑ j ∈ range 1156, Y n j : ℝ) : EReal) from by
      rw [Cert.LibERealCoe.coe_sum]; exact Finset.sum_congr rfl fun n _ => hsum n]
    exact Cert.LibERealCoe.div_coe_coe _ _ (by norm_num)
  have hmsq : meanOf cnt (sqK x w1 w2) o = (((∑ n ∈ range 128, ∑ j ∈ range 1156, Y n j * Y n j) / 147968 : ℝ) : EReal) := by
    unfold meanOf
    rw [zero_add, hcnt, show (∑ n ∈ range 128, sqK x w1 w2 n o) = ((∑ n ∈ range 128, ∑ j ∈ range 1156, Y n j * Y n j : ℝ) : EReal) from by
      rw [Cert.LibERealCoe.coe_sum]; exact Finset.sum_congr rfl fun n _ => hsq n]
    exact Cert.LibERealCoe.div_coe_coe _ _ (by norm_num)
  refine ⟨⟨_, hmean⟩, ?_⟩
  unfold rstdOf varOf
  rw [hmsq, hmean, heps, ← EReal.coe_mul, ← EReal.coe_sub, ← EReal.coe_add]
  exact ⟨_, Cert.LibERealCoe.rsqrt_coe_pos _ (by have := variance_nonneg Y; linarith)⟩

/-- The two specifications agree entry by entry: with real arguments, the count 147968 and a positive epsilon, the
    reference's result at row `R`, column `q` is the kernel's at the flat position `34·R + q`. -/
theorem outR_eq_outK (hx : ∀ n ci a b, IsReal (x n ci a b)) (hw1 : ∀ c ci t, IsReal (w1 c ci t)) (hw2 : ∀ o c t, IsReal (w2 o c t))
    (hcnt : cnt = ((147968 : ℝ) : EReal)) (e : ℝ) (he : 0 < e) (heps : eps = (e : EReal))
    (n o R q : ℕ) (hR : R < 34) (hq : q < 34) :
    outR x w1 w2 cnt eps n o R q = outK x w1 w2 cnt eps n o (34 * R + q) := by
  have hs : sumR x w1 w2 = sumK x w1 w2 := funext fun n => funext fun o => sumR_eq_sumK x w1 w2 n o
  have hq2 : sqR x w1 w2 = sqK x w1 w2 := funext fun n => funext fun o => sqR_eq_sqK x w1 w2 n o
  unfold outR outK
  rw [maskedR_eq_conv2K x w1 w2 n o R q hR hq, hs, hq2]
  obtain ⟨⟨μ, hμ⟩, ⟨r, hr⟩⟩ := stats_real hx hw1 hw2 hcnt e he heps o
  obtain ⟨y, hy⟩ := conv2K_real hx hw1 hw2 n o (34 * R + q)
  rw [hμ, hr, hy]
  exact normalize_law y μ r

end Cert.Spec

end
-- ==== Proof.Literals.lean ====
/-
  The two float constants both programs spell, as the extended reals their bit patterns denote: the count of entries
  per channel, 128 · 34 · 34 = 147968 (exactly representable), and the epsilon added to the variance, the single-precision
  neighbour of 1e-5, which is 10995116 / 2^40: a positive real.
-/
import Idealize.ShloMosaic.PureOps.Ideal

noncomputable section

namespace Cert.Literals

open Idealize.ShloMosaic

theorem count_eq : Ideal.ofBits .f32 0x48108000#32 = ((147968 : ℝ) : EReal) := by
  simp [Ideal.ofBits, Ideal.ieee, -EReal.coe_mul]; norm_num

theorem eps_eq : Ideal.ofBits .f32 0x3727C5AC#32 = ((10995116 / 1099511627776 : ℝ) : EReal) := by
  simp [Ideal.ofBits, Ideal.ieee, -EReal.coe_mul]; norm_num

theorem eps_pos : (0 : ℝ) < 10995116 / 1099511627776 := by norm_num

end Cert.Literals

end
-- ==== Proof.FiniteInputs.lean ====
/-
  The precondition says every entry of the three arguments has absolute value below plus infinity. An extended real
  with that property is a real number: plus infinity is its own absolute value, and minus infinity's absolute value is
  plus infinity. The precondition is the conjunction of three "all entries" reductions, so each entry of each argument
  is read out of it.
-/
import proofs.«100421_g2000304308963006_pallasbulk_990_41_alg».proof.Pre_finite_inputs
import proofs.«100421_g2000304308963006_pallasbulk_990_41_alg».proof.Proof.Gen.Pre_finite_inputs
import proofs.«100421_g2000304308963006_pallasbulk_990_41_alg».proof.Proof.RealValued
import Idealize.ShloMosaic.Lib.ReduceAll
import Idealize.ShloMosaic.Lib.Affine
import Idealize.ShloMosaic.Lib.IdealHost
import Idealize.ShloMosaic.Lib.ValueIdx
import Idealize.ShloMosaic.PureOps.Ideal.Laws

noncomputable section

namespace Cert.Bridge

open Idealize.ShloMosaic Cert.Pre_finite_inputs

instance : Subsingleton S_.Idx := ⟨fun a b => funext fun d => d.elim0⟩

/-- An extended real whose absolute value compares below plus infinity is a real number. -/
theorem isReal_of_abs_lt_top (x : EReal)
    (h : FloatOps.cmpf (F := Ideal) (φ := .f32) CmpFPredicate.olt (FloatOps.hostAbsf x) (Ideal.ofBits .f32 0x7F800000#32) = 1#1) :
    Cert.Spec.IsReal x := by
  induction x using EReal.rec with
  | bot => exfalso; revert h; simp [Ideal.cmpf_def, Ideal.absf_def, Ideal.cmp, Ideal.ofBits, Ideal.ieee]
  | coe r => exact ⟨r, rfl⟩
  | top => exfalso; revert h; simp [Ideal.cmpf_def, Ideal.absf_def, Ideal.cmp, Ideal.ofBits, Ideal.ieee]

/-- Under the precondition every entry of every argument is a real number. -/
theorem inputs_real [Facts] (a0 : FVec Ideal S128x64x32x32 .f32) (a1 : FVec Ideal S64x64x3x1 .f32) (a2 : FVec Ideal S128x64x1x3 .f32)
    (h : fn (F := Ideal) a0 a1 a2 = fun _ => 1#1) :
    (∀ i, Cert.Spec.IsReal (a0 i)) ∧ (∀ i, Cert.Spec.IsReal (a1 i)) ∧ (∀ i, Cert.Spec.IsReal (a2 i)) := by
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact isReal_of_abs_lt_top _ (Host.reduce_andi_all _ _ _ _ _ h0' i)
  · exact isReal_of_abs_lt_top _ (Host.reduce_andi_all _ _ _ _ _ h1 i)
  · exact isReal_of_abs_lt_top _ (Host.reduce_andi_all _ _ _ _ _ h2 i)

end Cert.Bridge

end
-- ==== Proof.ResultEq.lean ====
/-
  The one equation the algebraic claim comes down to: from memories that agree on the three arguments, all of whose
  entries are finite, the reference's result buffer and the kernel's hold the same [128, 128, 34, 34] array of extended
  reals — each read off its program's fold through @main's items at the last boundary.

  Both programs compute, per image, the 3x1 convolution of the input clamped at zero (padded by one row above and
  below), then the 1x3 convolution of that (padded by one column left and right), the per-image row sums and row sums
  of squares of the result, from these the per-channel mean, biased variance and reciprocal standard deviation over
  the whole batch, and the normalized result. They differ in the flat row width (34 against 36 with two masked
  columns), in one 192-term contraction against three 64-term ones, and in `y · rstd + (−mean · rstd)` against
  `(y − mean) · rstd`; the last needs every entry finite and the variance plus epsilon positive.
-/
import proofs.«100421_g2000304308963006_pallasbulk_990_41_alg».proof.Defs
import proofs.«100421_g2000304308963006_pallasbulk_990_41_alg».proof.Proof.KernelIdealFrame
import proofs.«100421_g2000304308963006_pallasbulk_990_41_alg».proof.Proof.ReferenceIdealValueRun
import proofs.«100421_g2000304308963006_pallasbulk_990_41_alg».proof.Proof.Gen.Pre_finite_inputs
import proofs.«100421_g2000304308963006_pallasbulk_990_41_alg».proof.Proof.KernelValue
import proofs.«100421_g2000304308963006_pallasbulk_990_41_alg».proof.Proof.ReferenceValue
import proofs.«100421_g2000304308963006_pallasbulk_990_41_alg».proof.Proof.Normalize
import proofs.«100421_g2000304308963006_pallasbulk_990_41_alg».proof.Proof.Literals
import proofs.«100421_g2000304308963006_pallasbulk_990_41_alg».proof.Proof.FiniteInputs

noncomputable section

namespace Cert.Bridge

open Idealize.ShloMosaic Idealize.ShloMosaic.ValueIdx Idealize.SL.Sem

theorem result_eq
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.Gen.W8 (F := Ideal) m' g' c (Proc.devRef .tc Cert.ReferenceIdeal.main_v27)
      = Cert.KernelIdeal.Run.W7 (F := Ideal) m g c (Proc.devRef .tc Cert.KernelIdeal.main_v36) := by
  funext i
  obtain ⟨n, o, R, q, rfl⟩ : ∃ (n : Fin 128) (o : Fin 128) (R : Fin 34) (q : Fin 34), i = ix4 n o R q :=
    ⟨i 0, i 1, i 2, i 3, eq_ix4 i⟩
  -- each side entry by entry, as the specification's function of its own argument arrays
  have hK := Cert.KernelIdeal.ValueLeg.kernel_value m g c n o R q
  have hR := Cert.ReferenceIdeal.ValueLeg.reference_value m' g' c n o R q
  -- the two programs' argument arrays are the same arrays
  obtain ⟨h0, h1, h2⟩ := hagree c
  rw [h0, h1, h2] at hR
  refine hR.trans (Eq.trans ?_ hK.symm)
  -- every entry of them is a real number, so the two specifications agree
  obtain ⟨hx, hw1, hw2⟩ := Cert.Bridge.inputs_real _ _ _ (hpre c)
  exact Cert.Spec.outR_eq_outK (Cert.Spec.extX_real _ hx) (Cert.Spec.extW1_real _ hw1) (Cert.Spec.extW2_real _ hw2)
    Cert.Literals.count_eq _ Cert.Literals.eps_pos Cert.Literals.eps_eq n o R q R.isLt q.isLt

end Cert.Bridge

end
-- ==== Proof.lean ====
/-
  The five claims about the convolution–normalization kernel and its reference.

  Frames. Each program's @main is a few stretches of host operations around two pallas_calls; its frame is the run of
  those items over the fold of buffer contents from the launch memory, the arguments read back through the fold
  unchanged (the word-level kernel and its idealization: Proof/KernelFrame.lean and Proof/KernelIdealFrame.lean, over
  the two calls' body obligations; the reference: its generated frame).
  Preserves. The ideal pass rewrote nothing, so the claim is `True`.
  Algebraic. Both runs end with every buffer at its fold's last contents; the two result buffers hold the same array
  (Proof/ResultEq.lean).
-/
import proofs.«100421_g2000304308963006_pallasbulk_990_41_alg».proof.Defs
import proofs.«100421_g2000304308963006_pallasbulk_990_41_alg».proof.Proof.Gen.Kernel
import proofs.«100421_g2000304308963006_pallasbulk_990_41_alg».proof.Proof.Gen.KernelIdeal
import proofs.«100421_g2000304308963006_pallasbulk_990_41_alg».proof.Proof.Gen.ReferenceIdeal
import proofs.«100421_g2000304308963006_pallasbulk_990_41_alg».proof.Proof.Gen.ReferenceIdeal.Frame
import proofs.«100421_g2000304308963006_pallasbulk_990_41_alg».proof.Proof.Gen.Pre_finite_inputs
import proofs.«100421_g2000304308963006_pallasbulk_990_41_alg».proof.Proof.KernelFrame
import proofs.«100421_g2000304308963006_pallasbulk_990_41_alg».proof.Proof.KernelIdealFrame
import proofs.«100421_g2000304308963006_pallasbulk_990_41_alg».proof.Proof.ReferenceIdealValueRun
import proofs.«100421_g2000304308963006_pallasbulk_990_41_alg».proof.Proof.ResultEq
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame m ρ
theorem frame_kernelIdeal : Cert.frame_KernelIdeal := fun m ρ _ => Cert.KernelIdeal.Run.frame m ρ
theorem frame_referenceIdeal : Cert.frame_ReferenceIdeal := fun m ρ _ => Cert.ReferenceIdeal.Gen.frame m ρ

theorem preserves : Cert.preserves_Kernel_KernelIdeal := trivial

/-- Both programs run; the kernel's result is the last contents of its result buffer, the arguments unchanged; the
    reference's result buffer holds the same array. -/
theorem algebraic : Cert.algebraic_KernelIdeal_ReferenceIdeal := by
  intro m ρ m' ρ' hpre hagree
  refine ⟨fun c => Cert.KernelIdeal.Run.W7 (F := Ideal) m ρ c (Proc.devRef .tc Cert.KernelIdeal.main_v36), ?_, ?_⟩
  · exact (θ_run Cert.KernelIdeal.defs _ _).mono (fun r h c =>
      ⟨h c _ (Cert.KernelIdeal.Run.mem_uc Cert.KernelIdeal.main_v36 (by decide)),
       (h c _ (Cert.KernelIdeal.Run.mem_uc Cert.KernelIdeal.main_arg0 (by decide))).trans (Cert.KernelIdeal.Run.W7_main_arg0 m ρ c),
       (h c _ (Cert.KernelIdeal.Run.mem_uc Cert.KernelIdeal.main_arg1 (by decide))).trans (Cert.KernelIdeal.Run.W7_main_arg1 m ρ c),
       (h c _ (Cert.KernelIdeal.Run.mem_uc Cert.KernelIdeal.main_arg2 (by decide))).trans (Cert.KernelIdeal.Run.W7_main_arg2 m ρ c)⟩)
      (Cert.KernelIdeal.Run.run_all (F := Ideal) m ρ)
  · exact (θ_run Cert.ReferenceIdeal.defs _ _).mono (fun r h c =>
      ⟨(h c _ (Cert.ReferenceIdeal.Gen.mem_uc Cert.ReferenceIdeal.main_v27 (by decide))).trans (Cert.Bridge.result_eq m ρ m' ρ' hpre hagree c),
       (h c _ (Cert.ReferenceIdeal.Gen.mem_uc Cert.ReferenceIdeal.main_arg0 (by decide))).trans (Cert.ReferenceIdeal.Gen.W8_main_arg0 m' ρ' c),
       (h c _ (Cert.ReferenceIdeal.Gen.mem_uc Cert.ReferenceIdeal.main_arg1 (by decide))).trans (Cert.ReferenceIdeal.Gen.W8_main_arg1 m' ρ' c),
       (h c _ (Cert.ReferenceIdeal.Gen.mem_uc Cert.ReferenceIdeal.main_arg2 (by decide))).trans (Cert.ReferenceIdeal.Gen.W8_main_arg2 m' ρ' c)⟩)
      (Cert.ReferenceIdeal.ValueRun.run_all (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
